-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x224x224x96 : Shape := ⟨4, ![8, 224, 224, 96]⟩
abbrev S1 : Shape := ⟨1, ![1]⟩
abbrev S784x3 : Shape := ⟨2, ![784, 3]⟩
abbrev S_ : Shape := ⟨0, ![]⟩

class Facts : Prop where
  bcast_S_S8x224x224x96 : S_.BroadcastsInDim S8x224x224x96 (![] : Fin 0 → Fin S8x224x224x96.rank)
  reducesTo_S8x224x224x96_S_d0_1_2_3 : S8x224x224x96.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S784x3 : S_.BroadcastsInDim S784x3 (![] : Fin 0 → Fin S784x3.rank)
  reducesTo_S784x3_S_d0_1 : S784x3.ReducesTo [0, 1] S_

variable [Facts]

def fn_part1 {F : FTy → Type} [FloatOps F] (main_v10 : IVec S_ 1) (main_v15 : IVec S784x3 1) (main_c_5 : IVec S_ 1) : IVec S_ 1 :=
  let main_v16 : IVec S_ 1 := (fun x v => Host.reduce IntOp.andi x v reducesTo_S784x3_S_d0_1 h_S_) main_v15 main_c_5
  let main_v17 : IVec S_ 1 := andi main_v10 main_v16
  main_v17

def fn {F : FTy → Type} [FloatOps F] (main_arg0 : FVec F S8x224x224x96 .f32) (main_arg1 : IVec S1 32) (main_arg2 : IVec S784x3 32) : IVec S_ 1 :=
  let main_v0 : FVec F S8x224x224x96 .f32 := Host.absf main_arg0
  let main_cst : FVec F S_ .f32 := constant S_ .f32 0x7F800000#32
  let main_v1 : FVec F S8x224x224x96 .f32 := broadcastInDim S8x224x224x96 ![] bcast_S_S8x224x224x96 main_cst
  let main_v2 : IVec S8x224x224x96 1 := cmpf .olt main_v0 main_v1
  let main_c : IVec S_ 1 := constantI S_ 1 1#1
  let main_v3 : IVec S_ 1 := (fun x v => Host.reduce IntOp.andi x v reducesTo_S8x224x224x96_S_d0_1_2_3 h_S_) main_v2 main_c
  let main_c_0 : IVec S_ 32 := constantI S_ 32 784#32
  let main_v4 : IVec S1 32 := broadcastInDim S1 ![] bcast_S_S1 main_c_0
  let main_v5 : IVec S1 1 := cmpi .sge main_arg1 main_v4
  let main_c_1 : IVec S_ 32 := constantI S_ 32 784#32
  let main_v6 : IVec S1 32 := broadcastInDim S1 ![] bcast_S_S1 main_c_1
  let main_v7 : IVec S1 1 := cmpi .sle main_arg1 main_v6
  let main_v8 : IVec S1 1 := andi main_v5 main_v7
  let main_c_2 : IVec S_ 1 := constantI S_ 1 1#1
  let main_v9 : IVec S_ 1 := (fun x v => Host.reduce IntOp.andi x v reducesTo_S1_S_d0 h_S_) main_v8 main_c_2
  let main_v10 : IVec S_ 1 := andi main_v3 main_v9
  let main_c_3 : IVec S_ 32 := constantI S_ 32 0#32
  let main_v11 : IVec S784x3 32 := broadcastInDim S784x3 ![] bcast_S_S784x3 main_c_3
  let main_v12 : IVec S784x3 1 := cmpi .sge main_arg2 main_v11
  let main_c_4 : IVec S_ 32 := constantI S_ 32 7#32
  let main_v13 : IVec S784x3 32 := broadcastInDim S784x3 ![] bcast_S_S784x3 main_c_4
  let main_v14 : IVec S784x3 1 := cmpi .sle main_arg2 main_v13
  let main_v15 : IVec S784x3 1 := andi main_v12 main_v14
  let main_c_5 : IVec S_ 1 := constantI S_ 1 1#1
  fn_part1 (F := F) main_v10 main_v15 main_c_5
-- ==== Kernel.lean ====
abbrev S8x224x224x96 : Shape := ⟨4, ![8, 224, 224, 96]⟩
abbrev S1 : Shape := ⟨1, ![1]⟩
abbrev S784x3 : Shape := ⟨2, ![784, 3]⟩
abbrev S1x3 : Shape := ⟨2, ![1, 3]⟩
abbrev S1x1x1x3 : Shape := ⟨4, ![1, 1, 1, 3]⟩
abbrev S16x1x1x3 : Shape := ⟨4, ![16, 1, 1, 3]⟩
abbrev S16x3 : Shape := ⟨2, ![16, 3]⟩
abbrev S800x3 : Shape := ⟨2, ![800, 3]⟩
abbrev S_ : Shape := ⟨0, ![]⟩
abbrev S800x16 : Shape := ⟨2, ![800, 16]⟩
abbrev S12800 : Shape := ⟨1, ![12800]⟩
abbrev S8x128x128x96 : Shape := ⟨4, ![8, 128, 128, 96]⟩
abbrev S8x128x12288 : Shape := ⟨3, ![8, 128, 12288]⟩
abbrev S784x16x1536 : Shape := ⟨3, ![784, 16, 1536]⟩
abbrev S2x16x1536 : Shape := ⟨3, ![2, 16, 1536]⟩
abbrev S16 : Shape := ⟨1, ![16]⟩
abbrev S1x16x1536 : Shape := ⟨3, ![1, 16, 1536]⟩
abbrev S16x1536 : Shape := ⟨2, ![16, 1536]⟩
abbrev S784x16x16x96 : Shape := ⟨4, ![784, 16, 16, 96]⟩

abbrev nBuf : Table → Nat
  | .hbm => 16
  | .local .scVector .vmem => 2
  | _ => 0

abbrev bufTy : (tb : Table) → Fin (nBuf tb) → BufTy
  | .hbm, ⟨0, _⟩ => ⟨S8x224x224x96, .f32⟩
  | .hbm, ⟨1, _⟩ => ⟨S1, .i32⟩
  | .hbm, ⟨2, _⟩ => ⟨S784x3, .i32⟩
  | .hbm, ⟨3, _⟩ => ⟨S1x3, .i32⟩
  | .hbm, ⟨4, _⟩ => ⟨S1x1x1x3, .i32⟩
  | .hbm, ⟨5, _⟩ => ⟨S16x1x1x3, .i32⟩
  | .hbm, ⟨6, _⟩ => ⟨S16x3, .i32⟩
  | .hbm, ⟨7, _⟩ => ⟨S800x3, .i32⟩
  | .hbm, ⟨8, _⟩ => ⟨S_, .i32⟩
  | .hbm, ⟨9, _⟩ => ⟨S_, .i32⟩
  | .hbm, ⟨10, _⟩ => ⟨S800x16, .i32⟩
  | .hbm, ⟨11, _⟩ => ⟨S12800, .i32⟩
  | .hbm, ⟨12, _⟩ => ⟨S8x128x128x96, .f32⟩
  | .hbm, ⟨13, _⟩ => ⟨S8x128x12288, .f32⟩
  | .hbm, ⟨14, _⟩ => ⟨S784x16x1536, .f32⟩
  | .hbm, ⟨15, _⟩ => ⟨S784x16x16x96, .f32⟩
  | .local .scVector .vmem, ⟨0, _⟩ => ⟨S12800, .i32⟩
  | .local .scVector .vmem, ⟨1, _⟩ => ⟨S2x16x1536, .f32⟩
  | _, _ => ⟨S8x224x224x96, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v8_scv : Ref sig .scVector := ⟨.hbm, 13, rfl⟩
abbrev main_v6_scv : Ref sig .scVector := ⟨.hbm, 11, rfl⟩
abbrev main_v9_scv : Ref sig .scVector := ⟨.hbm, 14, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c16_i32 : BitVec 32 := 16#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let v3 : BitVec 32 := Scalar.muli c16_i32 v2
  let v4 : Index := Scalar.indexCast v3
  ![v4.toNat]
def k0_off2 (v8 : BitVec 32) (v10 : BitVec 32) (v13 : BitVec 32) : Fin 3 → Nat :=
  let c16_i32_0 : BitVec 32 := 16#32
  let v11 : BitVec 32 := Scalar.muli v10 c16_i32_0
  let c1536_i32 : BitVec 32 := 1536#32
  let v14 : BitVec 32 := Scalar.muli v13 c1536_i32
  ![v8.toNat, v11.toNat, v14.toNat]

def k0_chk1 (v8 : BitVec 32) (v10 : BitVec 32) (v13 : BitVec 32) : Prop :=
  (∀ a, (k0_off2 v8 v10 v13) a + S1x16x1536.size a ≤ S8x128x12288.size a)
instance k0_chk1.dec : ∀ (v8 : BitVec 32) (v10 : BitVec 32) (v13 : BitVec 32), Decidable (k0_chk1 v8 v10 v13) := fun v8 v10 v13 => decidable_of_iff' _ (Iff.of_eq (k0_chk1.eq_1 v8 v10 v13))
theorem k0_off2_inb : ∀ (v8 : BitVec 32) (v10 : BitVec 32) (v13 : BitVec 32) (k0_hw1 : k0_chk1 v8 v10 v13), ∀ a, (k0_off2 v8 v10 v13) a + S1x16x1536.size a ≤ S8x128x12288.size a := fun v8 v10 v13 k0_hw1 => k0_hw1

@[reducible] def k0_t1_loop : Scf.Loop 32 :=
  let c0_i32_7 : BitVec 32 := 0#32
  let c12_i32 : BitVec 32 := 12#32
  let v23 : BitVec 32 := Scalar.addi c0_i32_7 c12_i32
  let c1_i32 : BitVec 32 := 1#32
  ⟨c0_i32_7, v23, c1_i32⟩
def k0_off3 (i : grid0.Coords) (k0_t1 : Fin k0_t1_loop.trips) : Fin 1 → Nat :=
  let c16_i32_21 : BitVec 32 := 16#32
  let c32_i32 : BitVec 32 := 32#32
  let c2_i32_19 : BitVec 32 := 2#32
  let c0_i32_7 : BitVec 32 := 0#32
  let c1_i32 : BitVec 32 := 1#32
  let arg9 : BitVec 32 := Scf.iv c0_i32_7 c1_i32 k0_t1
  let v47 : BitVec 32 := Scalar.muli c2_i32_19 arg9
  let c1_i32_20 : BitVec 32 := 1#32
  let v48 : BitVec 32 := Scalar.addi v47 c1_i32_20
  let v49 : BitVec 32 := Scalar.muli c32_i32 v48
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v50 : BitVec 32 := Scalar.addi v49 v1
  let v51 : BitVec 32 := Scalar.muli c16_i32_21 v50
  let v52 : Index := Scalar.indexCast v51
  ![v52.toNat]
def k0_off4 (v56 : BitVec 32) (v58 : BitVec 32) (v61 : BitVec 32) : Fin 3 → Nat :=
  let c16_i32_22 : BitVec 32 := 16#32
  let v59 : BitVec 32 := Scalar.muli v58 c16_i32_22
  let c1536_i32_23 : BitVec 32 := 1536#32
  let v62 : BitVec 32 := Scalar.muli v61 c1536_i32_23
  ![v56.toNat, v59.toNat, v62.toNat]

def k0_chk2 (v56 : BitVec 32) (v58 : BitVec 32) (v61 : BitVec 32) : Prop :=
  (∀ a, (k0_off4 v56 v58 v61) a + S1x16x1536.size a ≤ S8x128x12288.size a)
instance k0_chk2.dec : ∀ (v56 : BitVec 32) (v58 : BitVec 32) (v61 : BitVec 32), Decidable (k0_chk2 v56 v58 v61) := fun v56 v58 v61 => decidable_of_iff' _ (Iff.of_eq (k0_chk2.eq_1 v56 v58 v61))
theorem k0_off4_inb : ∀ (v56 : BitVec 32) (v58 : BitVec 32) (v61 : BitVec 32) (k0_hw2 : k0_chk2 v56 v58 v61), ∀ a, (k0_off4 v56 v58 v61) a + S1x16x1536.size a ≤ S8x128x12288.size a := fun v56 v58 v61 k0_hw2 => k0_hw2

def k0_off5 (i : grid0.Coords) (k0_t1 : Fin k0_t1_loop.trips) : Fin 1 → Nat :=
  let c16_i32_31 : BitVec 32 := 16#32
  let c32_i32_30 : BitVec 32 := 32#32
  let c2_i32_29 : BitVec 32 := 2#32
  let c0_i32_7 : BitVec 32 := 0#32
  let c1_i32 : BitVec 32 := 1#32
  let arg9 : BitVec 32 := Scf.iv c0_i32_7 c1_i32 k0_t1
  let v71 : BitVec 32 := Scalar.muli c2_i32_29 arg9
  let v72 : BitVec 32 := Scalar.muli c32_i32_30 v71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v73 : BitVec 32 := Scalar.addi v72 v1
  let v74 : BitVec 32 := Scalar.muli c16_i32_31 v73
  let v75 : Index := Scalar.indexCast v74
  ![v75.toNat]
def k0_off6 (v79 : BitVec 32) (v81 : BitVec 32) (v84 : BitVec 32) : Fin 3 → Nat :=
  let c16_i32_32 : BitVec 32 := 16#32
  let v82 : BitVec 32 := Scalar.muli v81 c16_i32_32
  let c1536_i32_33 : BitVec 32 := 1536#32
  let v85 : BitVec 32 := Scalar.muli v84 c1536_i32_33
  ![v79.toNat, v82.toNat, v85.toNat]

def k0_chk3 (v79 : BitVec 32) (v81 : BitVec 32) (v84 : BitVec 32) : Prop :=
  (∀ a, (k0_off6 v79 v81 v84) a + S1x16x1536.size a ≤ S8x128x12288.size a)
instance k0_chk3.dec : ∀ (v79 : BitVec 32) (v81 : BitVec 32) (v84 : BitVec 32), Decidable (k0_chk3 v79 v81 v84) := fun v79 v81 v84 => decidable_of_iff' _ (Iff.of_eq (k0_chk3.eq_1 v79 v81 v84))
theorem k0_off6_inb : ∀ (v79 : BitVec 32) (v81 : BitVec 32) (v84 : BitVec 32) (k0_hw3 : k0_chk3 v79 v81 v84), ∀ a, (k0_off6 v79 v81 v84) a + S1x16x1536.size a ≤ S8x128x12288.size a := fun v79 v81 v84 k0_hw3 => k0_hw3

def k0_off7 (i : grid0.Coords) (k0_t1 : Fin k0_t1_loop.trips) : Fin 3 → Nat :=
  let c32_i32_39 : BitVec 32 := 32#32
  let c2_i32_29 : BitVec 32 := 2#32
  let c0_i32_7 : BitVec 32 := 0#32
  let c1_i32 : BitVec 32 := 1#32
  let arg9 : BitVec 32 := Scf.iv c0_i32_7 c1_i32 k0_t1
  let v71 : BitVec 32 := Scalar.muli c2_i32_29 arg9
  let v94 : BitVec 32 := Scalar.muli c32_i32_39 v71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v95 : BitVec 32 := Scalar.addi v94 v1
  let c783_i32_40 : BitVec 32 := 783#32
  let v96 : BitVec 32 := Scalar.minsi v95 c783_i32_40
  let c0_i32_69_r1 : BitVec 32 := 0#32
  let c0_i32_70_r1 : BitVec 32 := 0#32
  ![v96.toNat, 0, 0]
def k0_off8 (i : grid0.Coords) (k0_t1 : Fin k0_t1_loop.trips) : Fin 1 → Nat :=
  let c16_i32_45 : BitVec 32 := 16#32
  let c32_i32_44 : BitVec 32 := 32#32
  let c2_i32_42 : BitVec 32 := 2#32
  let c0_i32_7 : BitVec 32 := 0#32
  let c1_i32 : BitVec 32 := 1#32
  let arg9 : BitVec 32 := Scf.iv c0_i32_7 c1_i32 k0_t1
  let v97 : BitVec 32 := Scalar.muli c2_i32_42 arg9
  let c2_i32_43 : BitVec 32 := 2#32
  let v98 : BitVec 32 := Scalar.addi v97 c2_i32_43
  let v99 : BitVec 32 := Scalar.muli c32_i32_44 v98
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v100 : BitVec 32 := Scalar.addi v99 v1
  let v101 : BitVec 32 := Scalar.muli c16_i32_45 v100
  let v102 : Index := Scalar.indexCast v101
  ![v102.toNat]
def k0_off9 (v106 : BitVec 32) (v108 : BitVec 32) (v111 : BitVec 32) : Fin 3 → Nat :=
  let c16_i32_46 : BitVec 32 := 16#32
  let v109 : BitVec 32 := Scalar.muli v108 c16_i32_46
  let c1536_i32_47 : BitVec 32 := 1536#32
  let v112 : BitVec 32 := Scalar.muli v111 c1536_i32_47
  ![v106.toNat, v109.toNat, v112.toNat]

def k0_chk4 (v106 : BitVec 32) (v108 : BitVec 32) (v111 : BitVec 32) : Prop :=
  (∀ a, (k0_off9 v106 v108 v111) a + S1x16x1536.size a ≤ S8x128x12288.size a)
instance k0_chk4.dec : ∀ (v106 : BitVec 32) (v108 : BitVec 32) (v111 : BitVec 32), Decidable (k0_chk4 v106 v108 v111) := fun v106 v108 v111 => decidable_of_iff' _ (Iff.of_eq (k0_chk4.eq_1 v106 v108 v111))
theorem k0_off9_inb : ∀ (v106 : BitVec 32) (v108 : BitVec 32) (v111 : BitVec 32) (k0_hw4 : k0_chk4 v106 v108 v111), ∀ a, (k0_off9 v106 v108 v111) a + S1x16x1536.size a ≤ S8x128x12288.size a := fun v106 v108 v111 k0_hw4 => k0_hw4

def k0_off10 (i : grid0.Coords) (k0_t1 : Fin k0_t1_loop.trips) : Fin 1 → Nat :=
  let c16_i32_56 : BitVec 32 := 16#32
  let c32_i32_55 : BitVec 32 := 32#32
  let c2_i32_53 : BitVec 32 := 2#32
  let c0_i32_7 : BitVec 32 := 0#32
  let c1_i32 : BitVec 32 := 1#32
  let arg9 : BitVec 32 := Scf.iv c0_i32_7 c1_i32 k0_t1
  let v121 : BitVec 32 := Scalar.muli c2_i32_53 arg9
  let c1_i32_54 : BitVec 32 := 1#32
  let v122 : BitVec 32 := Scalar.addi v121 c1_i32_54
  let v123 : BitVec 32 := Scalar.muli c32_i32_55 v122
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v124 : BitVec 32 := Scalar.addi v123 v1
  let v125 : BitVec 32 := Scalar.muli c16_i32_56 v124
  let v126 : Index := Scalar.indexCast v125
  ![v126.toNat]
def k0_off11 (v130 : BitVec 32) (v132 : BitVec 32) (v135 : BitVec 32) : Fin 3 → Nat :=
  let c16_i32_57 : BitVec 32 := 16#32
  let v133 : BitVec 32 := Scalar.muli v132 c16_i32_57
  let c1536_i32_58 : BitVec 32 := 1536#32
  let v136 : BitVec 32 := Scalar.muli v135 c1536_i32_58
  ![v130.toNat, v133.toNat, v136.toNat]

def k0_chk5 (v130 : BitVec 32) (v132 : BitVec 32) (v135 : BitVec 32) : Prop :=
  (∀ a, (k0_off11 v130 v132 v135) a + S1x16x1536.size a ≤ S8x128x12288.size a)
instance k0_chk5.dec : ∀ (v130 : BitVec 32) (v132 : BitVec 32) (v135 : BitVec 32), Decidable (k0_chk5 v130 v132 v135) := fun v130 v132 v135 => decidable_of_iff' _ (Iff.of_eq (k0_chk5.eq_1 v130 v132 v135))
theorem k0_off11_inb : ∀ (v130 : BitVec 32) (v132 : BitVec 32) (v135 : BitVec 32) (k0_hw5 : k0_chk5 v130 v132 v135), ∀ a, (k0_off11 v130 v132 v135) a + S1x16x1536.size a ≤ S8x128x12288.size a := fun v130 v132 v135 k0_hw5 => k0_hw5

def k0_off12 (i : grid0.Coords) (k0_t1 : Fin k0_t1_loop.trips) : Fin 3 → Nat :=
  let c32_i32_64 : BitVec 32 := 32#32
  let c2_i32_53 : BitVec 32 := 2#32
  let c0_i32_7 : BitVec 32 := 0#32
  let c1_i32 : BitVec 32 := 1#32
  let arg9 : BitVec 32 := Scf.iv c0_i32_7 c1_i32 k0_t1
  let v121 : BitVec 32 := Scalar.muli c2_i32_53 arg9
  let c1_i32_54 : BitVec 32 := 1#32
  let v122 : BitVec 32 := Scalar.addi v121 c1_i32_54
  let v145 : BitVec 32 := Scalar.muli c32_i32_64 v122
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v146 : BitVec 32 := Scalar.addi v145 v1
  let c783_i32_65 : BitVec 32 := 783#32
  let v147 : BitVec 32 := Scalar.minsi v146 c783_i32_65
  let c0_i32_69_r2 : BitVec 32 := 0#32
  let c0_i32_70_r2 : BitVec 32 := 0#32
  ![v147.toNat, 0, 0]
def k0_off13 (i : grid0.Coords) : Fin 1 → Nat :=
  let c16_i32_9 : BitVec 32 := 16#32
  let c768_i32 : BitVec 32 := 768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v24 : BitVec 32 := Scalar.addi c768_i32 v1
  let v25 : BitVec 32 := Scalar.muli c16_i32_9 v24
  let v26 : Index := Scalar.indexCast v25
  ![v26.toNat]
def k0_off14 (v30 : BitVec 32) (v32 : BitVec 32) (v35 : BitVec 32) : Fin 3 → Nat :=
  let c16_i32_10 : BitVec 32 := 16#32
  let v33 : BitVec 32 := Scalar.muli v32 c16_i32_10
  let c1536_i32_11 : BitVec 32 := 1536#32
  let v36 : BitVec 32 := Scalar.muli v35 c1536_i32_11
  ![v30.toNat, v33.toNat, v36.toNat]

def k0_chk6 (v30 : BitVec 32) (v32 : BitVec 32) (v35 : BitVec 32) : Prop :=
  (∀ a, (k0_off14 v30 v32 v35) a + S1x16x1536.size a ≤ S8x128x12288.size a)
instance k0_chk6.dec : ∀ (v30 : BitVec 32) (v32 : BitVec 32) (v35 : BitVec 32), Decidable (k0_chk6 v30 v32 v35) := fun v30 v32 v35 => decidable_of_iff' _ (Iff.of_eq (k0_chk6.eq_1 v30 v32 v35))
theorem k0_off14_inb : ∀ (v30 : BitVec 32) (v32 : BitVec 32) (v35 : BitVec 32) (k0_hw6 : k0_chk6 v30 v32 v35), ∀ a, (k0_off14 v30 v32 v35) a + S1x16x1536.size a ≤ S8x128x12288.size a := fun v30 v32 v35 k0_hw6 => k0_hw6

def k0_off15 (i : grid0.Coords) : Fin 3 → Nat :=
  let c768_i32_17 : BitVec 32 := 768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v45 : BitVec 32 := Scalar.addi c768_i32_17 v1
  let c783_i32 : BitVec 32 := 783#32
  let v46 : BitVec 32 := Scalar.minsi v45 c783_i32
  let c0_i32_21_r3 : BitVec 32 := 0#32
  let c0_i32_22_r3 : BitVec 32 := 0#32
  ![v46.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S784x3_S1x3_783_0 : S784x3.Slices ![783, 0] S1x3
  shapeCasts_S1x3_S1x1x1x3 : S1x3.ShapeCasts S1x1x1x3
  bcast_S1x1x1x3_S16x1x1x3_0_1_2_3 : S1x1x1x3.BroadcastsInDim S16x1x1x3 (![0, 1, 2, 3] : Fin 4 → Fin S16x1x1x3.rank)
  shapeCasts_S16x1x1x3_S16x3 : S16x1x1x3.ShapeCasts S16x3
  concatenates_S784x3_S16x3_S800x3_d0 : Shape.Concatenates [S784x3, S16x3] S800x3 0
  pads_S800x3_S800x16_000_0130 : S800x3.Pads (![0, 0] : Fin 2 → Nat) ![0, 13] ![0, 0] S800x16
  h_S_ : 0 < S_.numel
  shapeCasts_S800x16_S12800 : S800x16.ShapeCasts S12800
  slices_S8x224x224x96_S8x128x128x96_0_0_0_0 : S8x224x224x96.Slices ![0, 0, 0, 0] S8x128x128x96
  shapeCasts_S8x128x128x96_S8x128x12288 : S8x128x128x96.ShapeCasts S8x128x12288
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  inb_S2x16x1536_S1x16x1536_0_0_0 : ∀ a, (![0, 0, 0] : Fin 3 → Nat) a + S1x16x1536.size a ≤ S2x16x1536.size a
  squeezes_S1x16x1536_S16x1536 : S1x16x1536.Squeezes S16x1536
  inb_S2x16x1536_S1x16x1536_1_0_0 : ∀ a, (![1, 0, 0] : Fin 3 → Nat) a + S1x16x1536.size a ≤ S2x16x1536.size a
  shapeCasts_S784x16x1536_S784x16x16x96 : S784x16x1536.ShapeCasts S784x16x16x96
  hcc0_scratch2 : 0 + S_.numel ≤ 6
  hcc0_scratch3 : 1 + S_.numel ≤ 6
  hcc0_scoped0 : 2 + S_.numel ≤ 6
  hcc0_scoped1 : 3 + S_.numel ≤ 6
  hcc0_scoped2 : 4 + S_.numel ≤ 6
  hcc0_scoped3 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16.size a ≤ S12800.size a
  k0_t1_ok : k0_t1_loop.OK
  k0_off3_inb : ∀ (i : grid0.Coords) (k0_t1 : Fin k0_t1_loop.trips), ∀ a, (k0_off3 i k0_t1) a + S16.size a ≤ S12800.size a
  k0_off5_inb : ∀ (i : grid0.Coords) (k0_t1 : Fin k0_t1_loop.trips), ∀ a, (k0_off5 i k0_t1) a + S16.size a ≤ S12800.size a
  k0_off7_inb : ∀ (i : grid0.Coords) (k0_t1 : Fin k0_t1_loop.trips), ∀ a, (k0_off7 i k0_t1) a + S1x16x1536.size a ≤ S784x16x1536.size a
  k0_off8_inb : ∀ (i : grid0.Coords) (k0_t1 : Fin k0_t1_loop.trips), ∀ a, (k0_off8 i k0_t1) a + S16.size a ≤ S12800.size a
  k0_off10_inb : ∀ (i : grid0.Coords) (k0_t1 : Fin k0_t1_loop.trips), ∀ a, (k0_off10 i k0_t1) a + S16.size a ≤ S12800.size a
  k0_off12_inb : ∀ (i : grid0.Coords) (k0_t1 : Fin k0_t1_loop.trips), ∀ a, (k0_off12 i k0_t1) a + S1x16x1536.size a ≤ S784x16x1536.size a
  k0_off13_inb : ∀ i : grid0.Coords, ∀ a, (k0_off13 i) a + S16.size a ≤ S12800.size a
  k0_off15_inb : ∀ i : grid0.Coords, ∀ a, (k0_off15 i) a + S1x16x1536.size a ≤ S784x16x1536.size a

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

class Facts : Prop extends Facts₀ where

variable [Facts]
-- ==== ReferenceIdeal.lean ====
abbrev S8x224x224x96 : Shape := ⟨4, ![8, 224, 224, 96]⟩
abbrev S1 : Shape := ⟨1, ![1]⟩
abbrev S784x3 : Shape := ⟨2, ![784, 3]⟩
abbrev S784x1 : Shape := ⟨2, ![784, 1]⟩
abbrev S784 : Shape := ⟨1, ![784]⟩
abbrev S_ : Shape := ⟨0, ![]⟩
abbrev S784x4 : Shape := ⟨2, ![784, 4]⟩
abbrev S784x1x16x16x96 : Shape := ⟨5, ![784, 1, 16, 16, 96]⟩
abbrev S784x16x16x96 : Shape := ⟨4, ![784, 16, 16, 96]⟩

abbrev nBuf : Space → Nat
  | .hbm => 57
  | .vmem => 0
  | .smem => 0
  | _ => 0

abbrev bufTy : (tb : Table) → Fin (tcTables nBuf tb) → BufTy
  | .hbm, ⟨0, _⟩ => ⟨S8x224x224x96, .f32⟩
  | .hbm, ⟨1, _⟩ => ⟨S1, .i32⟩
  | .hbm, ⟨2, _⟩ => ⟨S784x3, .i32⟩
  | .hbm, ⟨3, _⟩ => ⟨S784x1, .i32⟩
  | .hbm, ⟨4, _⟩ => ⟨S784, .i32⟩
  | .hbm, ⟨5, _⟩ => ⟨S784x1, .i32⟩
  | .hbm, ⟨6, _⟩ => ⟨S784, .i32⟩
  | .hbm, ⟨7, _⟩ => ⟨S_, .i32⟩
  | .hbm, ⟨8, _⟩ => ⟨S784, .i32⟩
  | .hbm, ⟨9, _⟩ => ⟨S784, .i32⟩
  | .hbm, ⟨10, _⟩ => ⟨S_, .i32⟩
  | .hbm, ⟨11, _⟩ => ⟨S784, .i32⟩
  | .hbm, ⟨12, _⟩ => ⟨S784, .i32⟩
  | .hbm, ⟨13, _⟩ => ⟨S784x1, .i32⟩
  | .hbm, ⟨14, _⟩ => ⟨S784, .i32⟩
  | .hbm, ⟨15, _⟩ => ⟨S_, .i32⟩
  | .hbm, ⟨16, _⟩ => ⟨S784, .i32⟩
  | .hbm, ⟨17, _⟩ => ⟨S784, .i32⟩
  | .hbm, ⟨18, _⟩ => ⟨S_, .i32⟩
  | .hbm, ⟨19, _⟩ => ⟨S784, .i32⟩
  | .hbm, ⟨20, _⟩ => ⟨S784, .i32⟩
  | .hbm, ⟨21, _⟩ => ⟨S_, .i32⟩
  | .hbm, ⟨22, _⟩ => ⟨S784, .i32⟩
  | .hbm, ⟨23, _⟩ => ⟨S784, .i1⟩
  | .hbm, ⟨24, _⟩ => ⟨S_, .i32⟩
  | .hbm, ⟨25, _⟩ => ⟨S784, .i32⟩
  | .hbm, ⟨26, _⟩ => ⟨S784, .i32⟩
  | .hbm, ⟨27, _⟩ => ⟨S784, .i32⟩
  | .hbm, ⟨28, _⟩ => ⟨S_, .i32⟩
  | .hbm, ⟨29, _⟩ => ⟨S784, .i32⟩
  | .hbm, ⟨30, _⟩ => ⟨S784, .i1⟩
  | .hbm, ⟨31, _⟩ => ⟨S_, .i32⟩
  | .hbm, ⟨32, _⟩ => ⟨S784, .i32⟩
  | .hbm, ⟨33, _⟩ => ⟨S784, .i32⟩
  | .hbm, ⟨34, _⟩ => ⟨S784, .i32⟩
  | .hbm, ⟨35, _⟩ => ⟨S_, .i32⟩
  | .hbm, ⟨36, _⟩ => ⟨S784, .i32⟩
  | .hbm, ⟨37, _⟩ => ⟨S784, .i1⟩
  | .hbm, ⟨38, _⟩ => ⟨S_, .i32⟩
  | .hbm, ⟨39, _⟩ => ⟨S784, .i32⟩
  | .hbm, ⟨40, _⟩ => ⟨S784, .i32⟩
  | .hbm, ⟨41, _⟩ => ⟨S784, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S784x1, .i32⟩
  | .hbm, ⟨51, _⟩ => ⟨S784x1, .i32⟩
  | .hbm, ⟨52, _⟩ => ⟨S784x1, .i32⟩
  | .hbm, ⟨53, _⟩ => ⟨S784x1, .i32⟩
  | .hbm, ⟨54, _⟩ => ⟨S784x4, .i32⟩
  | .hbm, ⟨55, _⟩ => ⟨S784x1x16x16x96, .f32⟩
  | .hbm, ⟨56, _⟩ => ⟨S784x16x16x96, .f32⟩
  | _, _ => ⟨S8x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_c_10 : Ref sig .tc := ⟨.hbm, 43, rfl⟩
abbrev main_v29 : Ref sig .tc := ⟨.hbm, 44, rfl⟩
abbrev main_c_11 : Ref sig .tc := ⟨.hbm, 45, rfl⟩
abbrev main_c_12 : Ref sig .tc := ⟨.hbm, 46, rfl⟩
abbrev main_v30 : Ref sig .tc := ⟨.hbm, 47, rfl⟩
abbrev main_c_13 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S784x3_S784x1_0_0 : S784x3.Slices ![0, 0] S784x1
  shapeCasts_S784x1_S784 : S784x1.ShapeCasts S784
  slices_S784x3_S784x1_0_1 : S784x3.Slices ![0, 1] S784x1
  bcast_S_S784 : S_.BroadcastsInDim S784 (![] : Fin 0 → Fin S784.rank)
  slices_S784x3_S784x1_0_2 : S784x3.Slices ![0, 2] S784x1
  bcast_S784_S784x1_0 : S784.BroadcastsInDim S784x1 (![0] : Fin 1 → Fin S784x1.rank)
  bcast_S_S784x1 : S_.BroadcastsInDim S784x1 (![] : Fin 0 → Fin S784x1.rank)
  concatenates_S784x1_S784x1_S784x1_S784x1_S784x4_d1 : Shape.Concatenates [S784x1, S784x1, S784x1, S784x1] S784x4 1
  shapeCasts_S784x1x16x16x96_S784x16x16x96 : S784x1x16x16x96.ShapeCasts S784x16x16x96
  gather_S8x224x224x96_S784x4_S784x1x16x16x96_1234_n_n_n_0123_1_1161696_wf : GatherDims.WF S8x224x224x96 S784x4 S784x1x16x16x96 [1, 2, 3, 4] [] [] [0, 1, 2, 3] [] 1 ![1, 16, 16, 96]

variable [Facts₀]

def gather_S8x224x224x96_S784x4_S784x1x16x16x96_1234_n_n_n_0123_1_1161696 : GatherDims S8x224x224x96 S784x4 S784x1x16x16x96 where
  offsetDims := [1, 2, 3, 4]
  collapsedSliceDims := []
  operandBatchingDims := []
  startIndicesBatchingDims := []
  startIndexMap := [0, 1, 2, 3]
  indexVectorDim := 1
  sliceSizes := ![1, 16, 16, 96]
  wf := gather_S8x224x224x96_S784x4_S784x1x16x16x96_1234_n_n_n_0123_1_1161696_wf

class Facts : Prop extends Facts₀ where

variable [Facts]
-- ==== Proof.Spec.lean ====
/-
  The specification both programs meet: a gather of 16 × 16 × 96 patches. Row r of the table names an image n and
  a block position (by, bx); output patch r is the input's rows 16·by … 16·by + 15 and columns 16·bx … 16·bx + 15 of
  image n, all 96 channels. With every table entry in 0 … 7 the patch lies in the input's corner of 128 × 128
  pixels. The same function is stated in two layouts: patches as [16, 16, 96] and patches as 16 rows of
  16 · 96 = 1536 consecutive numbers (a pixel's 96 channels adjacent, the 16 pixels of a row one after another).
-/
import Idealize.ShloMosaic.PureOps
import Idealize.ShloMosaic.Lib.ValueIdx

noncomputable section

namespace Cert.Spec

open Idealize.ShloMosaic Idealize.ShloMosaic.ValueIdx

abbrev SIn : Shape := ⟨4, ![8, 224, 224, 96]⟩
abbrev STab : Shape := ⟨2, ![784, 3]⟩
abbrev SOut : Shape := ⟨4, ![784, 16, 16, 96]⟩
abbrev SRows : Shape := ⟨3, ![784, 16, 1536]⟩

/-- Every table entry is one of 0, …, 7. -/
def InRange (tab : STab.Idx → BitVec 32) : Prop := ∀ i, (tab i).toNat ≤ 7

/-- Entry k of table row r (k = 0 the image, 1 the block row, 2 the block column), reduced modulo 8: the entry
    itself when the table is in range. -/
def coord (tab : STab.Idx → BitVec 32) (r : Fin 784) (k : Fin 3) : Fin 8 :=
  ⟨(tab (ix2 r k)).toNat % 8, Nat.mod_lt _ (by decide)⟩

theorem coord_val {tab : STab.Idx → BitVec 32} (h : InRange tab) (r : Fin 784) (k : Fin 3) :
    (coord tab r k).val = (tab (ix2 r k)).toNat :=
  Nat.mod_eq_of_lt (Nat.lt_succ_of_le (h _))

/-- The input pixel behind entry (a, b) of patch r: image n, row 16·by + a, column 16·bx + b. -/
def pixel (tab : STab.Idx → BitVec 32) (r : Fin 784) (a b : Fin 16) (ch : Fin 96) : SIn.Idx :=
  ix4 (coord tab r 0)
    (⟨16 * (coord tab r 1).val + a.val, by have := (coord tab r 1).isLt; omega⟩ : Fin 224)
    (⟨16 * (coord tab r 2).val + b.val, by have := (coord tab r 2).isLt; omega⟩ : Fin 224) ch

/-- The gathered patches, as [784, 16, 16, 96]. -/
def gather {α : Type} (x : SIn.Idx → α) (tab : STab.Idx → BitVec 32) : SOut.Idx → α :=
  fun i => x (pixel tab (i 0) (i 1) (i 2) (i 3))

/-- The gathered patches with each patch row flattened, as [784, 16, 1536]: position 96·b + ch of a row is
    channel ch of the row's pixel b. -/
def gatherRows {α : Type} (x : SIn.Idx → α) (tab : STab.Idx → BitVec 32) : SRows.Idx → α :=
  fun i => x (pixel tab (i 0) (i 1)
    (⟨(i 2).val / 96, Nat.div_lt_of_lt_mul (i 2).isLt⟩ : Fin 16)
    (⟨(i 2).val % 96, Nat.mod_lt _ (by decide)⟩ : Fin 96))

end Cert.Spec

end
-- ==== Proof.PreFacts.lean ====
/-
  The precondition read back: when the printed input-domain predicate holds, every entry of the block table is one of
  0, …, 7. The predicate is a conjunction whose last conjunct is an "all" over the table of (0 ≤ entry) ∧ (entry ≤ 7),
  both comparisons signed on 32-bit words; a word whose signed value lies in [0, 7] has unsigned value at most 7.
-/
import proofs.«216119_g70222715290213_cont_sun_c4_40_39_alg».proof.Pre_input_domain
import proofs.«216119_g70222715290213_cont_sun_c4_40_39_alg».proof.Proof.Gen.Pre_input_domain
import proofs.«216119_g70222715290213_cont_sun_c4_40_39_alg».proof.Proof.Spec
import Idealize.ShloMosaic.Lib.ReduceAll

noncomputable section

namespace Cert.PreFacts

open Idealize.ShloMosaic

/-- A rank-0 shape has a single index. -/
instance : Subsingleton Cert.Pre_input_domain.S_.Idx := ⟨fun a b => funext fun d => d.elim0⟩

/-- A 32-bit word whose signed value lies in [0, 7] has unsigned value at most 7. -/
theorem toNat_le_seven (w : BitVec 32) (h0 : (0#32 : BitVec 32).toInt ≤ w.toInt) (h7 : w.toInt ≤ (7#32 : BitVec 32).toInt) :
    w.toNat ≤ 7 := by
  rw [show (0#32 : BitVec 32).toInt = 0 from by decide] at h0
  rw [show (7#32 : BitVec 32).toInt = 7 from by decide] at h7
  have hlt : 2 * w.toNat < 2 ^ 32 := BitVec.toInt_pos_iff.1 h0
  rw [BitVec.toInt_eq_toNat_of_lt hlt] at h7
  omega

variable {F : FTy → Type} [FloatOps F]

/-- The precondition gives the table's range. -/
theorem inRange_of_pre [Cert.Pre_input_domain.Facts] (a0 : FVec F Cert.Pre_input_domain.S8x224x224x96 .f32)
    (a1 : IVec Cert.Pre_input_domain.S1 32) (a2 : IVec Cert.Pre_input_domain.S784x3 32)
    (h : Cert.Pre_input_domain.fn (F := F) a0 a1 a2 = fun _ => 1#1) : Cert.Spec.InRange a2 := by
  intro i
  have e := congrFun h ValueIdx.ix0
  dsimp only [Cert.Pre_input_domain.fn, Cert.Pre_input_domain.fn_part1] at e
  obtain ⟨-, e2⟩ := IntOp.andi_eq_one.1 e
  have e3 := Host.reduce_andi_all _ _ _ _ _ e2 i
  obtain ⟨h0, h7⟩ := IntOp.andi_eq_one.1 e3
  exact toNat_le_seven _ (IntOp.cmpi_sge.1 h0) (IntOp.cmpi_sle.1 h7)

end Cert.PreFacts

end
-- ==== Proof.RefValue.lean ====
/-
  The reference program's result is the specified gather. The program computes, for each table row r, the start
  (n, 16·by, 16·bx, 0) of a 1 × 16 × 16 × 96 slice of the input — each component passed through "if negative, add the
  axis size" — and gathers the slices. With every table entry in 0 … 7 no component is negative, none exceeds the
  largest start for which the slice fits (7, 208, 208, 0), and the products by 16 do not wrap: the element at
  (r, a, b, ch) of the result is the input at (n, 16·by + a, 16·bx + b, ch).
-/
import proofs.«216119_g70222715290213_cont_sun_c4_40_39_alg».proof.Defs
import proofs.«216119_g70222715290213_cont_sun_c4_40_39_alg».proof.Proof.Gen.ReferenceIdeal
import proofs.«216119_g70222715290213_cont_sun_c4_40_39_alg».proof.Proof.Gen.ReferenceIdeal.Run
import proofs.«216119_g70222715290213_cont_sun_c4_40_39_alg».proof.Proof.Gen.ReferenceIdeal.Read
import proofs.«216119_g70222715290213_cont_sun_c4_40_39_alg».proof.Proof.Gen.Pre_input_domain
import proofs.«216119_g70222715290213_cont_sun_c4_40_39_alg».proof.Proof.Spec
import Idealize.ShloMosaic.Lib.ValueIdx
import Idealize.ShloMosaic.Lib.Affine
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-! ## Words

A table entry is a 32-bit word with unsigned value at most 7. Such a word, and 16 times it, is far below 2³¹, so it reads
the same signed and unsigned, it is not negative, and the product by 16 does not wrap. -/

/-- A word below 2³¹ fails the signed test "< 0". -/
theorem slt_zero_of_small (w : BitVec 32) (h : 2 * w.toNat < 2 ^ 32) : IntOp.cmpi .slt w 0#32 = 0#1 := by
  apply eq_zero_of_ne_one
  rw [IntOp.cmpi_slt, BitVec.toInt_eq_toNat_of_lt h, show (0#32 : BitVec 32).toInt = 0 from by decide]
  omega

/-- The wrap-around of a negative index, "if w < 0 then w + d else w", leaves a word below 2³¹ alone. -/
theorem norm_small (w d : BitVec 32) (h : 2 * w.toNat < 2 ^ 32) :
    Scalar.select (IntOp.cmpi .slt w 0#32) (IntOp.addi w d) w = w := by
  rw [slt_zero_of_small w h, select_zero]

/-- 0 + 16 · w does not wrap for w ≤ 7. -/
theorem toNat_scaled (w : BitVec 32) (h : w.toNat ≤ 7) : (IntOp.addi 0#32 (IntOp.muli w 16#32)).toNat = 16 * w.toNat := by
  show (0#32 + w * 16#32).toNat = _
  rw [BitVec.zero_add, BitVec.toNat_mul]
  have e : (16#32 : BitVec 32).toNat = 16 := rfl
  rw [e]; omega

/-- A word below 2³¹ read signed, then as a natural number, is its unsigned value. -/
theorem toInt_toNat_small (w : BitVec 32) (h : 2 * w.toNat < 2 ^ 32) : w.toInt.toNat = w.toNat := by
  rw [BitVec.toInt_eq_toNat_of_lt h]; rfl

/-! ## The gather's operand index

The gather takes slices of sizes 1 × 16 × 16 × 96 of the [8, 224, 224, 96] operand; result index (r, 0, a, b, ch) reads
the operand at start + (0, a, b, ch), where the start on axis k is entry (r, k) of the start indices, read signed and
clamped into [0, size − slice size] = [0, 7], [0, 208], [0, 208], [0, 0]. -/

abbrev G := gather_S8x224x224x96_S784x4_S784x1x16x16x96_1234_n_n_n_0123_1_1161696

theorem off0 (j : S784x1x16x16x96.Idx) : G.offCoord j 0 = (j 1).val := by
  unfold GatherDims.offCoord; rw [dif_pos (by decide)]; rfl
theorem off1 (j : S784x1x16x16x96.Idx) : G.offCoord j 1 = (j 2).val := by
  unfold GatherDims.offCoord; rw [dif_pos (by decide)]; rfl
theorem off2 (j : S784x1x16x16x96.Idx) : G.offCoord j 2 = (j 3).val := by
  unfold GatherDims.offCoord; rw [dif_pos (by decide)]; rfl
theorem off3 (j : S784x1x16x16x96.Idx) : G.offCoord j 3 = (j 4).val := by
  unfold GatherDims.offCoord; rw [dif_pos (by decide)]; rfl

theorem siIdx0 (j : S784x1x16x16x96.Idx) :
    G.siIdx j ⟨List.idxOf (0 : Fin 4) G.startIndexMap, List.idxOf_lt_length_iff.2 (by decide)⟩ = ix2 (j 0) 0 := by
  funext b; refine Fin.ext ?_
  match b with
  | ⟨0, _⟩ => rfl
  | ⟨1, _⟩ => rfl
theorem siIdx1 (j : S784x1x16x16x96.Idx) :
    G.siIdx j ⟨List.idxOf (1 : Fin 4) G.startIndexMap, List.idxOf_lt_length_iff.2 (by decide)⟩ = ix2 (j 0) 1 := by
  funext b; refine Fin.ext ?_
  match b with
  | ⟨0, _⟩ => rfl
  | ⟨1, _⟩ => rfl
theorem siIdx2 (j : S784x1x16x16x96.Idx) :
    G.siIdx j ⟨List.idxOf (2 : Fin 4) G.startIndexMap, List.idxOf_lt_length_iff.2 (by decide)⟩ = ix2 (j 0) 2 := by
  funext b; refine Fin.ext ?_
  match b with
  | ⟨0, _⟩ => rfl
  | ⟨1, _⟩ => rfl
theorem siIdx3 (j : S784x1x16x16x96.Idx) :
    G.siIdx j ⟨List.idxOf (3 : Fin 4) G.startIndexMap, List.idxOf_lt_length_iff.2 (by decide)⟩ = ix2 (j 0) 3 := by
  funext b; refine Fin.ext ?_
  match b with
  | ⟨0, _⟩ => rfl
  | ⟨1, _⟩ => rfl

theorem start0 (j : S784x1x16x16x96.Idx) (idx : IVec S784x4 32) :
    G.start j idx 0 = min (idx (ix2 (j 0) 0)).toInt.toNat 7 := by
  unfold GatherDims.start; rw [dif_pos (by decide), siIdx0]; rfl
theorem start1 (j : S784x1x16x16x96.Idx) (idx : IVec S784x4 32) :
    G.start j idx 1 = min (idx (ix2 (j 0) 1)).toInt.toNat 208 := by
  unfold GatherDims.start; rw [dif_pos (by decide), siIdx1]; rfl
theorem start2 (j : S784x1x16x16x96.Idx) (idx : IVec S784x4 32) :
    G.start j idx 2 = min (idx (ix2 (j 0) 2)).toInt.toNat 208 := by
  unfold GatherDims.start; rw [dif_pos (by decide), siIdx2]; rfl
theorem start3 (j : S784x1x16x16x96.Idx) (idx : IVec S784x4 32) :
    G.start j idx 3 = min (idx (ix2 (j 0) 3)).toInt.toNat 0 := by
  unfold GatherDims.start; rw [dif_pos (by decide), siIdx3]; rfl

/-- Coordinate k of the operand index: the clamped start plus the offset. -/
theorem operand0 (j : S784x1x16x16x96.Idx) (idx : IVec S784x4 32) :
    (G.operandIdx j idx 0).val = min (idx (ix2 (j 0) 0)).toInt.toNat 7 + (j 1).val := by
  show G.start j idx 0 + G.batchCoord j 0 + G.offCoord j 0 = _
  rw [GatherDims.batchCoord_eq_zero _ _ _ List.not_mem_nil, Nat.add_zero, start0, off0]
theorem operand1 (j : S784x1x16x16x96.Idx) (idx : IVec S784x4 32) :
    (G.operandIdx j idx 1).val = min (idx (ix2 (j 0) 1)).toInt.toNat 208 + (j 2).val := by
  show G.start j idx 1 + G.batchCoord j 1 + G.offCoord j 1 = _
  rw [GatherDims.batchCoord_eq_zero _ _ _ List.not_mem_nil, Nat.add_zero, start1, off1]
theorem operand2 (j : S784x1x16x16x96.Idx) (idx : IVec S784x4 32) :
    (G.operandIdx j idx 2).val = min (idx (ix2 (j 0) 2)).toInt.toNat 208 + (j 3).val := by
  show G.start j idx 2 + G.batchCoord j 2 + G.offCoord j 2 = _
  rw [GatherDims.batchCoord_eq_zero _ _ _ List.not_mem_nil, Nat.add_zero, start2, off2]
theorem operand3 (j : S784x1x16x16x96.Idx) (idx : IVec S784x4 32) :
    (G.operandIdx j idx 3).val = min (idx (ix2 (j 0) 3)).toInt.toNat 0 + (j 4).val := by
  show G.start j idx 3 + G.batchCoord j 3 + G.offCoord j 3 = _
  rw [GatherDims.batchCoord_eq_zero _ _ _ List.not_mem_nil, Nat.add_zero, start3, off3]

/-! ## The start indices

Column k of the [784, 4] array of start indices is piece k of the concatenation. -/

variable {F : FTy → Type} [FloatOps F]

/-- The four columns, each [784, 1]. -/
abbrev cols (t : IVec S784x3 32) : List ((s : Shape) × (s.Idx → BitVec 32)) :=
  [⟨S784x1, val_main_v32 (F := F) t⟩, ⟨S784x1, val_main_v33 (F := F) t⟩, ⟨S784x1, val_main_v34 (F := F) t⟩,
    ⟨S784x1, val_main_v35 (F := F)⟩]

theorem piece_apply (t : IVec S784x3 32) (r : Fin 784) (k : Nat) (hk : k < 4) (x₁ : S784x1.Idx → BitVec 32)
    (hxk : (cols (F := F) t)[k]'hk = ⟨S784x1, x₁⟩) :
    val_main_v36 (F := F) t (ix2 r ⟨k, hk⟩) = x₁ (ix2 r 0) := by
  unfold val_main_v36
  refine concatenate_apply_piece (t := S784x4) (1 : Fin S784x4.rank) (cols (F := F) t) concatenates_S784x1_S784x1_S784x1_S784x1_S784x4_d1
    (ix2 r ⟨k, hk⟩) k hk S784x1 x₁ hxk rfl k ?_ (ix2 r 0) ?_ ?_
  · interval_cases k <;> rfl
  · intro b hb
    match b with
    | ⟨0, _⟩ => rfl
    | ⟨1, _⟩ => exact absurd rfl hb
  · rfl

/-! ## The table's columns read at a row -/

theorem row_idx0 (r : Fin 784) : idx_main_v0 (idx_main_v1 (ix1 r)) = ix2 r 0 := by
  funext a; apply Fin.ext
  match a with
  | ⟨0, _⟩ => exact Nat.div_one _
  | ⟨1, _⟩ => rfl
theorem row_idx1 (r : Fin 784) : idx_main_v2 (idx_main_v3 (ix1 r)) = ix2 r 1 := by
  funext a; apply Fin.ext
  match a with
  | ⟨0, _⟩ => exact Nat.div_one _
  | ⟨1, _⟩ => rfl
theorem row_idx2 (r : Fin 784) : idx_main_v8 (idx_main_v9 (ix1 r)) = ix2 r 2 := by
  funext a; apply Fin.ext
  match a with
  | ⟨0, _⟩ => exact Nat.div_one _
  | ⟨1, _⟩ => rfl

/-- Column 0 at row r: the image number, unchanged. -/
theorem col0 (t : IVec S784x3 32) (h : Cert.Spec.InRange t) (r : Fin 784) :
    val_main_v36 (F := F) t (ix2 r 0) = t (ix2 r 0) := by
  have hw := h (ix2 r 0)
  rw [show (0 : Fin 4) = ⟨0, by decide⟩ from rfl, piece_apply (F := F) t r 0 (by decide) _ rfl, val_main_v32_apply]
  show val_main_v18 (F := F) t (ix1 r) = _
  simp only [val_main_v18_apply, val_main_v15_apply, val_main_v17_apply, val_main_v14_apply, val_main_c_3_apply,
    val_main_v1_apply, val_main_v0_apply, row_idx0]
  exact norm_small _ _ (by omega)

/-- Column 1 at row r: 16 times the block row. -/
theorem col1 (t : IVec S784x3 32) (h : Cert.Spec.InRange t) (r : Fin 784) :
    val_main_v36 (F := F) t (ix2 r 1) = IntOp.addi 0#32 (IntOp.muli (t (ix2 r 1)) 16#32) := by
  have hw := toNat_scaled _ (h (ix2 r 1))
  have hle := h (ix2 r 1)
  rw [show (1 : Fin 4) = ⟨1, by decide⟩ from rfl, piece_apply (F := F) t r 1 (by decide) _ rfl, val_main_v33_apply]
  show val_main_v23 (F := F) t (ix1 r) = _
  simp only [val_main_v23_apply, val_main_v20_apply, val_main_v22_apply, val_main_v19_apply, val_main_c_5_apply,
    val_main_v7_apply, val_main_v6_apply, val_main_c_0_apply, val_main_v5_apply, val_main_v4_apply, val_main_c_apply,
    val_main_v3_apply, val_main_v2_apply, row_idx1]
  exact norm_small _ _ (by omega)

/-- Column 2 at row r: 16 times the block column. -/
theorem col2 (t : IVec S784x3 32) (h : Cert.Spec.InRange t) (r : Fin 784) :
    val_main_v36 (F := F) t (ix2 r 2) = IntOp.addi 0#32 (IntOp.muli (t (ix2 r 2)) 16#32) := by
  have hw := toNat_scaled _ (h (ix2 r 2))
  have hle := h (ix2 r 2)
  rw [show (2 : Fin 4) = ⟨2, by decide⟩ from rfl, piece_apply (F := F) t r 2 (by decide) _ rfl, val_main_v34_apply]
  show val_main_v28 (F := F) t (ix1 r) = _
  simp only [val_main_v28_apply, val_main_v25_apply, val_main_v27_apply, val_main_v24_apply, val_main_c_7_apply,
    val_main_v13_apply, val_main_v12_apply, val_main_c_2_apply, val_main_v11_apply, val_main_v10_apply, val_main_c_1_apply,
    val_main_v9_apply, val_main_v8_apply, row_idx2]
  exact norm_small _ _ (by omega)

/-- Column 3 at row r: the channel start, 0. -/
theorem col3 (t : IVec S784x3 32) (r : Fin 784) : val_main_v36 (F := F) t (ix2 r 3) = 0#32 := by
  rw [show (3 : Fin 4) = ⟨3, by decide⟩ from rfl, piece_apply (F := F) t r 3 (by decide) _ rfl, val_main_v35_apply]
  simp only [val_main_v31_apply, val_main_v29_apply, val_main_v30_apply, val_main_c_9_apply, val_main_c_10_apply,
    val_main_c_11_apply, val_main_c_12_apply, val_main_c_13_apply]
  rfl

/-! ## The result -/

theorem reshape_idx (r : Fin 784) (a b : Fin 16) (ch : Fin 96) :
    idx_main_v38 (ix4 r a b ch) = ix5 r 0 a b ch := by
  funext ax; apply Fin.ext
  have hr := r.isLt; have ha := a.isLt; have hb := b.isLt; have hc := ch.isLt
  match ax with
  | ⟨0, _⟩ => show (((r.val * 16 + a.val) * 16 + b.val) * 96 + ch.val) / 24576 = r.val; omega
  | ⟨1, _⟩ => rfl
  | ⟨2, _⟩ => show (((r.val * 16 + a.val) * 16 + b.val) * 96 + ch.val) / 1536 % 16 = a.val; omega
  | ⟨3, _⟩ => show (((r.val * 16 + a.val) * 16 + b.val) * 96 + ch.val) / 96 % 16 = b.val; omega
  | ⟨4, _⟩ => show (((r.val * 16 + a.val) * 16 + b.val) * 96 + ch.val) % 96 = ch.val; omega

/-- The reference's result is the specified gather: every start index is in range, so nothing is clamped and no
    negative index is wrapped. -/
theorem result_eq (x : FVec Ideal S8x224x224x96 .f32) (t : IVec S784x3 32) (h : Cert.Spec.InRange t) :
    val_main_v38 (F := Ideal) x t = Cert.Spec.gather x t := by
  funext i
  obtain ⟨r, a, b, ch, rfl⟩ : ∃ r a b ch, i = ix4 r a b ch := ⟨_, _, _, _, eq_ix4 i⟩
  rw [val_main_v38_apply, reshape_idx]
  unfold val_main_v37 Host.gather
  show x _ = x _
  congr 1
  funext ax; apply Fin.ext
  have h0 := h (ix2 r 0); have h1 := h (ix2 r 1); have h2 := h (ix2 r 2)
  have s1 := toNat_scaled _ h1; have s2 := toNat_scaled _ h2
  match ax with
  | ⟨0, _⟩ =>
    show (G.operandIdx (ix5 r 0 a b ch) (val_main_v36 (F := Ideal) t) 0).val = (Cert.Spec.coord t r 0).val
    rw [operand0, col0 t h, Cert.Spec.coord_val h, toInt_toNat_small _ (by omega)]
    show min (t (ix2 r 0)).toNat 7 + 0 = _
    omega
  | ⟨1, _⟩ =>
    show (G.operandIdx (ix5 r 0 a b ch) (val_main_v36 (F := Ideal) t) 1).val = 16 * (Cert.Spec.coord t r 1).val + a.val
    rw [operand1, col1 t h, Cert.Spec.coord_val h, toInt_toNat_small _ (by omega), s1]
    show min (16 * (t (ix2 r 1)).toNat) 208 + a.val = _
    omega
  | ⟨2, _⟩ =>
    show (G.operandIdx (ix5 r 0 a b ch) (val_main_v36 (F := Ideal) t) 2).val = 16 * (Cert.Spec.coord t r 2).val + b.val
    rw [operand2, col2 t h, Cert.Spec.coord_val h, toInt_toNat_small _ (by omega), s2]
    show min (16 * (t (ix2 r 2)).toNat) 208 + b.val = _
    omega
  | ⟨3, _⟩ =>
    show (G.operandIdx (ix5 r 0 a b ch) (val_main_v36 (F := Ideal) t) 3).val = ch.val
    rw [operand3, col3 t]
    show min 0 0 + ch.val = _
    omega

/-! ## The run -/

/-- From a memory whose table is in range, the reference runs to the specified gather of its arguments, which it leaves
    unchanged. -/
theorem run_spec (m : (ℓ : Loc nD τ sig) → Buf (Elt Ideal) ℓ) (ρ : Dev nD → PrngReg)
    (h : ∀ c : Dev nD, Cert.Spec.InRange (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v38)
          = Cert.Spec.gather (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ hr c => ⟨((hr c).1.trans (val_main_v38_eq _ _)).trans (result_eq _ _ (h c)), (hr c).2⟩)
    (Cert.ReferenceIdeal.Value.run (F := Ideal) m ρ)

/-- The reference runs and leaves its arguments unchanged, from any memory. -/
theorem frame_ri : Cert.frame_ReferenceIdeal :=
  fun m ρ _ => (θ_run defs _ _).mono (fun _ h c => (h c).2) (Cert.ReferenceIdeal.Value.run (F := Ideal) m ρ)

end Cert.ReferenceIdeal.RefValue

end
-- ==== Proof.CommonKI.lean ====
/-
  The set-up shared by the kernel's body and its launch.

  Thirty-two vector subcores (two cores of sixteen) run the same body; subcore s of core c is worker w = 2·s + c and
  moves table rows w, 32 + w, …, 768 + w (25 of them) — row j's 16 × 1536 block of the input's corner into one of two
  slots of its own memory, then out to output row min(32·j + w, 783). Rows 784 … 799 of the padded table repeat row
  783, so the workers 15 … 31 all write output row 783 at their last step, with the same numbers. The output array is
  therefore held in write mode: every element has the gathered value as its agreed target, each worker holds a share of
  the whole array and marks the rows it has written; the two arrays that are only read (the corner and the padded
  table) are dealt out as read shares.
-/
import proofs.«216119_g70222715290213_cont_sun_c4_40_39_alg».proof.Defs
import proofs.«216119_g70222715290213_cont_sun_c4_40_39_alg».proof.Proof.Gen.KernelIdeal
import proofs.«216119_g70222715290213_cont_sun_c4_40_39_alg».proof.Proof.Gen.KernelIdeal.Skeleton
import proofs.«216119_g70222715290213_cont_sun_c4_40_39_alg».proof.Proof.Spec
import Idealize.ShloMosaic.Lib.SparseCore.Launch
import Idealize.ShloMosaic.Lib.StableHlo.Run
import Idealize.ShloMosaic.Lib.Pipeline.Kit
import Idealize.ShloMosaic.Lib.WriteMode
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, write mode, the transfers' counters -/

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL

/-- Write mode's algebra inside the certificate's: the middle factor. -/
abbrev wmE : UEmb (UW F) (UU F) := (UEmb.inl : UEmb (UW F) (UW F × Counters)).trans UEmb.inr

/-! ## The arrays and their contents -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
/-- The input's corner, each pixel row flattened: what the workers read blocks of. -/
abbrev inLoc (d : Dev nD) : Loc nD τ sig := (SparseCore.T d).loc main_v8
/-- The padded table, flattened: what every worker copies whole. -/
abbrev tbLoc (d : Dev nD) : Loc nD τ sig := (SparseCore.T d).loc main_v6
/-- The output, as rows of 1536. -/
abbrev outLoc (d : Dev nD) : Loc nD τ sig := (SparseCore.T d).loc main_v9
abbrev resLoc (d : Dev nD) : Loc nD τ sig := (SparseCore.T d).loc main_v10

/-- The gathered patches in the rows layout: every output element's target. -/
def tgt (d : Dev nD) : Buf (Elt F) (outLoc d) := Cert.Spec.gatherRows (m (a0Loc d)) (m (a2Loc d))

/-! ## @main's host operations, before and after the call -/

variable [FloatOps F]

open Idealize.ShloMosaic.StableHlo in
/-- The eleven host operations before the call: the table padded to 800 rows of 16 and flattened, the input's
    corner with each pixel row flattened. -/
abbrev opsPre : List (HloOp τ sig (Elt F)) :=
  [ StableHlo.unary main_arg2 main_v0 ((extractStridedSlice S1x3 ![783, 0] · slices_S784x3_S1x3_783_0) : (⟨S784x3, .i32⟩ : BufTy).Contents (Elt F) → (⟨S1x3, .i32⟩ : BufTy).Contents (Elt F)),
    StableHlo.reshape main_v0 main_v1 rfl shapeCasts_S1x3_S1x1x1x3,
    StableHlo.unary main_v1 main_v2 (broadcastInDim S16x1x1x3 ![0, 1, 2, 3] bcast_S1x1x1x3_S16x1x1x3_0_1_2_3 : (⟨S1x1x1x3, .i32⟩ : BufTy).Contents (Elt F) → (⟨S16x1x1x3, .i32⟩ : BufTy).Contents (Elt F)),
    StableHlo.reshape main_v2 main_v3 rfl shapeCasts_S16x1x1x3_S16x3,
    StableHlo.binary main_arg2 main_v3 main_v4 ((fun a b => concatenate S800x3 0 [⟨S784x3, a⟩, ⟨S16x3, b⟩] concatenates_S784x3_S16x3_S800x3_d0) : (⟨S784x3, .i32⟩ : BufTy).Contents (Elt F) → (⟨S16x3, .i32⟩ : BufTy).Contents (Elt F) → (⟨S800x3, .i32⟩ : BufTy).Contents (Elt F)),
    StableHlo.nullary main_c (constantI S_ 32 0#32),
    StableHlo.TRef.unary (.of main_c : StableHlo.TRef sig ⟨S_, .i32⟩) main_call0.v0 id,
    StableHlo.TRef.binary (.of main_v4 : StableHlo.TRef sig ⟨S800x3, .i32⟩) main_call0.v0 main_call0.v1 (fun x v => pad S800x16 ![0, 0] ![0, 13] ![0, 0] x v pads_S800x3_S800x16_000_0130 h_S_),
    StableHlo.reshape main_v5 main_v6 rfl shapeCasts_S800x16_S12800,
    StableHlo.unary main_arg0 main_v7 ((extractStridedSlice S8x128x128x96 ![0, 0, 0, 0] · slices_S8x224x224x96_S8x128x128x96_0_0_0_0) : (⟨S8x224x224x96, .f32⟩ : BufTy).Contents (Elt F) → (⟨S8x128x128x96, .f32⟩ : BufTy).Contents (Elt F)),
    StableHlo.reshape main_v7 main_v8 rfl shapeCasts_S8x128x128x96_S8x128x12288 ]

open Idealize.ShloMosaic.StableHlo in
/-- The one after it: the output's rows of 1536 reshaped to 16 pixels of 96 channels. -/
abbrev opsPost : List (HloOp τ sig (Elt F)) :=
  [ StableHlo.reshape main_v9 main_v10 rfl shapeCasts_S784x16x1536_S784x16x16x96 ]

open Idealize.ShloMosaic.StableHlo in
theorem main_eq (d : Dev nD) :
    main (F := F) d = (seq (opsPre (F := F)) >>= fun _ => ((sc (F := F)).run d 0 >>= fun _ => seq (opsPost (F := F)))) := rfl

/-! ## Contents: at launch, and after the host operations before the call -/

open Idealize.ShloMosaic.StableHlo in
def V0 (d : Dev nD) : Valuation τ sig (Elt F) := fun b => m (d, b)
open Idealize.ShloMosaic.StableHlo in
def V1 (d : Dev nD) : Valuation τ sig (Elt F) := after (opsPre (F := F)) (V0 m d)

/-- The corner's and the padded table's contents when the call starts. -/
abbrev inV (d : Dev nD) : Buf (Elt F) (inLoc d) := V1 m d (Proc.devRef .tc main_v8)
abbrev tbV (d : Dev nD) : Buf (Elt F) (tbLoc d) := V1 m d (Proc.devRef .tc main_v6)

/-! ## Output rows, and which a worker writes -/

/-- The elements of output row r. -/
def rowSet (d : Dev nD) (r : ℕ) : Finset (Idx (outLoc d)) := Finset.univ.filter fun i : S784x16x1536.Idx => (i 0).val = r

/-- Worker w's first n steps write the rows min(32·j + w, 783), j < n. -/
def rowsUpTo (d : Dev nD) (w n : ℕ) : Finset (Idx (outLoc d)) := (Finset.range n).biUnion fun j => rowSet d (min (32 * j + w) 783)

/-- Subcore i of core c is worker 2·i + c. -/
abbrev wOf (c i : ℕ) : ℕ := 2 * i + c

/-! ## Shares, by number: a core's of the whole, a worker's of its core's -/

abbrev shC (c : ℕ) : PosShare TreeShare := Transfers.shareTokN fullShare c
abbrev shT (c i : ℕ) : PosShare TreeShare := Transfers.shareTokN (shC c) i

/-- What a holder at share q has of the three arrays, the output rows W marked: read shares of the corner and of the
    table at their contents, and its share of the whole output in write mode — every element's old value the launch
    contents, its target the gathered value. -/
def part (d : Dev nD) (q : PosShare TreeShare) (W : Finset (Idx (outLoc d))) : sProp 𝕄 :=
  iprop((inLoc d ↦{q} inV m d) ∗ (tbLoc d ↦{q} tbV m d)
    ∗ willBeTo (wmE (F := F)) (outLoc d) Finset.univ q (m (outLoc d)) (fun i => some (tgt m d i)) W)

instance part_storable (d : Dev nD) (q : PosShare TreeShare) (W : Finset (Idx (outLoc d))) :
    BI.Storable (upEmb : UEmb _ 𝕄) (part m d q W) := by unfold part; infer_instance

/-- What the handshakes carry: a core its part with nothing marked, and back with its workers' rows marked; a worker
    its part of its core's, and back with its 25 rows marked. Every thread knows the write-mode invariant. -/
def P : (K (F := F)).Pay (nD := nD) (Val := Elt F) (Name := ℕ) (U := UU F) where
  st := fun _ d c => part m d (shC c.val) ∅
  dn := fun _ d c => part m d (shC c.val) ((Finset.range 16).biUnion fun i => rowsUpTo d (wOf c.val i) 25)
  go := fun _ d c i => part m d (shT c.val i.val) ∅
  td := fun _ d c i => part m d (shT c.val i.val) (rowsUpTo d (wOf c.val i.val) 25)
  x := fun _ _ => iprop(∃ ι, wmInv (Ix := HIx 1) (wmE (F := F)) ι)

instance P_storable : (P (F := F) m).IsStorable where
  st _ d c := by unfold P; infer_instance
  dn _ d c := by unfold P; infer_instance
  go _ _ _ _ := by unfold P; infer_instance
  td _ _ _ _ := by unfold P; infer_instance

end Cert.Proof.KI

end
-- ==== Proof.LibWriteModeCopy.lean ====
/-
  Two conveniences over write mode, general in the kernel.

  (1) A local copy whose destination elements are held in write mode, in the protocol that keeps one
      transfer in flight on a cell the core holds at zero: the issue leaves a flight that delivers, at the
      wait, the write-mode assertion with the destination's elements marked written, beside the source share.

  (2) A write-mode assertion at share q is the same as the remainder of q after n tokens have been split
      off together with the n tokens; when the pieces come back with marks of their own, the joined
      assertion is marked on the union of everyone's marks.
-/
import Idealize.ShloMosaic.Lib.WriteMode
import Idealize.ShloMosaic.Lib.Transfers

noncomputable section

namespace Cert.WriteModeCopy

open Idealize.SL
open Idealize.SL.BI (sProp bigSep Storable)
open scoped Idealize.SL.BI
open Idealize.SL.BI.BIBase Idealize.SL.BI.Laws Idealize.SL.Sem Idealize.SL.ProofMode
open Idealize.SL.RA
open Idealize.ShloMosaic Idealize.ShloMosaic.Transfers

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-! ## A local copy into elements held in write mode -/

section Copy

variable (EC : UEmb Counters (MT nD τ sig Ix Val Name U Lvl))
variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}
variable {emb : UEmb (WmRA nD τ sig Val) U} {ιwm : Name}

/-- A local copy on a cell the core holds at zero, the destination's elements among elements `S` of its
    buffer that are held in write mode at some share, old values `fd`, targets `g`, marks `W`, and the
    payload (what the source view reads of `fs`) admitted by the targets: the core issues the copy and
    continues with a flight that delivers, at the wait, the write-mode assertion on `S` with the
    destination's elements added to the marks, beside the source share. -/
theorem wp_dmaLocal_willBeTo [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {S : Finset (Idx (dst.view.loc c))} {qd : PosShare TreeShare} {fd : Buf Val (dst.view.loc c)}
    {g : Tgt Val (dst.view.loc c)} {W : Finset (Idx (dst.view.loc c))}
    (ι : Ix) (N : ℕ) (hN : dst.view.amount sm = N) (hN0 : 0 < N) (hS : dst.view.set ⊆ S)
    (hadm : dst.view.Admitted Val g (src.view.read Val fs) Finset.univ) :
    iprop((src.view.loc c ↦[src.view.set]{q} fs) ∗ (wmInv emb ιwm ∗ willBeTo emb (dst.view.loc c) S qd fd g W) ∗ semVal (c, sm) 0)
      ⊢ iprop((Flight EC c sm ι N iprop((willBeTo emb (dst.view.loc c) S qd fd g (W ∪ dst.view.set))
                                    ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  imod (flight_alloc EC hN0 iprop((willBeTo emb (dst.view.loc c) S qd fd g (W ∪ dst.view.set))
      ∗ (src.view.loc c ↦[src.view.set]{q} fs)) (g := (c, sm))) $$ Hv with ⟨%γ, %δ, %κ, #Hinv, Hγ, Hδ⟩
  iapply (wp_enqueueDma 𝒱 c bd Set.univ ι N hN) $$ [Hs Hd] [Hγ]
  · isplitl [Hs]; · iexact Hs
    iapply (willBeTo_writeUpdate (emb := emb) (ιwm := ιwm) c hS hadm) $$ Hd
  · iapply (flight_creditUpdate EC (δ := δ))
    isplitr; · iexact Hinv
    iexact Hγ
  iintro Hcred
  iapply Hk
  iapply (flight_intro EC c (κ := κ))
  isplitr; · iexact Hinv
  isplitl [Hδ] <;> iassumption

/-- The same when exactly the destination's elements are held in write mode. -/
theorem wp_dmaLocal_willBeTo_set [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {qd : PosShare TreeShare} {fd : Buf Val (dst.view.loc c)}
    {g : Tgt Val (dst.view.loc c)} {W : Finset (Idx (dst.view.loc c))}
    (ι : Ix) (N : ℕ) (hN : dst.view.amount sm = N) (hN0 : 0 < N)
    (hadm : dst.view.Admitted Val g (src.view.read Val fs) Finset.univ) :
    iprop((src.view.loc c ↦[src.view.set]{q} fs) ∗ (wmInv emb ιwm ∗ willBeTo emb (dst.view.loc c) dst.view.set qd fd g W) ∗ semVal (c, sm) 0)
      ⊢ iprop((Flight EC c sm ι N iprop((willBeTo emb (dst.view.loc c) dst.view.set qd fd g (W ∪ dst.view.set))
                                    ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) :=
  wp_dmaLocal_willBeTo EC 𝒱 c bd ι N hN hN0 subset_rfl hadm

end Copy

/-! ## Splitting and joining a write-mode assertion along n tokens of its share -/

section Shares

open PCS Idealize.SL.RA.Region

variable {emb : UEmb (WmRA nD τ sig Val) U}
variable {ℓ : Loc nD τ sig} {I : Finset (Idx ℓ)} {f : Buf Val ℓ} {g : Tgt Val ℓ}

/-- Along a share that is composed of two: the assertion at the composed share, marked on a union, is the
    two assertions at the component shares, each marked on its own part. Old values and targets are under
    agreement and a mark is the join of the two marks, element by element. -/
theorem willBeTo_share {q q₁ q₂ : PosShare TreeShare} (h : q ∈ q₁ ·? q₂) (W₁ W₂ : Finset (Idx ℓ)) :
    (willBeTo emb ℓ I q f g (W₁ ∪ W₂) : sProp 𝕄)
      ⊣⊢ iprop(willBeTo emb ℓ I q₁ f g W₁ ∗ willBeTo emb ℓ I q₂ f g W₂) :=
  BI.Region.held_share h fun i _ => by
    rw [show decide (i ∈ W₁ ∪ W₂) = (decide (i ∈ W₁) || decide (i ∈ W₂)) by
      rw [← Bool.decide_or]; exact decide_eq_decide.mpr Finset.mem_union]
    exact WB.mem_mk_op_mk _ _ _ _

/-- The assertion at share `q`, marked on `W₀` and on everything the first `k` tokens mark, is the remainder
    of `q` after `k` tokens marked on `W₀` together with the `k` tokens, token `i` marked on `Wt i`. By
    induction on `k`: the remainder after `k` tokens is the remainder after `k + 1` and token `k`. -/
theorem willBeTo_toks_range (q : PosShare TreeShare) (Wt : ℕ → Finset (Idx ℓ)) (k : ℕ) (W₀ : Finset (Idx ℓ)) :
    (willBeTo emb ℓ I q f g (W₀ ∪ (Finset.range k).biUnion Wt) : sProp 𝕄)
      ⊣⊢ iprop(willBeTo emb ℓ I (shareDrop q k) f g W₀
            ∗ bigSep (Finset.range k) (fun i => willBeTo emb ℓ I (shareTokN q i) f g (Wt i))) := by
  induction k generalizing W₀ with
  | zero =>
    rw [Finset.range_zero, Finset.biUnion_empty, Finset.union_empty, BI.bigSep_empty]
    exact ⟨sep_emp.2, sep_emp.1⟩
  | succ k ih =>
    have hs : (willBeTo emb ℓ I (shareDrop q k) f g (W₀ ∪ Wt k) : sProp 𝕄)
        ⊣⊢ iprop(willBeTo emb ℓ I (shareDrop q (k + 1)) f g W₀ ∗ willBeTo emb ℓ I (shareTokN q k) f g (Wt k)) :=
      willBeTo_share (PosShare.mem_left_op_right _) W₀ (Wt k)
    have hb : bigSep (Finset.range (k + 1)) (fun i => (willBeTo emb ℓ I (shareTokN q i) f g (Wt i) : sProp 𝕄))
        = iprop(willBeTo emb ℓ I (shareTokN q k) f g (Wt k)
            ∗ bigSep (Finset.range k) (fun i => willBeTo emb ℓ I (shareTokN q i) f g (Wt i))) := by
      rw [Finset.range_add_one, BI.bigSep_insert Finset.notMem_range_self]; rfl
    have hu : W₀ ∪ (Finset.range (k + 1)).biUnion Wt = (W₀ ∪ Wt k) ∪ (Finset.range k).biUnion Wt := by
      rw [Finset.range_add_one, Finset.biUnion_insert, Finset.union_assoc]
    rw [hb, hu]
    constructor
    · refine (ih (W₀ ∪ Wt k)).1.trans ((sep_mono_left hs.1).trans ?_)
      iintro ⟨⟨Hd, Ht⟩, Hts⟩
      isplitl [Hd]; · iexact Hd
      isplitl [Ht] <;> iassumption
    · refine Entails.trans ?_ ((sep_mono_left hs.2).trans (ih (W₀ ∪ Wt k)).2)
      iintro ⟨Hd, Ht, Hts⟩
      isplitl [Hd Ht]; · isplitl [Hd] <;> iassumption
      iexact Hts

/-- The same over `Fin n`: the assertion at share `q` marked on `W₀` and on the union of the `Wt i` is the
    remainder of `q` after `n` tokens marked on `W₀` together with one token per `i : Fin n` marked on `Wt i`. -/
theorem willBeTo_toks (q : PosShare TreeShare) (n : ℕ) (W₀ : Finset (Idx ℓ)) (Wt : Fin n → Finset (Idx ℓ)) :
    (willBeTo emb ℓ I q f g (W₀ ∪ Finset.univ.biUnion Wt) : sProp 𝕄)
      ⊣⊢ iprop(willBeTo emb ℓ I (shareDrop q n) f g W₀
            ∗ bigSep Finset.univ (fun i : Fin n => willBeTo emb ℓ I (shareTok q n i) f g (Wt i))) := by
  let Wt' : ℕ → Finset (Idx ℓ) := fun i => if h : i < n then Wt ⟨i, h⟩ else ∅
  have hW : ∀ i : Fin n, Wt' i.val = Wt i := fun i => by simp [Wt', i.isLt]
  have hbig : bigSep Finset.univ (fun i : Fin n => (willBeTo emb ℓ I (shareTok q n i) f g (Wt i) : sProp 𝕄))
      = bigSep (Finset.range n) (fun i => willBeTo emb ℓ I (shareTokN q i) f g (Wt' i)) := by
    rw [← Nat.Iio_eq_range, ← Fin.map_valEmbedding_univ, BI.bigSep_map]
    exact BI.bigSep_congr fun i _ => by rw [Fin.valEmbedding_apply, hW i]
  have hun : Finset.univ.biUnion Wt = (Finset.range n).biUnion Wt' := by
    ext x
    simp only [Finset.mem_biUnion, Finset.mem_univ, true_and, Finset.mem_range]
    constructor
    · rintro ⟨i, hi⟩; exact ⟨i.val, i.isLt, by rw [hW i]; exact hi⟩
    · rintro ⟨i, hi, hx⟩; exact ⟨⟨i, hi⟩, by rw [← hW ⟨i, hi⟩]; exact hx⟩
  rw [hbig, hun]
  exact willBeTo_toks_range q Wt' n W₀

/-- Split: an assertion at share `q` with nothing marked is the remainder of `q` after `n` tokens and the `n`
    tokens, nothing marked on any. -/
theorem willBeTo_toks_split (q : PosShare TreeShare) (n : ℕ) :
    (willBeTo emb ℓ I q f g ∅ : sProp 𝕄)
      ⊢ iprop(willBeTo emb ℓ I (shareDrop q n) f g ∅
            ∗ bigSep Finset.univ (fun i : Fin n => willBeTo emb ℓ I (shareTok q n i) f g ∅)) := by
  have hE : (∅ : Finset (Idx ℓ)) ∪ Finset.univ.biUnion (fun _ : Fin n => (∅ : Finset (Idx ℓ))) = ∅ := by
    ext x; simp
  have h := (willBeTo_toks (Ix := Ix) (Name := Name) (Lvl := Lvl) (emb := emb) (ℓ := ℓ) (I := I) (f := f) (g := g) q n
    (∅ : Finset (Idx ℓ)) (fun _ : Fin n => (∅ : Finset (Idx ℓ)))).1
  rwa [hE] at h

/-- Join: the remainder marked on `W₀` and the `n` tokens, token `i` marked on `Wt i`, are the assertion at
    share `q` marked on `W₀` and on every `Wt i`: an element some holder marked is marked. -/
theorem willBeTo_toks_join (q : PosShare TreeShare) (n : ℕ) (W₀ : Finset (Idx ℓ)) (Wt : Fin n → Finset (Idx ℓ)) :
    iprop(willBeTo emb ℓ I (shareDrop q n) f g W₀
          ∗ bigSep Finset.univ (fun i : Fin n => willBeTo emb ℓ I (shareTok q n i) f g (Wt i)))
      ⊢ (willBeTo emb ℓ I q f g (W₀ ∪ Finset.univ.biUnion Wt) : sProp 𝕄) :=
  (willBeTo_toks q n W₀ Wt).2

end Shares

end Cert.WriteModeCopy

end
-- ==== Proof.SplitKI.lean ====
/-
  The dealing of a holder's part of the three arrays among sub-holders, by shares.

  A holder's part at share q is the same as the remainder of q after n tokens together with the n tokens' parts: the
  two arrays that are only read split as read shares, and the output, held in write mode, splits with every piece's
  marks its own, the whole marked on their union. The device's part is dealt so to the two cores, and a core's part
  to its sixteen workers; on the way back the marks are the union of everything the workers wrote.
-/
import proofs.«216119_g70222715290213_cont_sun_c4_40_39_alg».proof.Proof.CommonKI
import proofs.«216119_g70222715290213_cont_sun_c4_40_39_alg».proof.Proof.LibWriteModeCopy

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU F) ℕ

variable [FloatOps F] (m : (ℓ : Loc nD τ sig) → Buf (Elt F) ℓ)

/-! ## Unions indexed by the numbers below n -/

/-- A union over `Fin n` of sets given by the index's value is the union over the numbers below `n`. -/
theorem biUnion_fin_range {α : Type} [DecidableEq α] (n : ℕ) (G : ℕ → Finset α) :
    Finset.univ.biUnion (fun i : Fin n => G i.val) = (Finset.range n).biUnion G := by
  ext x
  simp only [Finset.mem_biUnion, Finset.mem_univ, true_and, Finset.mem_range]
  constructor
  · rintro ⟨i, hi⟩; exact ⟨i.val, i.isLt, hi⟩
  · rintro ⟨i, hi, hx⟩; exact ⟨⟨i, hi⟩, hx⟩

/-! ## A part, its remainder and its tokens -/

/-- A part at share `q`, the output marked on `W₀` and on every `Wt i`, is the part at the remainder of `q` after
    `n` tokens marked on `W₀` together with the part at each token, token `i`'s marked on `Wt i`: the read shares of the
    two read-only arrays split along the tokens, and so does the write-mode share of the output, marks joining. -/
theorem part_toks (d : Dev nD) (q : PosShare TreeShare) (n : ℕ) (W₀ : Finset (Idx (outLoc d)))
    (Wt : Fin n → Finset (Idx (outLoc d))) :
    (part m d q (W₀ ∪ Finset.univ.biUnion Wt) : sProp 𝕄)
      ⊣⊢ iprop(part m d (shareDrop q n) W₀ ∗ bigSep Finset.univ fun i : Fin n => part m d (shareTok q n i) (Wt i)) := by
  unfold part
  rw [bigSep_sep', bigSep_sep']
  have h1 : (inLoc d ↦{q} inV m d : sProp 𝕄)
      ⊣⊢ iprop((inLoc d ↦{shareDrop q n} inV m d) ∗ bigSep Finset.univ (fun i : Fin n => inLoc d ↦{shareTok q n i} inV m d)) :=
    Transfers.pointsTo_toks q n
  have h2 : (tbLoc d ↦{q} tbV m d : sProp 𝕄)
      ⊣⊢ iprop((tbLoc d ↦{shareDrop q n} tbV m d) ∗ bigSep Finset.univ (fun i : Fin n => tbLoc d ↦{shareTok q n i} tbV m d)) :=
    Transfers.pointsTo_toks q n
  have h3 : (willBeTo (wmE (F := F)) (outLoc d) Finset.univ q (m (outLoc d)) (fun i => some (tgt m d i))
        (W₀ ∪ Finset.univ.biUnion Wt) : sProp 𝕄)
      ⊣⊢ iprop(willBeTo (wmE (F := F)) (outLoc d) Finset.univ (shareDrop q n) (m (outLoc d)) (fun i => some (tgt m d i)) W₀
          ∗ bigSep Finset.univ (fun i : Fin n =>
              willBeTo (wmE (F := F)) (outLoc d) Finset.univ (shareTok q n i) (m (outLoc d)) (fun i => some (tgt m d i)) (Wt i))) :=
    Cert.WriteModeCopy.willBeTo_toks q n W₀ Wt
  constructor
  · iintro ⟨Hi, Ht, Hw⟩
    ihave Hi := h1.1 $$ Hi
    ihave Ht := h2.1 $$ Ht
    ihave Hw := h3.1 $$ Hw
    icases Hi with ⟨Hi0, Hi⟩
    icases Ht with ⟨Ht0, Ht⟩
    icases Hw with ⟨Hw0, Hw⟩
    isplitl [Hi0 Ht0 Hw0]
    · isplitl [Hi0]; · iexact Hi0
      isplitl [Ht0] <;> iassumption
    · isplitl [Hi]; · iexact Hi
      isplitl [Ht] <;> iassumption
  · iintro ⟨⟨Hi0, Ht0, Hw0⟩, Hi, Ht, Hw⟩
    isplitl [Hi0 Hi]
    · iapply h1.2; isplitl [Hi0] <;> iassumption
    isplitl [Ht0 Ht]
    · iapply h2.2; isplitl [Ht0] <;> iassumption
    · iapply h3.2; isplitl [Hw0] <;> iassumption

/-- With nothing marked: a part is its remainder and its tokens' parts. -/
theorem part_toks_split (d : Dev nD) (q : PosShare TreeShare) (n : ℕ) :
    (part m d q ∅ : sProp 𝕄)
      ⊢ iprop(part m d (shareDrop q n) ∅ ∗ bigSep Finset.univ fun i : Fin n => part m d (shareTok q n i) ∅) := by
  have hE : (∅ : Finset (Idx (outLoc d))) ∪ Finset.univ.biUnion (fun _ : Fin n => (∅ : Finset (Idx (outLoc d)))) = ∅ := by
    ext x; simp
  have h := (part_toks m d q n ∅ (fun _ : Fin n => ∅)).1
  rwa [hE] at h

/-- The remainder, nothing marked, and the tokens' parts, token `i`'s marked on `G i`, join to the part marked on
    the union of the `G i` over the numbers below `n`. -/
theorem part_toks_join (d : Dev nD) (q : PosShare TreeShare) (n : ℕ) (G : ℕ → Finset (Idx (outLoc d))) :
    iprop(part m d (shareDrop q n) ∅ ∗ bigSep Finset.univ fun i : Fin n => part m d (shareTok q n i) (G i.val))
      ⊢ (part m d q ((Finset.range n).biUnion G) : sProp 𝕄) := by
  have h := (part_toks m d q n ∅ (fun i : Fin n => G i.val)).2
  rwa [Finset.empty_union, biUnion_fin_range] at h

/-! ## A core's part among its sixteen workers -/

theorem nSub_zero : (K (F := F)).nSub 0 = 16 := rfl
theorem nCore_zero : (K (F := F)).nCore 0 = 2 := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core deals its part to its sixteen workers, a token of its share each, and keeps the remainder; when the
    workers' parts come back, each marked on its 25 rows, they join with the remainder to the core's part marked on
    all the workers' rows. -/
theorem vecSplit : (K (F := F)).VecSplit' (P m) 0 := by
  intro d c
  show part m d (shC c.val) ∅ ⊢ |={Set.univ}=> iprop(
      (bigSep Finset.univ fun i : Fin ((K (F := F)).nSub 0) =>
        part m d (shareTok (shC c.val) 16 (Fin.cast nSub_zero i)) ∅)
      ∗ ((bigSep Finset.univ fun i : Fin ((K (F := F)).nSub 0) =>
          part m d (shareTok (shC c.val) 16 (Fin.cast nSub_zero i)) (rowsUpTo d (wOf c.val (Fin.cast nSub_zero i).val) 25))
          -∗ part m d (shC c.val) ((Finset.range 16).biUnion fun i => rowsUpTo d (wOf c.val i) 25)))
  rw [bigSep_tasks (F := F) (fun i : Fin 16 => part m d (shareTok (shC c.val) 16 i) ∅),
    bigSep_tasks (F := F) (fun i : Fin 16 => part m d (shareTok (shC c.val) 16 i) (rowsUpTo d (wOf c.val i.val) 25))]
  iintro H
  ihave H := (part_toks_split m d (shC c.val) 16) $$ H
  icases H with ⟨Hr, Hg⟩
  imodintro
  isplitl [Hg]; · iexact Hg
  iintro Htd
  iapply (part_toks_join m d (shC c.val) 16 (fun i => rowsUpTo d (wOf c.val i) 25))
  isplitl [Hr]; · iexact Hr
  iexact Htd

/-! ## The device's part among its two cores -/

/-- The device's part, nothing marked, is dealt to the two cores, a token of the full share each, the remainder
    kept. -/
theorem tc_split (d : Dev nD) :
    (part m d fullShare ∅ : sProp 𝕄)
      ⊢ iprop(part m d (shareDrop fullShare 2) ∅ ∗ bigSep Finset.univ fun c : Fin ((K (F := F)).nCore 0) => (P m).st 0 d c) := by
  show (part m d fullShare ∅ : sProp 𝕄)
      ⊢ iprop(part m d (shareDrop fullShare 2) ∅
          ∗ bigSep Finset.univ fun c : Fin ((K (F := F)).nCore 0) => part m d (shareTok fullShare 2 (Fin.cast nCore_zero c)) ∅)
  rw [bigSep_cores (F := F) (fun c : Fin 2 => part m d (shareTok fullShare 2 c) ∅)]
  exact part_toks_split m d fullShare 2

/-- The remainder and the two cores' parts, each marked on all its workers' rows, join to the device's part marked
    on every worker's rows. -/
theorem tc_join (d : Dev nD) :
    iprop(part m d (shareDrop fullShare 2) ∅ ∗ bigSep Finset.univ fun c : Fin ((K (F := F)).nCore 0) => (P m).dn 0 d c)
      ⊢ (part m d fullShare ((Finset.range 2).biUnion fun c => (Finset.range 16).biUnion fun i => rowsUpTo d (wOf c i) 25) : sProp 𝕄) := by
  show iprop(part m d (shareDrop fullShare 2) ∅
        ∗ bigSep Finset.univ fun c : Fin ((K (F := F)).nCore 0) =>
            part m d (shareTok fullShare 2 (Fin.cast nCore_zero c))
              ((Finset.range 16).biUnion fun i => rowsUpTo d (wOf (Fin.cast nCore_zero c).val i) 25))
      ⊢ (part m d fullShare ((Finset.range 2).biUnion fun c => (Finset.range 16).biUnion fun i => rowsUpTo d (wOf c i) 25) : sProp 𝕄)
  rw [bigSep_cores (F := F) (fun c : Fin 2 => part m d (shareTok fullShare 2 c)
    ((Finset.range 16).biUnion fun i => rowsUpTo d (wOf c.val i) 25))]
  exact part_toks_join m d fullShare 2 (fun c => (Finset.range 16).biUnion fun i => rowsUpTo d (wOf c i) 25)

end Cert.Proof.KI

end
-- ==== Proof.OblKI.lean ====
/-
  A worker's obligation to the launch, from the body's triple.

  The launch asks, of vector subcore i of core c, a triple over the program's whole table of bodies: from the worker's
  part of the three arrays with nothing marked, its own buffers and semaphores, to its part with its 25 rows marked.
  The table's entry for a vector subcore is the body at that subcore's grid coordinates, so the obligation is the
  body's triple there, its post weakened by one more allowed kind of recorded wait.
-/
import proofs.«216119_g70222715290213_cont_sun_c4_40_39_alg».proof.Proof.CommonKI
import proofs.«216119_g70222715290213_cont_sun_c4_40_39_alg».proof.Proof.SplitKI
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU F) ℕ

/-! ## A grid point's thread, and the body's operands -/

/-- The core and the subcore a grid point names, and their thread on device d. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The three arrays in HBM, whole: the input's corner, the padded table, the output. -/
abbrev inW : Memref sig .scVector .hbm S8x128x12288 .f32 := Memref.whole main_v8_scv
abbrev tbW : Memref sig .scVector .hbm S12800 .i32 := Memref.whole main_v6_scv
abbrev outW : Memref sig .scVector .hbm S784x16x1536 .f32 := Memref.whole main_v9_scv
/-- The worker's own copy of the table and its two slots, whole. -/
abbrev tabS : Memref sig .scVector .vmem S12800 .i32 := Memref.whole cc0_scratch0
abbrev bufS : Memref sig .scVector .vmem S2x16x1536 .f32 := Memref.whole cc0_scratch1

/-- The grid point (c, s). -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F] (m : (ℓ : Loc nD τ sig) → Buf (Elt F) ℓ)

/-- The body's triple at every grid point: from the worker's part with nothing marked, its buffers and semaphores and
    what it owes, the body runs to its part with its 25 rows marked, the buffers and semaphores back, and no new
    recorded wait but ones at no level. -/
def BodySpec : Prop :=
  ∀ (d : Dev nD) (L : grid0.Coords) (O : CellTallies nD τ sig (HIx 1)) (W : Waits sig (HIx 1)), (∀ g, O g none = 0) →
    iprop(levAts (K (F := F)).L (K (F := F)).lev ∗ (∃ ι, wmInv (Ix := HIx 1) (wmE (F := F)) ι) ∗ part m d (shT (L 0).val (L 1).val) ∅
        ∗ scopedBufs (thr d L) ∗ scopedSems0 (thr d L) ∗ owes (thr d L) O W)
      ⊢ wp frame (wpE (defs₀ (F := F)) 𝒱₀ (thr d L) none) Set.univ
          (cc0_k L inW (Memref.isWhole_whole _) tbW (Memref.isWhole_whole _) outW (Memref.isWhole_whole _)
            tabS (Memref.isWhole_whole _) bufS (Memref.isWhole_whole _)
            cc0_scratch2 cc0_scratch3 cc0_scoped0 cc0_scoped1 cc0_scoped2 cc0_scoped3)
          fun _ => iprop(part m d (shT (L 0).val (L 1).val) (rowsUpTo d (wOf (L 0).val (L 1).val) 25)
            ∗ scopedBufs (thr d L) ∗ scopedSems0 (thr d L)
            ∗ ∃ W', ⌜∀ p ∈ W', p ∈ W ∨ p.2 = none⌝ ∗ owes (thr d L) O W')

/-! ## The launch's obligation -/

/-- The table's entry for a vector subcore is the body at the subcore's grid point. -/
theorem defs₀_vector (c : Fin τ.nSC) (s : Fin τ.nSub) :
    defs₀ (F := F) (.scVector c s) 0 ()
      = SparseCore.onTile hcore0 hsub0 (fun c s => cc0_k (coordsV c s)
          inW (Memref.isWhole_whole _) tbW (Memref.isWhole_whole _) outW (Memref.isWhole_whole _)
          tabS (Memref.isWhole_whole _) bufS (Memref.isWhole_whole _)
          cc0_scratch2 cc0_scratch3 cc0_scoped0 cc0_scoped1 cc0_scoped2 cc0_scoped3) ⟨⟩ c s := rfl

omit [FloatOps F] in
/-- A post that allows fewer kinds of recorded wait gives one that allows more. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation of the vector-subcore kernel, from the body's triple. -/
theorem tileObl (hr : ∀ d : Dev nD, Cert.Spec.InRange (m (a2Loc d))) (hbody : BodySpec (F := F) m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KI

end
-- ==== Proof.CommonKB.lean ====
/-
  The set-up shared by the kernel's body and its launch.

  Thirty-two vector subcores (two cores of sixteen) run the same body; subcore s of core c is worker w = 2·s + c and
  moves table rows w, 32 + w, …, 768 + w (25 of them) — row j's 16 × 1536 block of the input's corner into one of two
  slots of its own memory, then out to output row min(32·j + w, 783). Rows 784 … 799 of the padded table repeat row
  783, so the workers 15 … 31 all write output row 783 at their last step, with the same numbers. The output array is
  therefore held in write mode: every element has the gathered value as its agreed target, each worker holds a share of
  the whole array and marks the rows it has written; the two arrays that are only read (the corner and the padded
  table) are dealt out as read shares.
-/
import proofs.«216119_g70222715290213_cont_sun_c4_40_39_alg».proof.Defs
import proofs.«216119_g70222715290213_cont_sun_c4_40_39_alg».proof.Proof.Gen.Kernel
import proofs.«216119_g70222715290213_cont_sun_c4_40_39_alg».proof.Proof.Gen.Kernel.Skeleton
import proofs.«216119_g70222715290213_cont_sun_c4_40_39_alg».proof.Proof.Spec
import Idealize.ShloMosaic.Lib.SparseCore.Launch
import Idealize.ShloMosaic.Lib.StableHlo.Run
import Idealize.ShloMosaic.Lib.Pipeline.Kit
import Idealize.ShloMosaic.Lib.WriteMode
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, write mode, the transfers' counters -/

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL

/-- Write mode's algebra inside the certificate's: the middle factor. -/
abbrev wmE : UEmb (UW F) (UU F) := (UEmb.inl : UEmb (UW F) (UW F × Counters)).trans UEmb.inr

/-! ## The arrays and their contents -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
/-- The input's corner, each pixel row flattened: what the workers read blocks of. -/
abbrev inLoc (d : Dev nD) : Loc nD τ sig := (SparseCore.T d).loc main_v8
/-- The padded table, flattened: what every worker copies whole. -/
abbrev tbLoc (d : Dev nD) : Loc nD τ sig := (SparseCore.T d).loc main_v6
/-- The output, as rows of 1536. -/
abbrev outLoc (d : Dev nD) : Loc nD τ sig := (SparseCore.T d).loc main_v9
abbrev resLoc (d : Dev nD) : Loc nD τ sig := (SparseCore.T d).loc main_v10

/-- The gathered patches in the rows layout: every output element's target. -/
def tgt (d : Dev nD) : Buf (Elt F) (outLoc d) := Cert.Spec.gatherRows (m (a0Loc d)) (m (a2Loc d))

/-! ## @main's host operations, before and after the call -/

variable [FloatOps F]

open Idealize.ShloMosaic.StableHlo in
/-- The eleven host operations before the call: the table padded to 800 rows of 16 and flattened, the input's
    corner with each pixel row flattened. -/
abbrev opsPre : List (HloOp τ sig (Elt F)) :=
  [ StableHlo.unary main_arg2 main_v0 ((extractStridedSlice S1x3 ![783, 0] · slices_S784x3_S1x3_783_0) : (⟨S784x3, .i32⟩ : BufTy).Contents (Elt F) → (⟨S1x3, .i32⟩ : BufTy).Contents (Elt F)),
    StableHlo.reshape main_v0 main_v1 rfl shapeCasts_S1x3_S1x1x1x3,
    StableHlo.unary main_v1 main_v2 (broadcastInDim S16x1x1x3 ![0, 1, 2, 3] bcast_S1x1x1x3_S16x1x1x3_0_1_2_3 : (⟨S1x1x1x3, .i32⟩ : BufTy).Contents (Elt F) → (⟨S16x1x1x3, .i32⟩ : BufTy).Contents (Elt F)),
    StableHlo.reshape main_v2 main_v3 rfl shapeCasts_S16x1x1x3_S16x3,
    StableHlo.binary main_arg2 main_v3 main_v4 ((fun a b => concatenate S800x3 0 [⟨S784x3, a⟩, ⟨S16x3, b⟩] concatenates_S784x3_S16x3_S800x3_d0) : (⟨S784x3, .i32⟩ : BufTy).Contents (Elt F) → (⟨S16x3, .i32⟩ : BufTy).Contents (Elt F) → (⟨S800x3, .i32⟩ : BufTy).Contents (Elt F)),
    StableHlo.nullary main_c (constantI S_ 32 0#32),
    StableHlo.TRef.unary (.of main_c : StableHlo.TRef sig ⟨S_, .i32⟩) main_call0.v0 id,
    StableHlo.TRef.binary (.of main_v4 : StableHlo.TRef sig ⟨S800x3, .i32⟩) main_call0.v0 main_call0.v1 (fun x v => pad S800x16 ![0, 0] ![0, 13] ![0, 0] x v pads_S800x3_S800x16_000_0130 h_S_),
    StableHlo.reshape main_v5 main_v6 rfl shapeCasts_S800x16_S12800,
    StableHlo.unary main_arg0 main_v7 ((extractStridedSlice S8x128x128x96 ![0, 0, 0, 0] · slices_S8x224x224x96_S8x128x128x96_0_0_0_0) : (⟨S8x224x224x96, .f32⟩ : BufTy).Contents (Elt F) → (⟨S8x128x128x96, .f32⟩ : BufTy).Contents (Elt F)),
    StableHlo.reshape main_v7 main_v8 rfl shapeCasts_S8x128x128x96_S8x128x12288 ]

open Idealize.ShloMosaic.StableHlo in
/-- The one after it: the output's rows of 1536 reshaped to 16 pixels of 96 channels. -/
abbrev opsPost : List (HloOp τ sig (Elt F)) :=
  [ StableHlo.reshape main_v9 main_v10 rfl shapeCasts_S784x16x1536_S784x16x16x96 ]

open Idealize.ShloMosaic.StableHlo in
theorem main_eq (d : Dev nD) :
    main (F := F) d = (seq (opsPre (F := F)) >>= fun _ => ((sc (F := F)).run d 0 >>= fun _ => seq (opsPost (F := F)))) := rfl

/-! ## Contents: at launch, and after the host operations before the call -/

open Idealize.ShloMosaic.StableHlo in
def V0 (d : Dev nD) : Valuation τ sig (Elt F) := fun b => m (d, b)
open Idealize.ShloMosaic.StableHlo in
def V1 (d : Dev nD) : Valuation τ sig (Elt F) := after (opsPre (F := F)) (V0 m d)

/-- The corner's and the padded table's contents when the call starts. -/
abbrev inV (d : Dev nD) : Buf (Elt F) (inLoc d) := V1 m d (Proc.devRef .tc main_v8)
abbrev tbV (d : Dev nD) : Buf (Elt F) (tbLoc d) := V1 m d (Proc.devRef .tc main_v6)

/-! ## Output rows, and which a worker writes -/

/-- The elements of output row r. -/
def rowSet (d : Dev nD) (r : ℕ) : Finset (Idx (outLoc d)) := Finset.univ.filter fun i : S784x16x1536.Idx => (i 0).val = r

/-- Worker w's first n steps write the rows min(32·j + w, 783), j < n. -/
def rowsUpTo (d : Dev nD) (w n : ℕ) : Finset (Idx (outLoc d)) := (Finset.range n).biUnion fun j => rowSet d (min (32 * j + w) 783)

/-- Subcore i of core c is worker 2·i + c. -/
abbrev wOf (c i : ℕ) : ℕ := 2 * i + c

/-! ## Shares, by number: a core's of the whole, a worker's of its core's -/

abbrev shC (c : ℕ) : PosShare TreeShare := Transfers.shareTokN fullShare c
abbrev shT (c i : ℕ) : PosShare TreeShare := Transfers.shareTokN (shC c) i

/-- What a holder at share q has of the three arrays, the output rows W marked: read shares of the corner and of the
    table at their contents, and its share of the whole output in write mode — every element's old value the launch
    contents, its target the gathered value. -/
def part (d : Dev nD) (q : PosShare TreeShare) (W : Finset (Idx (outLoc d))) : sProp 𝕄 :=
  iprop((inLoc d ↦{q} inV m d) ∗ (tbLoc d ↦{q} tbV m d)
    ∗ willBeTo (wmE (F := F)) (outLoc d) Finset.univ q (m (outLoc d)) (fun i => some (tgt m d i)) W)

instance part_storable (d : Dev nD) (q : PosShare TreeShare) (W : Finset (Idx (outLoc d))) :
    BI.Storable (upEmb : UEmb _ 𝕄) (part m d q W) := by unfold part; infer_instance

/-- What the handshakes carry: a core its part with nothing marked, and back with its workers' rows marked; a worker
    its part of its core's, and back with its 25 rows marked. Every thread knows the write-mode invariant. -/
def P : (K (F := F)).Pay (nD := nD) (Val := Elt F) (Name := ℕ) (U := UU F) where
  st := fun _ d c => part m d (shC c.val) ∅
  dn := fun _ d c => part m d (shC c.val) ((Finset.range 16).biUnion fun i => rowsUpTo d (wOf c.val i) 25)
  go := fun _ d c i => part m d (shT c.val i.val) ∅
  td := fun _ d c i => part m d (shT c.val i.val) (rowsUpTo d (wOf c.val i.val) 25)
  x := fun _ _ => iprop(∃ ι, wmInv (Ix := HIx 1) (wmE (F := F)) ι)

instance P_storable : (P (F := F) m).IsStorable where
  st _ d c := by unfold P; infer_instance
  dn _ d c := by unfold P; infer_instance
  go _ _ _ _ := by unfold P; infer_instance
  td _ _ _ _ := by unfold P; infer_instance

end Cert.Proof.KB

end
-- ==== Proof.SplitKB.lean ====
/-
  The dealing of a holder's part of the three arrays among sub-holders, by shares.

  A holder's part at share q is the same as the remainder of q after n tokens together with the n tokens' parts: the
  two arrays that are only read split as read shares, and the output, held in write mode, splits with every piece's
  marks its own, the whole marked on their union. The device's part is dealt so to the two cores, and a core's part
  to its sixteen workers; on the way back the marks are the union of everything the workers wrote.
-/
import proofs.«216119_g70222715290213_cont_sun_c4_40_39_alg».proof.Proof.CommonKB
import proofs.«216119_g70222715290213_cont_sun_c4_40_39_alg».proof.Proof.LibWriteModeCopy

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU F) ℕ

variable [FloatOps F] (m : (ℓ : Loc nD τ sig) → Buf (Elt F) ℓ)

/-! ## Unions indexed by the numbers below n -/

/-- A union over `Fin n` of sets given by the index's value is the union over the numbers below `n`. -/
theorem biUnion_fin_range {α : Type} [DecidableEq α] (n : ℕ) (G : ℕ → Finset α) :
    Finset.univ.biUnion (fun i : Fin n => G i.val) = (Finset.range n).biUnion G := by
  ext x
  simp only [Finset.mem_biUnion, Finset.mem_univ, true_and, Finset.mem_range]
  constructor
  · rintro ⟨i, hi⟩; exact ⟨i.val, i.isLt, hi⟩
  · rintro ⟨i, hi, hx⟩; exact ⟨⟨i, hi⟩, hx⟩

/-! ## A part, its remainder and its tokens -/

/-- A part at share `q`, the output marked on `W₀` and on every `Wt i`, is the part at the remainder of `q` after
    `n` tokens marked on `W₀` together with the part at each token, token `i`'s marked on `Wt i`: the read shares of the
    two read-only arrays split along the tokens, and so does the write-mode share of the output, marks joining. -/
theorem part_toks (d : Dev nD) (q : PosShare TreeShare) (n : ℕ) (W₀ : Finset (Idx (outLoc d)))
    (Wt : Fin n → Finset (Idx (outLoc d))) :
    (part m d q (W₀ ∪ Finset.univ.biUnion Wt) : sProp 𝕄)
      ⊣⊢ iprop(part m d (shareDrop q n) W₀ ∗ bigSep Finset.univ fun i : Fin n => part m d (shareTok q n i) (Wt i)) := by
  unfold part
  rw [bigSep_sep', bigSep_sep']
  have h1 : (inLoc d ↦{q} inV m d : sProp 𝕄)
      ⊣⊢ iprop((inLoc d ↦{shareDrop q n} inV m d) ∗ bigSep Finset.univ (fun i : Fin n => inLoc d ↦{shareTok q n i} inV m d)) :=
    Transfers.pointsTo_toks q n
  have h2 : (tbLoc d ↦{q} tbV m d : sProp 𝕄)
      ⊣⊢ iprop((tbLoc d ↦{shareDrop q n} tbV m d) ∗ bigSep Finset.univ (fun i : Fin n => tbLoc d ↦{shareTok q n i} tbV m d)) :=
    Transfers.pointsTo_toks q n
  have h3 : (willBeTo (wmE (F := F)) (outLoc d) Finset.univ q (m (outLoc d)) (fun i => some (tgt m d i))
        (W₀ ∪ Finset.univ.biUnion Wt) : sProp 𝕄)
      ⊣⊢ iprop(willBeTo (wmE (F := F)) (outLoc d) Finset.univ (shareDrop q n) (m (outLoc d)) (fun i => some (tgt m d i)) W₀
          ∗ bigSep Finset.univ (fun i : Fin n =>
              willBeTo (wmE (F := F)) (outLoc d) Finset.univ (shareTok q n i) (m (outLoc d)) (fun i => some (tgt m d i)) (Wt i))) :=
    Cert.WriteModeCopy.willBeTo_toks q n W₀ Wt
  constructor
  · iintro ⟨Hi, Ht, Hw⟩
    ihave Hi := h1.1 $$ Hi
    ihave Ht := h2.1 $$ Ht
    ihave Hw := h3.1 $$ Hw
    icases Hi with ⟨Hi0, Hi⟩
    icases Ht with ⟨Ht0, Ht⟩
    icases Hw with ⟨Hw0, Hw⟩
    isplitl [Hi0 Ht0 Hw0]
    · isplitl [Hi0]; · iexact Hi0
      isplitl [Ht0] <;> iassumption
    · isplitl [Hi]; · iexact Hi
      isplitl [Ht] <;> iassumption
  · iintro ⟨⟨Hi0, Ht0, Hw0⟩, Hi, Ht, Hw⟩
    isplitl [Hi0 Hi]
    · iapply h1.2; isplitl [Hi0] <;> iassumption
    isplitl [Ht0 Ht]
    · iapply h2.2; isplitl [Ht0] <;> iassumption
    · iapply h3.2; isplitl [Hw0] <;> iassumption

/-- With nothing marked: a part is its remainder and its tokens' parts. -/
theorem part_toks_split (d : Dev nD) (q : PosShare TreeShare) (n : ℕ) :
    (part m d q ∅ : sProp 𝕄)
      ⊢ iprop(part m d (shareDrop q n) ∅ ∗ bigSep Finset.univ fun i : Fin n => part m d (shareTok q n i) ∅) := by
  have hE : (∅ : Finset (Idx (outLoc d))) ∪ Finset.univ.biUnion (fun _ : Fin n => (∅ : Finset (Idx (outLoc d)))) = ∅ := by
    ext x; simp
  have h := (part_toks m d q n ∅ (fun _ : Fin n => ∅)).1
  rwa [hE] at h

/-- The remainder, nothing marked, and the tokens' parts, token `i`'s marked on `G i`, join to the part marked on
    the union of the `G i` over the numbers below `n`. -/
theorem part_toks_join (d : Dev nD) (q : PosShare TreeShare) (n : ℕ) (G : ℕ → Finset (Idx (outLoc d))) :
    iprop(part m d (shareDrop q n) ∅ ∗ bigSep Finset.univ fun i : Fin n => part m d (shareTok q n i) (G i.val))
      ⊢ (part m d q ((Finset.range n).biUnion G) : sProp 𝕄) := by
  have h := (part_toks m d q n ∅ (fun i : Fin n => G i.val)).2
  rwa [Finset.empty_union, biUnion_fin_range] at h

/-! ## A core's part among its sixteen workers -/

theorem nSub_zero : (K (F := F)).nSub 0 = 16 := rfl
theorem nCore_zero : (K (F := F)).nCore 0 = 2 := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core deals its part to its sixteen workers, a token of its share each, and keeps the remainder; when the
    workers' parts come back, each marked on its 25 rows, they join with the remainder to the core's part marked on
    all the workers' rows. -/
theorem vecSplit : (K (F := F)).VecSplit' (P m) 0 := by
  intro d c
  show part m d (shC c.val) ∅ ⊢ |={Set.univ}=> iprop(
      (bigSep Finset.univ fun i : Fin ((K (F := F)).nSub 0) =>
        part m d (shareTok (shC c.val) 16 (Fin.cast nSub_zero i)) ∅)
      ∗ ((bigSep Finset.univ fun i : Fin ((K (F := F)).nSub 0) =>
          part m d (shareTok (shC c.val) 16 (Fin.cast nSub_zero i)) (rowsUpTo d (wOf c.val (Fin.cast nSub_zero i).val) 25))
          -∗ part m d (shC c.val) ((Finset.range 16).biUnion fun i => rowsUpTo d (wOf c.val i) 25)))
  rw [bigSep_tasks (F := F) (fun i : Fin 16 => part m d (shareTok (shC c.val) 16 i) ∅),
    bigSep_tasks (F := F) (fun i : Fin 16 => part m d (shareTok (shC c.val) 16 i) (rowsUpTo d (wOf c.val i.val) 25))]
  iintro H
  ihave H := (part_toks_split m d (shC c.val) 16) $$ H
  icases H with ⟨Hr, Hg⟩
  imodintro
  isplitl [Hg]; · iexact Hg
  iintro Htd
  iapply (part_toks_join m d (shC c.val) 16 (fun i => rowsUpTo d (wOf c.val i) 25))
  isplitl [Hr]; · iexact Hr
  iexact Htd

/-! ## The device's part among its two cores -/

/-- The device's part, nothing marked, is dealt to the two cores, a token of the full share each, the remainder
    kept. -/
theorem tc_split (d : Dev nD) :
    (part m d fullShare ∅ : sProp 𝕄)
      ⊢ iprop(part m d (shareDrop fullShare 2) ∅ ∗ bigSep Finset.univ fun c : Fin ((K (F := F)).nCore 0) => (P m).st 0 d c) := by
  show (part m d fullShare ∅ : sProp 𝕄)
      ⊢ iprop(part m d (shareDrop fullShare 2) ∅
          ∗ bigSep Finset.univ fun c : Fin ((K (F := F)).nCore 0) => part m d (shareTok fullShare 2 (Fin.cast nCore_zero c)) ∅)
  rw [bigSep_cores (F := F) (fun c : Fin 2 => part m d (shareTok fullShare 2 c) ∅)]
  exact part_toks_split m d fullShare 2

/-- The remainder and the two cores' parts, each marked on all its workers' rows, join to the device's part marked
    on every worker's rows. -/
theorem tc_join (d : Dev nD) :
    iprop(part m d (shareDrop fullShare 2) ∅ ∗ bigSep Finset.univ fun c : Fin ((K (F := F)).nCore 0) => (P m).dn 0 d c)
      ⊢ (part m d fullShare ((Finset.range 2).biUnion fun c => (Finset.range 16).biUnion fun i => rowsUpTo d (wOf c i) 25) : sProp 𝕄) := by
  show iprop(part m d (shareDrop fullShare 2) ∅
        ∗ bigSep Finset.univ fun c : Fin ((K (F := F)).nCore 0) =>
            part m d (shareTok fullShare 2 (Fin.cast nCore_zero c))
              ((Finset.range 16).biUnion fun i => rowsUpTo d (wOf (Fin.cast nCore_zero c).val i) 25))
      ⊢ (part m d fullShare ((Finset.range 2).biUnion fun c => (Finset.range 16).biUnion fun i => rowsUpTo d (wOf c i) 25) : sProp 𝕄)
  rw [bigSep_cores (F := F) (fun c : Fin 2 => part m d (shareTok fullShare 2 c)
    ((Finset.range 16).biUnion fun i => rowsUpTo d (wOf c.val i) 25))]
  exact part_toks_join m d fullShare 2 (fun c => (Finset.range 16).biUnion fun i => rowsUpTo d (wOf c i) 25)

end Cert.Proof.KB

end
-- ==== Proof.OblKB.lean ====
/-
  A worker's obligation to the launch, from the body's triple.

  The launch asks, of vector subcore i of core c, a triple over the program's whole table of bodies: from the worker's
  part of the three arrays with nothing marked, its own buffers and semaphores, to its part with its 25 rows marked.
  The table's entry for a vector subcore is the body at that subcore's grid coordinates, so the obligation is the
  body's triple there, its post weakened by one more allowed kind of recorded wait.
-/
import proofs.«216119_g70222715290213_cont_sun_c4_40_39_alg».proof.Proof.CommonKB
import proofs.«216119_g70222715290213_cont_sun_c4_40_39_alg».proof.Proof.SplitKB
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU F) ℕ

/-! ## A grid point's thread, and the body's operands -/

/-- The core and the subcore a grid point names, and their thread on device d. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The three arrays in HBM, whole: the input's corner, the padded table, the output. -/
abbrev inW : Memref sig .scVector .hbm S8x128x12288 .f32 := Memref.whole main_v8_scv
abbrev tbW : Memref sig .scVector .hbm S12800 .i32 := Memref.whole main_v6_scv
abbrev outW : Memref sig .scVector .hbm S784x16x1536 .f32 := Memref.whole main_v9_scv
/-- The worker's own copy of the table and its two slots, whole. -/
abbrev tabS : Memref sig .scVector .vmem S12800 .i32 := Memref.whole cc0_scratch0
abbrev bufS : Memref sig .scVector .vmem S2x16x1536 .f32 := Memref.whole cc0_scratch1

/-- The grid point (c, s). -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F] (m : (ℓ : Loc nD τ sig) → Buf (Elt F) ℓ)

/-- The body's triple at every grid point: from the worker's part with nothing marked, its buffers and semaphores and
    what it owes, the body runs to its part with its 25 rows marked, the buffers and semaphores back, and no new
    recorded wait but ones at no level. -/
def BodySpec : Prop :=
  ∀ (d : Dev nD) (L : grid0.Coords) (O : CellTallies nD τ sig (HIx 1)) (W : Waits sig (HIx 1)), (∀ g, O g none = 0) →
    iprop(levAts (K (F := F)).L (K (F := F)).lev ∗ (∃ ι, wmInv (Ix := HIx 1) (wmE (F := F)) ι) ∗ part m d (shT (L 0).val (L 1).val) ∅
        ∗ scopedBufs (thr d L) ∗ scopedSems0 (thr d L) ∗ owes (thr d L) O W)
      ⊢ wp frame (wpE (defs₀ (F := F)) 𝒱₀ (thr d L) none) Set.univ
          (cc0_k L inW (Memref.isWhole_whole _) tbW (Memref.isWhole_whole _) outW (Memref.isWhole_whole _)
            tabS (Memref.isWhole_whole _) bufS (Memref.isWhole_whole _)
            cc0_scratch2 cc0_scratch3 cc0_scoped0 cc0_scoped1 cc0_scoped2 cc0_scoped3)
          fun _ => iprop(part m d (shT (L 0).val (L 1).val) (rowsUpTo d (wOf (L 0).val (L 1).val) 25)
            ∗ scopedBufs (thr d L) ∗ scopedSems0 (thr d L)
            ∗ ∃ W', ⌜∀ p ∈ W', p ∈ W ∨ p.2 = none⌝ ∗ owes (thr d L) O W')

/-! ## The launch's obligation -/

/-- The table's entry for a vector subcore is the body at the subcore's grid point. -/
theorem defs₀_vector (c : Fin τ.nSC) (s : Fin τ.nSub) :
    defs₀ (F := F) (.scVector c s) 0 ()
      = SparseCore.onTile hcore0 hsub0 (fun c s => cc0_k (coordsV c s)
          inW (Memref.isWhole_whole _) tbW (Memref.isWhole_whole _) outW (Memref.isWhole_whole _)
          tabS (Memref.isWhole_whole _) bufS (Memref.isWhole_whole _)
          cc0_scratch2 cc0_scratch3 cc0_scoped0 cc0_scoped1 cc0_scoped2 cc0_scoped3) ⟨⟩ c s := rfl

omit [FloatOps F] in
/-- A post that allows fewer kinds of recorded wait gives one that allows more. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation of the vector-subcore kernel, from the body's triple. -/
theorem tileObl (hr : ∀ d : Dev nD, Cert.Spec.InRange (m (a2Loc d))) (hbody : BodySpec (F := F) m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KB

end
-- ==== Proof.HostValue.lean ====
/-
  What the program's host operations compute, read at one index: the table padded to 800 rows of 16 columns and
  flattened, the input's 128 × 128 corner with each pixel row flattened, and the final reshape of the gathered rows.
  Pure functions of arrays; every shape side condition is a hypothesis.
-/
import Idealize.ShloMosaic.PureOps
import Idealize.ShloMosaic.Lib.ValueIdx
import Idealize.ShloMosaic.Lib.Pipeline.Value
import Idealize.ShloMosaic.Lib.KernelVsHost
import proofs.«216119_g70222715290213_cont_sun_c4_40_39_alg».proof.Proof.Spec

noncomputable section

namespace Cert.HostValue

open Idealize.ShloMosaic Idealize.ShloMosaic.ValueIdx

abbrev S8x224x224x96 : Shape := ⟨4, ![8, 224, 224, 96]⟩
abbrev S8x128x128x96 : Shape := ⟨4, ![8, 128, 128, 96]⟩
abbrev S8x128x12288 : Shape := ⟨3, ![8, 128, 12288]⟩
abbrev S784x16x1536 : Shape := ⟨3, ![784, 16, 1536]⟩
abbrev S784x16x16x96 : Shape := ⟨4, ![784, 16, 16, 96]⟩
abbrev S784x3 : Shape := ⟨2, ![784, 3]⟩
abbrev S1x3 : Shape := ⟨2, ![1, 3]⟩
abbrev S1x1x1x3 : Shape := ⟨4, ![1, 1, 1, 3]⟩
abbrev S16x1x1x3 : Shape := ⟨4, ![16, 1, 1, 3]⟩
abbrev S16x3 : Shape := ⟨2, ![16, 3]⟩
abbrev S800x3 : Shape := ⟨2, ![800, 3]⟩
abbrev S_ : Shape := ⟨0, ![]⟩
abbrev S800x16 : Shape := ⟨2, ![800, 16]⟩
abbrev S12800 : Shape := ⟨1, ![12800]⟩

/-! ## The input's corner, pixel rows flattened -/

section Corner
variable {F : FTy → Type}

/-- The input's first 128 rows and 128 columns of every image, each pixel row's 128 · 96 numbers in one axis. -/
def corner (x : FVec F S8x224x224x96 .f32)
    (hs : S8x224x224x96.Slices ![0, 0, 0, 0] S8x128x128x96)
    (hc : S8x128x128x96.ShapeCasts S8x128x12288) : FVec F S8x128x12288 .f32 :=
  shapeCast S8x128x12288 (extractStridedSlice S8x128x128x96 ![0, 0, 0, 0] x hs) hc

/-- The corner at (n, y, q) is the input at (n, y, b, ch) whenever q = 96·b + ch: position q of a flattened pixel
    row is channel q mod 96 of pixel q div 96. -/
theorem corner_apply_of_eq (x : FVec F S8x224x224x96 .f32)
    (hs : S8x224x224x96.Slices ![0, 0, 0, 0] S8x128x128x96)
    (hc : S8x128x128x96.ShapeCasts S8x128x12288)
    (j : S8x128x12288.Idx) (k : S8x224x224x96.Idx)
    (h0 : (k 0).val = (j 0).val) (h1 : (k 1).val = (j 1).val)
    (h2 : 96 * (k 2).val + (k 3).val = (j 2).val) :
    corner x hs hc j = x k := by
  have hj2 : (j 2).val < 12288 := (j 2).isLt
  have hk3 : (k 3).val < 96 := (k 3).isLt
  have hj1 : (j 1).val < 128 := (j 1).isLt
  have hj0 : (j 0).val < 8 := (j 0).isLt
  have hk2 : (k 2).val < 128 := by omega
  unfold corner
  refine (shapeCast_apply _ hc j
    (ix4 (⟨(k 0).val, by omega⟩ : Fin 8) (⟨(k 1).val, by omega⟩ : Fin 128) (⟨(k 2).val, hk2⟩ : Fin 128)
      (⟨(k 3).val, hk3⟩ : Fin 96))
    (by rw [Shape.rowMajor_val_four, Shape.rowMajor_val_three]
        show (((k 0).val * 128 + (k 1).val) * 128 + (k 2).val) * 96 + (k 3).val
          = ((j 0).val * 128 + (j 1).val) * 12288 + (j 2).val
        rw [h0, h1, ← h2]; ring)).trans ?_
  exact extractStridedSlice_apply _ x hs _ k (fun a => match a with
    | ⟨0, _⟩ => by show (k 0).val = 0 + (k 0).val; omega
    | ⟨1, _⟩ => by show (k 1).val = 0 + (k 1).val; omega
    | ⟨2, _⟩ => by show (k 2).val = 0 + (k 2).val; omega
    | ⟨3, _⟩ => by show (k 3).val = 0 + (k 3).val; omega)

/-- The corner at (n, y, 96·b + ch) is the input at (n, y, b, ch). -/
theorem corner_apply (x : FVec F S8x224x224x96 .f32)
    (hs : S8x224x224x96.Slices ![0, 0, 0, 0] S8x128x128x96)
    (hc : S8x128x128x96.ShapeCasts S8x128x12288)
    (n : Fin 8) (y : Fin 128) (b : Fin 128) (ch : Fin 96) :
    corner x hs hc (ix3 n y (⟨96 * b.val + ch.val, by have := b.isLt; have := ch.isLt; omega⟩ : Fin 12288))
      = x (ix4 n (⟨y.val, by have := y.isLt; omega⟩ : Fin 224) (⟨b.val, by have := b.isLt; omega⟩ : Fin 224) ch) :=
  corner_apply_of_eq x hs hc _ _ rfl rfl rfl

/-- The 16 × 1536 block of the corner at image n, row 16·by, position 1536·bx — (n, by, bx) the table's row r — is
    patch r with its rows flattened: (1536·bx + p) div 96 = 16·bx + p div 96 and (1536·bx + p) mod 96 = p mod 96. -/
theorem rows_block (x : FVec F S8x224x224x96 .f32)
    (hs : S8x224x224x96.Slices ![0, 0, 0, 0] S8x128x128x96)
    (hc : S8x128x128x96.ShapeCasts S8x128x12288)
    (t : IVec S784x3 32) (ht : Cert.Spec.InRange t) (r : Fin 784) (a : Fin 16) (p : Fin 1536) :
    corner x hs hc (ix3
        (⟨(t (ix2 r (0 : Fin 3))).toNat, by have := ht (ix2 r (0 : Fin 3)); omega⟩ : Fin 8)
        (⟨16 * (t (ix2 r (1 : Fin 3))).toNat + a.val, by have := ht (ix2 r (1 : Fin 3)); have := a.isLt; omega⟩ : Fin 128)
        (⟨1536 * (t (ix2 r (2 : Fin 3))).toNat + p.val, by have := ht (ix2 r (2 : Fin 3)); have := p.isLt; omega⟩ : Fin 12288))
      = Cert.Spec.gatherRows x t (ix3 r a p) := by
  have c0 := Cert.Spec.coord_val ht r 0
  have c1 := Cert.Spec.coord_val ht r 1
  have c2 := Cert.Spec.coord_val ht r 2
  have hp : p.val < 1536 := p.isLt
  unfold Cert.Spec.gatherRows Cert.Spec.pixel
  refine corner_apply_of_eq x hs hc _ _ ?_ ?_ ?_
  · show (Cert.Spec.coord t r 0).val = (t (ix2 r (0 : Fin 3))).toNat
    exact c0
  · show 16 * (Cert.Spec.coord t r 1).val + a.val = 16 * (t (ix2 r (1 : Fin 3))).toNat + a.val
    rw [c1]
  · show 96 * (16 * (Cert.Spec.coord t r 2).val + p.val / 96) + p.val % 96 = 1536 * (t (ix2 r (2 : Fin 3))).toNat + p.val
    rw [c2]; omega

end Corner

/-! ## The final reshape -/

/-- Unflattening the patch rows of the rows layout gives the patches layout: position 96·b + ch of a row is entry
    (b, ch). -/
theorem out_reshape {α : Type} (x : Cert.Spec.SIn.Idx → α) (t : Cert.Spec.STab.Idx → BitVec 32)
    (h : S784x16x1536.ShapeCasts S784x16x16x96) :
    shapeCast S784x16x16x96 (Cert.Spec.gatherRows x t) h = Cert.Spec.gather x t := by
  funext j
  have h2 : (j 2).val < 16 := (j 2).isLt
  have h3 : (j 3).val < 96 := (j 3).isLt
  refine (shapeCast_apply _ h j
    (ix3 (j 0 : Fin 784) (j 1 : Fin 16) (⟨96 * (j 2).val + (j 3).val, by omega⟩ : Fin 1536))
    (by rw [Shape.rowMajor_val_three, Shape.rowMajor_val_four]
        show ((j 0).val * 16 + (j 1).val) * 1536 + (96 * (j 2).val + (j 3).val)
          = (((j 0).val * 16 + (j 1).val) * 16 + (j 2).val) * 96 + (j 3).val
        ring)).trans ?_
  unfold Cert.Spec.gatherRows Cert.Spec.gather
  have e2 : (⟨(96 * (j 2).val + (j 3).val) / 96, Nat.div_lt_of_lt_mul (by omega)⟩ : Fin 16) = j 2 :=
    Fin.ext (by show (96 * (j 2).val + (j 3).val) / 96 = (j 2).val; omega)
  have e3 : (⟨(96 * (j 2).val + (j 3).val) % 96, Nat.mod_lt _ (by decide)⟩ : Fin 96) = j 3 :=
    Fin.ext (by show (96 * (j 2).val + (j 3).val) % 96 = (j 3).val; omega)
  show x (Cert.Spec.pixel t (j 0) (j 1) ⟨(96 * (j 2).val + (j 3).val) / 96, _⟩ ⟨(96 * (j 2).val + (j 3).val) % 96, _⟩) = _
  rw [e2, e3]

end Cert.HostValue

end
-- ==== Proof.HostTable.lean ====
/-
  The table as the program hands it to the gather: 800 rows (rows 784 … 799 copies of row 783) of 16 columns
  (columns 3 … 15 zero), flattened. Read at flat position 16·r + k.
-/
import Idealize.ShloMosaic.PureOps
import Idealize.ShloMosaic.Lib.ValueIdx
import Idealize.ShloMosaic.Lib.Pipeline.Value
import Idealize.ShloMosaic.Lib.KernelVsHost
import proofs.«216119_g70222715290213_cont_sun_c4_40_39_alg».proof.Proof.HostValue

noncomputable section

namespace Cert.HostValue

open Idealize.ShloMosaic Idealize.ShloMosaic.ValueIdx

/-- The table with its last row repeated 16 more times, every row padded with 13 zeros, all rows end to end. -/
def tab16 (a : IVec S784x3 32)
    (hs : S784x3.Slices ![783, 0] S1x3)
    (hc1 : S1x3.ShapeCasts S1x1x1x3)
    (hb : S1x1x1x3.BroadcastsInDim S16x1x1x3 (![0, 1, 2, 3] : Fin 4 → Fin S16x1x1x3.rank))
    (hc2 : S16x1x1x3.ShapeCasts S16x3)
    (hcat : Shape.Concatenates [S784x3, S16x3] S800x3 0)
    (hp : S800x3.Pads (![0, 0] : Fin 2 → Nat) ![0, 13] ![0, 0] S800x16)
    (h0 : 0 < S_.numel)
    (hc3 : S800x16.ShapeCasts S12800) : IVec S12800 32 :=
  shapeCast S12800
    (pad S800x16 ![0, 0] ![0, 13] ![0, 0]
      (concatenate S800x3 0
        [⟨S784x3, a⟩,
         ⟨S16x3, shapeCast S16x3
            (broadcastInDim S16x1x1x3 ![0, 1, 2, 3] hb
              (shapeCast S1x1x1x3 (extractStridedSlice S1x3 ![783, 0] a hs) hc1)) hc2⟩]
        hcat)
      (id (constantI S_ 32 0#32)) hp h0)
    hc3

/-- Entry 16·r + k of the flattened table is entry k of the table's row min(r, 783) for k = 0, 1, 2, and zero for
    the thirteen padding columns. -/
theorem tab16_apply (a : IVec S784x3 32)
    (hs : S784x3.Slices ![783, 0] S1x3)
    (hc1 : S1x3.ShapeCasts S1x1x1x3)
    (hb : S1x1x1x3.BroadcastsInDim S16x1x1x3 (![0, 1, 2, 3] : Fin 4 → Fin S16x1x1x3.rank))
    (hc2 : S16x1x1x3.ShapeCasts S16x3)
    (hcat : Shape.Concatenates [S784x3, S16x3] S800x3 0)
    (hp : S800x3.Pads (![0, 0] : Fin 2 → Nat) ![0, 13] ![0, 0] S800x16)
    (h0 : 0 < S_.numel)
    (hc3 : S800x16.ShapeCasts S12800) (r : Fin 800) (k : Fin 16) :
    tab16 a hs hc1 hb hc2 hcat hp h0 hc3
        (ix1 (⟨16 * r.val + k.val, by have := r.isLt; have := k.isLt; omega⟩ : Fin 12800))
      = if h : k.val < 3 then
          a (ix2 (⟨min r.val 783, Nat.lt_succ_of_le (Nat.min_le_right _ _)⟩ : Fin 784) (⟨k.val, h⟩ : Fin 3))
        else 0#32 := by
  have hr : r.val < 800 := r.isLt
  have hk : k.val < 16 := k.isLt
  unfold tab16
  -- the flattening: position 16·r + k is entry (r, k) of the padded table
  refine (shapeCast_apply _ hc3 _ (ix2 r k)
    (by rw [Shape.rowMajor_val_two, Shape.rowMajor_val_one]
        show r.val * 16 + k.val = 16 * r.val + k.val
        omega)).trans ?_
  by_cases h : k.val < 3
  · rw [dif_pos h]
    -- a column of the table itself
    refine (pad_apply_of_inside _ _ _ _ _ hp h0 (ix2 r k) (ix2 r (⟨k.val, h⟩ : Fin 3)) (fun b => match b with
      | ⟨0, _⟩ => by show r.val = 0 + r.val * (0 + 1); omega
      | ⟨1, _⟩ => by show k.val = 0 + k.val * (0 + 1); omega)).trans ?_
    by_cases hr7 : r.val < 784
    · -- one of the table's own rows
      refine (concatenate_apply_piece (t := S800x3) 0 [⟨S784x3, a⟩, ⟨S16x3, _⟩] hcat (ix2 r (⟨k.val, h⟩ : Fin 3)) 0 (by simp) S784x3 a rfl rfl 0 (by simp)
        (ix2 (⟨r.val, hr7⟩ : Fin 784) (⟨k.val, h⟩ : Fin 3))
        (fun b => match b with
          | ⟨0, _⟩ => fun hne => absurd rfl hne
          | ⟨1, _⟩ => fun _ => rfl)
        (by show 0 + r.val = r.val; omega)).trans ?_
      have e : (⟨min r.val 783, Nat.lt_succ_of_le (Nat.min_le_right _ _)⟩ : Fin 784) = ⟨r.val, hr7⟩ :=
        Fin.ext (by show min r.val 783 = r.val; omega)
      rw [e]
    · -- one of the 16 copies of the last row
      have hr' : r.val - 784 < 16 := by omega
      refine (concatenate_apply_piece (t := S800x3) 0 [⟨S784x3, a⟩, ⟨S16x3, _⟩] hcat (ix2 r (⟨k.val, h⟩ : Fin 3)) 1 (by simp) S16x3 _ rfl rfl 784 (by simp)
        (ix2 (⟨r.val - 784, hr'⟩ : Fin 16) (⟨k.val, h⟩ : Fin 3))
        (fun b => match b with
          | ⟨0, _⟩ => fun hne => absurd rfl hne
          | ⟨1, _⟩ => fun _ => rfl)
        (by show 784 + (r.val - 784) = r.val; omega)).trans ?_
      refine (shapeCast_apply _ hc2 _
        (ix4 (⟨r.val - 784, hr'⟩ : Fin 16) (0 : Fin 1) (0 : Fin 1) (⟨k.val, h⟩ : Fin 3))
        (by rw [Shape.rowMajor_val_four, Shape.rowMajor_val_two]
            show (((r.val - 784) * 1 + 0) * 1 + 0) * 3 + k.val = (r.val - 784) * 3 + k.val
            omega)).trans ?_
      refine (broadcastInDim_apply _ hb _ _ (ix4 (0 : Fin 1) (0 : Fin 1) (0 : Fin 1) (⟨k.val, h⟩ : Fin 3))
        (fun b => match b with
          | ⟨0, _⟩ => rfl
          | ⟨1, _⟩ => rfl
          | ⟨2, _⟩ => rfl
          | ⟨3, _⟩ => rfl)).trans ?_
      refine (shapeCast_apply _ hc1 _ (ix2 (0 : Fin 1) (⟨k.val, h⟩ : Fin 3))
        (by rw [Shape.rowMajor_val_two, Shape.rowMajor_val_four]
            show 0 * 3 + k.val = ((0 * 1 + 0) * 1 + 0) * 3 + k.val
            omega)).trans ?_
      refine (extractStridedSlice_apply _ a hs _ (ix2 (⟨783, by decide⟩ : Fin 784) (⟨k.val, h⟩ : Fin 3))
        (fun b => match b with
          | ⟨0, _⟩ => by show 783 = 783 + 0; rfl
          | ⟨1, _⟩ => by show k.val = 0 + k.val; omega)).trans ?_
      have e : (⟨min r.val 783, Nat.lt_succ_of_le (Nat.min_le_right _ _)⟩ : Fin 784) = ⟨783, by decide⟩ :=
        Fin.ext (by show min r.val 783 = 783; omega)
      rw [e]
  · rw [dif_neg h]
    -- a padding column
    refine (pad_apply_of_not_inside _ _ _ _ _ hp h0 (ix2 r k) (1 : Fin 2) ?_).trans rfl
    show ¬(0 ≤ k.val ∧ (k.val - 0) % (0 + 1) = 0 ∧ (k.val - 0) / (0 + 1) < 3)
    omega

end Cert.HostValue

end
-- ==== Proof.FactsKI.lean ====
/-
  The pure facts the kernel's body and launch cite: what the host operations before the call leave in the arrays,
  that the table words a worker reads are at most 7, the range checks and closed forms of the block offsets computed
  from such words, how the output rows split among the workers, and that the block of the corner a worker copies is
  the target's row.
-/
import proofs.«216119_g70222715290213_cont_sun_c4_40_39_alg».proof.Proof.CommonKI
import proofs.«216119_g70222715290213_cont_sun_c4_40_39_alg».proof.Proof.HostTable
import proofs.«216119_g70222715290213_cont_sun_c4_40_39_alg».proof.Proof.PreFacts
import Idealize.ShloMosaic.Lib.StableHlo.Run

noncomputable section

namespace Cert.Proof.KI

open Cert.KernelIdeal Cert.KernelIdeal.Gen

open Idealize.ShloMosaic
open Idealize.ShloMosaic.StableHlo

/-! ## Block offsets from table words -/

/-- A word at most 7 times 16 does not wrap. -/
theorem toNat_muli_16 (x : BitVec 32) (h : x.toNat ≤ 7) : (Scalar.muli x 16#32).toNat = 16 * x.toNat := by
  show (x * 16#32).toNat = 16 * x.toNat
  rw [BitVec.toNat_mul, BitVec.toNat_ofNat]
  omega

/-- A word at most 7 times 1536 does not wrap. -/
theorem toNat_muli_1536 (x : BitVec 32) (h : x.toNat ≤ 7) : (Scalar.muli x 1536#32).toNat = 1536 * x.toNat := by
  show (x * 1536#32).toNat = 1536 * x.toNat
  rw [BitVec.toNat_mul, BitVec.toNat_ofNat]
  omega

/-- The block (n, 16·by, 1536·bx) of 1 × 16 × 1536 lies inside 8 × 128 × 12288 when n, by, bx ≤ 7. -/
theorem block_inb (n y x : ℕ) (hn : n ≤ 7) (hy : y ≤ 7) (hx : x ≤ 7) :
    ∀ a, (![n, 16 * y, 1536 * x] : Fin 3 → ℕ) a + S1x16x1536.size a ≤ S8x128x12288.size a := fun a =>
  match a with
  | ⟨0, _⟩ => by show n + 1 ≤ 8; omega
  | ⟨1, _⟩ => by show 16 * y + 16 ≤ 128; omega
  | ⟨2, _⟩ => by show 1536 * x + 1536 ≤ 12288; omega

theorem k0_off2_eq (v v' v'' : BitVec 32) (h' : v'.toNat ≤ 7) (h'' : v''.toNat ≤ 7) :
    k0_off2 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk1_of_le (v v' v'' : BitVec 32) (h : v.toNat ≤ 7) (h' : v'.toNat ≤ 7) (h'' : v''.toNat ≤ 7) :
    k0_chk1 v v' v'' := by
  unfold k0_chk1
  rw [k0_off2_eq v v' v'' h' h'']
  exact block_inb _ _ _ h h' h''

theorem k0_off4_eq (v v' v'' : BitVec 32) (h' : v'.toNat ≤ 7) (h'' : v''.toNat ≤ 7) :
    k0_off4 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk2_of_le (v v' v'' : BitVec 32) (h : v.toNat ≤ 7) (h' : v'.toNat ≤ 7) (h'' : v''.toNat ≤ 7) :
    k0_chk2 v v' v'' := by
  unfold k0_chk2
  rw [k0_off4_eq v v' v'' h' h'']
  exact block_inb _ _ _ h h' h''

theorem k0_off6_eq (v v' v'' : BitVec 32) (h' : v'.toNat ≤ 7) (h'' : v''.toNat ≤ 7) :
    k0_off6 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk3_of_le (v v' v'' : BitVec 32) (h : v.toNat ≤ 7) (h' : v'.toNat ≤ 7) (h'' : v''.toNat ≤ 7) :
    k0_chk3 v v' v'' := by
  unfold k0_chk3
  rw [k0_off6_eq v v' v'' h' h'']
  exact block_inb _ _ _ h h' h''

theorem k0_off9_eq (v v' v'' : BitVec 32) (h' : v'.toNat ≤ 7) (h'' : v''.toNat ≤ 7) :
    k0_off9 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk4_of_le (v v' v'' : BitVec 32) (h : v.toNat ≤ 7) (h' : v'.toNat ≤ 7) (h'' : v''.toNat ≤ 7) :
    k0_chk4 v v' v'' := by
  unfold k0_chk4
  rw [k0_off9_eq v v' v'' h' h'']
  exact block_inb _ _ _ h h' h''

theorem k0_off11_eq (v v' v'' : BitVec 32) (h' : v'.toNat ≤ 7) (h'' : v''.toNat ≤ 7) :
    k0_off11 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk5_of_le (v v' v'' : BitVec 32) (h : v.toNat ≤ 7) (h' : v'.toNat ≤ 7) (h'' : v''.toNat ≤ 7) :
    k0_chk5 v v' v'' := by
  unfold k0_chk5
  rw [k0_off11_eq v v' v'' h' h'']
  exact block_inb _ _ _ h h' h''

theorem k0_off14_eq (v v' v'' : BitVec 32) (h' : v'.toNat ≤ 7) (h'' : v''.toNat ≤ 7) :
    k0_off14 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk6_of_le (v v' v'' : BitVec 32) (h : v.toNat ≤ 7) (h' : v'.toNat ≤ 7) (h'' : v''.toNat ≤ 7) :
    k0_chk6 v v' v'' := by
  unfold k0_chk6
  rw [k0_off14_eq v v' v'' h' h'']
  exact block_inb _ _ _ h h' h''

/-! ## What the host operations leave -/

section Host
variable {F : FTy → Type} [FloatOps F] (m : (ℓ : Loc nD τ sig) → Buf (Elt F) ℓ) (d : Dev nD)

/-- When the call starts the flattened table is the launch table padded. -/
theorem tbV_eq : tbV m d = Cert.HostValue.tab16 (m (a2Loc d)) slices_S784x3_S1x3_783_0 shapeCasts_S1x3_S1x1x1x3
    bcast_S1x1x1x3_S16x1x1x3_0_1_2_3 shapeCasts_S16x1x1x3_S16x3 concatenates_S784x3_S16x3_S800x3_d0
    pads_S800x3_S800x16_000_0130 h_S_ shapeCasts_S800x16_S12800 := by
  show V1 m d (Proc.devRef .tc main_v6) = _
  unfold V1
  after_results
  rfl

/-- When the call starts the corner array is the launch input's corner. -/
theorem inV_eq : inV m d = Cert.HostValue.corner (m (a0Loc d)) slices_S8x224x224x96_S8x128x128x96_0_0_0_0
    shapeCasts_S8x128x128x96_S8x128x12288 := by
  show V1 m d (Proc.devRef .tc main_v8) = _
  unfold V1
  after_results
  rfl

/-- The host operations leave the input, -/
theorem V1_arg0 : V1 m d (Proc.devRef .tc main_arg0) = m (a0Loc d) := by
  unfold V1
  after_results
  rfl

theorem V1_arg1 : V1 m d (Proc.devRef .tc main_arg1) = m (a1Loc d) := by
  unfold V1
  after_results
  rfl

/-- the table, -/
theorem V1_arg2 : V1 m d (Proc.devRef .tc main_arg2) = m (a2Loc d) := by
  unfold V1
  after_results
  rfl

/-- the output -/
theorem V1_v9 : V1 m d (Proc.devRef .tc main_v9) = m (outLoc d) := by
  unfold V1
  after_results
  rfl

/-- and the reshaped output as they were at launch. -/
theorem V1_v10 : V1 m d (Proc.devRef .tc main_v10) = m (resLoc d) := by
  unfold V1
  after_results
  rfl

end Host

/-! ## The table words a worker reads, and the block they name -/

section Words
variable {F : FTy → Type} [FloatOps F] (m : (ℓ : Loc nD τ sig) → Buf (Elt F) ℓ) (d : Dev nD)

/-- Word 16·R + k (k = 0, 1, 2) of the flattened table is entry k of the launch table's row min(R, 783). -/
theorem tbV_word (R : Fin 800) (k : Fin 3) :
    tbV m d (ValueIdx.ix1 (⟨16 * R.val + k.val, by have := R.isLt; have := k.isLt; omega⟩ : Fin 12800))
      = m (a2Loc d) (ValueIdx.ix2 (⟨min R.val 783, Nat.lt_succ_of_le (Nat.min_le_right _ _)⟩ : Fin 784) k) := by
  rw [tbV_eq]
  have hk : k.val < 3 := k.isLt
  refine (Cert.HostValue.tab16_apply (m (a2Loc d)) _ _ _ _ _ _ _ _ R (⟨k.val, by omega⟩ : Fin 16)).trans ?_
  rw [dif_pos hk]

/-- Words 16·R + 3 … 16·R + 15 of the flattened table are zero. -/
theorem tbV_pad (R : Fin 800) (k : Fin 16) (hk : 3 ≤ k.val) :
    tbV m d (ValueIdx.ix1 (⟨16 * R.val + k.val, by have := R.isLt; have := k.isLt; omega⟩ : Fin 12800)) = 0#32 := by
  rw [tbV_eq]
  refine (Cert.HostValue.tab16_apply (m (a2Loc d)) _ _ _ _ _ _ _ _ R k).trans ?_
  rw [dif_neg (by omega)]

/-- With the launch table in range, the three words of every row of the flattened table are at most 7. -/
theorem tbV_word_le (ht : Cert.Spec.InRange (m (a2Loc d))) (R : Fin 800) (k : Fin 3) :
    (tbV m d (ValueIdx.ix1 (⟨16 * R.val + k.val, by have := R.isLt; have := k.isLt; omega⟩ : Fin 12800))).toNat ≤ 7 := by
  rw [tbV_word]
  exact ht _

/-- The same at a flat position given with its own bound: position q = 16·R + k, k < 3. -/
theorem tbV_le_of_eq (ht : Cert.Spec.InRange (m (a2Loc d))) (q : Fin 12800) (R k : ℕ) (hR : R < 800) (hk : k < 3)
    (hq : q.val = 16 * R + k) : (tbV m d (ValueIdx.ix1 q)).toNat ≤ 7 := by
  have e : q = (⟨16 * (⟨R, hR⟩ : Fin 800).val + (⟨k, hk⟩ : Fin 3).val, by show 16 * R + k < 12800; omega⟩ : Fin 12800) :=
    Fin.ext hq
  rw [e]
  exact tbV_word_le m d ht ⟨R, hR⟩ ⟨k, hk⟩

/-- The block of the corner named by three words equal to the entries of the launch table's row r is the target's
    row r: element (a, p) of the block is element (r, a, p) of the gathered rows. -/
theorem inV_block_of_words (ht : Cert.Spec.InRange (m (a2Loc d))) (r : Fin 784) (n y x : BitVec 32)
    (hn : n = m (a2Loc d) (ValueIdx.ix2 r (0 : Fin 3))) (hy : y = m (a2Loc d) (ValueIdx.ix2 r (1 : Fin 3)))
    (hx : x = m (a2Loc d) (ValueIdx.ix2 r (2 : Fin 3))) (a : Fin 16) (p : Fin 1536)
    (h0 : n.toNat < 8) (h1 : 16 * y.toNat + a.val < 128) (h2 : 1536 * x.toNat + p.val < 12288) :
    inV m d (ValueIdx.ix3 (⟨n.toNat, h0⟩ : Fin 8) (⟨16 * y.toNat + a.val, h1⟩ : Fin 128)
        (⟨1536 * x.toNat + p.val, h2⟩ : Fin 12288))
      = tgt m d (ValueIdx.ix3 r a p) := by
  subst hn hy hx
  rw [inV_eq]
  exact Cert.HostValue.rows_block (m (a0Loc d)) _ _ (m (a2Loc d)) ht r a p

/-- The block of the corner named by the three words of row R of the flattened table is the target's row
    min(R, 783). -/
theorem inV_block (ht : Cert.Spec.InRange (m (a2Loc d))) (R : Fin 800) (a : Fin 16) (p : Fin 1536)
    (h0 : (tbV m d (ValueIdx.ix1 (⟨16 * R.val + (0 : Fin 3).val, by have := R.isLt; show 16 * R.val + 0 < 12800; omega⟩ : Fin 12800))).toNat < 8)
    (h1 : 16 * (tbV m d (ValueIdx.ix1 (⟨16 * R.val + (1 : Fin 3).val, by have := R.isLt; show 16 * R.val + 1 < 12800; omega⟩ : Fin 12800))).toNat + a.val < 128)
    (h2 : 1536 * (tbV m d (ValueIdx.ix1 (⟨16 * R.val + (2 : Fin 3).val, by have := R.isLt; show 16 * R.val + 2 < 12800; omega⟩ : Fin 12800))).toNat + p.val < 12288) :
    inV m d (ValueIdx.ix3
        (⟨(tbV m d (ValueIdx.ix1 (⟨16 * R.val + (0 : Fin 3).val, by have := R.isLt; show 16 * R.val + 0 < 12800; omega⟩ : Fin 12800))).toNat, h0⟩ : Fin 8)
        (⟨16 * (tbV m d (ValueIdx.ix1 (⟨16 * R.val + (1 : Fin 3).val, by have := R.isLt; show 16 * R.val + 1 < 12800; omega⟩ : Fin 12800))).toNat + a.val, h1⟩ : Fin 128)
        (⟨1536 * (tbV m d (ValueIdx.ix1 (⟨16 * R.val + (2 : Fin 3).val, by have := R.isLt; show 16 * R.val + 2 < 12800; omega⟩ : Fin 12800))).toNat + p.val, h2⟩ : Fin 12288))
      = tgt m d (ValueIdx.ix3 (⟨min R.val 783, Nat.lt_succ_of_le (Nat.min_le_right _ _)⟩ : Fin 784) a p) :=
  inV_block_of_words m d ht _ _ _ _ (tbV_word m d R 0) (tbV_word m d R 1) (tbV_word m d R 2) a p h0 h1 h2

end Words

/-! ## Output rows and the workers -/

section Rows
variable (d : Dev nD)

theorem rowsUpTo_zero (w : ℕ) : rowsUpTo d w 0 = ∅ := by
  unfold rowsUpTo
  rw [Finset.range_zero, Finset.biUnion_empty]

theorem rowsUpTo_succ (w n : ℕ) : rowsUpTo d w (n + 1) = rowsUpTo d w n ∪ rowSet d (min (32 * n + w) 783) := by
  unfold rowsUpTo
  rw [Finset.range_add_one, Finset.biUnion_insert, Finset.union_comm]

/-- An element of output row r is in the rows worker w has written after n steps when r is one of them. -/
theorem mem_rowsUpTo (w n : ℕ) (i : S784x16x1536.Idx) :
    i ∈ rowsUpTo d w n ↔ ∃ j, j < n ∧ (i 0).val = min (32 * j + w) 783 := by
  unfold rowsUpTo rowSet
  simp only [Finset.mem_biUnion, Finset.mem_range, Finset.mem_filter, Finset.mem_univ, true_and]

/-- Every output row is written by some worker: row r is step r div 32 of worker r mod 32, which is subcore
    (r mod 32) div 2 of core r mod 2. -/
theorem rows_cover :
    (Finset.range 2).biUnion (fun c => (Finset.range 16).biUnion fun i => rowsUpTo d (wOf c i) 25) = Finset.univ := by
  refine Finset.eq_univ_iff_forall.2 fun (i : S784x16x1536.Idx) => ?_
  have hi : (i 0).val < 784 := (i 0).isLt
  refine Finset.mem_biUnion.2 ⟨(i 0).val % 2, Finset.mem_range.2 (by omega), ?_⟩
  refine Finset.mem_biUnion.2 ⟨(i 0).val % 32 / 2, Finset.mem_range.2 (by omega), ?_⟩
  refine (mem_rowsUpTo d _ _ i).2 ⟨(i 0).val / 32, by omega, ?_⟩
  show (i 0).val = min (32 * ((i 0).val / 32) + (2 * ((i 0).val % 32 / 2) + (i 0).val % 2)) 783
  omega

end Rows

end Cert.Proof.KI

end
-- ==== Proof.LaunchKI.lean ====
/-
  The launch: the ghost state the run starts from, what the TensorCore's program does with the three arrays around
  the call, and the run's claim.

  The ghost state is the handshakes' rounds, write mode with nothing in it, and no transfer counter; from it the
  write-mode invariant is allocated once and every thread and every device is told its name. The TensorCore's program
  pads the table and cuts the corner, puts the output in write mode — every element's target the gathered value —,
  deals its part to the two cores, and when their parts come back with every row marked takes the output out of
  write mode at the gathered value, which the last host operation reshapes.
-/
import proofs.«216119_g70222715290213_cont_sun_c4_40_39_alg».proof.Proof.CommonKI
import proofs.«216119_g70222715290213_cont_sun_c4_40_39_alg».proof.Proof.SplitKI
import proofs.«216119_g70222715290213_cont_sun_c4_40_39_alg».proof.Proof.LibWriteModeCopy
import proofs.«216119_g70222715290213_cont_sun_c4_40_39_alg».proof.Proof.FactsKI
import proofs.«216119_g70222715290213_cont_sun_c4_40_39_alg».proof.Proof.HostValue
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU F) ℕ

variable [FloatOps F] (m : (ℓ : Loc nD τ sig) → Buf (Elt F) ℓ) (ρ : Dev nD → PrngReg)

/-! ## The launch element: the handshakes' rounds, write mode empty, no counter -/

def u₀ : UU F := (initOf (K (F := F)).hsCells (K (F := F)).hsToks, (wm₀ nD τ sig (Elt F), 1))

/-- What every thread and every device is told: the write-mode invariant is allocated at some name. -/
abbrev wmKnown : sProp 𝕄 := iprop(∃ ι, wmInv (Ix := HIx 1) (wmE (F := F)) ι)

theorem hu₀ : (ownU (u₀ (F := F)) : sProp 𝕄)
    ⊢ |={Set.univ}=> iprop(BI.own (EH (initOf (K (F := F)).hsCells (K (F := F)).hsToks))
        ∗ (bigSep Finset.univ fun _ : Dev nD => iprop(∃ ι, wmInv (Ix := HIx 1) (wmE (F := F)) ι))
        ∗ bigSep Finset.univ fun thr : Thread nD τ => bigSep Finset.univ fun q : Fin 1 => (P m).x q thr) := by
  unfold u₀
  iintro Hu
  ihave H := (ownU_pair _ _) $$ Hu
  icases H with ⟨HH, Hw⟩
  have hw : (BI.own (embR (wm₀ nD τ sig (Elt F), (1 : Counters))) : sProp 𝕄) ⊢ ownU ((wmE (F := F)) (wm₀ nD τ sig (Elt F))) :=
    Entails.of_eq rfl
  ihave Hw := hw $$ Hw
  imod (wmInv_alloc (Ix := HIx 1) (Name := ℕ) (Lvl := ℕ) (emb := wmE (F := F)) ⟨m, fun _ => 0, fun _ => default⟩) $$ Hw with ⟨%ιwm, -, #Hinv⟩
  imodintro
  isplitl [HH]; · iexact HH
  isplitr
  · iapply (bigSep_intro_persistent (R := wmInv (Ix := HIx 1) (wmE (F := F)) ιwm) (S := (Finset.univ : Finset (Dev nD)))
      (Φ := fun _ => iprop(∃ ι, wmInv (Ix := HIx 1) (wmE (F := F)) ι)) fun _ _ => by iintro H; iexists ιwm; iexact H)
    iexact Hinv
  · iapply (bigSep_intro_persistent (R := wmInv (Ix := HIx 1) (wmE (F := F)) ιwm) (S := (Finset.univ : Finset (Thread nD τ)))
      (Φ := fun thr => bigSep Finset.univ fun q : Fin 1 => (P m).x q thr) fun thr _ =>
        bigSep_intro_persistent (S := (Finset.univ : Finset (Fin 1))) (Φ := fun q => (P m).x q thr) fun q _ => by
          show _ ⊢ iprop(∃ ι, wmInv (Ix := HIx 1) (wmE (F := F)) ι)
          iintro H; iexists ιwm; iexact H)
    iexact Hinv

open Idealize.ShloMosaic.StableHlo

/-! ## The TensorCore's arrays around the call -/

abbrev rf (b : Ref sig .tc) : DevRef τ sig := Proc.devRef .tc b

/-- The three arrays the call works on: the corner, the padded table, the output. -/
abbrev S3 : Finset (DevRef τ sig) := {rf main_v8, rf main_v6, rf main_v9}

theorem S3_sub : (S3 : Finset (DevRef τ sig)) ⊆ Pipeline.ucRefs τ sig := by
  intro b hb
  simp only [S3, Finset.mem_insert, Finset.mem_singleton] at hb
  rcases hb with rfl | rfl | rfl <;> exact Finset.mem_filter.mpr ⟨devRef_mem_tcRefs _, by decide⟩

theorem hPre : ∀ op ∈ opsPre (F := F), op.bufs ⊆ Pipeline.ucRefs τ sig := by
  intro op hop
  simp only [opsPre, List.mem_cons, List.mem_nil_iff, or_false] at hop
  rcases hop with rfl | rfl | rfl | rfl | rfl | rfl | rfl | rfl | rfl | rfl | rfl <;>
    exact Pipeline.sub_ucRefs _ (by simp)

theorem hPreF : ∀ op ∈ opsPre (F := F), op.fresh = ∅ := by
  intro op hop
  simp only [opsPre, List.mem_cons, List.mem_nil_iff, or_false] at hop
  rcases hop with rfl | rfl | rfl | rfl | rfl | rfl | rfl | rfl | rfl | rfl | rfl <;> rfl

theorem hPost : ∀ op ∈ opsPost (F := F), op.bufs ⊆ Pipeline.ucRefs τ sig := by
  intro op hop
  simp only [opsPost, List.mem_cons, List.mem_nil_iff, or_false] at hop
  subst hop
  exact Pipeline.sub_ucRefs _ (by simp)

theorem hPostF : ∀ op ∈ opsPost (F := F), op.fresh = ∅ := by
  intro op hop
  simp only [opsPost, List.mem_cons, List.mem_nil_iff, or_false] at hop
  subst hop; rfl

/-- The three arrays of the call, out of a set of whole arrays. -/
theorem held_S3 (d : Dev nD) (W : Valuation τ sig (Elt F)) :
    (held (T d) S3 W : sProp 𝕄)
      = iprop((inLoc d ↦{fullShare} W (rf main_v8)) ∗ (tbLoc d ↦{fullShare} W (rf main_v6)) ∗ (outLoc d ↦{fullShare} W (rf main_v9))) := by
  unfold held S3
  rw [SparseCore.bigSep_insert' (by decide), SparseCore.bigSep_insert' (by decide), bigSep_singleton]

theorem unscoped_held (d : Dev nD) :
    (unscopedBufs d (fun b => m ((SparseCore.T d).loc b)) : sProp 𝕄) = held (T d) (Pipeline.ucRefs τ sig) (V0 m d) :=
  Pipeline.unscopedBufs_held d (V0 m d)

/-! ## What @main leaves the claim -/

/-- The three inputs at their launch contents and the result at the gathered patches. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (resLoc d ↦{fullShare} (Cert.Spec.gather (m (a0Loc d)) (m (a2Loc d)) : Buf (Elt F) (resLoc d))))

/-- The arrays after the call: the output at the gathered rows, the rest as the call found them. -/
def V2 (d : Dev nD) : Valuation τ sig (Elt F) := Function.update (V1 m d) (rf main_v9) (tgt m d)

theorem V2_v8 (d : Dev nD) : V2 m d (rf main_v8) = inV m d := Function.update_of_ne (show rf main_v8 ≠ rf main_v9 by decide) _ _
theorem V2_v6 (d : Dev nD) : V2 m d (rf main_v6) = tbV m d := Function.update_of_ne (show rf main_v6 ≠ rf main_v9 by decide) _ _
theorem V2_v9 (d : Dev nD) : V2 m d (rf main_v9) = tgt m d := Function.update_self _ _ _

theorem held_rest (d : Dev nD) :
    (held (T d) (Pipeline.ucRefs τ sig \ S3) (V2 m d) : sProp 𝕄) = held (T d) (Pipeline.ucRefs τ sig \ S3) (V1 m d) :=
  held_congr (T d) fun b hb => Function.update_of_ne (fun e => (Finset.mem_sdiff.mp hb).2 (by rw [e]; decide)) _ _

/-- The four arrays the claim speaks of. -/
abbrev S4 : Finset (DevRef τ sig) := {rf main_arg0, rf main_arg1, rf main_arg2, rf main_v10}

theorem S4_sub : (S4 : Finset (DevRef τ sig)) ⊆ Pipeline.ucRefs τ sig := by
  intro b hb
  simp only [S4, Finset.mem_insert, Finset.mem_singleton] at hb
  rcases hb with rfl | rfl | rfl | rfl <;> exact Finset.mem_filter.mpr ⟨devRef_mem_tcRefs _, by decide⟩

theorem held_S4 (d : Dev nD) (W : Valuation τ sig (Elt F)) :
    (held (T d) S4 W : sProp 𝕄)
      = iprop((a0Loc d ↦{fullShare} W (rf main_arg0)) ∗ (a1Loc d ↦{fullShare} W (rf main_arg1)) ∗ (a2Loc d ↦{fullShare} W (rf main_arg2))
          ∗ (resLoc d ↦{fullShare} W (rf main_v10))) := by
  unfold held S4
  rw [SparseCore.bigSep_insert' (by decide), SparseCore.bigSep_insert' (by decide), SparseCore.bigSep_insert' (by decide), bigSep_singleton]

theorem V3_arg0 (d : Dev nD) : after (opsPost (F := F)) (V2 m d) (rf main_arg0) = m (a0Loc d) := by
  after_results
  rw [show V2 m d (rf main_arg0) = V1 m d (rf main_arg0) from Function.update_of_ne (by decide) _ _, V1_arg0]

theorem V3_arg1 (d : Dev nD) : after (opsPost (F := F)) (V2 m d) (rf main_arg1) = m (a1Loc d) := by
  after_results
  rw [show V2 m d (rf main_arg1) = V1 m d (rf main_arg1) from Function.update_of_ne (by decide) _ _, V1_arg1]

theorem V3_arg2 (d : Dev nD) : after (opsPost (F := F)) (V2 m d) (rf main_arg2) = m (a2Loc d) := by
  after_results
  rw [show V2 m d (rf main_arg2) = V1 m d (rf main_arg2) from Function.update_of_ne (by decide) _ _, V1_arg2]

theorem V3_v10 (d : Dev nD) : after (opsPost (F := F)) (V2 m d) (rf main_v10) = Cert.Spec.gather (m (a0Loc d)) (m (a2Loc d)) := by
  after_results
  rw [V2_v9]
  exact Cert.HostValue.out_reshape (m (a0Loc d)) (m (a2Loc d)) _

/-! ## @main on the TensorCore -/

set_option backward.isDefEq.respectTransparency.types false in
/-- @main on a device's TensorCore: the host operations before the call; the output into write mode and the three
    arrays' part dealt to the cores; the call; the parts joined, every row marked, and the output out of write mode at
    the gathered rows; the reshape. The inputs are kept. -/
theorem hmain (κ : GSem nD τ sig → ℕ) (d : Dev nD) :
    iprop((K (F := F)).ctx EH (P m) κ ∗ (K (F := F)).tcSt EH d 0 ∗ (K (F := F)).tcRes m ρ d
        ∗ (∃ ι, wmInv (Ix := HIx 1) (wmE (F := F)) ι))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, ⟨%ιwm, #Hinv⟩⟩
  iapply (StableHlo.wp_seq 𝒱 none Set.univ d (Pipeline.ucRefs τ sig) _ (opsPre (F := F)) hPre hPreF (V0 m d)) $$ [Hb Hheld]
  · isplitl [Hb]; · iexact Hb
    iexact Hheld
  iintro ⟨Hb, Hheld⟩
  -- the three arrays of the call out of the whole set
  have e1 : (held (T d) (Pipeline.ucRefs τ sig) (after (opsPre (F := F)) (V0 m d)) : sProp 𝕄)
      = iprop(((inLoc d ↦{fullShare} inV m d) ∗ (tbLoc d ↦{fullShare} tbV m d) ∗ (outLoc d ↦{fullShare} m (outLoc d)))
          ∗ held (T d) (Pipeline.ucRefs τ sig \ S3) (V1 m d)) := by
    rw [show after (opsPre (F := F)) (V0 m d) = V1 m d from rfl, held_sub_split (T d) S3_sub (V1 m d), held_S3, V1_v9]
  ihave H := (Entails.of_eq e1) $$ Hheld
  icases H with ⟨⟨Hin, Htb, Hout⟩, Hrest⟩
  -- the output enters write mode, every element's target the gathered value
  imod (pointsTo_castIn (emb := wmE (F := F)) (ιwm := ιwm) (E := Set.univ) (fun i => some (tgt m d i)) (Set.mem_univ _)) $$ [Hout] with Hw
  · isplitr; · iexact Hinv
    iexact Hout
  ihave Hpart := (show iprop((inLoc d ↦{fullShare} inV m d) ∗ (tbLoc d ↦{fullShare} tbV m d)
        ∗ willBeTo (wmE (F := F)) (outLoc d) Finset.univ fullShare (m (outLoc d)) (fun i => some (tgt m d i)) ∅)
      ⊢ (part m d fullShare ∅ : sProp 𝕄) from by unfold part; exact .rfl) $$ [Hin Htb Hw]
  · isplitl [Hin]; · iexact Hin
    isplitl [Htb] <;> iassumption
  ihave Hs := (tc_split m d) $$ Hpart
  icases Hs with ⟨Hrem, Hsts⟩
  -- the call
  rw [wp_bind]
  iapply ((K (F := F)).wp_run (D (F := F)) 𝒱 (EH := EH) (P := P m) κ d 0) $$ [Hst Hsts Hb Hrest Hrem]
  isplitr; · iexact Hctx
  isplitl [Hst]; · iexact Hst
  isplitl [Hsts]; · iexact Hsts
  iintro ⟨Hst, Hdn⟩
  -- the parts come back: every row is marked
  ihave Hj := (tc_join m d) $$ [Hrem Hdn]
  · isplitl [Hrem]; · iexact Hrem
    iexact Hdn
  ihave Hj := (Entails.of_eq (congrArg (part m d fullShare) (rows_cover d))) $$ Hj
  ihave Hj := (show (part m d fullShare Finset.univ : sProp 𝕄) ⊢ iprop((inLoc d ↦{fullShare} inV m d) ∗ (tbLoc d ↦{fullShare} tbV m d)
        ∗ willBeTo (wmE (F := F)) (outLoc d) Finset.univ fullShare (m (outLoc d)) (fun i => some (tgt m d i)) Finset.univ)
      from by unfold part; exact .rfl) $$ Hj
  icases Hj with ⟨Hin, Htb, Hw⟩
  -- the output leaves write mode at its targets
  imod (willBeTo_castOut_some (emb := wmE (F := F)) (ιwm := ιwm) (E := Set.univ) (g := tgt m d) (Set.mem_univ _)) $$ [Hw] with Hout
  · isplitr; · iexact Hinv
    iexact Hw
  have e2 : iprop(((inLoc d ↦{fullShare} inV m d) ∗ (tbLoc d ↦{fullShare} tbV m d)
        ∗ (outLoc d ↦{fullShare} (Finset.univ.piecewise (tgt m d) (m (outLoc d)))))
        ∗ held (T d) (Pipeline.ucRefs τ sig \ S3) (V1 m d))
      = (held (T d) (Pipeline.ucRefs τ sig) (V2 m d) : sProp 𝕄) := by
    rw [held_sub_split (T d) S3_sub (V2 m d), held_S3, V2_v8, V2_v6, V2_v9, Finset.piecewise_univ, held_rest]
  ihave Hheld := (Entails.of_eq e2) $$ [Hin Htb Hout Hrest]
  · isplitl [Hin Htb Hout]
    · isplitl [Hin]; · iexact Hin
      isplitl [Htb] <;> iassumption
    · iexact Hrest
  -- the last host operation: the rows reshaped to patches
  rw [← bind_pure (seq (opsPost (F := F)))]
  iapply (StableHlo.wp_seq 𝒱 none Set.univ d (Pipeline.ucRefs τ sig) _ (opsPost (F := F)) hPost hPostF (V2 m d)) $$ [Hb Hheld]
  · isplitl [Hb]; · iexact Hb
    iexact Hheld
  iintro ⟨Hb, Hheld⟩
  have e3 : (held (T d) (Pipeline.ucRefs τ sig) (after (opsPost (F := F)) (V2 m d)) : sProp 𝕄)
      = iprop(FIN m d ∗ held (T d) (Pipeline.ucRefs τ sig \ S4) (after (opsPost (F := F)) (V2 m d))) := by
    rw [held_sub_split (T d) S4_sub _, held_S4, V3_arg0, V3_arg1, V3_arg2, V3_v10]
  ihave H := (Entails.of_eq e3) $$ Hheld
  icases H with ⟨Hfin, -⟩
  rw [wp_pure]
  imodintro
  isplitl [Hst]; · iexact Hst
  iexact Hfin

def fq (d : Dev nD) (s' : Phys nD τ sig (Elt F)) : Prop :=
  s'.mem.mem (resLoc d) = Cert.Spec.gather (m (a0Loc d)) (m (a2Loc d)) ∧ s'.mem.mem (a0Loc d) = m (a0Loc d)
    ∧ s'.mem.mem (a1Loc d) = m (a1Loc d) ∧ s'.mem.mem (a2Loc d) = m (a2Loc d)

/-- Under the state interpretation the four points-tos pin the physical contents. -/
theorem hfin (d : Dev nD) (s' : Phys nD τ sig (Elt F)) : iprop(FIN m d ∗ SI s') ⊢ (⌜fq m d s'⌝ : sProp 𝕄) := by
  iintro ⟨⟨H0, H1, H2, Hr⟩, HSI⟩
  icombine HSI H0 gives %h0
  icombine HSI H1 gives %h1
  icombine HSI H2 gives %h2
  icombine HSI Hr gives %hr
  ipureintro
  exact ⟨funext fun i => hr i (Finset.mem_univ i), funext fun i => h0 i (Finset.mem_univ i),
    funext fun i => h1 i (Finset.mem_univ i), funext fun i => h2 i (Finset.mem_univ i)⟩

/-! ## The program's run -/

def QC : PUnit × MemSt nD τ sig (Elt F) → Prop := fun r => ∀ c : Dev nD,
  r.2.mem (resLoc c) = Cert.Spec.gather (m (a0Loc c)) (m (a2Loc c)) ∧ r.2.mem (a0Loc c) = m (a0Loc c)
    ∧ r.2.mem (a1Loc c) = m (a1Loc c) ∧ r.2.mem (a2Loc c) = m (a2Loc c)

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(∃ ι, wmInv (Ix := HIx 1) (wmE (F := F)) ι)) (FIN m) (u₀ (F := F)) (sep_elim_left.trans (hu₀ m)) (hmain m ρ)
    (fq m) (hfin m) (QC m) (fun _ h => h)

end Cert.Proof.KI

end
-- ==== Proof.FactsKB.lean ====
/-
  The pure facts the kernel's body and launch cite: what the host operations before the call leave in the arrays,
  that the table words a worker reads are at most 7, the range checks and closed forms of the block offsets computed
  from such words, how the output rows split among the workers, and that the block of the corner a worker copies is
  the target's row.
-/
import proofs.«216119_g70222715290213_cont_sun_c4_40_39_alg».proof.Proof.CommonKB
import proofs.«216119_g70222715290213_cont_sun_c4_40_39_alg».proof.Proof.HostTable
import proofs.«216119_g70222715290213_cont_sun_c4_40_39_alg».proof.Proof.PreFacts
import Idealize.ShloMosaic.Lib.StableHlo.Run

noncomputable section

namespace Cert.Proof.KB

open Cert.Kernel Cert.Kernel.Gen

open Idealize.ShloMosaic
open Idealize.ShloMosaic.StableHlo

/-! ## Block offsets from table words -/

/-- A word at most 7 times 16 does not wrap. -/
theorem toNat_muli_16 (x : BitVec 32) (h : x.toNat ≤ 7) : (Scalar.muli x 16#32).toNat = 16 * x.toNat := by
  show (x * 16#32).toNat = 16 * x.toNat
  rw [BitVec.toNat_mul, BitVec.toNat_ofNat]
  omega

/-- A word at most 7 times 1536 does not wrap. -/
theorem toNat_muli_1536 (x : BitVec 32) (h : x.toNat ≤ 7) : (Scalar.muli x 1536#32).toNat = 1536 * x.toNat := by
  show (x * 1536#32).toNat = 1536 * x.toNat
  rw [BitVec.toNat_mul, BitVec.toNat_ofNat]
  omega

/-- The block (n, 16·by, 1536·bx) of 1 × 16 × 1536 lies inside 8 × 128 × 12288 when n, by, bx ≤ 7. -/
theorem block_inb (n y x : ℕ) (hn : n ≤ 7) (hy : y ≤ 7) (hx : x ≤ 7) :
    ∀ a, (![n, 16 * y, 1536 * x] : Fin 3 → ℕ) a + S1x16x1536.size a ≤ S8x128x12288.size a := fun a =>
  match a with
  | ⟨0, _⟩ => by show n + 1 ≤ 8; omega
  | ⟨1, _⟩ => by show 16 * y + 16 ≤ 128; omega
  | ⟨2, _⟩ => by show 1536 * x + 1536 ≤ 12288; omega

theorem k0_off2_eq (v v' v'' : BitVec 32) (h' : v'.toNat ≤ 7) (h'' : v''.toNat ≤ 7) :
    k0_off2 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk1_of_le (v v' v'' : BitVec 32) (h : v.toNat ≤ 7) (h' : v'.toNat ≤ 7) (h'' : v''.toNat ≤ 7) :
    k0_chk1 v v' v'' := by
  unfold k0_chk1
  rw [k0_off2_eq v v' v'' h' h'']
  exact block_inb _ _ _ h h' h''

theorem k0_off4_eq (v v' v'' : BitVec 32) (h' : v'.toNat ≤ 7) (h'' : v''.toNat ≤ 7) :
    k0_off4 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk2_of_le (v v' v'' : BitVec 32) (h : v.toNat ≤ 7) (h' : v'.toNat ≤ 7) (h'' : v''.toNat ≤ 7) :
    k0_chk2 v v' v'' := by
  unfold k0_chk2
  rw [k0_off4_eq v v' v'' h' h'']
  exact block_inb _ _ _ h h' h''

theorem k0_off6_eq (v v' v'' : BitVec 32) (h' : v'.toNat ≤ 7) (h'' : v''.toNat ≤ 7) :
    k0_off6 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk3_of_le (v v' v'' : BitVec 32) (h : v.toNat ≤ 7) (h' : v'.toNat ≤ 7) (h'' : v''.toNat ≤ 7) :
    k0_chk3 v v' v'' := by
  unfold k0_chk3
  rw [k0_off6_eq v v' v'' h' h'']
  exact block_inb _ _ _ h h' h''

theorem k0_off9_eq (v v' v'' : BitVec 32) (h' : v'.toNat ≤ 7) (h'' : v''.toNat ≤ 7) :
    k0_off9 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk4_of_le (v v' v'' : BitVec 32) (h : v.toNat ≤ 7) (h' : v'.toNat ≤ 7) (h'' : v''.toNat ≤ 7) :
    k0_chk4 v v' v'' := by
  unfold k0_chk4
  rw [k0_off9_eq v v' v'' h' h'']
  exact block_inb _ _ _ h h' h''

theorem k0_off11_eq (v v' v'' : BitVec 32) (h' : v'.toNat ≤ 7) (h'' : v''.toNat ≤ 7) :
    k0_off11 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk5_of_le (v v' v'' : BitVec 32) (h : v.toNat ≤ 7) (h' : v'.toNat ≤ 7) (h'' : v''.toNat ≤ 7) :
    k0_chk5 v v' v'' := by
  unfold k0_chk5
  rw [k0_off11_eq v v' v'' h' h'']
  exact block_inb _ _ _ h h' h''

theorem k0_off14_eq (v v' v'' : BitVec 32) (h' : v'.toNat ≤ 7) (h'' : v''.toNat ≤ 7) :
    k0_off14 v v' v'' = ![v.toNat, 16 * v'.toNat, 1536 * v''.toNat] := by
  show ![v.toNat, (Scalar.muli v' 16#32).toNat, (Scalar.muli v'' 1536#32).toNat] = _
  rw [toNat_muli_16 v' h', toNat_muli_1536 v'' h'']

theorem chk6_of_le (v v' v'' : BitVec 32) (h : v.toNat ≤ 7) (h' : v'.toNat ≤ 7) (h'' : v''.toNat ≤ 7) :
    k0_chk6 v v' v'' := by
  unfold k0_chk6
  rw [k0_off14_eq v v' v'' h' h'']
  exact block_inb _ _ _ h h' h''

/-! ## What the host operations leave -/

section Host
variable {F : FTy → Type} [FloatOps F] (m : (ℓ : Loc nD τ sig) → Buf (Elt F) ℓ) (d : Dev nD)

/-- When the call starts the flattened table is the launch table padded. -/
theorem tbV_eq : tbV m d = Cert.HostValue.tab16 (m (a2Loc d)) slices_S784x3_S1x3_783_0 shapeCasts_S1x3_S1x1x1x3
    bcast_S1x1x1x3_S16x1x1x3_0_1_2_3 shapeCasts_S16x1x1x3_S16x3 concatenates_S784x3_S16x3_S800x3_d0
    pads_S800x3_S800x16_000_0130 h_S_ shapeCasts_S800x16_S12800 := by
  show V1 m d (Proc.devRef .tc main_v6) = _
  unfold V1
  after_results
  rfl

/-- When the call starts the corner array is the launch input's corner. -/
theorem inV_eq : inV m d = Cert.HostValue.corner (m (a0Loc d)) slices_S8x224x224x96_S8x128x128x96_0_0_0_0
    shapeCasts_S8x128x128x96_S8x128x12288 := by
  show V1 m d (Proc.devRef .tc main_v8) = _
  unfold V1
  after_results
  rfl

/-- The host operations leave the input, -/
theorem V1_arg0 : V1 m d (Proc.devRef .tc main_arg0) = m (a0Loc d) := by
  unfold V1
  after_results
  rfl

theorem V1_arg1 : V1 m d (Proc.devRef .tc main_arg1) = m (a1Loc d) := by
  unfold V1
  after_results
  rfl

/-- the table, -/
theorem V1_arg2 : V1 m d (Proc.devRef .tc main_arg2) = m (a2Loc d) := by
  unfold V1
  after_results
  rfl

/-- the output -/
theorem V1_v9 : V1 m d (Proc.devRef .tc main_v9) = m (outLoc d) := by
  unfold V1
  after_results
  rfl

/-- and the reshaped output as they were at launch. -/
theorem V1_v10 : V1 m d (Proc.devRef .tc main_v10) = m (resLoc d) := by
  unfold V1
  after_results
  rfl

end Host

/-! ## The table words a worker reads, and the block they name -/

section Words
variable {F : FTy → Type} [FloatOps F] (m : (ℓ : Loc nD τ sig) → Buf (Elt F) ℓ) (d : Dev nD)

/-- Word 16·R + k (k = 0, 1, 2) of the flattened table is entry k of the launch table's row min(R, 783). -/
theorem tbV_word (R : Fin 800) (k : Fin 3) :
    tbV m d (ValueIdx.ix1 (⟨16 * R.val + k.val, by have := R.isLt; have := k.isLt; omega⟩ : Fin 12800))
      = m (a2Loc d) (ValueIdx.ix2 (⟨min R.val 783, Nat.lt_succ_of_le (Nat.min_le_right _ _)⟩ : Fin 784) k) := by
  rw [tbV_eq]
  have hk : k.val < 3 := k.isLt
  refine (Cert.HostValue.tab16_apply (m (a2Loc d)) _ _ _ _ _ _ _ _ R (⟨k.val, by omega⟩ : Fin 16)).trans ?_
  rw [dif_pos hk]

/-- Words 16·R + 3 … 16·R + 15 of the flattened table are zero. -/
theorem tbV_pad (R : Fin 800) (k : Fin 16) (hk : 3 ≤ k.val) :
    tbV m d (ValueIdx.ix1 (⟨16 * R.val + k.val, by have := R.isLt; have := k.isLt; omega⟩ : Fin 12800)) = 0#32 := by
  rw [tbV_eq]
  refine (Cert.HostValue.tab16_apply (m (a2Loc d)) _ _ _ _ _ _ _ _ R k).trans ?_
  rw [dif_neg (by omega)]

/-- With the launch table in range, the three words of every row of the flattened table are at most 7. -/
theorem tbV_word_le (ht : Cert.Spec.InRange (m (a2Loc d))) (R : Fin 800) (k : Fin 3) :
    (tbV m d (ValueIdx.ix1 (⟨16 * R.val + k.val, by have := R.isLt; have := k.isLt; omega⟩ : Fin 12800))).toNat ≤ 7 := by
  rw [tbV_word]
  exact ht _

/-- The same at a flat position given with its own bound: position q = 16·R + k, k < 3. -/
theorem tbV_le_of_eq (ht : Cert.Spec.InRange (m (a2Loc d))) (q : Fin 12800) (R k : ℕ) (hR : R < 800) (hk : k < 3)
    (hq : q.val = 16 * R + k) : (tbV m d (ValueIdx.ix1 q)).toNat ≤ 7 := by
  have e : q = (⟨16 * (⟨R, hR⟩ : Fin 800).val + (⟨k, hk⟩ : Fin 3).val, by show 16 * R + k < 12800; omega⟩ : Fin 12800) :=
    Fin.ext hq
  rw [e]
  exact tbV_word_le m d ht ⟨R, hR⟩ ⟨k, hk⟩

/-- The block of the corner named by three words equal to the entries of the launch table's row r is the target's
    row r: element (a, p) of the block is element (r, a, p) of the gathered rows. -/
theorem inV_block_of_words (ht : Cert.Spec.InRange (m (a2Loc d))) (r : Fin 784) (n y x : BitVec 32)
    (hn : n = m (a2Loc d) (ValueIdx.ix2 r (0 : Fin 3))) (hy : y = m (a2Loc d) (ValueIdx.ix2 r (1 : Fin 3)))
    (hx : x = m (a2Loc d) (ValueIdx.ix2 r (2 : Fin 3))) (a : Fin 16) (p : Fin 1536)
    (h0 : n.toNat < 8) (h1 : 16 * y.toNat + a.val < 128) (h2 : 1536 * x.toNat + p.val < 12288) :
    inV m d (ValueIdx.ix3 (⟨n.toNat, h0⟩ : Fin 8) (⟨16 * y.toNat + a.val, h1⟩ : Fin 128)
        (⟨1536 * x.toNat + p.val, h2⟩ : Fin 12288))
      = tgt m d (ValueIdx.ix3 r a p) := by
  subst hn hy hx
  rw [inV_eq]
  exact Cert.HostValue.rows_block (m (a0Loc d)) _ _ (m (a2Loc d)) ht r a p

/-- The block of the corner named by the three words of row R of the flattened table is the target's row
    min(R, 783). -/
theorem inV_block (ht : Cert.Spec.InRange (m (a2Loc d))) (R : Fin 800) (a : Fin 16) (p : Fin 1536)
    (h0 : (tbV m d (ValueIdx.ix1 (⟨16 * R.val + (0 : Fin 3).val, by have := R.isLt; show 16 * R.val + 0 < 12800; omega⟩ : Fin 12800))).toNat < 8)
    (h1 : 16 * (tbV m d (ValueIdx.ix1 (⟨16 * R.val + (1 : Fin 3).val, by have := R.isLt; show 16 * R.val + 1 < 12800; omega⟩ : Fin 12800))).toNat + a.val < 128)
    (h2 : 1536 * (tbV m d (ValueIdx.ix1 (⟨16 * R.val + (2 : Fin 3).val, by have := R.isLt; show 16 * R.val + 2 < 12800; omega⟩ : Fin 12800))).toNat + p.val < 12288) :
    inV m d (ValueIdx.ix3
        (⟨(tbV m d (ValueIdx.ix1 (⟨16 * R.val + (0 : Fin 3).val, by have := R.isLt; show 16 * R.val + 0 < 12800; omega⟩ : Fin 12800))).toNat, h0⟩ : Fin 8)
        (⟨16 * (tbV m d (ValueIdx.ix1 (⟨16 * R.val + (1 : Fin 3).val, by have := R.isLt; show 16 * R.val + 1 < 12800; omega⟩ : Fin 12800))).toNat + a.val, h1⟩ : Fin 128)
        (⟨1536 * (tbV m d (ValueIdx.ix1 (⟨16 * R.val + (2 : Fin 3).val, by have := R.isLt; show 16 * R.val + 2 < 12800; omega⟩ : Fin 12800))).toNat + p.val, h2⟩ : Fin 12288))
      = tgt m d (ValueIdx.ix3 (⟨min R.val 783, Nat.lt_succ_of_le (Nat.min_le_right _ _)⟩ : Fin 784) a p) :=
  inV_block_of_words m d ht _ _ _ _ (tbV_word m d R 0) (tbV_word m d R 1) (tbV_word m d R 2) a p h0 h1 h2

end Words

/-! ## Output rows and the workers -/

section Rows
variable (d : Dev nD)

theorem rowsUpTo_zero (w : ℕ) : rowsUpTo d w 0 = ∅ := by
  unfold rowsUpTo
  rw [Finset.range_zero, Finset.biUnion_empty]

theorem rowsUpTo_succ (w n : ℕ) : rowsUpTo d w (n + 1) = rowsUpTo d w n ∪ rowSet d (min (32 * n + w) 783) := by
  unfold rowsUpTo
  rw [Finset.range_add_one, Finset.biUnion_insert, Finset.union_comm]

/-- An element of output row r is in the rows worker w has written after n steps when r is one of them. -/
theorem mem_rowsUpTo (w n : ℕ) (i : S784x16x1536.Idx) :
    i ∈ rowsUpTo d w n ↔ ∃ j, j < n ∧ (i 0).val = min (32 * j + w) 783 := by
  unfold rowsUpTo rowSet
  simp only [Finset.mem_biUnion, Finset.mem_range, Finset.mem_filter, Finset.mem_univ, true_and]

/-- Every output row is written by some worker: row r is step r div 32 of worker r mod 32, which is subcore
    (r mod 32) div 2 of core r mod 2. -/
theorem rows_cover :
    (Finset.range 2).biUnion (fun c => (Finset.range 16).biUnion fun i => rowsUpTo d (wOf c i) 25) = Finset.univ := by
  refine Finset.eq_univ_iff_forall.2 fun (i : S784x16x1536.Idx) => ?_
  have hi : (i 0).val < 784 := (i 0).isLt
  refine Finset.mem_biUnion.2 ⟨(i 0).val % 2, Finset.mem_range.2 (by omega), ?_⟩
  refine Finset.mem_biUnion.2 ⟨(i 0).val % 32 / 2, Finset.mem_range.2 (by omega), ?_⟩
  refine (mem_rowsUpTo d _ _ i).2 ⟨(i 0).val / 32, by omega, ?_⟩
  show (i 0).val = min (32 * ((i 0).val / 32) + (2 * ((i 0).val % 32 / 2) + (i 0).val % 2)) 783
  omega

end Rows

end Cert.Proof.KB

end
-- ==== Proof.LaunchKB.lean ====
/-
  The launch: the ghost state the run starts from, what the TensorCore's program does with the three arrays around
  the call, and the run's claim.

  The ghost state is the handshakes' rounds, write mode with nothing in it, and no transfer counter; from it the
  write-mode invariant is allocated once and every thread and every device is told its name. The TensorCore's program
  pads the table and cuts the corner, puts the output in write mode — every element's target the gathered value —,
  deals its part to the two cores, and when their parts come back with every row marked takes the output out of
  write mode at the gathered value, which the last host operation reshapes.
-/
import proofs.«216119_g70222715290213_cont_sun_c4_40_39_alg».proof.Proof.CommonKB
import proofs.«216119_g70222715290213_cont_sun_c4_40_39_alg».proof.Proof.SplitKB
import proofs.«216119_g70222715290213_cont_sun_c4_40_39_alg».proof.Proof.LibWriteModeCopy
import proofs.«216119_g70222715290213_cont_sun_c4_40_39_alg».proof.Proof.FactsKB
import proofs.«216119_g70222715290213_cont_sun_c4_40_39_alg».proof.Proof.HostValue
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ (UU F) ℕ

variable [FloatOps F] (m : (ℓ : Loc nD τ sig) → Buf (Elt F) ℓ) (ρ : Dev nD → PrngReg)

/-! ## The launch element: the handshakes' rounds, write mode empty, no counter -/

def u₀ : UU F := (initOf (K (F := F)).hsCells (K (F := F)).hsToks, (wm₀ nD τ sig (Elt F), 1))

/-- What every thread and every device is told: the write-mode invariant is allocated at some name. -/
abbrev wmKnown : sProp 𝕄 := iprop(∃ ι, wmInv (Ix := HIx 1) (wmE (F := F)) ι)

theorem hu₀ : (ownU (u₀ (F := F)) : sProp 𝕄)
    ⊢ |={Set.univ}=> iprop(BI.own (EH (initOf (K (F := F)).hsCells (K (F := F)).hsToks))
        ∗ (bigSep Finset.univ fun _ : Dev nD => iprop(∃ ι, wmInv (Ix := HIx 1) (wmE (F := F)) ι))
        ∗ bigSep Finset.univ fun thr : Thread nD τ => bigSep Finset.univ fun q : Fin 1 => (P m).x q thr) := by
  unfold u₀
  iintro Hu
  ihave H := (ownU_pair _ _) $$ Hu
  icases H with ⟨HH, Hw⟩
  have hw : (BI.own (embR (wm₀ nD τ sig (Elt F), (1 : Counters))) : sProp 𝕄) ⊢ ownU ((wmE (F := F)) (wm₀ nD τ sig (Elt F))) :=
    Entails.of_eq rfl
  ihave Hw := hw $$ Hw
  imod (wmInv_alloc (Ix := HIx 1) (Name := ℕ) (Lvl := ℕ) (emb := wmE (F := F)) ⟨m, fun _ => 0, fun _ => default⟩) $$ Hw with ⟨%ιwm, -, #Hinv⟩
  imodintro
  isplitl [HH]; · iexact HH
  isplitr
  · iapply (bigSep_intro_persistent (R := wmInv (Ix := HIx 1) (wmE (F := F)) ιwm) (S := (Finset.univ : Finset (Dev nD)))
      (Φ := fun _ => iprop(∃ ι, wmInv (Ix := HIx 1) (wmE (F := F)) ι)) fun _ _ => by iintro H; iexists ιwm; iexact H)
    iexact Hinv
  · iapply (bigSep_intro_persistent (R := wmInv (Ix := HIx 1) (wmE (F := F)) ιwm) (S := (Finset.univ : Finset (Thread nD τ)))
      (Φ := fun thr => bigSep Finset.univ fun q : Fin 1 => (P m).x q thr) fun thr _ =>
        bigSep_intro_persistent (S := (Finset.univ : Finset (Fin 1))) (Φ := fun q => (P m).x q thr) fun q _ => by
          show _ ⊢ iprop(∃ ι, wmInv (Ix := HIx 1) (wmE (F := F)) ι)
          iintro H; iexists ιwm; iexact H)
    iexact Hinv

open Idealize.ShloMosaic.StableHlo

/-! ## The TensorCore's arrays around the call -/

abbrev rf (b : Ref sig .tc) : DevRef τ sig := Proc.devRef .tc b

/-- The three arrays the call works on: the corner, the padded table, the output. -/
abbrev S3 : Finset (DevRef τ sig) := {rf main_v8, rf main_v6, rf main_v9}

theorem S3_sub : (S3 : Finset (DevRef τ sig)) ⊆ Pipeline.ucRefs τ sig := by
  intro b hb
  simp only [S3, Finset.mem_insert, Finset.mem_singleton] at hb
  rcases hb with rfl | rfl | rfl <;> exact Finset.mem_filter.mpr ⟨devRef_mem_tcRefs _, by decide⟩

theorem hPre : ∀ op ∈ opsPre (F := F), op.bufs ⊆ Pipeline.ucRefs τ sig := by
  intro op hop
  simp only [opsPre, List.mem_cons, List.mem_nil_iff, or_false] at hop
  rcases hop with rfl | rfl | rfl | rfl | rfl | rfl | rfl | rfl | rfl | rfl | rfl <;>
    exact Pipeline.sub_ucRefs _ (by simp)

theorem hPreF : ∀ op ∈ opsPre (F := F), op.fresh = ∅ := by
  intro op hop
  simp only [opsPre, List.mem_cons, List.mem_nil_iff, or_false] at hop
  rcases hop with rfl | rfl | rfl | rfl | rfl | rfl | rfl | rfl | rfl | rfl | rfl <;> rfl

theorem hPost : ∀ op ∈ opsPost (F := F), op.bufs ⊆ Pipeline.ucRefs τ sig := by
  intro op hop
  simp only [opsPost, List.mem_cons, List.mem_nil_iff, or_false] at hop
  subst hop
  exact Pipeline.sub_ucRefs _ (by simp)

theorem hPostF : ∀ op ∈ opsPost (F := F), op.fresh = ∅ := by
  intro op hop
  simp only [opsPost, List.mem_cons, List.mem_nil_iff, or_false] at hop
  subst hop; rfl

/-- The three arrays of the call, out of a set of whole arrays. -/
theorem held_S3 (d : Dev nD) (W : Valuation τ sig (Elt F)) :
    (held (T d) S3 W : sProp 𝕄)
      = iprop((inLoc d ↦{fullShare} W (rf main_v8)) ∗ (tbLoc d ↦{fullShare} W (rf main_v6)) ∗ (outLoc d ↦{fullShare} W (rf main_v9))) := by
  unfold held S3
  rw [SparseCore.bigSep_insert' (by decide), SparseCore.bigSep_insert' (by decide), bigSep_singleton]

theorem unscoped_held (d : Dev nD) :
    (unscopedBufs d (fun b => m ((SparseCore.T d).loc b)) : sProp 𝕄) = held (T d) (Pipeline.ucRefs τ sig) (V0 m d) :=
  Pipeline.unscopedBufs_held d (V0 m d)

/-! ## What @main leaves the claim -/

/-- The three inputs at their launch contents and the result at the gathered patches. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (resLoc d ↦{fullShare} (Cert.Spec.gather (m (a0Loc d)) (m (a2Loc d)) : Buf (Elt F) (resLoc d))))

/-- The arrays after the call: the output at the gathered rows, the rest as the call found them. -/
def V2 (d : Dev nD) : Valuation τ sig (Elt F) := Function.update (V1 m d) (rf main_v9) (tgt m d)

theorem V2_v8 (d : Dev nD) : V2 m d (rf main_v8) = inV m d := Function.update_of_ne (show rf main_v8 ≠ rf main_v9 by decide) _ _
theorem V2_v6 (d : Dev nD) : V2 m d (rf main_v6) = tbV m d := Function.update_of_ne (show rf main_v6 ≠ rf main_v9 by decide) _ _
theorem V2_v9 (d : Dev nD) : V2 m d (rf main_v9) = tgt m d := Function.update_self _ _ _

theorem held_rest (d : Dev nD) :
    (held (T d) (Pipeline.ucRefs τ sig \ S3) (V2 m d) : sProp 𝕄) = held (T d) (Pipeline.ucRefs τ sig \ S3) (V1 m d) :=
  held_congr (T d) fun b hb => Function.update_of_ne (fun e => (Finset.mem_sdiff.mp hb).2 (by rw [e]; decide)) _ _

/-- The four arrays the claim speaks of. -/
abbrev S4 : Finset (DevRef τ sig) := {rf main_arg0, rf main_arg1, rf main_arg2, rf main_v10}

theorem S4_sub : (S4 : Finset (DevRef τ sig)) ⊆ Pipeline.ucRefs τ sig := by
  intro b hb
  simp only [S4, Finset.mem_insert, Finset.mem_singleton] at hb
  rcases hb with rfl | rfl | rfl | rfl <;> exact Finset.mem_filter.mpr ⟨devRef_mem_tcRefs _, by decide⟩

theorem held_S4 (d : Dev nD) (W : Valuation τ sig (Elt F)) :
    (held (T d) S4 W : sProp 𝕄)
      = iprop((a0Loc d ↦{fullShare} W (rf main_arg0)) ∗ (a1Loc d ↦{fullShare} W (rf main_arg1)) ∗ (a2Loc d ↦{fullShare} W (rf main_arg2))
          ∗ (resLoc d ↦{fullShare} W (rf main_v10))) := by
  unfold held S4
  rw [SparseCore.bigSep_insert' (by decide), SparseCore.bigSep_insert' (by decide), SparseCore.bigSep_insert' (by decide), bigSep_singleton]

theorem V3_arg0 (d : Dev nD) : after (opsPost (F := F)) (V2 m d) (rf main_arg0) = m (a0Loc d) := by
  after_results
  rw [show V2 m d (rf main_arg0) = V1 m d (rf main_arg0) from Function.update_of_ne (by decide) _ _, V1_arg0]

theorem V3_arg1 (d : Dev nD) : after (opsPost (F := F)) (V2 m d) (rf main_arg1) = m (a1Loc d) := by
  after_results
  rw [show V2 m d (rf main_arg1) = V1 m d (rf main_arg1) from Function.update_of_ne (by decide) _ _, V1_arg1]

theorem V3_arg2 (d : Dev nD) : after (opsPost (F := F)) (V2 m d) (rf main_arg2) = m (a2Loc d) := by
  after_results
  rw [show V2 m d (rf main_arg2) = V1 m d (rf main_arg2) from Function.update_of_ne (by decide) _ _, V1_arg2]

theorem V3_v10 (d : Dev nD) : after (opsPost (F := F)) (V2 m d) (rf main_v10) = Cert.Spec.gather (m (a0Loc d)) (m (a2Loc d)) := by
  after_results
  rw [V2_v9]
  exact Cert.HostValue.out_reshape (m (a0Loc d)) (m (a2Loc d)) _

/-! ## @main on the TensorCore -/

set_option backward.isDefEq.respectTransparency.types false in
/-- @main on a device's TensorCore: the host operations before the call; the output into write mode and the three
    arrays' part dealt to the cores; the call; the parts joined, every row marked, and the output out of write mode at
    the gathered rows; the reshape. The inputs are kept. -/
theorem hmain (κ : GSem nD τ sig → ℕ) (d : Dev nD) :
    iprop((K (F := F)).ctx EH (P m) κ ∗ (K (F := F)).tcSt EH d 0 ∗ (K (F := F)).tcRes m ρ d
        ∗ (∃ ι, wmInv (Ix := HIx 1) (wmE (F := F)) ι))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, ⟨%ιwm, #Hinv⟩⟩
  iapply (StableHlo.wp_seq 𝒱 none Set.univ d (Pipeline.ucRefs τ sig) _ (opsPre (F := F)) hPre hPreF (V0 m d)) $$ [Hb Hheld]
  · isplitl [Hb]; · iexact Hb
    iexact Hheld
  iintro ⟨Hb, Hheld⟩
  -- the three arrays of the call out of the whole set
  have e1 : (held (T d) (Pipeline.ucRefs τ sig) (after (opsPre (F := F)) (V0 m d)) : sProp 𝕄)
      = iprop(((inLoc d ↦{fullShare} inV m d) ∗ (tbLoc d ↦{fullShare} tbV m d) ∗ (outLoc d ↦{fullShare} m (outLoc d)))
          ∗ held (T d) (Pipeline.ucRefs τ sig \ S3) (V1 m d)) := by
    rw [show after (opsPre (F := F)) (V0 m d) = V1 m d from rfl, held_sub_split (T d) S3_sub (V1 m d), held_S3, V1_v9]
  ihave H := (Entails.of_eq e1) $$ Hheld
  icases H with ⟨⟨Hin, Htb, Hout⟩, Hrest⟩
  -- the output enters write mode, every element's target the gathered value
  imod (pointsTo_castIn (emb := wmE (F := F)) (ιwm := ιwm) (E := Set.univ) (fun i => some (tgt m d i)) (Set.mem_univ _)) $$ [Hout] with Hw
  · isplitr; · iexact Hinv
    iexact Hout
  ihave Hpart := (show iprop((inLoc d ↦{fullShare} inV m d) ∗ (tbLoc d ↦{fullShare} tbV m d)
        ∗ willBeTo (wmE (F := F)) (outLoc d) Finset.univ fullShare (m (outLoc d)) (fun i => some (tgt m d i)) ∅)
      ⊢ (part m d fullShare ∅ : sProp 𝕄) from by unfold part; exact .rfl) $$ [Hin Htb Hw]
  · isplitl [Hin]; · iexact Hin
    isplitl [Htb] <;> iassumption
  ihave Hs := (tc_split m d) $$ Hpart
  icases Hs with ⟨Hrem, Hsts⟩
  -- the call
  rw [wp_bind]
  iapply ((K (F := F)).wp_run (D (F := F)) 𝒱 (EH := EH) (P := P m) κ d 0) $$ [Hst Hsts Hb Hrest Hrem]
  isplitr; · iexact Hctx
  isplitl [Hst]; · iexact Hst
  isplitl [Hsts]; · iexact Hsts
  iintro ⟨Hst, Hdn⟩
  -- the parts come back: every row is marked
  ihave Hj := (tc_join m d) $$ [Hrem Hdn]
  · isplitl [Hrem]; · iexact Hrem
    iexact Hdn
  ihave Hj := (Entails.of_eq (congrArg (part m d fullShare) (rows_cover d))) $$ Hj
  ihave Hj := (show (part m d fullShare Finset.univ : sProp 𝕄) ⊢ iprop((inLoc d ↦{fullShare} inV m d) ∗ (tbLoc d ↦{fullShare} tbV m d)
        ∗ willBeTo (wmE (F := F)) (outLoc d) Finset.univ fullShare (m (outLoc d)) (fun i => some (tgt m d i)) Finset.univ)
      from by unfold part; exact .rfl) $$ Hj
  icases Hj with ⟨Hin, Htb, Hw⟩
  -- the output leaves write mode at its targets
  imod (willBeTo_castOut_some (emb := wmE (F := F)) (ιwm := ιwm) (E := Set.univ) (g := tgt m d) (Set.mem_univ _)) $$ [Hw] with Hout
  · isplitr; · iexact Hinv
    iexact Hw
  have e2 : iprop(((inLoc d ↦{fullShare} inV m d) ∗ (tbLoc d ↦{fullShare} tbV m d)
        ∗ (outLoc d ↦{fullShare} (Finset.univ.piecewise (tgt m d) (m (outLoc d)))))
        ∗ held (T d) (Pipeline.ucRefs τ sig \ S3) (V1 m d))
      = (held (T d) (Pipeline.ucRefs τ sig) (V2 m d) : sProp 𝕄) := by
    rw [held_sub_split (T d) S3_sub (V2 m d), held_S3, V2_v8, V2_v6, V2_v9, Finset.piecewise_univ, held_rest]
  ihave Hheld := (Entails.of_eq e2) $$ [Hin Htb Hout Hrest]
  · isplitl [Hin Htb Hout]
    · isplitl [Hin]; · iexact Hin
      isplitl [Htb] <;> iassumption
    · iexact Hrest
  -- the last host operation: the rows reshaped to patches
  rw [← bind_pure (seq (opsPost (F := F)))]
  iapply (StableHlo.wp_seq 𝒱 none Set.univ d (Pipeline.ucRefs τ sig) _ (opsPost (F := F)) hPost hPostF (V2 m d)) $$ [Hb Hheld]
  · isplitl [Hb]; · iexact Hb
    iexact Hheld
  iintro ⟨Hb, Hheld⟩
  have e3 : (held (T d) (Pipeline.ucRefs τ sig) (after (opsPost (F := F)) (V2 m d)) : sProp 𝕄)
      = iprop(FIN m d ∗ held (T d) (Pipeline.ucRefs τ sig \ S4) (after (opsPost (F := F)) (V2 m d))) := by
    rw [held_sub_split (T d) S4_sub _, held_S4, V3_arg0, V3_arg1, V3_arg2, V3_v10]
  ihave H := (Entails.of_eq e3) $$ Hheld
  icases H with ⟨Hfin, -⟩
  rw [wp_pure]
  imodintro
  isplitl [Hst]; · iexact Hst
  iexact Hfin

def fq (d : Dev nD) (s' : Phys nD τ sig (Elt F)) : Prop :=
  s'.mem.mem (resLoc d) = Cert.Spec.gather (m (a0Loc d)) (m (a2Loc d)) ∧ s'.mem.mem (a0Loc d) = m (a0Loc d)
    ∧ s'.mem.mem (a1Loc d) = m (a1Loc d) ∧ s'.mem.mem (a2Loc d) = m (a2Loc d)

/-- Under the state interpretation the four points-tos pin the physical contents. -/
theorem hfin (d : Dev nD) (s' : Phys nD τ sig (Elt F)) : iprop(FIN m d ∗ SI s') ⊢ (⌜fq m d s'⌝ : sProp 𝕄) := by
  iintro ⟨⟨H0, H1, H2, Hr⟩, HSI⟩
  icombine HSI H0 gives %h0
  icombine HSI H1 gives %h1
  icombine HSI H2 gives %h2
  icombine HSI Hr gives %hr
  ipureintro
  exact ⟨funext fun i => hr i (Finset.mem_univ i), funext fun i => h0 i (Finset.mem_univ i),
    funext fun i => h1 i (Finset.mem_univ i), funext fun i => h2 i (Finset.mem_univ i)⟩

/-! ## The program's run -/

def QC : PUnit × MemSt nD τ sig (Elt F) → Prop := fun r => ∀ c : Dev nD,
  r.2.mem (resLoc c) = Cert.Spec.gather (m (a0Loc c)) (m (a2Loc c)) ∧ r.2.mem (a0Loc c) = m (a0Loc c)
    ∧ r.2.mem (a1Loc c) = m (a1Loc c) ∧ r.2.mem (a2Loc c) = m (a2Loc c)

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(∃ ι, wmInv (Ix := HIx 1) (wmE (F := F)) ι)) (FIN m) (u₀ (F := F)) (sep_elim_left.trans (hu₀ m)) (hmain m ρ)
    (fq m) (hfin m) (QC m) (fun _ h => h)

end Cert.Proof.KB

end
-- ==== Proof.Assemble.lean ====
/-
  The claim, assembled. The kernel's run (at either float instance) ends with the result array at the specified
  gather of its arguments and the arguments unchanged, once every worker's body meets its triple; the reference's run
  ends at the same gather. The precondition gives the table's range, which both need. So: each program's frame is its
  run with the result dropped; the idealization changed nothing; and at the ideal instance, from memories that agree on
  the arguments, both results are the one gather.
-/
import proofs.«216119_g70222715290213_cont_sun_c4_40_39_alg».proof.Defs
import proofs.«216119_g70222715290213_cont_sun_c4_40_39_alg».proof.Proof.PreFacts
import proofs.«216119_g70222715290213_cont_sun_c4_40_39_alg».proof.Proof.RefValue
import proofs.«216119_g70222715290213_cont_sun_c4_40_39_alg».proof.Proof.OblKI
import proofs.«216119_g70222715290213_cont_sun_c4_40_39_alg».proof.Proof.OblKB
import proofs.«216119_g70222715290213_cont_sun_c4_40_39_alg».proof.Proof.LaunchKI
import proofs.«216119_g70222715290213_cont_sun_c4_40_39_alg».proof.Proof.LaunchKB
import proofs.«216119_g70222715290213_cont_sun_c4_40_39_alg».proof.Proof.Gen.Kernel
import proofs.«216119_g70222715290213_cont_sun_c4_40_39_alg».proof.Proof.Gen.KernelIdeal
import proofs.«216119_g70222715290213_cont_sun_c4_40_39_alg».proof.Proof.Gen.ReferenceIdeal
import proofs.«216119_g70222715290213_cont_sun_c4_40_39_alg».proof.Proof.Gen.Pre_input_domain

noncomputable section

namespace Cert.Proof.Assemble

open Idealize.ShloMosaic Idealize.ShloMosaic.TcCoe Idealize.SL.Sem

/-- The kernel's run at the ideal instance, given every worker's obligation: the result at the gather, the arguments
    unchanged. -/
abbrev RunI : Prop :=
  ∀ (m : (ℓ : Loc Cert.KernelIdeal.nD Cert.KernelIdeal.τ Cert.KernelIdeal.sig) → Buf (Elt Ideal) ℓ) (ρ : Dev Cert.KernelIdeal.nD → PrngReg),
    (Cert.Proof.KI.K (F := Ideal)).TileObl (Cert.Proof.KI.D (F := Ideal)) Cert.Proof.KI.𝒱 (Cert.Proof.KI.P m) Cert.Proof.KI.v₀ 0 →
    θ_run (Cert.KernelIdeal.defs (F := Ideal)) (Cert.KernelIdeal.threads (F := Ideal)) ⟨m, fun _ => 0, ρ⟩ fun r => ∀ c : Dev Cert.KernelIdeal.nD,
      r.2.mem (Cert.Proof.KI.resLoc c) = Cert.Spec.gather (m (Cert.Proof.KI.a0Loc c)) (m (Cert.Proof.KI.a2Loc c))
      ∧ r.2.mem (Cert.Proof.KI.a0Loc c) = m (Cert.Proof.KI.a0Loc c)
      ∧ r.2.mem (Cert.Proof.KI.a1Loc c) = m (Cert.Proof.KI.a1Loc c)
      ∧ r.2.mem (Cert.Proof.KI.a2Loc c) = m (Cert.Proof.KI.a2Loc c)

/-- The same of the kernel as printed, at the word-level instance. -/
abbrev RunB : Prop :=
  ∀ (m : (ℓ : Loc Cert.Kernel.nD Cert.Kernel.τ Cert.Kernel.sig) → Buf (Elt Bits) ℓ) (ρ : Dev Cert.Kernel.nD → PrngReg),
    (Cert.Proof.KB.K (F := Bits)).TileObl (Cert.Proof.KB.D (F := Bits)) Cert.Proof.KB.𝒱 (Cert.Proof.KB.P m) Cert.Proof.KB.v₀ 0 →
    θ_run (Cert.Kernel.defs (F := Bits)) (Cert.Kernel.threads (F := Bits)) ⟨m, fun _ => 0, ρ⟩ fun r => ∀ c : Dev Cert.Kernel.nD,
      r.2.mem (Cert.Proof.KB.resLoc c) = Cert.Spec.gather (m (Cert.Proof.KB.a0Loc c)) (m (Cert.Proof.KB.a2Loc c))
      ∧ r.2.mem (Cert.Proof.KB.a0Loc c) = m (Cert.Proof.KB.a0Loc c)
      ∧ r.2.mem (Cert.Proof.KB.a1Loc c) = m (Cert.Proof.KB.a1Loc c)
      ∧ r.2.mem (Cert.Proof.KB.a2Loc c) = m (Cert.Proof.KB.a2Loc c)

/-- Every worker's body meets its triple, whenever the table is in range. -/
abbrev BodyI : Prop :=
  ∀ m : (ℓ : Loc Cert.KernelIdeal.nD Cert.KernelIdeal.τ Cert.KernelIdeal.sig) → Buf (Elt Ideal) ℓ,
    (∀ d, Cert.Spec.InRange (m (Cert.Proof.KI.a2Loc d))) → Cert.Proof.KI.BodySpec (F := Ideal) m
abbrev BodyB : Prop :=
  ∀ m : (ℓ : Loc Cert.Kernel.nD Cert.Kernel.τ Cert.Kernel.sig) → Buf (Elt Bits) ℓ,
    (∀ d, Cert.Spec.InRange (m (Cert.Proof.KB.a2Loc d))) → Cert.Proof.KB.BodySpec (F := Bits) m

theorem frame_k (hRunB : RunB) (hB : BodyB) :
    Cert.frame_Kernel (hKernel := Cert.Kernel.Gen.facts) (hPre_input_domain := Cert.Pre_input_domain.Gen.facts) :=
  fun m ρ hpre =>
    have hr : ∀ d, Cert.Spec.InRange (m (Cert.Proof.KB.a2Loc d)) := fun d =>
      Cert.PreFacts.inRange_of_pre (F := Bits) _ _ _ (hpre d)
    (θ_run _ _ _).mono (fun _ h c => (h c).2) (hRunB m ρ (Cert.Proof.KB.tileObl m hr (hB m hr)))

theorem frame_ki (hRunI : RunI) (hI : BodyI) :
    Cert.frame_KernelIdeal (hKernelIdeal := Cert.KernelIdeal.Gen.facts) (hPre_input_domain := Cert.Pre_input_domain.Gen.facts) :=
  fun m ρ hpre =>
    have hr : ∀ d, Cert.Spec.InRange (m (Cert.Proof.KI.a2Loc d)) := fun d =>
      Cert.PreFacts.inRange_of_pre (F := Ideal) _ _ _ (hpre d)
    (θ_run _ _ _).mono (fun _ h c => (h c).2) (hRunI m ρ (Cert.Proof.KI.tileObl m hr (hI m hr)))

/-- At the ideal instance both programs end at the gather of the kernel's arguments. -/
theorem algebraic (hRunI : RunI) (hI : BodyI) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m ρ m' ρ' hpre hagree
  have hr : ∀ d, Cert.Spec.InRange (m (Cert.Proof.KI.a2Loc d)) := fun d =>
    Cert.PreFacts.inRange_of_pre (F := Ideal) _ _ _ (hpre d)
  have hr' : ∀ c : Dev Cert.ReferenceIdeal.nD,
      Cert.Spec.InRange (m' ((c.tc : Thread Cert.ReferenceIdeal.nD Cert.ReferenceIdeal.τ).loc Cert.ReferenceIdeal.main_arg2)) := fun c => by
    rw [(hagree c).2.2]; exact hr c
  refine ⟨fun c => Cert.Spec.gather (m (Cert.Proof.KI.a0Loc c)) (m (Cert.Proof.KI.a2Loc c)),
    hRunI m ρ (Cert.Proof.KI.tileObl m hr (hI m hr)), ?_⟩
  refine (θ_run Cert.ReferenceIdeal.defs _ _).mono (fun _ h c => ⟨(h c).1.trans ?_, (h c).2⟩)
    (Cert.ReferenceIdeal.RefValue.run_spec m' ρ' hr')
  rw [(hagree c).1, (hagree c).2.2]

/-- The claim, from the two runs and the two bodies. -/
theorem claim_of' (hRunI : RunI) (hRunB : RunB) (hI : BodyI) (hB : BodyB) : Cert.Claim :=
  ⟨Cert.Kernel.Gen.facts, Cert.KernelIdeal.Gen.facts, Cert.ReferenceIdeal.Gen.facts, Cert.Pre_input_domain.Gen.facts,
    frame_k hRunB hB, frame_ki hRunI hI, Cert.ReferenceIdeal.RefValue.frame_ri, trivial, algebraic hRunI hI⟩

/-- The claim, from the two bodies. -/
theorem claim_of (hI : BodyI) (hB : BodyB) : Cert.Claim :=
  claim_of' (fun m ρ hT => Cert.Proof.KI.run_main (F := Ideal) m ρ hT) (fun m ρ hT => Cert.Proof.KB.run_main (F := Bits) m ρ hT) hI hB

end Cert.Proof.Assemble

end
-- ==== Proof.WordsKI.lean ====
/-
  Pure lemmas over the terms a worker's run produces: its copy of the table once landed, a word of a sixteen-word
  load from it, the range checks and block offsets at the six places the body reads a table row, reads through the
  views the transfers use, and the write-back's side condition and marked rows.
-/
import proofs.«216119_g70222715290213_cont_sun_c4_40_39_alg».proof.Proof.FactsKI
import proofs.«216119_g70222715290213_cont_sun_c4_40_39_alg».proof.Proof.OblKI
import Idealize.ShloMosaic.Lib.Pipeline.Value
import Idealize.ShloMosaic.Lib.Writes

noncomputable section

namespace Cert.Proof.KI

open Cert.KernelIdeal Cert.KernelIdeal.Gen

open Idealize.ShloMosaic

variable {F : FTy → Type} [FloatOps F] (m : (ℓ : Loc nD τ sig) → Buf (Elt F) ℓ) (d : Dev nD) (L : grid0.Coords)

/-! ## The table copy -/

/-- Copying the whole table into the worker's whole buffer leaves the table there. -/
theorem tab_landed (ft : Buf (Elt F) ((thr d L).loc cc0_scratch0)) (g : Buf (Elt F) (tbLoc d)) :
    View.write (Elt F) (tabS).view ft (ReadAs.same.apply (View.read (Elt F) (tbW).view g)) Finset.univ = g :=
  View.write_whole_univ (Val := Elt F) cc0_scratch0 ft g

/-! ## A word of a sixteen-word load -/

/-- Entry k of a sixteen-entry vector, taken as a one-entry slice and extracted. -/
theorem word_of_vec (v : IVec S16 32) (k : ℕ) (hk : k < 16) (hc : S16.ShapeCasts S16) (hs : S16.Slices ![k] S1)
    (hp : ∀ a, (![0] : Fin 1 → ℕ) a < S1.size a) :
    extractAt ![0] (extractStridedSlice S1 ![k] (shapeCast S16 v hc) hs) hp = v (ValueIdx.ix1 (⟨k, hk⟩ : Fin 16)) := by
  unfold extractAt
  refine (extractStridedSlice_apply ![k] _ hs _ (ValueIdx.ix1 (⟨k, hk⟩ : Fin 16)) (fun a => match a with
    | ⟨0, _⟩ => by show k = k + 0; rfl)).trans ?_
  exact shapeCast_apply v hc _ _ rfl

/-- Sixteen entries loaded at off from the whole table copy holding C: entry x is C at off + x. -/
theorem readAt_tab (C : S12800.Idx → BitVec 32) (off : Fin 1 → ℕ) (hoff : ∀ a, off a + S16.size a ≤ S12800.size a)
    (k : ℕ) (hk : k < 16) :
    View.readAt (Elt F) (tabS).view (Rect.unit (s := S12800) off S16.size hoff).toLoadRect C (ValueIdx.ix1 (⟨k, hk⟩ : Fin 16))
      = C (ValueIdx.ix1 (⟨off 0 + k, by have h : off 0 + 16 ≤ 12800 := hoff 0; omega⟩ : Fin 12800)) := by
  show C _ = C _
  refine congrArg C (funext fun a => match a with
    | ⟨0, _⟩ => Fin.ext (by show off 0 + 1 * k = off 0 + k; omega))

/-- Word k of a sixteen-word load at off from contents C is C at off + k. -/
theorem word_load (C : S12800.Idx → BitVec 32) (off : Fin 1 → ℕ) (hoff : ∀ a, off a + S16.size a ≤ S12800.size a)
    (k : ℕ) (hk : k < 16) (hc : S16.ShapeCasts S16) (hs : S16.Slices ![k] S1) (hp : ∀ a, (![0] : Fin 1 → ℕ) a < S1.size a) :
    extractAt ![0] (extractStridedSlice S1 ![k] (shapeCast S16 (View.readAt (Elt F) (tabS).view (Rect.unit (s := S12800) off S16.size hoff).toLoadRect C) hc) hs) hp
      = C (ValueIdx.ix1 (⟨off 0 + k, by have h : off 0 + 16 ≤ 12800 := hoff 0; omega⟩ : Fin 12800)) :=
  (word_of_vec _ k hk hc hs hp).trans (readAt_tab (F := F) C off hoff k hk)

theorem word0_load (C : S12800.Idx → BitVec 32) (off : Fin 1 → ℕ) (hoff : ∀ a, off a + S16.size a ≤ S12800.size a) :
    (extractAt ![0] (extractStridedSlice S1 ![0] (shapeCast S16 (View.readAt (Elt F) (tabS).view (Rect.unit (s := S12800) off S16.size hoff).toLoadRect C) shapeCasts_S16_S16) slices_S16_o0_S1) inpos_S1_p0)
      = C (ValueIdx.ix1 (⟨off 0 + 0, by have h : off 0 + 16 ≤ 12800 := hoff 0; omega⟩ : Fin 12800)) :=
  word_load (F := F) C off hoff 0 (by decide) _ _ _

theorem word1_load (C : S12800.Idx → BitVec 32) (off : Fin 1 → ℕ) (hoff : ∀ a, off a + S16.size a ≤ S12800.size a) :
    (extractAt ![0] (extractStridedSlice S1 ![1] (shapeCast S16 (View.readAt (Elt F) (tabS).view (Rect.unit (s := S12800) off S16.size hoff).toLoadRect C) shapeCasts_S16_S16) slices_S16_o1_S1) inpos_S1_p0)
      = C (ValueIdx.ix1 (⟨off 0 + 1, by have h : off 0 + 16 ≤ 12800 := hoff 0; omega⟩ : Fin 12800)) :=
  word_load (F := F) C off hoff 1 (by decide) _ _ _

theorem word2_load (C : S12800.Idx → BitVec 32) (off : Fin 1 → ℕ) (hoff : ∀ a, off a + S16.size a ≤ S12800.size a) :
    (extractAt ![0] (extractStridedSlice S1 ![2] (shapeCast S16 (View.readAt (Elt F) (tabS).view (Rect.unit (s := S12800) off S16.size hoff).toLoadRect C) shapeCasts_S16_S16) slices_S16_o2_S1) inpos_S1_p0)
      = C (ValueIdx.ix1 (⟨off 0 + 2, by have h : off 0 + 16 ≤ 12800 := hoff 0; omega⟩ : Fin 12800)) :=
  word_load (F := F) C off hoff 2 (by decide) _ _ _

/-! ## The six places a table row is read -/

section Sites

/-- A word loaded at 16·R + k (k < 3) of the padded table is entry k of the launch table's row min(R, 783). -/
theorem word_eq_at (off : Fin 1 → ℕ) (hoff : ∀ a, off a + S16.size a ≤ S12800.size a) (R : ℕ) (hR : R < 800)
    (hoffR : off 0 = 16 * R) (k : ℕ) (hk : k < 3) (hc : S16.ShapeCasts S16) (hs : S16.Slices ![k] S1)
    (hp : ∀ a, (![0] : Fin 1 → ℕ) a < S1.size a) :
    extractAt ![0] (extractStridedSlice S1 ![k] (shapeCast S16 (View.readAt (Elt F) (tabS).view (Rect.unit (s := S12800) off S16.size hoff).toLoadRect (tbV m d)) hc) hs) hp
      = m (a2Loc d) (ValueIdx.ix2 (⟨min R 783, Nat.lt_succ_of_le (Nat.min_le_right _ _)⟩ : Fin 784) (⟨k, hk⟩ : Fin 3)) := by
  refine (word_load (F := F) (tbV m d) off hoff k (by omega) hc hs hp).trans ?_
  have e : (⟨off 0 + k, by have h : off 0 + 16 ≤ 12800 := hoff 0; omega⟩ : Fin 12800)
      = ⟨16 * (⟨R, hR⟩ : Fin 800).val + (⟨k, hk⟩ : Fin 3).val, by show 16 * R + k < 12800; omega⟩ :=
    Fin.ext (by show off 0 + k = 16 * R + k; rw [hoffR])
  rw [e]
  exact tbV_word m d ⟨R, hR⟩ ⟨k, hk⟩

variable (ht : Cert.Spec.InRange (m (a2Loc d)))
include ht

/-- With the launch table in range such a word is at most 7. -/
theorem word_le_at (off : Fin 1 → ℕ) (hoff : ∀ a, off a + S16.size a ≤ S12800.size a) (R : ℕ) (hR : R < 800)
    (hoffR : off 0 = 16 * R) (k : ℕ) (hk : k < 3) (hc : S16.ShapeCasts S16) (hs : S16.Slices ![k] S1)
    (hp : ∀ a, (![0] : Fin 1 → ℕ) a < S1.size a) :
    (extractAt ![0] (extractStridedSlice S1 ![k] (shapeCast S16 (View.readAt (Elt F) (tabS).view (Rect.unit (s := S12800) off S16.size hoff).toLoadRect (tbV m d)) hc) hs) hp).toNat ≤ 7 := by
  rw [word_eq_at m d off hoff R hR hoffR k hk hc hs hp]
  exact ht _

/-- The range check at a load of row R's sixteen words. -/
theorem chk1_at (off : Fin 1 → ℕ) (hoff : ∀ a, off a + S16.size a ≤ S12800.size a) (R : ℕ) (hR : R < 800) (hoffR : off 0 = 16 * R) :
    k0_chk1 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk1_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off2_at (off : Fin 1 → ℕ) (hoff : ∀ a, off a + S16.size a ≤ S12800.size a) (R : ℕ) (hR : R < 800) (hoffR : off 0 = 16 * R) :
    k0_off2 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off2_eq _ _ _ (word_le_at m d ht off hoff R hR hoffR 1 (by decide) _ _ _) (word_le_at m d ht off hoff R hR hoffR 2 (by decide) _ _ _), e0, e1, e2]
  rfl

/-- The range check at a load of row R's sixteen words. -/
theorem chk2_at (off : Fin 1 → ℕ) (hoff : ∀ a, off a + S16.size a ≤ S12800.size a) (R : ℕ) (hR : R < 800) (hoffR : off 0 = 16 * R) :
    k0_chk2 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk2_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off4_at (off : Fin 1 → ℕ) (hoff : ∀ a, off a + S16.size a ≤ S12800.size a) (R : ℕ) (hR : R < 800) (hoffR : off 0 = 16 * R) :
    k0_off4 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off4_eq _ _ _ (word_le_at m d ht off hoff R hR hoffR 1 (by decide) _ _ _) (word_le_at m d ht off hoff R hR hoffR 2 (by decide) _ _ _), e0, e1, e2]
  rfl

/-- The range check at a load of row R's sixteen words. -/
theorem chk3_at (off : Fin 1 → ℕ) (hoff : ∀ a, off a + S16.size a ≤ S12800.size a) (R : ℕ) (hR : R < 800) (hoffR : off 0 = 16 * R) :
    k0_chk3 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk3_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off6_at (off : Fin 1 → ℕ) (hoff : ∀ a, off a + S16.size a ≤ S12800.size a) (R : ℕ) (hR : R < 800) (hoffR : off 0 = 16 * R) :
    k0_off6 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off6_eq _ _ _ (word_le_at m d ht off hoff R hR hoffR 1 (by decide) _ _ _) (word_le_at m d ht off hoff R hR hoffR 2 (by decide) _ _ _), e0, e1, e2]
  rfl

/-- The range check at a load of row R's sixteen words. -/
theorem chk4_at (off : Fin 1 → ℕ) (hoff : ∀ a, off a + S16.size a ≤ S12800.size a) (R : ℕ) (hR : R < 800) (hoffR : off 0 = 16 * R) :
    k0_chk4 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk4_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off9_at (off : Fin 1 → ℕ) (hoff : ∀ a, off a + S16.size a ≤ S12800.size a) (R : ℕ) (hR : R < 800) (hoffR : off 0 = 16 * R) :
    k0_off9 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off9_eq _ _ _ (word_le_at m d ht off hoff R hR hoffR 1 (by decide) _ _ _) (word_le_at m d ht off hoff R hR hoffR 2 (by decide) _ _ _), e0, e1, e2]
  rfl

/-- The range check at a load of row R's sixteen words. -/
theorem chk5_at (off : Fin 1 → ℕ) (hoff : ∀ a, off a + S16.size a ≤ S12800.size a) (R : ℕ) (hR : R < 800) (hoffR : off 0 = 16 * R) :
    k0_chk5 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk5_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off11_at (off : Fin 1 → ℕ) (hoff : ∀ a, off a + S16.size a ≤ S12800.size a) (R : ℕ) (hR : R < 800) (hoffR : off 0 = 16 * R) :
    k0_off11 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off11_eq _ _ _ (word_le_at m d ht off hoff R hR hoffR 1 (by decide) _ _ _) (word_le_at m d ht off hoff R hR hoffR 2 (by decide) _ _ _), e0, e1, e2]
  rfl

/-- The range check at a load of row R's sixteen words. -/
theorem chk6_at (off : Fin 1 → ℕ) (hoff : ∀ a, off a + S16.size a ≤ S12800.size a) (R : ℕ) (hR : R < 800) (hoffR : off 0 = 16 * R) :
    k0_chk6 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk6_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off14_at (off : Fin 1 → ℕ) (hoff : ∀ a, off a + S16.size a ≤ S12800.size a) (R : ℕ) (hR : R < 800) (hoffR : off 0 = 16 * R) :
    k0_off14 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off14_eq _ _ _ (word_le_at m d ht off hoff R hR hoffR 1 (by decide) _ _ _) (word_le_at m d ht off hoff R hR hoffR 2 (by decide) _ _ _), e0, e1, e2]
  rfl

omit ht [FloatOps F] in
/-- The loop runs at most twelve times. -/
theorem trip_lt (t : Fin k0_t1_loop.trips) : t.val < 12 := lt_of_lt_of_le t.isLt k0_t1_abs.2.1

omit ht [FloatOps F] in
theorem coord0_lt : (L 0).val < 2 := (L 0).isLt
omit ht [FloatOps F] in
theorem coord1_lt : (L 1).val < 16 := (L 1).isLt

omit ht [FloatOps F] in
/-- Load 1 reads the words of row 32·(0) + w of the padded table, w the worker's number. -/
theorem off1_row : (k0_off1 L) 0 = 16 * (32 * (0) + wOf (L 0).val (L 1).val) := by
  have h0 := coord0_lt L; have h1 := coord1_lt L
  rw [k0_off1_eq]
  show 32 * (L 1).val + 16 * (L 0).val = 16 * (32 * (0) + (2 * (L 1).val + (L 0).val))
  omega

omit ht [FloatOps F] in
theorem row1_lt : 32 * (0) + wOf (L 0).val (L 1).val < 800 := by
  have h0 := coord0_lt L; have h1 := coord1_lt L
  show 32 * (0) + (2 * (L 1).val + (L 0).val) < 800
  omega

theorem chk1_site :
    k0_chk1 (extractAt ![0] (extractStridedSlice S1 ![0] (shapeCast S16 (View.readAt (Elt F) (tabS).view (Rect.unit (s := S12800) (k0_off1 L) S16.size (k0_off1_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (tbV m d)) shapeCasts_S16_S16) slices_S16_o2_S1) inpos_S1_p0) :=
  chk1_at m d ht (k0_off1 L) (k0_off1_inb L) (32 * (0) + wOf (L 0).val (L 1).val) (row1_lt L) (off1_row L)

theorem k0_off2_site :
    k0_off2 (extractAt ![0] (extractStridedSlice S1 ![0] (shapeCast S16 (View.readAt (Elt F) (tabS).view (Rect.unit (s := S12800) (k0_off1 L) S16.size (k0_off1_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (tbV m d)) shapeCasts_S16_S16) slices_S16_o2_S1) inpos_S1_p0)
      = ![(m (a2Loc d) (ValueIdx.ix2 (⟨min (32 * (0) + wOf (L 0).val (L 1).val) 783, Nat.lt_succ_of_le (Nat.min_le_right _ _)⟩ : Fin 784) (0 : Fin 3))).toNat, 16 * (m (a2Loc d) (ValueIdx.ix2 (⟨min (32 * (0) + wOf (L 0).val (L 1).val) 783, Nat.lt_succ_of_le (Nat.min_le_right _ _)⟩ : Fin 784) (1 : Fin 3))).toNat, 1536 * (m (a2Loc d) (ValueIdx.ix2 (⟨min (32 * (0) + wOf (L 0).val (L 1).val) 783, Nat.lt_succ_of_le (Nat.min_le_right _ _)⟩ : Fin 784) (2 : Fin 3))).toNat] :=
  k0_off2_at m d ht (k0_off1 L) (k0_off1_inb L) (32 * (0) + wOf (L 0).val (L 1).val) (row1_lt L) (off1_row L)

omit ht [FloatOps F] in
/-- Load 2 reads the words of row 32·(2 * t.val + 1) + w of the padded table, w the worker's number. -/
theorem off3_row (t : Fin k0_t1_loop.trips) : (k0_off3 L t) 0 = 16 * (32 * (2 * t.val + 1) + wOf (L 0).val (L 1).val) := by
  have h0 := coord0_lt L; have h1 := coord1_lt L; have h2 := trip_lt t
  rw [k0_off3_eq]
  show 1024 * t.val + 32 * (L 1).val + 16 * (L 0).val + 512 = 16 * (32 * (2 * t.val + 1) + (2 * (L 1).val + (L 0).val))
  omega

omit ht [FloatOps F] in
theorem row2_lt (t : Fin k0_t1_loop.trips) : 32 * (2 * t.val + 1) + wOf (L 0).val (L 1).val < 800 := by
  have h0 := coord0_lt L; have h1 := coord1_lt L; have h2 := trip_lt t
  show 32 * (2 * t.val + 1) + (2 * (L 1).val + (L 0).val) < 800
  omega

theorem chk2_site (t : Fin k0_t1_loop.trips) :
    k0_chk2 (extractAt ![0] (extractStridedSlice S1 ![0] (shapeCast S16 (View.readAt (Elt F) (tabS).view (Rect.unit (s := S12800) (k0_off3 L t) S16.size (k0_off3_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off3 L t) S16.size (k0_off3_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off3 L t) S16.size (k0_off3_inb L t)).toLoadRect (tbV m d)) shapeCasts_S16_S16) slices_S16_o2_S1) inpos_S1_p0) :=
  chk2_at m d ht (k0_off3 L t) (k0_off3_inb L t) (32 * (2 * t.val + 1) + wOf (L 0).val (L 1).val) (row2_lt L t) (off3_row L t)

theorem k0_off4_site (t : Fin k0_t1_loop.trips) :
    k0_off4 (extractAt ![0] (extractStridedSlice S1 ![0] (shapeCast S16 (View.readAt (Elt F) (tabS).view (Rect.unit (s := S12800) (k0_off3 L t) S16.size (k0_off3_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off3 L t) S16.size (k0_off3_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off3 L t) S16.size (k0_off3_inb L t)).toLoadRect (tbV m d)) shapeCasts_S16_S16) slices_S16_o2_S1) inpos_S1_p0)
      = ![(m (a2Loc d) (ValueIdx.ix2 (⟨min (32 * (2 * t.val + 1) + wOf (L 0).val (L 1).val) 783, Nat.lt_succ_of_le (Nat.min_le_right _ _)⟩ : Fin 784) (0 : Fin 3))).toNat, 16 * (m (a2Loc d) (ValueIdx.ix2 (⟨min (32 * (2 * t.val + 1) + wOf (L 0).val (L 1).val) 783, Nat.lt_succ_of_le (Nat.min_le_right _ _)⟩ : Fin 784) (1 : Fin 3))).toNat, 1536 * (m (a2Loc d) (ValueIdx.ix2 (⟨min (32 * (2 * t.val + 1) + wOf (L 0).val (L 1).val) 783, Nat.lt_succ_of_le (Nat.min_le_right _ _)⟩ : Fin 784) (2 : Fin 3))).toNat] :=
  k0_off4_at m d ht (k0_off3 L t) (k0_off3_inb L t) (32 * (2 * t.val + 1) + wOf (L 0).val (L 1).val) (row2_lt L t) (off3_row L t)

omit ht [FloatOps F] in
/-- Load 3 reads the words of row 32·(2 * t.val) + w of the padded table, w the worker's number. -/
theorem off5_row (t : Fin k0_t1_loop.trips) : (k0_off5 L t) 0 = 16 * (32 * (2 * t.val) + wOf (L 0).val (L 1).val) := by
  have h0 := coord0_lt L; have h1 := coord1_lt L; have h2 := trip_lt t
  rw [k0_off5_eq]
  show 1024 * t.val + 32 * (L 1).val + 16 * (L 0).val = 16 * (32 * (2 * t.val) + (2 * (L 1).val + (L 0).val))
  omega

omit ht [FloatOps F] in
theorem row3_lt (t : Fin k0_t1_loop.trips) : 32 * (2 * t.val) + wOf (L 0).val (L 1).val < 800 := by
  have h0 := coord0_lt L; have h1 := coord1_lt L; have h2 := trip_lt t
  show 32 * (2 * t.val) + (2 * (L 1).val + (L 0).val) < 800
  omega

theorem chk3_site (t : Fin k0_t1_loop.trips) :
    k0_chk3 (extractAt ![0] (extractStridedSlice S1 ![0] (shapeCast S16 (View.readAt (Elt F) (tabS).view (Rect.unit (s := S12800) (k0_off5 L t) S16.size (k0_off5_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off5 L t) S16.size (k0_off5_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off5 L t) S16.size (k0_off5_inb L t)).toLoadRect (tbV m d)) shapeCasts_S16_S16) slices_S16_o2_S1) inpos_S1_p0) :=
  chk3_at m d ht (k0_off5 L t) (k0_off5_inb L t) (32 * (2 * t.val) + wOf (L 0).val (L 1).val) (row3_lt L t) (off5_row L t)

theorem k0_off6_site (t : Fin k0_t1_loop.trips) :
    k0_off6 (extractAt ![0] (extractStridedSlice S1 ![0] (shapeCast S16 (View.readAt (Elt F) (tabS).view (Rect.unit (s := S12800) (k0_off5 L t) S16.size (k0_off5_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off5 L t) S16.size (k0_off5_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off5 L t) S16.size (k0_off5_inb L t)).toLoadRect (tbV m d)) shapeCasts_S16_S16) slices_S16_o2_S1) inpos_S1_p0)
      = ![(m (a2Loc d) (ValueIdx.ix2 (⟨min (32 * (2 * t.val) + wOf (L 0).val (L 1).val) 783, Nat.lt_succ_of_le (Nat.min_le_right _ _)⟩ : Fin 784) (0 : Fin 3))).toNat, 16 * (m (a2Loc d) (ValueIdx.ix2 (⟨min (32 * (2 * t.val) + wOf (L 0).val (L 1).val) 783, Nat.lt_succ_of_le (Nat.min_le_right _ _)⟩ : Fin 784) (1 : Fin 3))).toNat, 1536 * (m (a2Loc d) (ValueIdx.ix2 (⟨min (32 * (2 * t.val) + wOf (L 0).val (L 1).val) 783, Nat.lt_succ_of_le (Nat.min_le_right _ _)⟩ : Fin 784) (2 : Fin 3))).toNat] :=
  k0_off6_at m d ht (k0_off5 L t) (k0_off5_inb L t) (32 * (2 * t.val) + wOf (L 0).val (L 1).val) (row3_lt L t) (off5_row L t)

omit ht [FloatOps F] in
/-- Load 4 reads the words of row 32·(2 * t.val + 2) + w of the padded table, w the worker's number. -/
theorem off8_row (t : Fin k0_t1_loop.trips) : (k0_off8 L t) 0 = 16 * (32 * (2 * t.val + 2) + wOf (L 0).val (L 1).val) := by
  have h0 := coord0_lt L; have h1 := coord1_lt L; have h2 := trip_lt t
  rw [k0_off8_eq]
  show 1024 * t.val + 32 * (L 1).val + 16 * (L 0).val + 1024 = 16 * (32 * (2 * t.val + 2) + (2 * (L 1).val + (L 0).val))
  omega

omit ht [FloatOps F] in
theorem row4_lt (t : Fin k0_t1_loop.trips) : 32 * (2 * t.val + 2) + wOf (L 0).val (L 1).val < 800 := by
  have h0 := coord0_lt L; have h1 := coord1_lt L; have h2 := trip_lt t
  show 32 * (2 * t.val + 2) + (2 * (L 1).val + (L 0).val) < 800
  omega

theorem chk4_site (t : Fin k0_t1_loop.trips) :
    k0_chk4 (extractAt ![0] (extractStridedSlice S1 ![0] (shapeCast S16 (View.readAt (Elt F) (tabS).view (Rect.unit (s := S12800) (k0_off8 L t) S16.size (k0_off8_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off8 L t) S16.size (k0_off8_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off8 L t) S16.size (k0_off8_inb L t)).toLoadRect (tbV m d)) shapeCasts_S16_S16) slices_S16_o2_S1) inpos_S1_p0) :=
  chk4_at m d ht (k0_off8 L t) (k0_off8_inb L t) (32 * (2 * t.val + 2) + wOf (L 0).val (L 1).val) (row4_lt L t) (off8_row L t)

theorem k0_off9_site (t : Fin k0_t1_loop.trips) :
    k0_off9 (extractAt ![0] (extractStridedSlice S1 ![0] (shapeCast S16 (View.readAt (Elt F) (tabS).view (Rect.unit (s := S12800) (k0_off8 L t) S16.size (k0_off8_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off8 L t) S16.size (k0_off8_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off8 L t) S16.size (k0_off8_inb L t)).toLoadRect (tbV m d)) shapeCasts_S16_S16) slices_S16_o2_S1) inpos_S1_p0)
      = ![(m (a2Loc d) (ValueIdx.ix2 (⟨min (32 * (2 * t.val + 2) + wOf (L 0).val (L 1).val) 783, Nat.lt_succ_of_le (Nat.min_le_right _ _)⟩ : Fin 784) (0 : Fin 3))).toNat, 16 * (m (a2Loc d) (ValueIdx.ix2 (⟨min (32 * (2 * t.val + 2) + wOf (L 0).val (L 1).val) 783, Nat.lt_succ_of_le (Nat.min_le_right _ _)⟩ : Fin 784) (1 : Fin 3))).toNat, 1536 * (m (a2Loc d) (ValueIdx.ix2 (⟨min (32 * (2 * t.val + 2) + wOf (L 0).val (L 1).val) 783, Nat.lt_succ_of_le (Nat.min_le_right _ _)⟩ : Fin 784) (2 : Fin 3))).toNat] :=
  k0_off9_at m d ht (k0_off8 L t) (k0_off8_inb L t) (32 * (2 * t.val + 2) + wOf (L 0).val (L 1).val) (row4_lt L t) (off8_row L t)

omit ht [FloatOps F] in
/-- Load 5 reads the words of row 32·(2 * t.val + 1) + w of the padded table, w the worker's number. -/
theorem off10_row (t : Fin k0_t1_loop.trips) : (k0_off10 L t) 0 = 16 * (32 * (2 * t.val + 1) + wOf (L 0).val (L 1).val) := by
  have h0 := coord0_lt L; have h1 := coord1_lt L; have h2 := trip_lt t
  rw [k0_off10_eq]
  show 1024 * t.val + 32 * (L 1).val + 16 * (L 0).val + 512 = 16 * (32 * (2 * t.val + 1) + (2 * (L 1).val + (L 0).val))
  omega

omit ht [FloatOps F] in
theorem row5_lt (t : Fin k0_t1_loop.trips) : 32 * (2 * t.val + 1) + wOf (L 0).val (L 1).val < 800 := by
  have h0 := coord0_lt L; have h1 := coord1_lt L; have h2 := trip_lt t
  show 32 * (2 * t.val + 1) + (2 * (L 1).val + (L 0).val) < 800
  omega

theorem chk5_site (t : Fin k0_t1_loop.trips) :
    k0_chk5 (extractAt ![0] (extractStridedSlice S1 ![0] (shapeCast S16 (View.readAt (Elt F) (tabS).view (Rect.unit (s := S12800) (k0_off10 L t) S16.size (k0_off10_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off10 L t) S16.size (k0_off10_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off10 L t) S16.size (k0_off10_inb L t)).toLoadRect (tbV m d)) shapeCasts_S16_S16) slices_S16_o2_S1) inpos_S1_p0) :=
  chk5_at m d ht (k0_off10 L t) (k0_off10_inb L t) (32 * (2 * t.val + 1) + wOf (L 0).val (L 1).val) (row5_lt L t) (off10_row L t)

theorem k0_off11_site (t : Fin k0_t1_loop.trips) :
    k0_off11 (extractAt ![0] (extractStridedSlice S1 ![0] (shapeCast S16 (View.readAt (Elt F) (tabS).view (Rect.unit (s := S12800) (k0_off10 L t) S16.size (k0_off10_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off10 L t) S16.size (k0_off10_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off10 L t) S16.size (k0_off10_inb L t)).toLoadRect (tbV m d)) shapeCasts_S16_S16) slices_S16_o2_S1) inpos_S1_p0)
      = ![(m (a2Loc d) (ValueIdx.ix2 (⟨min (32 * (2 * t.val + 1) + wOf (L 0).val (L 1).val) 783, Nat.lt_succ_of_le (Nat.min_le_right _ _)⟩ : Fin 784) (0 : Fin 3))).toNat, 16 * (m (a2Loc d) (ValueIdx.ix2 (⟨min (32 * (2 * t.val + 1) + wOf (L 0).val (L 1).val) 783, Nat.lt_succ_of_le (Nat.min_le_right _ _)⟩ : Fin 784) (1 : Fin 3))).toNat, 1536 * (m (a2Loc d) (ValueIdx.ix2 (⟨min (32 * (2 * t.val + 1) + wOf (L 0).val (L 1).val) 783, Nat.lt_succ_of_le (Nat.min_le_right _ _)⟩ : Fin 784) (2 : Fin 3))).toNat] :=
  k0_off11_at m d ht (k0_off10 L t) (k0_off10_inb L t) (32 * (2 * t.val + 1) + wOf (L 0).val (L 1).val) (row5_lt L t) (off10_row L t)

omit ht [FloatOps F] in
/-- Load 6 reads the words of row 32·(24) + w of the padded table, w the worker's number. -/
theorem off13_row : (k0_off13 L) 0 = 16 * (32 * (24) + wOf (L 0).val (L 1).val) := by
  have h0 := coord0_lt L; have h1 := coord1_lt L
  rw [k0_off13_eq]
  show 32 * (L 1).val + 16 * (L 0).val + 12288 = 16 * (32 * (24) + (2 * (L 1).val + (L 0).val))
  omega

omit ht [FloatOps F] in
theorem row6_lt : 32 * (24) + wOf (L 0).val (L 1).val < 800 := by
  have h0 := coord0_lt L; have h1 := coord1_lt L
  show 32 * (24) + (2 * (L 1).val + (L 0).val) < 800
  omega

theorem chk6_site :
    k0_chk6 (extractAt ![0] (extractStridedSlice S1 ![0] (shapeCast S16 (View.readAt (Elt F) (tabS).view (Rect.unit (s := S12800) (k0_off13 L) S16.size (k0_off13_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off13 L) S16.size (k0_off13_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off13 L) S16.size (k0_off13_inb L)).toLoadRect (tbV m d)) shapeCasts_S16_S16) slices_S16_o2_S1) inpos_S1_p0) :=
  chk6_at m d ht (k0_off13 L) (k0_off13_inb L) (32 * (24) + wOf (L 0).val (L 1).val) (row6_lt L) (off13_row L)

theorem k0_off14_site :
    k0_off14 (extractAt ![0] (extractStridedSlice S1 ![0] (shapeCast S16 (View.readAt (Elt F) (tabS).view (Rect.unit (s := S12800) (k0_off13 L) S16.size (k0_off13_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off13 L) S16.size (k0_off13_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off13 L) S16.size (k0_off13_inb L)).toLoadRect (tbV m d)) shapeCasts_S16_S16) slices_S16_o2_S1) inpos_S1_p0)
      = ![(m (a2Loc d) (ValueIdx.ix2 (⟨min (32 * (24) + wOf (L 0).val (L 1).val) 783, Nat.lt_succ_of_le (Nat.min_le_right _ _)⟩ : Fin 784) (0 : Fin 3))).toNat, 16 * (m (a2Loc d) (ValueIdx.ix2 (⟨min (32 * (24) + wOf (L 0).val (L 1).val) 783, Nat.lt_succ_of_le (Nat.min_le_right _ _)⟩ : Fin 784) (1 : Fin 3))).toNat, 1536 * (m (a2Loc d) (ValueIdx.ix2 (⟨min (32 * (24) + wOf (L 0).val (L 1).val) 783, Nat.lt_succ_of_le (Nat.min_le_right _ _)⟩ : Fin 784) (2 : Fin 3))).toNat] :=
  k0_off14_at m d ht (k0_off13 L) (k0_off13_inb L) (32 * (24) + wOf (L 0).val (L 1).val) (row6_lt L) (off13_row L)

/-- The first load's check and offsets, stated over the table copy as the transfer left it. -/
theorem chk1_site_landed (ft : Buf (Elt F) ((thr d L).loc cc0_scratch0)) :
    k0_chk1 (extractAt ![0] (extractStridedSlice S1 ![0] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o2_S1) inpos_S1_p0) := by
  rw [tab_landed d L ft (tbV m d)]
  exact chk1_site m d L ht

theorem k0_off2_site_landed (ft : Buf (Elt F) ((thr d L).loc cc0_scratch0)) :
    k0_off2 (extractAt ![0] (extractStridedSlice S1 ![0] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o2_S1) inpos_S1_p0)
      = ![(m (a2Loc d) (ValueIdx.ix2 (⟨min (32 * (0) + wOf (L 0).val (L 1).val) 783, Nat.lt_succ_of_le (Nat.min_le_right _ _)⟩ : Fin 784) (0 : Fin 3))).toNat, 16 * (m (a2Loc d) (ValueIdx.ix2 (⟨min (32 * (0) + wOf (L 0).val (L 1).val) 783, Nat.lt_succ_of_le (Nat.min_le_right _ _)⟩ : Fin 784) (1 : Fin 3))).toNat, 1536 * (m (a2Loc d) (ValueIdx.ix2 (⟨min (32 * (0) + wOf (L 0).val (L 1).val) 783, Nat.lt_succ_of_le (Nat.min_le_right _ _)⟩ : Fin 784) (2 : Fin 3))).toNat] := by
  rw [tab_landed d L ft (tbV m d)]
  exact k0_off2_site m d L ht

end Sites

end Cert.Proof.KI

end
-- ==== Proof.ViewsKI.lean ====
/-
  Reads through the views the transfers use — a 16 × 1536 block of the corner array or of the output, a slot after a
  whole-slot transfer landed — and the write-back's side condition and the rows it marks.
-/
import proofs.«216119_g70222715290213_cont_sun_c4_40_39_alg».proof.Proof.WordsKI
import Idealize.ShloMosaic.Lib.Writes

noncomputable section

namespace Cert.Proof.KI

open Cert.KernelIdeal Cert.KernelIdeal.Gen

open Idealize.ShloMosaic

variable {F : FTy → Type} [FloatOps F] (m : (ℓ : Loc nD τ sig) → Buf (Elt F) ℓ) (d : Dev nD)

/-! ## Reads through the views the transfers use -/

section Reads

omit [FloatOps F] in
/-- A 16 × 1536 index, as an index of the 1 × 16 × 1536 block with the same position. -/
theorem reshape_row (h : S16x1536.numel = S1x16x1536.numel) (x : S16x1536.Idx) :
    Shape.reshapeEquiv (s := S1x16x1536) (s' := S16x1536) h x
      = ValueIdx.ix3 (0 : Fin 1) (⟨(x 0).val, (x 0).isLt⟩ : Fin 16) (⟨(x 1).val, (x 1).isLt⟩ : Fin 1536) :=
  Shape.reshapeEquiv_eq_of_rowMajor h (by
    rw [Shape.rowMajor_val_three, Shape.rowMajor_val_two]
    show (0 * 16 + (x 0).val) * 1536 + (x 1).val = (x 0).val * 1536 + (x 1).val
    omega)

/-- The 16 × 1536 block of the corner array at off, read at (a, p), is the array at (off 0, off 1 + a, off 2 + p). -/
theorem read_in (g : S8x128x12288.Idx → Elt F .f32) (off : Fin 3 → ℕ)
    (hoff : ∀ a, off a + S1x16x1536.size a ≤ S8x128x12288.size a) (x : S16x1536.Idx) :
    View.read (Elt F) (((inW).slice (Rect.unit (s := S8x128x12288) off S1x16x1536.size hoff) (fun _ => rfl)).squeeze S16x1536 squeezes_S1x16x1536_S16x1536).view g x
      = g (ValueIdx.ix3 (⟨off 0, by have h : off 0 + 1 ≤ 8 := hoff 0; omega⟩ : Fin 8)
          (⟨off 1 + (x 0).val, by have h : off 1 + 16 ≤ 128 := hoff 1; have hx : (x 0).val < 16 := (x 0).isLt; omega⟩ : Fin 128)
          (⟨off 2 + (x 1).val, by have h : off 2 + 1536 ≤ 12288 := hoff 2; have hx : (x 1).val < 1536 := (x 1).isLt; omega⟩ : Fin 12288)) := by
  show g ((Rect.unit (s := S8x128x12288) off S1x16x1536.size hoff).emb (Shape.reshapeEquiv (s := S1x16x1536) (s' := S16x1536) _ x)) = g _
  rw [reshape_row]
  refine congrArg g (funext fun a => match a with
    | ⟨0, _⟩ => Fin.ext (by show off 0 + 1 * 0 = off 0; omega)
    | ⟨1, _⟩ => Fin.ext (by show off 1 + 1 * (x 0).val = off 1 + (x 0).val; omega)
    | ⟨2, _⟩ => Fin.ext (by show off 2 + 1 * (x 1).val = off 2 + (x 1).val; omega))

/-- The same for a 16 × 1536 block of the output array. -/
theorem read_out (g : S784x16x1536.Idx → Elt F .f32) (off : Fin 3 → ℕ)
    (hoff : ∀ a, off a + S1x16x1536.size a ≤ S784x16x1536.size a) (x : S16x1536.Idx) :
    View.read (Elt F) (((outW).slice (Rect.unit (s := S784x16x1536) off S1x16x1536.size hoff) (fun _ => rfl)).squeeze S16x1536 squeezes_S1x16x1536_S16x1536).view g x
      = g (ValueIdx.ix3 (⟨off 0, by have h : off 0 + 1 ≤ 784 := hoff 0; omega⟩ : Fin 784)
          (⟨off 1 + (x 0).val, by have h : off 1 + 16 ≤ 16 := hoff 1; have hx : (x 0).val < 16 := (x 0).isLt; omega⟩ : Fin 16)
          (⟨off 2 + (x 1).val, by have h : off 2 + 1536 ≤ 1536 := hoff 2; have hx : (x 1).val < 1536 := (x 1).isLt; omega⟩ : Fin 1536)) := by
  show g ((Rect.unit (s := S784x16x1536) off S1x16x1536.size hoff).emb (Shape.reshapeEquiv (s := S1x16x1536) (s' := S16x1536) _ x)) = g _
  rw [reshape_row]
  refine congrArg g (funext fun a => match a with
    | ⟨0, _⟩ => Fin.ext (by show off 0 + 1 * 0 = off 0; omega)
    | ⟨1, _⟩ => Fin.ext (by show off 1 + 1 * (x 0).val = off 1 + (x 0).val; omega)
    | ⟨2, _⟩ => Fin.ext (by show off 2 + 1 * (x 1).val = off 2 + (x 1).val; omega))

omit [FloatOps F] in
/-- After one write of the whole shape through a view, the view reads the payload. -/
theorem read_writes_whole {sig' : RefSig} {κ : Kind} {sp : Space} {s : Shape} {e : EltTy} {Val : EltTy → Type}
    (v : View sig' κ sp s e) (f : v.ty.Contents Val) (w : (Rect.whole s).shape.Idx → Val e) (x : (Rect.whole s).shape.Idx) :
    v.read Val (v.writes Val f [⟨Rect.whole s, w⟩]) x = w x := by
  have h := View.read_writes_cons_emb v f (Rect.whole s) w [] x
  rwa [Rect.emb_whole_apply] at h

/-- Slot 0 after a transfer of the whole slot landed reads the payload. -/
theorem read_slot0_written (fb : (((bufS).slice (Rect.unit (s := S2x16x1536) ![0, 0, 0] S1x16x1536.size inb_S2x16x1536_S1x16x1536_0_0_0) (fun _ => rfl)).squeeze S16x1536 squeezes_S1x16x1536_S16x1536).view.ty.Contents (Elt F)) (w : S16x1536.Idx → Elt F .f32) (x : S16x1536.Idx) :
    View.read (Elt F) (((bufS).slice (Rect.unit (s := S2x16x1536) ![0, 0, 0] S1x16x1536.size inb_S2x16x1536_S1x16x1536_0_0_0) (fun _ => rfl)).squeeze S16x1536 squeezes_S1x16x1536_S16x1536).view
        ((((bufS).slice (Rect.unit (s := S2x16x1536) ![0, 0, 0] S1x16x1536.size inb_S2x16x1536_S1x16x1536_0_0_0) (fun _ => rfl)).squeeze S16x1536 squeezes_S1x16x1536_S16x1536).view.writes (Elt F) fb [⟨Rect.whole S16x1536, w⟩]) x = w x :=
  read_writes_whole _ fb w x

/-- Slot 1 after a transfer of the whole slot landed reads the payload. -/
theorem read_slot1_written (fb : (((bufS).slice (Rect.unit (s := S2x16x1536) ![1, 0, 0] S1x16x1536.size inb_S2x16x1536_S1x16x1536_1_0_0) (fun _ => rfl)).squeeze S16x1536 squeezes_S1x16x1536_S16x1536).view.ty.Contents (Elt F)) (w : S16x1536.Idx → Elt F .f32) (x : S16x1536.Idx) :
    View.read (Elt F) (((bufS).slice (Rect.unit (s := S2x16x1536) ![1, 0, 0] S1x16x1536.size inb_S2x16x1536_S1x16x1536_1_0_0) (fun _ => rfl)).squeeze S16x1536 squeezes_S1x16x1536_S16x1536).view
        ((((bufS).slice (Rect.unit (s := S2x16x1536) ![1, 0, 0] S1x16x1536.size inb_S2x16x1536_S1x16x1536_1_0_0) (fun _ => rfl)).squeeze S16x1536 squeezes_S1x16x1536_S16x1536).view.writes (Elt F) fb [⟨Rect.whole S16x1536, w⟩]) x = w x :=
  read_writes_whole _ fb w x

end Reads

/-! ## The write-back: its side condition and the rows it marks -/

section WriteBack

/-- A payload is admitted for the output's row r, every element's target the gathered value, exactly when it is the
    target's row r. -/
theorem admitted_out_iff (off : Fin 3 → ℕ) (hoff : ∀ a, off a + S1x16x1536.size a ≤ S784x16x1536.size a)
    (h1 : off 1 = 0) (h2 : off 2 = 0) (w : S16x1536.Idx → Elt F .f32) :
    (((outW).slice (Rect.unit (s := S784x16x1536) off S1x16x1536.size hoff) (fun _ => rfl)).squeeze S16x1536 squeezes_S1x16x1536_S16x1536).view.Admitted (Elt F) (fun i => some (tgt m d i)) w Finset.univ
      ↔ ∀ x : S16x1536.Idx, w x = tgt m d (ValueIdx.ix3 (⟨off 0, by have h : off 0 + 1 ≤ 784 := hoff 0; omega⟩ : Fin 784) (x 0 : Fin 16) (x 1 : Fin 1536)) := by
  rw [View.admitted_some_iff]
  refine forall_congr' fun x => ?_
  rw [show (x ∈ (Finset.univ : Finset S16x1536.Idx)) = True from eq_true (Finset.mem_univ x), true_imp_iff,
    read_out (F := F) (tgt m d) off hoff x]
  have e : (ValueIdx.ix3 (⟨off 0, by have h : off 0 + 1 ≤ 784 := hoff 0; omega⟩ : Fin 784)
        (⟨off 1 + (x 0).val, by have h : off 1 + 16 ≤ 16 := hoff 1; have hx : (x 0).val < 16 := (x 0).isLt; omega⟩ : Fin 16)
        (⟨off 2 + (x 1).val, by have h : off 2 + 1536 ≤ 1536 := hoff 2; have hx : (x 1).val < 1536 := (x 1).isLt; omega⟩ : Fin 1536))
      = ValueIdx.ix3 (⟨off 0, by have h : off 0 + 1 ≤ 784 := hoff 0; omega⟩ : Fin 784) (x 0 : Fin 16) (x 1 : Fin 1536) :=
    funext fun a => match a with
      | ⟨0, _⟩ => rfl
      | ⟨1, _⟩ => Fin.ext (by show off 1 + (x 0).val = (x 0).val; omega)
      | ⟨2, _⟩ => Fin.ext (by show off 2 + (x 1).val = (x 1).val; omega)
  rw [e]
  exact Iff.rfl

/-- The same at the literal offsets (r, 0, 0). -/
theorem admitted_row_iff (r : ℕ) (h : ∀ a, (![r, 0, 0] : Fin 3 → ℕ) a + S1x16x1536.size a ≤ S784x16x1536.size a)
    (w : S16x1536.Idx → Elt F .f32) :
    (((outW).slice (Rect.unit (s := S784x16x1536) ![r, 0, 0] S1x16x1536.size h) (fun _ => rfl)).squeeze S16x1536 squeezes_S1x16x1536_S16x1536).view.Admitted (Elt F) (fun i => some (tgt m d i)) w Finset.univ
      ↔ ∀ x : S16x1536.Idx, w x = tgt m d (ValueIdx.ix3 (⟨r, by have h' : r + 1 ≤ 784 := h 0; omega⟩ : Fin 784) (x 0 : Fin 16) (x 1 : Fin 1536)) :=
  admitted_out_iff m d ![r, 0, 0] h rfl rfl w

omit [FloatOps F] in
/-- The elements of the output under its 1 × 16 × 1536 block at (r, 0, 0) are row r. -/
theorem set_out_row (r : ℕ) (h : ∀ a, (![r, 0, 0] : Fin 3 → ℕ) a + S1x16x1536.size a ≤ S784x16x1536.size a) :
    (((outW).slice (Rect.unit (s := S784x16x1536) ![r, 0, 0] S1x16x1536.size h) (fun _ => rfl)).squeeze S16x1536 squeezes_S1x16x1536_S16x1536).view.set = rowSet d r := by
  have e1 : (((outW).slice (Rect.unit (s := S784x16x1536) ![r, 0, 0] S1x16x1536.size h) (fun _ => rfl)).squeeze S16x1536 squeezes_S1x16x1536_S16x1536).view.set
      = (Rect.unit (s := S784x16x1536) ![r, 0, 0] S1x16x1536.size h).set :=
    (View.set_reshape _ _).trans (View.set_slice_whole main_v9_scv _)
  refine e1.trans ?_
  ext i
  unfold rowSet
  rw [Rect.mem_set_unit, Finset.mem_filter]
  simp only [Finset.mem_univ, true_and]
  constructor
  · intro hi
    have h0 : r ≤ (i 0).val ∧ (i 0).val < r + 1 := hi 0
    show (i 0).val = r
    omega
  · intro hi a
    have hr : (i 0).val = r := hi
    match a with
    | ⟨0, _⟩ => show r ≤ (i 0).val ∧ (i 0).val < r + 1; omega
    | ⟨1, _⟩ => show 0 ≤ (i 1).val ∧ (i 1).val < 0 + 16; have := (i 1).isLt; have h16 : (i 1).val < 16 := this; omega
    | ⟨2, _⟩ => show 0 ≤ (i 2).val ∧ (i 2).val < 0 + 1536; have := (i 2).isLt; have h15 : (i 2).val < 1536 := this; omega

/-- What a slot holds after the block named by the launch table's row r landed in it is admitted for output row r. -/
theorem admitted_row (ht : Cert.Spec.InRange (m (a2Loc d))) (r : Fin 784)
    (h : ∀ a, (![r.val, 0, 0] : Fin 3 → ℕ) a + S1x16x1536.size a ≤ S784x16x1536.size a)
    (h' : ∀ a, (![(m (a2Loc d) (ValueIdx.ix2 r (0 : Fin 3))).toNat, 16 * (m (a2Loc d) (ValueIdx.ix2 r (1 : Fin 3))).toNat,
      1536 * (m (a2Loc d) (ValueIdx.ix2 r (2 : Fin 3))).toNat] : Fin 3 → ℕ) a + S1x16x1536.size a ≤ S8x128x12288.size a)
    (vs : View sig .scVector .vmem S16x1536 .f32) (fb : vs.ty.Contents (Elt F)) :
    (((outW).slice (Rect.unit (s := S784x16x1536) ![r.val, 0, 0] S1x16x1536.size h) (fun _ => rfl)).squeeze S16x1536 squeezes_S1x16x1536_S16x1536).view.Admitted (Elt F) (fun i => some (tgt m d i))
      (vs.read (Elt F) (vs.writes (Elt F) fb [⟨Rect.whole S16x1536, ReadAs.same.apply (View.read (Elt F)
        (((inW).slice (Rect.unit (s := S8x128x12288) ![(m (a2Loc d) (ValueIdx.ix2 r (0 : Fin 3))).toNat, 16 * (m (a2Loc d) (ValueIdx.ix2 r (1 : Fin 3))).toNat, 1536 * (m (a2Loc d) (ValueIdx.ix2 r (2 : Fin 3))).toNat] S1x16x1536.size h') (fun _ => rfl)).squeeze S16x1536 squeezes_S1x16x1536_S16x1536).view (inV m d))⟩]))
      Finset.univ := by
  rw [admitted_row_iff m d r.val h]
  intro x
  refine (read_writes_whole vs fb _ x).trans ?_
  refine (read_in (F := F) (inV m d) _ h' x).trans ?_
  have hx0 : (x 0).val < 16 := (x 0).isLt
  have hx1 : (x 1).val < 1536 := (x 1).isLt
  have hb0 : (m (a2Loc d) (ValueIdx.ix2 r (0 : Fin 3))).toNat ≤ 7 := ht _
  have hb1 : (m (a2Loc d) (ValueIdx.ix2 r (1 : Fin 3))).toNat ≤ 7 := ht _
  have hb2 : (m (a2Loc d) (ValueIdx.ix2 r (2 : Fin 3))).toNat ≤ 7 := ht _
  exact inV_block_of_words m d ht r _ _ _ rfl rfl rfl (x 0) (x 1) (by omega) (by omega) (by omega)

end WriteBack

/-! ## The forms the body's proof cites -/

/-- The output row a row of the padded table names: the rows past the last repeat it. -/
abbrev rowOf (R : ℕ) : Fin 784 := ⟨min R 783, Nat.lt_succ_of_le (Nat.min_le_right _ _)⟩

theorem rowOf_val (R : ℕ) : (rowOf R).val = min R 783 := rfl

/-- The worker's number at a grid point. -/
abbrev wL (L : grid0.Coords) : ℕ := wOf (L 0).val (L 1).val

section Cited
variable (L : grid0.Coords)

/-! ### The table rows the six loads read -/

omit [FloatOps F] in
theorem k0_off1_row : k0_off1 L = ![16 * (32 * 0 + wL L)] := by
  have h0 := coord0_lt L; have h1 := coord1_lt L
  rw [k0_off1_eq]
  exact congrArg (fun z : ℕ => (![z] : Fin 1 → ℕ))
    (show 32 * (L 1).val + 16 * (L 0).val = 16 * (32 * 0 + (2 * (L 1).val + (L 0).val)) by omega)

omit [FloatOps F] in
theorem k0_off3_row (k : Fin k0_t1_loop.trips) : k0_off3 L k = ![16 * (32 * (2 * k.val + 1) + wL L)] := by
  rw [k0_off3_eq]
  exact congrArg (fun z : ℕ => (![z] : Fin 1 → ℕ))
    (show 1024 * k.val + 32 * (L 1).val + 16 * (L 0).val + 512 = 16 * (32 * (2 * k.val + 1) + (2 * (L 1).val + (L 0).val)) by omega)

omit [FloatOps F] in
theorem k0_off5_row (k : Fin k0_t1_loop.trips) : k0_off5 L k = ![16 * (32 * (2 * k.val) + wL L)] := by
  rw [k0_off5_eq]
  exact congrArg (fun z : ℕ => (![z] : Fin 1 → ℕ))
    (show 1024 * k.val + 32 * (L 1).val + 16 * (L 0).val = 16 * (32 * (2 * k.val) + (2 * (L 1).val + (L 0).val)) by omega)

omit [FloatOps F] in
theorem k0_off8_row (k : Fin k0_t1_loop.trips) : k0_off8 L k = ![16 * (32 * (2 * k.val + 2) + wL L)] := by
  rw [k0_off8_eq]
  exact congrArg (fun z : ℕ => (![z] : Fin 1 → ℕ))
    (show 1024 * k.val + 32 * (L 1).val + 16 * (L 0).val + 1024 = 16 * (32 * (2 * k.val + 2) + (2 * (L 1).val + (L 0).val)) by omega)

omit [FloatOps F] in
theorem k0_off10_row (k : Fin k0_t1_loop.trips) : k0_off10 L k = ![16 * (32 * (2 * k.val + 1) + wL L)] := by
  rw [k0_off10_eq]
  exact congrArg (fun z : ℕ => (![z] : Fin 1 → ℕ))
    (show 1024 * k.val + 32 * (L 1).val + 16 * (L 0).val + 512 = 16 * (32 * (2 * k.val + 1) + (2 * (L 1).val + (L 0).val)) by omega)

omit [FloatOps F] in
theorem k0_off13_row : k0_off13 L = ![16 * (32 * 24 + wL L)] := by
  rw [k0_off13_eq]
  exact congrArg (fun z : ℕ => (![z] : Fin 1 → ℕ))
    (show 32 * (L 1).val + 16 * (L 0).val + 12288 = 16 * (32 * 24 + (2 * (L 1).val + (L 0).val)) by omega)

/-! ### A slot after a block landed -/

/-- A slot (any view of 16 × 1536) after the block named by the three words of table row R landed in it reads the
    target's row min(R, 783). -/
theorem landed_block (ht : Cert.Spec.InRange (m (a2Loc d))) (vs : View sig .scVector .vmem S16x1536 .f32)
    (g : vs.ty.Contents (Elt F)) (R : ℕ) (hR : R < 800) (off : Fin 1 → ℕ)
    (hoff : ∀ a, off a + S16.size a ≤ S12800.size a) (hoffR : off = ![16 * R]) (offs : Fin 3 → ℕ)
    (hoffs : offs = ![(extractAt ![0] (extractStridedSlice S1 ![0] (shapeCast S16 (View.readAt (Elt F) (tabS).view (Rect.unit (s := S12800) off S16.size hoff).toLoadRect (tbV m d)) shapeCasts_S16_S16) slices_S16_o0_S1) inpos_S1_p0).toNat,
      16 * (extractAt ![0] (extractStridedSlice S1 ![1] (shapeCast S16 (View.readAt (Elt F) (tabS).view (Rect.unit (s := S12800) off S16.size hoff).toLoadRect (tbV m d)) shapeCasts_S16_S16) slices_S16_o1_S1) inpos_S1_p0).toNat,
      1536 * (extractAt ![0] (extractStridedSlice S1 ![2] (shapeCast S16 (View.readAt (Elt F) (tabS).view (Rect.unit (s := S12800) off S16.size hoff).toLoadRect (tbV m d)) shapeCasts_S16_S16) slices_S16_o2_S1) inpos_S1_p0).toNat])
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf R) (x 0 : Fin 16) (x 1 : Fin 1536)) := by
  subst hoffs
  have hR0 : off 0 = 16 * R := by rw [hoffR]; rfl
  have e0 := word_eq_at m d off hoff R hR hR0 0 (by decide) shapeCasts_S16_S16 slices_S16_o0_S1 inpos_S1_p0
  have e1 := word_eq_at m d off hoff R hR hR0 1 (by decide) shapeCasts_S16_S16 slices_S16_o1_S1 inpos_S1_p0
  have e2 := word_eq_at m d off hoff R hR hR0 2 (by decide) shapeCasts_S16_S16 slices_S16_o2_S1 inpos_S1_p0
  refine (read_writes_whole vs g _ x).trans ?_
  refine (read_in (F := F) (inV m d) _ h x).trans ?_
  exact inV_block_of_words m d ht (rowOf R) _ _ _ e0 e1 e2 (x 0) (x 1) _ _ _

/-! ### The write-back's side condition from what the slot holds -/

/-- A slot that reads the target's row r is admitted for the output's row r. -/
theorem admitted_of_landed (vs : View sig .scVector .vmem S16x1536 .f32) (g : vs.ty.Contents (Elt F)) (r : Fin 784)
    (hg : ∀ x : S16x1536.Idx, vs.read (Elt F) g x = tgt m d (ValueIdx.ix3 r (x 0 : Fin 16) (x 1 : Fin 1536)))
    (off : Fin 3 → ℕ) (hoff : off = ![r.val, 0, 0]) (h : ∀ a, off a + S1x16x1536.size a ≤ S784x16x1536.size a) :
    (((outW).slice (Rect.unit (s := S784x16x1536) off S1x16x1536.size h) (fun _ => rfl)).squeeze S16x1536 squeezes_S1x16x1536_S16x1536).view.Admitted (Elt F) (fun i => some (tgt m d i)) (vs.read (Elt F) g) Finset.univ := by
  subst hoff
  rw [admitted_row_iff m d r.val h]
  exact hg

/-! ### The rows a write-back marks -/

omit [FloatOps F] in
theorem set_out_row_of_eq (off : Fin 3 → ℕ) (h : ∀ a, off a + S1x16x1536.size a ≤ S784x16x1536.size a) (r : ℕ)
    (hoff : off = ![r, 0, 0]) : (((outW).slice (Rect.unit (s := S784x16x1536) off S1x16x1536.size h) (fun _ => rfl)).squeeze S16x1536 squeezes_S1x16x1536_S16x1536).view.set = rowSet d r := by
  subst hoff
  exact set_out_row d r h

omit [FloatOps F] in
theorem k0_off7_rowOf (k : Fin k0_t1_loop.trips) : k0_off7 L k = ![(rowOf (32 * (2 * k.val) + wL L)).val, 0, 0] := by
  have h0 := coord0_lt L; have h1 := coord1_lt L; have h2 := trip_lt k
  rw [k0_off7_eq]
  exact congrArg (fun z : ℕ => (![z, 0, 0] : Fin 3 → ℕ))
    (show 64 * k.val + 2 * (L 1).val + (L 0).val = min (32 * (2 * k.val) + (2 * (L 1).val + (L 0).val)) 783 by omega)

omit [FloatOps F] in
theorem k0_off12_rowOf (k : Fin k0_t1_loop.trips) : k0_off12 L k = ![(rowOf (32 * (2 * k.val + 1) + wL L)).val, 0, 0] := by
  have h0 := coord0_lt L; have h1 := coord1_lt L; have h2 := trip_lt k
  rw [k0_off12_eq]
  exact congrArg (fun z : ℕ => (![z, 0, 0] : Fin 3 → ℕ))
    (show 64 * k.val + 2 * (L 1).val + (L 0).val + 32 = min (32 * (2 * k.val + 1) + (2 * (L 1).val + (L 0).val)) 783 by omega)

omit [FloatOps F] in
theorem k0_off15_rowOf : k0_off15 L = ![(rowOf (32 * 24 + wL L)).val, 0, 0] := by
  rw [k0_off15_eq]
  exact congrArg (fun z : ℕ => (![z, 0, 0] : Fin 3 → ℕ))
    (show min (2 * (L 1).val + (L 0).val + 768) 783 = min (32 * 24 + (2 * (L 1).val + (L 0).val)) 783 by omega)

omit [FloatOps F] in
/-- One trip of the loop marks the two rows it writes back. -/
theorem rows_trip (k : Fin k0_t1_loop.trips) :
    rowsUpTo d (wL L) (2 * k.val) ∪ (((outW).slice (Rect.unit (s := S784x16x1536) (k0_off7 L k) S1x16x1536.size (k0_off7_inb L k)) (fun _ => rfl)).squeeze S16x1536 squeezes_S1x16x1536_S16x1536).view.set
        ∪ (((outW).slice (Rect.unit (s := S784x16x1536) (k0_off12 L k) S1x16x1536.size (k0_off12_inb L k)) (fun _ => rfl)).squeeze S16x1536 squeezes_S1x16x1536_S16x1536).view.set
      = rowsUpTo d (wL L) (2 * (k.val + 1)) := by
  rw [set_out_row_of_eq d (k0_off7 L k) (k0_off7_inb L k) _ (k0_off7_rowOf L k),
    set_out_row_of_eq d (k0_off12 L k) (k0_off12_inb L k) _ (k0_off12_rowOf L k),
    show 2 * (k.val + 1) = 2 * k.val + 1 + 1 from by omega, rowsUpTo_succ, rowsUpTo_succ]

omit [FloatOps F] in
/-- The last write-back marks the twenty-fifth row. -/
theorem rows_last :
    rowsUpTo d (wL L) 24 ∪ (((outW).slice (Rect.unit (s := S784x16x1536) (k0_off15 L) S1x16x1536.size (k0_off15_inb L)) (fun _ => rfl)).squeeze S16x1536 squeezes_S1x16x1536_S16x1536).view.set = rowsUpTo d (wL L) 25 := by
  rw [set_out_row_of_eq d (k0_off15 L) (k0_off15_inb L) _ (k0_off15_rowOf L)]
  exact (rowsUpTo_succ d (wL L) 24).symm

end Cited

end Cert.Proof.KI

end
-- ==== Proof.SitesKI.lean ====
/-
  A slot after the block of one of the body's gathers landed in it reads the target's row, stated at the places the
  body issues its gathers: the source offsets are the printed offset function of the three words loaded there.
-/
import proofs.«216119_g70222715290213_cont_sun_c4_40_39_alg».proof.Proof.ViewsKI

noncomputable section

namespace Cert.Proof.KI

open Cert.KernelIdeal Cert.KernelIdeal.Gen

open Idealize.ShloMosaic

variable {F : FTy → Type} [FloatOps F] (m : (ℓ : Loc nD τ sig) → Buf (Elt F) ℓ) (d : Dev nD) (L : grid0.Coords)
variable (ht : Cert.Spec.InRange (m (a2Loc d)))
include ht

/-- The gather issued from the words of the trip's odd row. -/
theorem landed_site2 (k : Fin k0_t1_loop.trips) (vs : View sig .scVector .vmem S16x1536 .f32) (g : vs.ty.Contents (Elt F))
    (offs : Fin 3 → ℕ)
    (hoffs : offs = k0_off4 (extractAt ![0] (extractStridedSlice S1 ![0] (shapeCast S16 (View.readAt (Elt F) (tabS).view (Rect.unit (s := S12800) (k0_off3 L k) S16.size (k0_off3_inb L k)).toLoadRect (tbV m d)) shapeCasts_S16_S16) slices_S16_o0_S1) inpos_S1_p0)
        (extractAt ![0] (extractStridedSlice S1 ![1] (shapeCast S16 (View.readAt (Elt F) (tabS).view (Rect.unit (s := S12800) (k0_off3 L k) S16.size (k0_off3_inb L k)).toLoadRect (tbV m d)) shapeCasts_S16_S16) slices_S16_o1_S1) inpos_S1_p0)
        (extractAt ![0] (extractStridedSlice S1 ![2] (shapeCast S16 (View.readAt (Elt F) (tabS).view (Rect.unit (s := S12800) (k0_off3 L k) S16.size (k0_off3_inb L k)).toLoadRect (tbV m d)) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * k.val + 1) + wL L)) (x 0 : Fin 16) (x 1 : Fin 1536)) :=
  landed_block m d ht vs g (32 * (2 * k.val + 1) + wL L) (row2_lt L k) (k0_off3 L k) (k0_off3_inb L k) (k0_off3_row L k) offs
    (hoffs.trans (k0_off4_eq _ _ _ (word_le_at m d ht _ _ _ (row2_lt L k) (off3_row L k) 1 (by decide) _ _ _)
      (word_le_at m d ht _ _ _ (row2_lt L k) (off3_row L k) 2 (by decide) _ _ _))) h x

/-- The gather issued from the words of the next trip's even row. -/
theorem landed_site4 (k : Fin k0_t1_loop.trips) (vs : View sig .scVector .vmem S16x1536 .f32) (g : vs.ty.Contents (Elt F))
    (offs : Fin 3 → ℕ)
    (hoffs : offs = k0_off9 (extractAt ![0] (extractStridedSlice S1 ![0] (shapeCast S16 (View.readAt (Elt F) (tabS).view (Rect.unit (s := S12800) (k0_off8 L k) S16.size (k0_off8_inb L k)).toLoadRect (tbV m d)) shapeCasts_S16_S16) slices_S16_o0_S1) inpos_S1_p0)
        (extractAt ![0] (extractStridedSlice S1 ![1] (shapeCast S16 (View.readAt (Elt F) (tabS).view (Rect.unit (s := S12800) (k0_off8 L k) S16.size (k0_off8_inb L k)).toLoadRect (tbV m d)) shapeCasts_S16_S16) slices_S16_o1_S1) inpos_S1_p0)
        (extractAt ![0] (extractStridedSlice S1 ![2] (shapeCast S16 (View.readAt (Elt F) (tabS).view (Rect.unit (s := S12800) (k0_off8 L k) S16.size (k0_off8_inb L k)).toLoadRect (tbV m d)) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * (k.val + 1)) + wL L)) (x 0 : Fin 16) (x 1 : Fin 1536)) := by
  have e : 32 * (2 * (k.val + 1)) + wL L = 32 * (2 * k.val + 2) + wL L := by omega
  rw [e]
  exact landed_block m d ht vs g (32 * (2 * k.val + 2) + wL L) (row4_lt L k) (k0_off8 L k) (k0_off8_inb L k) (k0_off8_row L k) offs
    (hoffs.trans (k0_off9_eq _ _ _ (word_le_at m d ht _ _ _ (row4_lt L k) (off8_row L k) 1 (by decide) _ _ _)
      (word_le_at m d ht _ _ _ (row4_lt L k) (off8_row L k) 2 (by decide) _ _ _))) h x

/-- The first gather, its words read from any contents equal to the padded table. -/
theorem landed_site1_of_eq (C : S12800.Idx → BitVec 32) (hC : C = tbV m d) (vs : View sig .scVector .vmem S16x1536 .f32)
    (g : vs.ty.Contents (Elt F)) (offs : Fin 3 → ℕ)
    (hoffs : offs = k0_off2 (extractAt ![0] (extractStridedSlice S1 ![0] (shapeCast S16 (View.readAt (Elt F) (tabS).view (Rect.unit (s := S12800) (k0_off1 L) S16.size (k0_off1_inb L)).toLoadRect C) shapeCasts_S16_S16) slices_S16_o0_S1) inpos_S1_p0)
        (extractAt ![0] (extractStridedSlice S1 ![1] (shapeCast S16 (View.readAt (Elt F) (tabS).view (Rect.unit (s := S12800) (k0_off1 L) S16.size (k0_off1_inb L)).toLoadRect C) shapeCasts_S16_S16) slices_S16_o1_S1) inpos_S1_p0)
        (extractAt ![0] (extractStridedSlice S1 ![2] (shapeCast S16 (View.readAt (Elt F) (tabS).view (Rect.unit (s := S12800) (k0_off1 L) S16.size (k0_off1_inb L)).toLoadRect C) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * 0) + wL L)) (x 0 : Fin 16) (x 1 : Fin 1536)) := by
  subst hC
  have e : 32 * (2 * 0) + wL L = 32 * 0 + wL L := rfl
  rw [e]
  exact landed_block m d ht vs g (32 * 0 + wL L) (row1_lt L) (k0_off1 L) (k0_off1_inb L) (k0_off1_row L) offs
    (hoffs.trans (k0_off2_eq _ _ _ (word_le_at m d ht _ _ _ (row1_lt L) (off1_row L) 1 (by decide) _ _ _)
      (word_le_at m d ht _ _ _ (row1_lt L) (off1_row L) 2 (by decide) _ _ _))) h x

/-- The first gather, its words read from the table copy as the transfer left it. -/
theorem landed_site1_landed (ft : Buf (Elt F) ((thr d L).loc cc0_scratch0)) (vs : View sig .scVector .vmem S16x1536 .f32)
    (g : vs.ty.Contents (Elt F)) (offs : Fin 3 → ℕ)
    (hoffs : offs = k0_off2 (extractAt ![0] (extractStridedSlice S1 ![0] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o0_S1) inpos_S1_p0)
        (extractAt ![0] (extractStridedSlice S1 ![1] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o1_S1) inpos_S1_p0)
        (extractAt ![0] (extractStridedSlice S1 ![2] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * 0) + wL L)) (x 0 : Fin 16) (x 1 : Fin 1536)) :=
  landed_site1_of_eq m d L ht _ (tab_landed d L ft (tbV m d)) vs g offs hoffs h x

end Cert.Proof.KI

end
-- ==== Proof.BodyKI.lean ====
/-
  One worker's body. Worker w (subcore s of core c, w = 2·s + c) first copies the padded table into its own memory, then
  for j = 0, …, 24 moves table row R = 32·j + w: the three words of that row — an image n and a block position (by, bx), each
  one of 0 … 7 — name the 16 × 1536 block of the corner at (n, 16·by, 1536·bx); the block is gathered into one of two slots
  of the worker's staging memory (even steps slot 0, odd steps slot 1, each slot with its own semaphore, so that the next
  gather is in flight while the previous slot goes out) and from there copied to output row min(R, 783).

  What is shown: the range of the table's entries makes every gather's block lie inside the corner; a slot whose gather
  has landed reads, index by index, the gathered value of its output row — because row R of the padded table is row
  min(R, 783) of the table itself —, so every copy into the output writes each element's agreed target, which is all a
  holder of a share of an array in write mode has to show; and after step j the rows min(32·i + w, 783), i ≤ j, are marked.
  The loop runs twelve trips of two steps; before trip t the gather of step 2t is in flight into slot 0, slot 1 is free and
  the first 2t rows are marked. At the end the worker gives back its shares of the corner and of the table, its share of
  the output with its 25 rows marked, and its own memory and semaphores as it found them.
-/
import proofs.«216119_g70222715290213_cont_sun_c4_40_39_alg».proof.Proof.SitesKI
import proofs.«216119_g70222715290213_cont_sun_c4_40_39_alg».proof.Proof.LibWriteModeCopy
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) [FloatOps F]
variable (d : Dev nD) (L : grid0.Coords)

/-! ## The worker's own cells and buffers -/

abbrev cell (sm : DmaSems sig S_) : GSem nD τ sig := (thr d L, SemLoc.dma sm.sem)

omit [FloatOps F] in
theorem cell_mem (sm : DmaSems sig S_) (h : (SemLoc.dma sm.sem : SemLoc sig).isScoped .scVector = true) :
    cell d L sm ∈ ownCells (sig := sig) (thr d L) := (mem_ownCells (g := cell d L sm)).mpr ⟨rfl, h⟩

omit [FloatOps F] in
theorem cell_ne {a b : DmaSems sig S_} (h : (SemLoc.dma a.sem : SemLoc sig) ≠ SemLoc.dma b.sem) : cell d L a ≠ cell d L b :=
  fun e => h (congrArg Prod.snd e)

/-- The six transfer semaphores, each at zero, and the rest of the worker's cells. -/
def restCells : Finset (GSem nD τ sig) :=
  ((((((ownCells (sig := sig) (thr d L)).erase (cell d L cc0_scratch2)).erase (cell d L cc0_scratch3)).erase (cell d L cc0_scoped0)).erase (cell d L cc0_scoped1)).erase
    (cell d L cc0_scoped2)).erase (cell d L cc0_scoped3)

omit [FloatOps F] in
theorem ownSems0_V :
    (ownSems0 (thr d L) : sProp 𝕄)
      = iprop(semVal (cell d L cc0_scratch2) 0 ∗ semVal (cell d L cc0_scratch3) 0 ∗ semVal (cell d L cc0_scoped0) 0 ∗ semVal (cell d L cc0_scoped1) 0
          ∗ semVal (cell d L cc0_scoped2) 0 ∗ semVal (cell d L cc0_scoped3) 0 ∗ bigSep (restCells d L) fun g => semVal g 0) := by
  unfold SparseCore.Cfg.ownSems0 restCells
  have m2 := cell_mem d L cc0_scratch2 (by decide)
  have m3 := cell_mem d L cc0_scratch3 (by decide)
  have m4 := cell_mem d L cc0_scoped0 (by decide)
  have m5 := cell_mem d L cc0_scoped1 (by decide)
  have m6 := cell_mem d L cc0_scoped2 (by decide)
  have m7 := cell_mem d L cc0_scoped3 (by decide)
  rw [SparseCore.bigSep_erase' m2,
    SparseCore.bigSep_erase' (Finset.mem_erase.mpr ⟨cell_ne d L (by decide), m3⟩),
    SparseCore.bigSep_erase' (Finset.mem_erase.mpr ⟨cell_ne d L (by decide), Finset.mem_erase.mpr ⟨cell_ne d L (by decide), m4⟩⟩),
    SparseCore.bigSep_erase' (Finset.mem_erase.mpr ⟨cell_ne d L (by decide), Finset.mem_erase.mpr ⟨cell_ne d L (by decide),
      Finset.mem_erase.mpr ⟨cell_ne d L (by decide), m5⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m6⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m7⟩⟩⟩⟩⟩)]

abbrev tabLoc : Loc nD τ sig := (thr d L).loc cc0_scratch0
abbrev bufLoc : Loc nD τ sig := (thr d L).loc cc0_scratch1

def restRefs : Finset (DevRef τ sig) :=
  ((ownRefs (τ := τ) (sig := sig) (.scVector (cV L) (jV L))).erase ((Proc.scVector (cV L) (jV L)).devRef cc0_scratch0)).erase ((Proc.scVector (cV L) (jV L)).devRef cc0_scratch1)

omit [FloatOps F] in
/-- The worker's copy of the table and its two slots, at some contents, and the rest of its buffers. -/
theorem ownBufs_V :
    (ownBufs (thr d L) : sProp 𝕄)
      = iprop((∃ f, tabLoc d L ↦{fullShare} f) ∗ (∃ f, bufLoc d L ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The two slots -/

omit [FloatOps F] in
theorem hdiv2 : 2 ∣ S2x16x1536.size 0 := ⟨1, rfl⟩
abbrev slotR (p : Fin 2) : Rect S2x16x1536 := Rect.part (s := S2x16x1536) (a₀ := 0) hdiv2 p
abbrev slotSet (p : Fin 2) : Finset S2x16x1536.Idx := ((bufS).view.slice (slotR p)).set
abbrev r0 : Rect S2x16x1536 := Rect.unit (s := S2x16x1536) ![0, 0, 0] S1x16x1536.size inb_S2x16x1536_S1x16x1536_0_0_0
abbrev r1 : Rect S2x16x1536 := Rect.unit (s := S2x16x1536) ![1, 0, 0] S1x16x1536.size inb_S2x16x1536_S1x16x1536_1_0_0
/-- Slot p of the worker's staging memory, as the body slices it. -/
abbrev slot0 : Memref sig .scVector .vmem S16x1536 .f32 := ((bufS).slice r0 (fun _ => rfl)).squeeze S16x1536 squeezes_S1x16x1536_S16x1536
abbrev slot1 : Memref sig .scVector .vmem S16x1536 .f32 := ((bufS).slice r1 (fun _ => rfl)).squeeze S16x1536 squeezes_S1x16x1536_S16x1536

omit [FloatOps F] in
theorem r0_eq : r0 = slotR 0 := by
  unfold r0 slotR Rect.part Rect.block
  congr 1 <;> funext a <;> match a with
    | 0 => simp [Shape.partIx, Shape.partSize]
    | 1 => simp [Shape.partIx, Shape.partSize]
    | 2 => simp [Shape.partIx, Shape.partSize]
omit [FloatOps F] in
theorem r1_eq : r1 = slotR 1 := by
  unfold r1 slotR Rect.part Rect.block
  congr 1 <;> funext a <;> match a with
    | 0 => simp [Shape.partIx, Shape.partSize]
    | 1 => simp [Shape.partIx, Shape.partSize]
    | 2 => simp [Shape.partIx, Shape.partSize]

omit [FloatOps F] in
theorem set_slot0 : (slot0).view.set = slotSet 0 := by
  show (((bufS).view.slice r0).reshape S16x1536 squeezes_S1x16x1536_S16x1536.numel_eq).set = ((bufS).view.slice (slotR 0)).set
  rw [View.set_reshape]
  exact r0_eq ▸ rfl
omit [FloatOps F] in
theorem set_slot1 : (slot1).view.set = slotSet 1 := by
  show (((bufS).view.slice r1).reshape S16x1536 squeezes_S1x16x1536_S16x1536.numel_eq).set = ((bufS).view.slice (slotR 1)).set
  rw [View.set_reshape]
  exact r1_eq ▸ rfl
omit [FloatOps F] in
theorem slotSet_eq (p : Fin 2) : slotSet p = (slotR p).set := by
  show ((View.whole (cc0_scratch1 : Ref sig .scVector)).slice (slotR p)).set = _
  rw [View.set_slice]; exact Finset.map_refl
omit [FloatOps F] in
theorem slots_disjoint : ∀ i ∈ (Finset.univ : Finset (Fin 2)), ∀ j ∈ (Finset.univ : Finset (Fin 2)), i ≠ j → Disjoint (slotSet i) (slotSet j) :=
  fun i _ j _ h => by rw [slotSet_eq, slotSet_eq]; exact Rect.part_disjoint hdiv2 h
omit [FloatOps F] in
theorem slots_cover : (Finset.univ : Finset (Fin 2)).biUnion slotSet = Finset.univ :=
  (Finset.biUnion_congr rfl fun i _ => slotSet_eq i).trans (Rect.biUnion_part hdiv2)

omit [FloatOps F] in
/-- The staging memory is its two slots. -/
theorem buf_slots (f : Buf (Elt F) (bufLoc d L)) :
    (bufLoc d L ↦{fullShare} f : sProp 𝕄)
      = iprop(((slot0).view.loc (thr d L) ↦[(slot0).view.set]{fullShare} f) ∗ ((slot1).view.loc (thr d L) ↦[(slot1).view.set]{fullShare} f)) := by
  rw [set_slot0, set_slot1]
  rw [← slots_cover, pointsTo_biUnion Finset.univ (ℓ := bufLoc d L) slotSet slots_disjoint,
    show (Finset.univ : Finset (Fin 2)) = {0, 1} by decide, SparseCore.bigSep_insert' (by decide), bigSep_singleton]

omit [FloatOps F] in
/-- A separating product over {0, 1}. -/
theorem bigSep_range2 (Φ : ℕ → sProp 𝕄) : BI.bigSep (Finset.range 2) Φ = iprop(Φ 0 ∗ Φ 1) := by
  rw [show Finset.range 2 = {0, 1} by decide, SparseCore.bigSep_insert' (by decide), bigSep_singleton]

omit [FloatOps F] in
/-- The two slots, at whatever they hold, are the staging memory at some contents. -/
theorem buf_join (f : Buf (Elt F) (bufLoc d L)) (g : Buf (Elt F) (bufLoc d L)) :
    iprop(((slot0).view.loc (thr d L) ↦[(slot0).view.set]{fullShare} f) ∗ ((slot1).view.loc (thr d L) ↦[(slot1).view.set]{fullShare} g))
      ⊢ (iprop(∃ h, bufLoc d L ↦{fullShare} h) : sProp 𝕄) := by
  rw [set_slot0, set_slot1]
  have hd : Disjoint (slotSet 0) (slotSet 1) := slots_disjoint 0 (Finset.mem_univ _) 1 (Finset.mem_univ _) (by decide)
  have hu : slotSet 0 ∪ slotSet 1 = Finset.univ := by
    rw [← slots_cover, show (Finset.univ : Finset (Fin 2)) = {0, 1} by decide, Finset.biUnion_insert, Finset.singleton_biUnion]
  iintro H
  ihave H' := (pointsTo_join hd) $$ H
  iexists _
  iapply (Entails.of_eq (congrArg (fun S => (bufLoc d L ↦[S]{fullShare} (slotSet 1).piecewise g f : sProp 𝕄)) hu)) $$ H'

/-! ## The arrays as the body's memrefs address them -/

omit [FloatOps F] in
theorem pts_tb (q : PosShare TreeShare) (f : Buf (Elt F) (tbLoc d)) :
    ((tbW).view.loc (thr d L) ↦{q} f : sProp 𝕄) = tbLoc d ↦{q} f := by
  simp only [Memref.view_whole, View.set_whole]
omit [FloatOps F] in
theorem pts_in (q : PosShare TreeShare) (f : Buf (Elt F) (inLoc d)) :
    ((inW).view.loc (thr d L) ↦{q} f : sProp 𝕄) = inLoc d ↦{q} f := by
  simp only [Memref.view_whole, View.set_whole]
omit [FloatOps F] in
theorem pts_tab (f : Buf (Elt F) (tabLoc d L)) :
    ((tabS).view.loc (thr d L) ↦{fullShare} f : sProp 𝕄) = tabLoc d L ↦{fullShare} f := by
  simp only [Memref.view_whole, View.set_whole]

/-! ## The loop's invariant -/

abbrev qL (L : grid0.Coords) : PosShare TreeShare := shT (L 0).val (L 1).val

/-- A slot whose gather has landed reads the target's row r. -/
def Landed (p : Memref sig .scVector .vmem S16x1536 .f32) (r : Fin 784) : sProp 𝕄 :=
  iprop(∃ g : Buf (Elt F) (p.view.loc (thr d L)), ⌜∀ x : S16x1536.Idx, p.view.read (Elt F) g x = tgt m d (ValueIdx.ix3 r (x 0) (x 1))⌝
    ∗ p.view.loc (thr d L) ↦[p.view.set]{fullShare} g)

/-- What a gather into slot p of table row R delivers: the slot landed, and the piece S0 of the corner's read token it
    borrowed. -/
def Deliv (p : Memref sig .scVector .vmem S16x1536 .f32) (k : ℕ) (R : ℕ) (S0 : Finset (Idx (inLoc d))) : sProp 𝕄 :=
  iprop(Landed m d L p (rowOf R) ∗ ((inW).view.loc (thr d L) ↦[S0]{Transfers.shareTokN (qL L) k} inV m d))

/-- Before trip t: the gather of step 2t is in flight into slot 0 on the first semaphore; slot 1 is free; the second read
    token is whole; the worker's copy of the table holds the padded table; the first 2t rows are marked; the other
    semaphores are at zero. -/
def inv (O : CellTallies nD τ sig (HIx 1)) (W : Waits sig (HIx 1)) (ιwm : ℕ) (t : Nat) (_ : PUnit) : sProp 𝕄 :=
  iprop(Transfers.MayWaits (thr d L) (none : HIx 1) O
    ∗ wmInv (Ix := HIx 1) (wmE (F := F)) ιwm
    ∗ (∃ S0 : Finset (Idx (inLoc d)),
        ((inW).view.loc (thr d L) ↦[Finset.univ \ S0]{Transfers.shareTokN (qL L) 0} inV m d)
        ∗ Transfers.Flight countersEmb (thr d L) (SemLoc.dma cc0_scratch2.sem) (default : HIx 1) 786432 (Deliv m d L slot0 0 (32 * (2 * t) + wL L) S0))
    ∗ (∃ g1, (slot1).view.loc (thr d L) ↦[(slot1).view.set]{fullShare} g1)
    ∗ ((inW).view.loc (thr d L) ↦{Transfers.shareTokN (qL L) 1} inV m d)
    ∗ ((tabS).view.loc (thr d L) ↦{fullShare} tbV m d)
    ∗ willBeTo (wmE (F := F)) (outLoc d) Finset.univ (qL L) (m (outLoc d)) (fun i => some (tgt m d i)) (rowsUpTo d (wL L) (2 * t))
    ∗ semVal (cell d L cc0_scratch3) 0 ∗ semVal (cell d L cc0_scoped1) 0 ∗ semVal (cell d L cc0_scoped2) 0
    ∗ ∃ W', ⌜∀ p ∈ W', p ∈ W ∨ p.2 = none⌝ ∗ owes (thr d L) O W')

/-! ## An output row as the body slices it -/

/-- The output's row at the offsets off, as a 16 × 1536 block. -/
abbrev dstM (off : Fin 3 → ℕ) (h : ∀ a, off a + S1x16x1536.size a ≤ S784x16x1536.size a) : Memref sig .scVector .hbm S16x1536 .f32 :=
  ((outW).slice (Rect.unit (s := S784x16x1536) off S1x16x1536.size h) (fun _ => rfl)).squeeze S16x1536 squeezes_S1x16x1536_S16x1536

/-- A write-mode share held at a row's view is held at the output array: a row's view addresses that array. -/
theorem willBe_at_out (off : Fin 3 → ℕ) (h : ∀ a, off a + S1x16x1536.size a ≤ S784x16x1536.size a) (q : PosShare TreeShare)
    (Wm : Finset (Idx (outLoc d))) :
    (willBeTo (wmE (F := F)) ((dstM off h).view.loc (thr d L)) Finset.univ q (m (outLoc d)) (fun i => some (tgt m d i)) Wm : sProp 𝕄)
      = willBeTo (wmE (F := F)) (outLoc d) Finset.univ q (m (outLoc d)) (fun i => some (tgt m d i)) Wm := rfl

omit [FloatOps F] in
/-- A slot written whole with a payload that is the target's row, beside the borrowed piece of the read token, is what the
    gather of that row delivers. -/
theorem deliv_intro (p : Memref sig .scVector .vmem S16x1536 .f32) (k R : ℕ) (S0 : Finset (Idx (inLoc d)))
    (g : Buf (Elt F) (p.view.loc (thr d L))) (P : (Rect.whole S16x1536).shape.Idx → Elt F .f32)
    (hP : ∀ x : S16x1536.Idx, p.view.read (Elt F) (p.view.writes (Elt F) g [⟨Rect.whole S16x1536, P⟩]) x = tgt m d (ValueIdx.ix3 (rowOf R) (x 0) (x 1))) :
    iprop((p.view.loc (thr d L) ↦[p.view.set]{fullShare} p.view.writes (Elt F) g [⟨Rect.whole S16x1536, P⟩])
        ∗ ((inW).view.loc (thr d L) ↦[S0]{Transfers.shareTokN (qL L) k} inV m d))
      ⊢ (Deliv m d L p k R S0 : sProp 𝕄) := by
  unfold Deliv Landed
  iintro ⟨Ha, Hb⟩
  isplitl [Ha]
  · iexists _
    isplitr; · ipureintro; exact hP
    iexact Ha
  · iexact Hb

/-! ## The body -/

set_option maxRecDepth 200000 in
set_option maxHeartbeats 8000000 in
theorem tile_body (hF : (K (F := F)).Facts) (hr : Cert.Spec.InRange (m (a2Loc d))) (O : CellTallies nD τ sig (HIx 1)) (W : Waits sig (HIx 1)) (hO : ∀ g, O g none = 0) :
    iprop(levAts (K (F := F)).L (K (F := F)).lev ∗ (∃ ι, wmInv (Ix := HIx 1) (wmE (F := F)) ι) ∗ part m d (shT (L 0).val (L 1).val) ∅
        ∗ scopedBufs (thr d L) ∗ scopedSems0 (thr d L) ∗ owes (thr d L) O W)
      ⊢ wp frame (wpE (defs₀ (F := F)) 𝒱₀ (thr d L) none) Set.univ
          (cc0_k L inW (Memref.isWhole_whole _) tbW (Memref.isWhole_whole _) outW (Memref.isWhole_whole _) tabS (Memref.isWhole_whole _) bufS (Memref.isWhole_whole _)
            cc0_scratch2 cc0_scratch3 cc0_scoped0 cc0_scoped1 cc0_scoped2 cc0_scoped3)
          fun _ => iprop(part m d (shT (L 0).val (L 1).val) (rowsUpTo d (wOf (L 0).val (L 1).val) 25) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold part
  iintro ⟨#Hlv, ⟨%ιwm, #Hwm⟩, ⟨Hin, Htb, Hout⟩, ⟨⟨%ft, Htab⟩, ⟨%fb, Hbuf⟩, Hbufs⟩, ⟨Hs7, Hs8, Hq0, Hq1, Hq2, Hq3, Hsems⟩, HO⟩
  ihave Hmw := ((K (F := F)).mayWaits_none (thr := thr d L) hO) $$ Hlv
  -- the corner's share as two read tokens, one per gather semaphore, and a remainder
  ihave Hin' := (Transfers.pointsTo_toks_range (shT (L 0).val (L 1).val) 2).1 $$ Hin
  icases Hin' with ⟨Hin0, Hint⟩
  ihave Hint' := (Entails.of_eq (bigSep_range2 (F := F) _)) $$ Hint
  icases Hint' with ⟨Hin7, Hin8⟩
  ihave Hbuf' := (Entails.of_eq (buf_slots (F := F) d L fb)) $$ Hbuf
  icases Hbuf' with ⟨Hsl0, Hsl1⟩
  ihave Htb' := (Entails.of_eq (pts_tb (F := F) d L _ _).symm) $$ Htb
  ihave Htab' := (Entails.of_eq (pts_tab (F := F) d L _).symm) $$ Htab
  ihave Hin7' := (Entails.of_eq (pts_in (F := F) d L _ _).symm) $$ Hin7
  ihave Hin8' := (Entails.of_eq (pts_in (F := F) d L _ _).symm) $$ Hin8
  -- the table comes in; its first row's words are in range; the first gather starts
  sl_exec (disch := (sl_unfold_run_names; sl_exact chk1_site_landed m d L hr ft))
  -- the worker's copy holds the padded table
  ihave Htab2 := (Entails.of_eq (show (((tabS).view.loc (thr d L) ↦{fullShare} View.write (Elt F) (tabS).view ft (tile_body.sl.dma0 m d) Finset.univ : sProp 𝕄)
      = ((tabS).view.loc (thr d L) ↦{fullShare} tbV m d)) from
      congrArg (fun f => ((tabS).view.loc (thr d L) ↦{fullShare} f : sProp 𝕄)) (tab_landed (F := F) d L ft (tbV m d)))) $$ Htab'
  sl_for (inv m d L O W ιwm) $$ [Hmw Hwm Hin7' Hs7 Hsl1 Hin8' Htab2 Hout Hs8 Hq1 Hq2 HO]
  case region =>
    intro k _
    unfold inv
    iintro ⟨#Hmw, #Hwm, ⟨%S0, Hrest7, Hfl⟩, ⟨%g1, Hsl1⟩, Hin8, Htab, Hout, Hs8, Hq1, Hq2, %W', %hW', HO⟩
    sl_exec (disch := first | (sl_unfold_run_names; sl_exact chk2_site m d L hr k) | (sl_unfold_run_names; sl_exact chk3_site m d L hr k))
    -- the gather of step 2t has landed in slot 0
    ihave Hmw7 := (Transfers.MayWaits.elim (SemLoc.dma cc0_scratch2.sem)) $$ Hmw
    iapply (Transfers.wp_waitLocalO countersEmb 𝒱₀ (thr d L) none (default : HIx 1) (N := 786432) rfl) $$ [Hfl HO Hmw7]
    · isplitl [Hfl]; · iexact Hfl
      isplitl [HO]; · iexact HO
      iexact Hmw7
    iintro ⟨HD, Hs7, HO⟩
    unfold Deliv Landed
    icases HD with ⟨⟨%g0, %hg0, Hsl0⟩, Hsrc7⟩
    ihave Hin7 := (pointsTo_split_subset (Finset.subset_univ S0)).2 $$ [Hsrc7 Hrest7]
    · isplitl [Hsrc7]; · iexact Hsrc7
      iexact Hrest7
    ihave Hin7' := (Entails.of_eq (pts_in (F := F) d L _ _).symm) $$ Hin7
    sl_exec (disch := first | (sl_unfold_run_names; sl_exact chk2_site m d L hr k) | (sl_unfold_run_names; sl_exact chk3_site m d L hr k))
    -- slot 0 goes out to its row, the output held in write mode
    iapply (Cert.WriteModeCopy.wp_dmaLocal_willBeTo countersEmb 𝒱₀ (thr d L) none (default : HIx 1) _ rfl
      (View.amount_pos _ _ (show 0 < S16x1536.numel by decide)) (Finset.subset_univ _) ?hadm0
      (emb := wmE (F := F)) (ιwm := ιwm)) $$ [Hsl0 Hout Hq1]
    case hadm0 => exact admitted_of_landed m d (slot0).view g0 (rowOf (32 * (2 * k.val) + wL L)) hg0 (k0_off7 L k) (k0_off7_rowOf L k) _
    · isplitl [Hsl0]; · iexact Hsl0
      isplitl [Hout]
      · isplitr; · iexact Hwm
        iexact Hout
      iexact Hq1
    iintro Hfl1
    sl_exec (disch := first | (sl_unfold_run_names; sl_exact chk4_site m d L hr k) | (sl_unfold_run_names; sl_exact chk5_site m d L hr k))
    -- slot 1 goes out to its row
    ihave Hout1 := (Entails.of_eq (willBe_at_out (F := F) m d L _ _ _ _)) $$ Hfl1_dst
    iapply (Cert.WriteModeCopy.wp_dmaLocal_willBeTo countersEmb 𝒱₀ (thr d L) none (default : HIx 1) _ rfl
      (View.amount_pos _ _ (show 0 < S16x1536.numel by decide)) (Finset.subset_univ _) ?hadm1
      (emb := wmE (F := F)) (ιwm := ιwm)) $$ [Hsl1 Hout1 Hq2]
    rotate_left
    · isplitl [Hsl1]; · iexact Hsl1
      isplitl [Hout1]
      · isplitr; · iexact Hwm
        iexact Hout1
      iexact Hq2
    rotate_left
    · refine admitted_of_landed m d (slot1).view _ (rowOf (32 * (2 * k.val + 1) + wL L)) (fun x => ?_) (k0_off12 L k) (k0_off12_rowOf L k) _
      sl_unfold_run_names
      exact landed_site2 m d L hr k _ _ _ rfl _ x
    iintro Hfl2
    sl_exec (disch := first | (sl_unfold_run_names; sl_exact chk4_site m d L hr k) | (sl_unfold_run_names; sl_exact chk5_site m d L hr k))
    sl_step
    -- the invariant, one trip on
    isplitr; · iexact Hmw
    isplitr; · iexact Hwm
    isplitl [Hin7' Hs7]
    · iexists _
      isplitl [Hin7']; · iexact Hin7'
      iapply (Transfers.Flight_mono (EC := countersEmb) (c := thr d L) (deliv_intro (F := F) m d L slot0 0 _ _ _ _ ?hP0)) $$ Hs7
      case hP0 =>
        intro x
        sl_unfold_run_names
        exact landed_site4 m d L hr k _ _ _ rfl _ x
    isplitl [Hfl2_src]; · iexists _; iexact Hfl2_src
    isplitl [Hin8]; · iexact Hin8
    isplitl [Htab]; · iexact Htab
    isplitl [Hfl2_dst]
    · ihave Hout2 := (Entails.of_eq (willBe_at_out (F := F) m d L _ _ _ _)) $$ Hfl2_dst
      iapply (Entails.of_eq (congrArg (fun Wm => (willBeTo (wmE (F := F)) (outLoc d) Finset.univ (qL L) (m (outLoc d)) (fun i => some (tgt m d i)) Wm : sProp 𝕄)) (rows_trip d L k))) $$ Hout2
    isplitl [Hs8]; · iexact Hs8
    isplitl [Hfl1]; · iexact Hfl1
    isplitl [Hfl2]; · iexact Hfl2
    iexists _; isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp
  · unfold inv
    isplitr; · iexact Hmw
    isplitr; · iexact Hwm
    isplitl [Hin7' Hs7]
    · iexists _
      isplitl [Hin7']; · iexact Hin7'
      iapply (Transfers.Flight_mono (EC := countersEmb) (c := thr d L) (deliv_intro (F := F) m d L slot0 0 _ _ _ _ ?hPi)) $$ Hs7
      case hPi =>
        intro x
        sl_unfold_run_names
        exact landed_site1_landed m d L hr ft _ _ _ rfl _ x
    isplitl [Hsl1]; · iexists _; iexact Hsl1
    isplitl [Hin8']; · iexact Hin8'
    isplitl [Htab2]; · iexact Htab2
    isplitl [Hout]
    · iapply (Entails.of_eq (congrArg (fun Wm => (willBeTo (wmE (F := F)) (outLoc d) Finset.univ (qL L) (m (outLoc d)) (fun i => some (tgt m d i)) Wm : sProp 𝕄))
        (show (∅ : Finset (Idx (outLoc d))) = rowsUpTo d (wL L) (2 * 0) from (rowsUpTo_zero d (wL L)).symm))) $$ Hout
    isplitl [Hs8]; · iexact Hs8
    isplitl [Hq1]; · iexact Hq1
    isplitl [Hq2]; · iexact Hq2
    iexists _; isplitr
    rotate_left
    · iexact HO
    · ipureintro; intro p hp
      rcases Finset.mem_insert.mp hp with rfl | hp
      · exact .inr rfl
      exact .inl hp
  -- after the loop: the gather of step 24 lands and goes out
  iintro %acc HI
  have htr : Scf.trips k0_t1_loop.lb k0_t1_loop.ub k0_t1_loop.st = 12 := by decide
  unfold inv
  icases HI with ⟨-, -, ⟨%S0, Hrest7, Hfl⟩, ⟨%g1, Hsl1⟩, Hin8, Htab, Hout, Hs8, Hq1, Hq2, %W', %hW', HO⟩
  sl_exec (disch := (sl_unfold_run_names; sl_exact chk6_site m d L hr))
  ihave Hmw7 := (Transfers.MayWaits.elim (SemLoc.dma cc0_scratch2.sem)) $$ Hmw
  iapply (Transfers.wp_waitLocalO countersEmb 𝒱₀ (thr d L) none (default : HIx 1) (N := 786432) rfl) $$ [Hfl HO Hmw7]
  · isplitl [Hfl]; · iexact Hfl
    isplitl [HO]; · iexact HO
    iexact Hmw7
  iintro ⟨HD, Hs7, HO⟩
  unfold Deliv Landed
  icases HD with ⟨⟨%g0, %hg0, Hsl0⟩, Hsrc7⟩
  ihave Hin7 := (pointsTo_split_subset (Finset.subset_univ S0)).2 $$ [Hsrc7 Hrest7]
  · isplitl [Hsrc7]; · iexact Hsrc7
    iexact Hrest7
  sl_exec
  have hg0' : ∀ x : S16x1536.Idx, View.read (Elt F) (slot0).view g0 x = tgt m d (ValueIdx.ix3 (rowOf (32 * 24 + wL L)) (x 0) (x 1)) := by
    intro x; have h := hg0 x; rw [htr] at h; exact h
  iapply (Cert.WriteModeCopy.wp_dmaLocal_willBeTo countersEmb 𝒱₀ (thr d L) none (default : HIx 1) _ rfl
    (View.amount_pos _ _ (show 0 < S16x1536.numel by decide)) (Finset.subset_univ _) ?hadm3
    (emb := wmE (F := F)) (ιwm := ιwm)) $$ [Hsl0 Hout Hq3]
  case hadm3 => exact admitted_of_landed m d (slot0).view g0 (rowOf (32 * 24 + wL L)) hg0' (k0_off15 L) (k0_off15_rowOf L) _
  · isplitl [Hsl0]; · iexact Hsl0
    isplitl [Hout]
    · isplitr; · iexact Hwm
      iexact Hout
    iexact Hq3
  iintro Hfl3
  sl_exec
  sl_step
  -- everything back: the three pieces of the corner's share, the table's share, the marks; the worker's own memory and cells
  isplitl [Hin0 Hin7 Hin8 Htb' Hfl3_dst]
  · isplitl [Hin0 Hin7 Hin8]
    · ihave Hin8' := (Entails.of_eq (pts_in (F := F) d L _ _)) $$ Hin8
      iapply (Transfers.pointsTo_toks_range (shT (L 0).val (L 1).val) 2).2
      isplitl [Hin0]; · iexact Hin0
      iapply (Entails.of_eq (bigSep_range2 (F := F) _).symm)
      isplitl [Hin7]; · iexact Hin7
      iexact Hin8'
    isplitl [Htb']
    · iapply (Entails.of_eq (pts_tb (F := F) d L _ _)); iexact Htb'
    · ihave Hout3 := (Entails.of_eq (willBe_at_out (F := F) m d L _ _ _ _)) $$ Hfl3_dst
      iapply (Entails.of_eq (congrArg (fun Wm => (willBeTo (wmE (F := F)) (outLoc d) Finset.univ (qL L) (m (outLoc d)) (fun i => some (tgt m d i)) Wm : sProp 𝕄)) ?hM3)) $$ Hout3
      case hM3 => rw [htr]; exact rows_last d L
  isplitl [Htab Hfl3_src Hsl1 Hbufs]
  · isplitl [Htab]
    · iexists _; iapply (Entails.of_eq (pts_tab (F := F) d L _)); iexact Htab
    isplitl [Hfl3_src Hsl1]
    · iapply (buf_join (F := F) d L _ _)
      isplitl [Hfl3_src]; · iexact Hfl3_src
      iexact Hsl1
    · iexact Hbufs
  isplitl [Hs7 Hs8 Hq0 Hq1 Hq2 Hfl3 Hsems]
  · isplitl [Hs7]; · iexact Hs7
    isplitl [Hs8]; · iexact Hs8
    isplitl [Hq0]; · iexact Hq0
    isplitl [Hq1]; · iexact Hq1
    isplitl [Hq2]; · iexact Hq2
    isplitl [Hfl3]; · iexact Hfl3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    exact hW' p hp

/-- The body's triple at every worker, as the launch's obligation takes it. -/
theorem bodySpec (hr : ∀ d : Dev nD, Cert.Spec.InRange (m (a2Loc d))) : BodySpec (F := F) m :=
  fun d L O W hO => tile_body m d L facts (hr d) O W hO

end Cert.Proof.KI

end
-- ==== Proof.WordsKB.lean ====
/-
  Pure lemmas over the terms a worker's run produces: its copy of the table once landed, a word of a sixteen-word
  load from it, the range checks and block offsets at the six places the body reads a table row, reads through the
  views the transfers use, and the write-back's side condition and marked rows.
-/
import proofs.«216119_g70222715290213_cont_sun_c4_40_39_alg».proof.Proof.FactsKB
import proofs.«216119_g70222715290213_cont_sun_c4_40_39_alg».proof.Proof.OblKB
import Idealize.ShloMosaic.Lib.Pipeline.Value
import Idealize.ShloMosaic.Lib.Writes

noncomputable section

namespace Cert.Proof.KB

open Cert.Kernel Cert.Kernel.Gen

open Idealize.ShloMosaic

variable {F : FTy → Type} [FloatOps F] (m : (ℓ : Loc nD τ sig) → Buf (Elt F) ℓ) (d : Dev nD) (L : grid0.Coords)

/-! ## The table copy -/

/-- Copying the whole table into the worker's whole buffer leaves the table there. -/
theorem tab_landed (ft : Buf (Elt F) ((thr d L).loc cc0_scratch0)) (g : Buf (Elt F) (tbLoc d)) :
    View.write (Elt F) (tabS).view ft (ReadAs.same.apply (View.read (Elt F) (tbW).view g)) Finset.univ = g :=
  View.write_whole_univ (Val := Elt F) cc0_scratch0 ft g

/-! ## A word of a sixteen-word load -/

/-- Entry k of a sixteen-entry vector, taken as a one-entry slice and extracted. -/
theorem word_of_vec (v : IVec S16 32) (k : ℕ) (hk : k < 16) (hc : S16.ShapeCasts S16) (hs : S16.Slices ![k] S1)
    (hp : ∀ a, (![0] : Fin 1 → ℕ) a < S1.size a) :
    extractAt ![0] (extractStridedSlice S1 ![k] (shapeCast S16 v hc) hs) hp = v (ValueIdx.ix1 (⟨k, hk⟩ : Fin 16)) := by
  unfold extractAt
  refine (extractStridedSlice_apply ![k] _ hs _ (ValueIdx.ix1 (⟨k, hk⟩ : Fin 16)) (fun a => match a with
    | ⟨0, _⟩ => by show k = k + 0; rfl)).trans ?_
  exact shapeCast_apply v hc _ _ rfl

/-- Sixteen entries loaded at off from the whole table copy holding C: entry x is C at off + x. -/
theorem readAt_tab (C : S12800.Idx → BitVec 32) (off : Fin 1 → ℕ) (hoff : ∀ a, off a + S16.size a ≤ S12800.size a)
    (k : ℕ) (hk : k < 16) :
    View.readAt (Elt F) (tabS).view (Rect.unit (s := S12800) off S16.size hoff).toLoadRect C (ValueIdx.ix1 (⟨k, hk⟩ : Fin 16))
      = C (ValueIdx.ix1 (⟨off 0 + k, by have h : off 0 + 16 ≤ 12800 := hoff 0; omega⟩ : Fin 12800)) := by
  show C _ = C _
  refine congrArg C (funext fun a => match a with
    | ⟨0, _⟩ => Fin.ext (by show off 0 + 1 * k = off 0 + k; omega))

/-- Word k of a sixteen-word load at off from contents C is C at off + k. -/
theorem word_load (C : S12800.Idx → BitVec 32) (off : Fin 1 → ℕ) (hoff : ∀ a, off a + S16.size a ≤ S12800.size a)
    (k : ℕ) (hk : k < 16) (hc : S16.ShapeCasts S16) (hs : S16.Slices ![k] S1) (hp : ∀ a, (![0] : Fin 1 → ℕ) a < S1.size a) :
    extractAt ![0] (extractStridedSlice S1 ![k] (shapeCast S16 (View.readAt (Elt F) (tabS).view (Rect.unit (s := S12800) off S16.size hoff).toLoadRect C) hc) hs) hp
      = C (ValueIdx.ix1 (⟨off 0 + k, by have h : off 0 + 16 ≤ 12800 := hoff 0; omega⟩ : Fin 12800)) :=
  (word_of_vec _ k hk hc hs hp).trans (readAt_tab (F := F) C off hoff k hk)

theorem word0_load (C : S12800.Idx → BitVec 32) (off : Fin 1 → ℕ) (hoff : ∀ a, off a + S16.size a ≤ S12800.size a) :
    (extractAt ![0] (extractStridedSlice S1 ![0] (shapeCast S16 (View.readAt (Elt F) (tabS).view (Rect.unit (s := S12800) off S16.size hoff).toLoadRect C) shapeCasts_S16_S16) slices_S16_o0_S1) inpos_S1_p0)
      = C (ValueIdx.ix1 (⟨off 0 + 0, by have h : off 0 + 16 ≤ 12800 := hoff 0; omega⟩ : Fin 12800)) :=
  word_load (F := F) C off hoff 0 (by decide) _ _ _

theorem word1_load (C : S12800.Idx → BitVec 32) (off : Fin 1 → ℕ) (hoff : ∀ a, off a + S16.size a ≤ S12800.size a) :
    (extractAt ![0] (extractStridedSlice S1 ![1] (shapeCast S16 (View.readAt (Elt F) (tabS).view (Rect.unit (s := S12800) off S16.size hoff).toLoadRect C) shapeCasts_S16_S16) slices_S16_o1_S1) inpos_S1_p0)
      = C (ValueIdx.ix1 (⟨off 0 + 1, by have h : off 0 + 16 ≤ 12800 := hoff 0; omega⟩ : Fin 12800)) :=
  word_load (F := F) C off hoff 1 (by decide) _ _ _

theorem word2_load (C : S12800.Idx → BitVec 32) (off : Fin 1 → ℕ) (hoff : ∀ a, off a + S16.size a ≤ S12800.size a) :
    (extractAt ![0] (extractStridedSlice S1 ![2] (shapeCast S16 (View.readAt (Elt F) (tabS).view (Rect.unit (s := S12800) off S16.size hoff).toLoadRect C) shapeCasts_S16_S16) slices_S16_o2_S1) inpos_S1_p0)
      = C (ValueIdx.ix1 (⟨off 0 + 2, by have h : off 0 + 16 ≤ 12800 := hoff 0; omega⟩ : Fin 12800)) :=
  word_load (F := F) C off hoff 2 (by decide) _ _ _

/-! ## The six places a table row is read -/

section Sites

/-- A word loaded at 16·R + k (k < 3) of the padded table is entry k of the launch table's row min(R, 783). -/
theorem word_eq_at (off : Fin 1 → ℕ) (hoff : ∀ a, off a + S16.size a ≤ S12800.size a) (R : ℕ) (hR : R < 800)
    (hoffR : off 0 = 16 * R) (k : ℕ) (hk : k < 3) (hc : S16.ShapeCasts S16) (hs : S16.Slices ![k] S1)
    (hp : ∀ a, (![0] : Fin 1 → ℕ) a < S1.size a) :
    extractAt ![0] (extractStridedSlice S1 ![k] (shapeCast S16 (View.readAt (Elt F) (tabS).view (Rect.unit (s := S12800) off S16.size hoff).toLoadRect (tbV m d)) hc) hs) hp
      = m (a2Loc d) (ValueIdx.ix2 (⟨min R 783, Nat.lt_succ_of_le (Nat.min_le_right _ _)⟩ : Fin 784) (⟨k, hk⟩ : Fin 3)) := by
  refine (word_load (F := F) (tbV m d) off hoff k (by omega) hc hs hp).trans ?_
  have e : (⟨off 0 + k, by have h : off 0 + 16 ≤ 12800 := hoff 0; omega⟩ : Fin 12800)
      = ⟨16 * (⟨R, hR⟩ : Fin 800).val + (⟨k, hk⟩ : Fin 3).val, by show 16 * R + k < 12800; omega⟩ :=
    Fin.ext (by show off 0 + k = 16 * R + k; rw [hoffR])
  rw [e]
  exact tbV_word m d ⟨R, hR⟩ ⟨k, hk⟩

variable (ht : Cert.Spec.InRange (m (a2Loc d)))
include ht

/-- With the launch table in range such a word is at most 7. -/
theorem word_le_at (off : Fin 1 → ℕ) (hoff : ∀ a, off a + S16.size a ≤ S12800.size a) (R : ℕ) (hR : R < 800)
    (hoffR : off 0 = 16 * R) (k : ℕ) (hk : k < 3) (hc : S16.ShapeCasts S16) (hs : S16.Slices ![k] S1)
    (hp : ∀ a, (![0] : Fin 1 → ℕ) a < S1.size a) :
    (extractAt ![0] (extractStridedSlice S1 ![k] (shapeCast S16 (View.readAt (Elt F) (tabS).view (Rect.unit (s := S12800) off S16.size hoff).toLoadRect (tbV m d)) hc) hs) hp).toNat ≤ 7 := by
  rw [word_eq_at m d off hoff R hR hoffR k hk hc hs hp]
  exact ht _

/-- The range check at a load of row R's sixteen words. -/
theorem chk1_at (off : Fin 1 → ℕ) (hoff : ∀ a, off a + S16.size a ≤ S12800.size a) (R : ℕ) (hR : R < 800) (hoffR : off 0 = 16 * R) :
    k0_chk1 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk1_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off2_at (off : Fin 1 → ℕ) (hoff : ∀ a, off a + S16.size a ≤ S12800.size a) (R : ℕ) (hR : R < 800) (hoffR : off 0 = 16 * R) :
    k0_off2 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off2_eq _ _ _ (word_le_at m d ht off hoff R hR hoffR 1 (by decide) _ _ _) (word_le_at m d ht off hoff R hR hoffR 2 (by decide) _ _ _), e0, e1, e2]
  rfl

/-- The range check at a load of row R's sixteen words. -/
theorem chk2_at (off : Fin 1 → ℕ) (hoff : ∀ a, off a + S16.size a ≤ S12800.size a) (R : ℕ) (hR : R < 800) (hoffR : off 0 = 16 * R) :
    k0_chk2 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk2_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off4_at (off : Fin 1 → ℕ) (hoff : ∀ a, off a + S16.size a ≤ S12800.size a) (R : ℕ) (hR : R < 800) (hoffR : off 0 = 16 * R) :
    k0_off4 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off4_eq _ _ _ (word_le_at m d ht off hoff R hR hoffR 1 (by decide) _ _ _) (word_le_at m d ht off hoff R hR hoffR 2 (by decide) _ _ _), e0, e1, e2]
  rfl

/-- The range check at a load of row R's sixteen words. -/
theorem chk3_at (off : Fin 1 → ℕ) (hoff : ∀ a, off a + S16.size a ≤ S12800.size a) (R : ℕ) (hR : R < 800) (hoffR : off 0 = 16 * R) :
    k0_chk3 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk3_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off6_at (off : Fin 1 → ℕ) (hoff : ∀ a, off a + S16.size a ≤ S12800.size a) (R : ℕ) (hR : R < 800) (hoffR : off 0 = 16 * R) :
    k0_off6 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off6_eq _ _ _ (word_le_at m d ht off hoff R hR hoffR 1 (by decide) _ _ _) (word_le_at m d ht off hoff R hR hoffR 2 (by decide) _ _ _), e0, e1, e2]
  rfl

/-- The range check at a load of row R's sixteen words. -/
theorem chk4_at (off : Fin 1 → ℕ) (hoff : ∀ a, off a + S16.size a ≤ S12800.size a) (R : ℕ) (hR : R < 800) (hoffR : off 0 = 16 * R) :
    k0_chk4 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk4_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off9_at (off : Fin 1 → ℕ) (hoff : ∀ a, off a + S16.size a ≤ S12800.size a) (R : ℕ) (hR : R < 800) (hoffR : off 0 = 16 * R) :
    k0_off9 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off9_eq _ _ _ (word_le_at m d ht off hoff R hR hoffR 1 (by decide) _ _ _) (word_le_at m d ht off hoff R hR hoffR 2 (by decide) _ _ _), e0, e1, e2]
  rfl

/-- The range check at a load of row R's sixteen words. -/
theorem chk5_at (off : Fin 1 → ℕ) (hoff : ∀ a, off a + S16.size a ≤ S12800.size a) (R : ℕ) (hR : R < 800) (hoffR : off 0 = 16 * R) :
    k0_chk5 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk5_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off11_at (off : Fin 1 → ℕ) (hoff : ∀ a, off a + S16.size a ≤ S12800.size a) (R : ℕ) (hR : R < 800) (hoffR : off 0 = 16 * R) :
    k0_off11 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off11_eq _ _ _ (word_le_at m d ht off hoff R hR hoffR 1 (by decide) _ _ _) (word_le_at m d ht off hoff R hR hoffR 2 (by decide) _ _ _), e0, e1, e2]
  rfl

/-- The range check at a load of row R's sixteen words. -/
theorem chk6_at (off : Fin 1 → ℕ) (hoff : ∀ a, off a + S16.size a ≤ S12800.size a) (R : ℕ) (hR : R < 800) (hoffR : off 0 = 16 * R) :
    k0_chk6 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0) :=
  chk6_of_le _ _ _ (word_le_at m d ht off hoff R hR hoffR 0 (by decide) _ _ _)
    (word_le_at m d ht off hoff R hR hoffR 1 (by decide) _ _ _) (word_le_at m d ht off hoff R hR hoffR 2 (by decide) _ _ _)

/-- The block offsets computed from row R's words are (n, 16·by, 1536·bx), (n, by, bx) the launch table's row min(R, 783). -/
theorem k0_off14_at (off : Fin 1 → ℕ) (hoff : ∀ a, off a + S16.size a ≤ S12800.size a) (R : ℕ) (hR : R < 800) (hoffR : off 0 = 16 * R) :
    k0_off14 (extractAt ![0] (extractStridedSlice S1 ![0] (shapeCast S16 (View.readAt (Elt F) (tabS).view (Rect.unit (s := S12800) off S16.size hoff).toLoadRect (tbV m d)) shapeCasts_S16_S16) slices_S16_o0_S1) inpos_S1_p0)
      (extractAt ![0] (extractStridedSlice S1 ![1] (shapeCast S16 (View.readAt (Elt F) (tabS).view (Rect.unit (s := S12800) off S16.size hoff).toLoadRect (tbV m d)) shapeCasts_S16_S16) slices_S16_o1_S1) inpos_S1_p0)
      (extractAt ![0] (extractStridedSlice S1 ![2] (shapeCast S16 (View.readAt (Elt F) (tabS).view (Rect.unit (s := S12800) off S16.size hoff).toLoadRect (tbV m d)) shapeCasts_S16_S16) slices_S16_o2_S1) inpos_S1_p0)
      = ![(m (a2Loc d) (ValueIdx.ix2 (⟨min (R) 783, Nat.lt_succ_of_le (Nat.min_le_right _ _)⟩ : Fin 784) (0 : Fin 3))).toNat, 16 * (m (a2Loc d) (ValueIdx.ix2 (⟨min (R) 783, Nat.lt_succ_of_le (Nat.min_le_right _ _)⟩ : Fin 784) (1 : Fin 3))).toNat, 1536 * (m (a2Loc d) (ValueIdx.ix2 (⟨min (R) 783, Nat.lt_succ_of_le (Nat.min_le_right _ _)⟩ : Fin 784) (2 : Fin 3))).toNat] := by
  have e0 := word_eq_at m d off hoff R hR hoffR 0 (by decide) shapeCasts_S16_S16 slices_S16_o0_S1 inpos_S1_p0
  have e1 := word_eq_at m d off hoff R hR hoffR 1 (by decide) shapeCasts_S16_S16 slices_S16_o1_S1 inpos_S1_p0
  have e2 := word_eq_at m d off hoff R hR hoffR 2 (by decide) shapeCasts_S16_S16 slices_S16_o2_S1 inpos_S1_p0
  rw [k0_off14_eq _ _ _ (word_le_at m d ht off hoff R hR hoffR 1 (by decide) _ _ _) (word_le_at m d ht off hoff R hR hoffR 2 (by decide) _ _ _), e0, e1, e2]
  rfl

omit ht [FloatOps F] in
/-- The loop runs at most twelve times. -/
theorem trip_lt (t : Fin k0_t1_loop.trips) : t.val < 12 := lt_of_lt_of_le t.isLt k0_t1_abs.2.1

omit ht [FloatOps F] in
theorem coord0_lt : (L 0).val < 2 := (L 0).isLt
omit ht [FloatOps F] in
theorem coord1_lt : (L 1).val < 16 := (L 1).isLt

omit ht [FloatOps F] in
/-- Load 1 reads the words of row 32·(0) + w of the padded table, w the worker's number. -/
theorem off1_row : (k0_off1 L) 0 = 16 * (32 * (0) + wOf (L 0).val (L 1).val) := by
  have h0 := coord0_lt L; have h1 := coord1_lt L
  rw [k0_off1_eq]
  show 32 * (L 1).val + 16 * (L 0).val = 16 * (32 * (0) + (2 * (L 1).val + (L 0).val))
  omega

omit ht [FloatOps F] in
theorem row1_lt : 32 * (0) + wOf (L 0).val (L 1).val < 800 := by
  have h0 := coord0_lt L; have h1 := coord1_lt L
  show 32 * (0) + (2 * (L 1).val + (L 0).val) < 800
  omega

theorem chk1_site :
    k0_chk1 (extractAt ![0] (extractStridedSlice S1 ![0] (shapeCast S16 (View.readAt (Elt F) (tabS).view (Rect.unit (s := S12800) (k0_off1 L) S16.size (k0_off1_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (tbV m d)) shapeCasts_S16_S16) slices_S16_o2_S1) inpos_S1_p0) :=
  chk1_at m d ht (k0_off1 L) (k0_off1_inb L) (32 * (0) + wOf (L 0).val (L 1).val) (row1_lt L) (off1_row L)

theorem k0_off2_site :
    k0_off2 (extractAt ![0] (extractStridedSlice S1 ![0] (shapeCast S16 (View.readAt (Elt F) (tabS).view (Rect.unit (s := S12800) (k0_off1 L) S16.size (k0_off1_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (tbV m d)) shapeCasts_S16_S16) slices_S16_o2_S1) inpos_S1_p0)
      = ![(m (a2Loc d) (ValueIdx.ix2 (⟨min (32 * (0) + wOf (L 0).val (L 1).val) 783, Nat.lt_succ_of_le (Nat.min_le_right _ _)⟩ : Fin 784) (0 : Fin 3))).toNat, 16 * (m (a2Loc d) (ValueIdx.ix2 (⟨min (32 * (0) + wOf (L 0).val (L 1).val) 783, Nat.lt_succ_of_le (Nat.min_le_right _ _)⟩ : Fin 784) (1 : Fin 3))).toNat, 1536 * (m (a2Loc d) (ValueIdx.ix2 (⟨min (32 * (0) + wOf (L 0).val (L 1).val) 783, Nat.lt_succ_of_le (Nat.min_le_right _ _)⟩ : Fin 784) (2 : Fin 3))).toNat] :=
  k0_off2_at m d ht (k0_off1 L) (k0_off1_inb L) (32 * (0) + wOf (L 0).val (L 1).val) (row1_lt L) (off1_row L)

omit ht [FloatOps F] in
/-- Load 2 reads the words of row 32·(2 * t.val + 1) + w of the padded table, w the worker's number. -/
theorem off3_row (t : Fin k0_t1_loop.trips) : (k0_off3 L t) 0 = 16 * (32 * (2 * t.val + 1) + wOf (L 0).val (L 1).val) := by
  have h0 := coord0_lt L; have h1 := coord1_lt L; have h2 := trip_lt t
  rw [k0_off3_eq]
  show 1024 * t.val + 32 * (L 1).val + 16 * (L 0).val + 512 = 16 * (32 * (2 * t.val + 1) + (2 * (L 1).val + (L 0).val))
  omega

omit ht [FloatOps F] in
theorem row2_lt (t : Fin k0_t1_loop.trips) : 32 * (2 * t.val + 1) + wOf (L 0).val (L 1).val < 800 := by
  have h0 := coord0_lt L; have h1 := coord1_lt L; have h2 := trip_lt t
  show 32 * (2 * t.val + 1) + (2 * (L 1).val + (L 0).val) < 800
  omega

theorem chk2_site (t : Fin k0_t1_loop.trips) :
    k0_chk2 (extractAt ![0] (extractStridedSlice S1 ![0] (shapeCast S16 (View.readAt (Elt F) (tabS).view (Rect.unit (s := S12800) (k0_off3 L t) S16.size (k0_off3_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off3 L t) S16.size (k0_off3_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off3 L t) S16.size (k0_off3_inb L t)).toLoadRect (tbV m d)) shapeCasts_S16_S16) slices_S16_o2_S1) inpos_S1_p0) :=
  chk2_at m d ht (k0_off3 L t) (k0_off3_inb L t) (32 * (2 * t.val + 1) + wOf (L 0).val (L 1).val) (row2_lt L t) (off3_row L t)

theorem k0_off4_site (t : Fin k0_t1_loop.trips) :
    k0_off4 (extractAt ![0] (extractStridedSlice S1 ![0] (shapeCast S16 (View.readAt (Elt F) (tabS).view (Rect.unit (s := S12800) (k0_off3 L t) S16.size (k0_off3_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off3 L t) S16.size (k0_off3_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off3 L t) S16.size (k0_off3_inb L t)).toLoadRect (tbV m d)) shapeCasts_S16_S16) slices_S16_o2_S1) inpos_S1_p0)
      = ![(m (a2Loc d) (ValueIdx.ix2 (⟨min (32 * (2 * t.val + 1) + wOf (L 0).val (L 1).val) 783, Nat.lt_succ_of_le (Nat.min_le_right _ _)⟩ : Fin 784) (0 : Fin 3))).toNat, 16 * (m (a2Loc d) (ValueIdx.ix2 (⟨min (32 * (2 * t.val + 1) + wOf (L 0).val (L 1).val) 783, Nat.lt_succ_of_le (Nat.min_le_right _ _)⟩ : Fin 784) (1 : Fin 3))).toNat, 1536 * (m (a2Loc d) (ValueIdx.ix2 (⟨min (32 * (2 * t.val + 1) + wOf (L 0).val (L 1).val) 783, Nat.lt_succ_of_le (Nat.min_le_right _ _)⟩ : Fin 784) (2 : Fin 3))).toNat] :=
  k0_off4_at m d ht (k0_off3 L t) (k0_off3_inb L t) (32 * (2 * t.val + 1) + wOf (L 0).val (L 1).val) (row2_lt L t) (off3_row L t)

omit ht [FloatOps F] in
/-- Load 3 reads the words of row 32·(2 * t.val) + w of the padded table, w the worker's number. -/
theorem off5_row (t : Fin k0_t1_loop.trips) : (k0_off5 L t) 0 = 16 * (32 * (2 * t.val) + wOf (L 0).val (L 1).val) := by
  have h0 := coord0_lt L; have h1 := coord1_lt L; have h2 := trip_lt t
  rw [k0_off5_eq]
  show 1024 * t.val + 32 * (L 1).val + 16 * (L 0).val = 16 * (32 * (2 * t.val) + (2 * (L 1).val + (L 0).val))
  omega

omit ht [FloatOps F] in
theorem row3_lt (t : Fin k0_t1_loop.trips) : 32 * (2 * t.val) + wOf (L 0).val (L 1).val < 800 := by
  have h0 := coord0_lt L; have h1 := coord1_lt L; have h2 := trip_lt t
  show 32 * (2 * t.val) + (2 * (L 1).val + (L 0).val) < 800
  omega

theorem chk3_site (t : Fin k0_t1_loop.trips) :
    k0_chk3 (extractAt ![0] (extractStridedSlice S1 ![0] (shapeCast S16 (View.readAt (Elt F) (tabS).view (Rect.unit (s := S12800) (k0_off5 L t) S16.size (k0_off5_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off5 L t) S16.size (k0_off5_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off5 L t) S16.size (k0_off5_inb L t)).toLoadRect (tbV m d)) shapeCasts_S16_S16) slices_S16_o2_S1) inpos_S1_p0) :=
  chk3_at m d ht (k0_off5 L t) (k0_off5_inb L t) (32 * (2 * t.val) + wOf (L 0).val (L 1).val) (row3_lt L t) (off5_row L t)

theorem k0_off6_site (t : Fin k0_t1_loop.trips) :
    k0_off6 (extractAt ![0] (extractStridedSlice S1 ![0] (shapeCast S16 (View.readAt (Elt F) (tabS).view (Rect.unit (s := S12800) (k0_off5 L t) S16.size (k0_off5_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off5 L t) S16.size (k0_off5_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off5 L t) S16.size (k0_off5_inb L t)).toLoadRect (tbV m d)) shapeCasts_S16_S16) slices_S16_o2_S1) inpos_S1_p0)
      = ![(m (a2Loc d) (ValueIdx.ix2 (⟨min (32 * (2 * t.val) + wOf (L 0).val (L 1).val) 783, Nat.lt_succ_of_le (Nat.min_le_right _ _)⟩ : Fin 784) (0 : Fin 3))).toNat, 16 * (m (a2Loc d) (ValueIdx.ix2 (⟨min (32 * (2 * t.val) + wOf (L 0).val (L 1).val) 783, Nat.lt_succ_of_le (Nat.min_le_right _ _)⟩ : Fin 784) (1 : Fin 3))).toNat, 1536 * (m (a2Loc d) (ValueIdx.ix2 (⟨min (32 * (2 * t.val) + wOf (L 0).val (L 1).val) 783, Nat.lt_succ_of_le (Nat.min_le_right _ _)⟩ : Fin 784) (2 : Fin 3))).toNat] :=
  k0_off6_at m d ht (k0_off5 L t) (k0_off5_inb L t) (32 * (2 * t.val) + wOf (L 0).val (L 1).val) (row3_lt L t) (off5_row L t)

omit ht [FloatOps F] in
/-- Load 4 reads the words of row 32·(2 * t.val + 2) + w of the padded table, w the worker's number. -/
theorem off8_row (t : Fin k0_t1_loop.trips) : (k0_off8 L t) 0 = 16 * (32 * (2 * t.val + 2) + wOf (L 0).val (L 1).val) := by
  have h0 := coord0_lt L; have h1 := coord1_lt L; have h2 := trip_lt t
  rw [k0_off8_eq]
  show 1024 * t.val + 32 * (L 1).val + 16 * (L 0).val + 1024 = 16 * (32 * (2 * t.val + 2) + (2 * (L 1).val + (L 0).val))
  omega

omit ht [FloatOps F] in
theorem row4_lt (t : Fin k0_t1_loop.trips) : 32 * (2 * t.val + 2) + wOf (L 0).val (L 1).val < 800 := by
  have h0 := coord0_lt L; have h1 := coord1_lt L; have h2 := trip_lt t
  show 32 * (2 * t.val + 2) + (2 * (L 1).val + (L 0).val) < 800
  omega

theorem chk4_site (t : Fin k0_t1_loop.trips) :
    k0_chk4 (extractAt ![0] (extractStridedSlice S1 ![0] (shapeCast S16 (View.readAt (Elt F) (tabS).view (Rect.unit (s := S12800) (k0_off8 L t) S16.size (k0_off8_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off8 L t) S16.size (k0_off8_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off8 L t) S16.size (k0_off8_inb L t)).toLoadRect (tbV m d)) shapeCasts_S16_S16) slices_S16_o2_S1) inpos_S1_p0) :=
  chk4_at m d ht (k0_off8 L t) (k0_off8_inb L t) (32 * (2 * t.val + 2) + wOf (L 0).val (L 1).val) (row4_lt L t) (off8_row L t)

theorem k0_off9_site (t : Fin k0_t1_loop.trips) :
    k0_off9 (extractAt ![0] (extractStridedSlice S1 ![0] (shapeCast S16 (View.readAt (Elt F) (tabS).view (Rect.unit (s := S12800) (k0_off8 L t) S16.size (k0_off8_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off8 L t) S16.size (k0_off8_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off8 L t) S16.size (k0_off8_inb L t)).toLoadRect (tbV m d)) shapeCasts_S16_S16) slices_S16_o2_S1) inpos_S1_p0)
      = ![(m (a2Loc d) (ValueIdx.ix2 (⟨min (32 * (2 * t.val + 2) + wOf (L 0).val (L 1).val) 783, Nat.lt_succ_of_le (Nat.min_le_right _ _)⟩ : Fin 784) (0 : Fin 3))).toNat, 16 * (m (a2Loc d) (ValueIdx.ix2 (⟨min (32 * (2 * t.val + 2) + wOf (L 0).val (L 1).val) 783, Nat.lt_succ_of_le (Nat.min_le_right _ _)⟩ : Fin 784) (1 : Fin 3))).toNat, 1536 * (m (a2Loc d) (ValueIdx.ix2 (⟨min (32 * (2 * t.val + 2) + wOf (L 0).val (L 1).val) 783, Nat.lt_succ_of_le (Nat.min_le_right _ _)⟩ : Fin 784) (2 : Fin 3))).toNat] :=
  k0_off9_at m d ht (k0_off8 L t) (k0_off8_inb L t) (32 * (2 * t.val + 2) + wOf (L 0).val (L 1).val) (row4_lt L t) (off8_row L t)

omit ht [FloatOps F] in
/-- Load 5 reads the words of row 32·(2 * t.val + 1) + w of the padded table, w the worker's number. -/
theorem off10_row (t : Fin k0_t1_loop.trips) : (k0_off10 L t) 0 = 16 * (32 * (2 * t.val + 1) + wOf (L 0).val (L 1).val) := by
  have h0 := coord0_lt L; have h1 := coord1_lt L; have h2 := trip_lt t
  rw [k0_off10_eq]
  show 1024 * t.val + 32 * (L 1).val + 16 * (L 0).val + 512 = 16 * (32 * (2 * t.val + 1) + (2 * (L 1).val + (L 0).val))
  omega

omit ht [FloatOps F] in
theorem row5_lt (t : Fin k0_t1_loop.trips) : 32 * (2 * t.val + 1) + wOf (L 0).val (L 1).val < 800 := by
  have h0 := coord0_lt L; have h1 := coord1_lt L; have h2 := trip_lt t
  show 32 * (2 * t.val + 1) + (2 * (L 1).val + (L 0).val) < 800
  omega

theorem chk5_site (t : Fin k0_t1_loop.trips) :
    k0_chk5 (extractAt ![0] (extractStridedSlice S1 ![0] (shapeCast S16 (View.readAt (Elt F) (tabS).view (Rect.unit (s := S12800) (k0_off10 L t) S16.size (k0_off10_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off10 L t) S16.size (k0_off10_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off10 L t) S16.size (k0_off10_inb L t)).toLoadRect (tbV m d)) shapeCasts_S16_S16) slices_S16_o2_S1) inpos_S1_p0) :=
  chk5_at m d ht (k0_off10 L t) (k0_off10_inb L t) (32 * (2 * t.val + 1) + wOf (L 0).val (L 1).val) (row5_lt L t) (off10_row L t)

theorem k0_off11_site (t : Fin k0_t1_loop.trips) :
    k0_off11 (extractAt ![0] (extractStridedSlice S1 ![0] (shapeCast S16 (View.readAt (Elt F) (tabS).view (Rect.unit (s := S12800) (k0_off10 L t) S16.size (k0_off10_inb L t)).toLoadRect (tbV m d)) shapeCasts_S16_S16) slices_S16_o0_S1) inpos_S1_p0)
      (extractAt ![0] (extractStridedSlice S1 ![1] (shapeCast S16 (View.readAt (Elt F) (tabS).view (Rect.unit (s := S12800) (k0_off10 L t) S16.size (k0_off10_inb L t)).toLoadRect (tbV m d)) shapeCasts_S16_S16) slices_S16_o1_S1) inpos_S1_p0)
      (extractAt ![0] (extractStridedSlice S1 ![2] (shapeCast S16 (View.readAt (Elt F) (tabS).view (Rect.unit (s := S12800) (k0_off10 L t) S16.size (k0_off10_inb L t)).toLoadRect (tbV m d)) shapeCasts_S16_S16) slices_S16_o2_S1) inpos_S1_p0)
      = ![(m (a2Loc d) (ValueIdx.ix2 (⟨min (32 * (2 * t.val + 1) + wOf (L 0).val (L 1).val) 783, Nat.lt_succ_of_le (Nat.min_le_right _ _)⟩ : Fin 784) (0 : Fin 3))).toNat, 16 * (m (a2Loc d) (ValueIdx.ix2 (⟨min (32 * (2 * t.val + 1) + wOf (L 0).val (L 1).val) 783, Nat.lt_succ_of_le (Nat.min_le_right _ _)⟩ : Fin 784) (1 : Fin 3))).toNat, 1536 * (m (a2Loc d) (ValueIdx.ix2 (⟨min (32 * (2 * t.val + 1) + wOf (L 0).val (L 1).val) 783, Nat.lt_succ_of_le (Nat.min_le_right _ _)⟩ : Fin 784) (2 : Fin 3))).toNat] :=
  k0_off11_at m d ht (k0_off10 L t) (k0_off10_inb L t) (32 * (2 * t.val + 1) + wOf (L 0).val (L 1).val) (row5_lt L t) (off10_row L t)

omit ht [FloatOps F] in
/-- Load 6 reads the words of row 32·(24) + w of the padded table, w the worker's number. -/
theorem off13_row : (k0_off13 L) 0 = 16 * (32 * (24) + wOf (L 0).val (L 1).val) := by
  have h0 := coord0_lt L; have h1 := coord1_lt L
  rw [k0_off13_eq]
  show 32 * (L 1).val + 16 * (L 0).val + 12288 = 16 * (32 * (24) + (2 * (L 1).val + (L 0).val))
  omega

omit ht [FloatOps F] in
theorem row6_lt : 32 * (24) + wOf (L 0).val (L 1).val < 800 := by
  have h0 := coord0_lt L; have h1 := coord1_lt L
  show 32 * (24) + (2 * (L 1).val + (L 0).val) < 800
  omega

theorem chk6_site :
    k0_chk6 (extractAt ![0] (extractStridedSlice S1 ![0] (shapeCast S16 (View.readAt (Elt F) (tabS).view (Rect.unit (s := S12800) (k0_off13 L) S16.size (k0_off13_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off13 L) S16.size (k0_off13_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off13 L) S16.size (k0_off13_inb L)).toLoadRect (tbV m d)) shapeCasts_S16_S16) slices_S16_o2_S1) inpos_S1_p0) :=
  chk6_at m d ht (k0_off13 L) (k0_off13_inb L) (32 * (24) + wOf (L 0).val (L 1).val) (row6_lt L) (off13_row L)

theorem k0_off14_site :
    k0_off14 (extractAt ![0] (extractStridedSlice S1 ![0] (shapeCast S16 (View.readAt (Elt F) (tabS).view (Rect.unit (s := S12800) (k0_off13 L) S16.size (k0_off13_inb L)).toLoadRect (tbV m d)) shapeCasts_S16_S16) slices_S16_o0_S1) inpos_S1_p0)
      (extractAt ![0] (extractStridedSlice S1 ![1] (shapeCast S16 (View.readAt (Elt F) (tabS).view (Rect.unit (s := S12800) (k0_off13 L) S16.size (k0_off13_inb L)).toLoadRect (tbV m d)) shapeCasts_S16_S16) slices_S16_o1_S1) inpos_S1_p0)
      (extractAt ![0] (extractStridedSlice S1 ![2] (shapeCast S16 (View.readAt (Elt F) (tabS).view (Rect.unit (s := S12800) (k0_off13 L) S16.size (k0_off13_inb L)).toLoadRect (tbV m d)) shapeCasts_S16_S16) slices_S16_o2_S1) inpos_S1_p0)
      = ![(m (a2Loc d) (ValueIdx.ix2 (⟨min (32 * (24) + wOf (L 0).val (L 1).val) 783, Nat.lt_succ_of_le (Nat.min_le_right _ _)⟩ : Fin 784) (0 : Fin 3))).toNat, 16 * (m (a2Loc d) (ValueIdx.ix2 (⟨min (32 * (24) + wOf (L 0).val (L 1).val) 783, Nat.lt_succ_of_le (Nat.min_le_right _ _)⟩ : Fin 784) (1 : Fin 3))).toNat, 1536 * (m (a2Loc d) (ValueIdx.ix2 (⟨min (32 * (24) + wOf (L 0).val (L 1).val) 783, Nat.lt_succ_of_le (Nat.min_le_right _ _)⟩ : Fin 784) (2 : Fin 3))).toNat] :=
  k0_off14_at m d ht (k0_off13 L) (k0_off13_inb L) (32 * (24) + wOf (L 0).val (L 1).val) (row6_lt L) (off13_row L)

/-- The first load's check and offsets, stated over the table copy as the transfer left it. -/
theorem chk1_site_landed (ft : Buf (Elt F) ((thr d L).loc cc0_scratch0)) :
    k0_chk1 (extractAt ![0] (extractStridedSlice S1 ![0] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o2_S1) inpos_S1_p0) := by
  rw [tab_landed d L ft (tbV m d)]
  exact chk1_site m d L ht

theorem k0_off2_site_landed (ft : Buf (Elt F) ((thr d L).loc cc0_scratch0)) :
    k0_off2 (extractAt ![0] (extractStridedSlice S1 ![0] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o0_S1) inpos_S1_p0)
      (extractAt ![0] (extractStridedSlice S1 ![1] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o1_S1) inpos_S1_p0)
      (extractAt ![0] (extractStridedSlice S1 ![2] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o2_S1) inpos_S1_p0)
      = ![(m (a2Loc d) (ValueIdx.ix2 (⟨min (32 * (0) + wOf (L 0).val (L 1).val) 783, Nat.lt_succ_of_le (Nat.min_le_right _ _)⟩ : Fin 784) (0 : Fin 3))).toNat, 16 * (m (a2Loc d) (ValueIdx.ix2 (⟨min (32 * (0) + wOf (L 0).val (L 1).val) 783, Nat.lt_succ_of_le (Nat.min_le_right _ _)⟩ : Fin 784) (1 : Fin 3))).toNat, 1536 * (m (a2Loc d) (ValueIdx.ix2 (⟨min (32 * (0) + wOf (L 0).val (L 1).val) 783, Nat.lt_succ_of_le (Nat.min_le_right _ _)⟩ : Fin 784) (2 : Fin 3))).toNat] := by
  rw [tab_landed d L ft (tbV m d)]
  exact k0_off2_site m d L ht

end Sites

end Cert.Proof.KB

end
-- ==== Proof.ViewsKB.lean ====
/-
  Reads through the views the transfers use — a 16 × 1536 block of the corner array or of the output, a slot after a
  whole-slot transfer landed — and the write-back's side condition and the rows it marks.
-/
import proofs.«216119_g70222715290213_cont_sun_c4_40_39_alg».proof.Proof.WordsKB
import Idealize.ShloMosaic.Lib.Writes

noncomputable section

namespace Cert.Proof.KB

open Cert.Kernel Cert.Kernel.Gen

open Idealize.ShloMosaic

variable {F : FTy → Type} [FloatOps F] (m : (ℓ : Loc nD τ sig) → Buf (Elt F) ℓ) (d : Dev nD)

/-! ## Reads through the views the transfers use -/

section Reads

omit [FloatOps F] in
/-- A 16 × 1536 index, as an index of the 1 × 16 × 1536 block with the same position. -/
theorem reshape_row (h : S16x1536.numel = S1x16x1536.numel) (x : S16x1536.Idx) :
    Shape.reshapeEquiv (s := S1x16x1536) (s' := S16x1536) h x
      = ValueIdx.ix3 (0 : Fin 1) (⟨(x 0).val, (x 0).isLt⟩ : Fin 16) (⟨(x 1).val, (x 1).isLt⟩ : Fin 1536) :=
  Shape.reshapeEquiv_eq_of_rowMajor h (by
    rw [Shape.rowMajor_val_three, Shape.rowMajor_val_two]
    show (0 * 16 + (x 0).val) * 1536 + (x 1).val = (x 0).val * 1536 + (x 1).val
    omega)

/-- The 16 × 1536 block of the corner array at off, read at (a, p), is the array at (off 0, off 1 + a, off 2 + p). -/
theorem read_in (g : S8x128x12288.Idx → Elt F .f32) (off : Fin 3 → ℕ)
    (hoff : ∀ a, off a + S1x16x1536.size a ≤ S8x128x12288.size a) (x : S16x1536.Idx) :
    View.read (Elt F) (((inW).slice (Rect.unit (s := S8x128x12288) off S1x16x1536.size hoff) (fun _ => rfl)).squeeze S16x1536 squeezes_S1x16x1536_S16x1536).view g x
      = g (ValueIdx.ix3 (⟨off 0, by have h : off 0 + 1 ≤ 8 := hoff 0; omega⟩ : Fin 8)
          (⟨off 1 + (x 0).val, by have h : off 1 + 16 ≤ 128 := hoff 1; have hx : (x 0).val < 16 := (x 0).isLt; omega⟩ : Fin 128)
          (⟨off 2 + (x 1).val, by have h : off 2 + 1536 ≤ 12288 := hoff 2; have hx : (x 1).val < 1536 := (x 1).isLt; omega⟩ : Fin 12288)) := by
  show g ((Rect.unit (s := S8x128x12288) off S1x16x1536.size hoff).emb (Shape.reshapeEquiv (s := S1x16x1536) (s' := S16x1536) _ x)) = g _
  rw [reshape_row]
  refine congrArg g (funext fun a => match a with
    | ⟨0, _⟩ => Fin.ext (by show off 0 + 1 * 0 = off 0; omega)
    | ⟨1, _⟩ => Fin.ext (by show off 1 + 1 * (x 0).val = off 1 + (x 0).val; omega)
    | ⟨2, _⟩ => Fin.ext (by show off 2 + 1 * (x 1).val = off 2 + (x 1).val; omega))

/-- The same for a 16 × 1536 block of the output array. -/
theorem read_out (g : S784x16x1536.Idx → Elt F .f32) (off : Fin 3 → ℕ)
    (hoff : ∀ a, off a + S1x16x1536.size a ≤ S784x16x1536.size a) (x : S16x1536.Idx) :
    View.read (Elt F) (((outW).slice (Rect.unit (s := S784x16x1536) off S1x16x1536.size hoff) (fun _ => rfl)).squeeze S16x1536 squeezes_S1x16x1536_S16x1536).view g x
      = g (ValueIdx.ix3 (⟨off 0, by have h : off 0 + 1 ≤ 784 := hoff 0; omega⟩ : Fin 784)
          (⟨off 1 + (x 0).val, by have h : off 1 + 16 ≤ 16 := hoff 1; have hx : (x 0).val < 16 := (x 0).isLt; omega⟩ : Fin 16)
          (⟨off 2 + (x 1).val, by have h : off 2 + 1536 ≤ 1536 := hoff 2; have hx : (x 1).val < 1536 := (x 1).isLt; omega⟩ : Fin 1536)) := by
  show g ((Rect.unit (s := S784x16x1536) off S1x16x1536.size hoff).emb (Shape.reshapeEquiv (s := S1x16x1536) (s' := S16x1536) _ x)) = g _
  rw [reshape_row]
  refine congrArg g (funext fun a => match a with
    | ⟨0, _⟩ => Fin.ext (by show off 0 + 1 * 0 = off 0; omega)
    | ⟨1, _⟩ => Fin.ext (by show off 1 + 1 * (x 0).val = off 1 + (x 0).val; omega)
    | ⟨2, _⟩ => Fin.ext (by show off 2 + 1 * (x 1).val = off 2 + (x 1).val; omega))

omit [FloatOps F] in
/-- After one write of the whole shape through a view, the view reads the payload. -/
theorem read_writes_whole {sig' : RefSig} {κ : Kind} {sp : Space} {s : Shape} {e : EltTy} {Val : EltTy → Type}
    (v : View sig' κ sp s e) (f : v.ty.Contents Val) (w : (Rect.whole s).shape.Idx → Val e) (x : (Rect.whole s).shape.Idx) :
    v.read Val (v.writes Val f [⟨Rect.whole s, w⟩]) x = w x := by
  have h := View.read_writes_cons_emb v f (Rect.whole s) w [] x
  rwa [Rect.emb_whole_apply] at h

/-- Slot 0 after a transfer of the whole slot landed reads the payload. -/
theorem read_slot0_written (fb : (((bufS).slice (Rect.unit (s := S2x16x1536) ![0, 0, 0] S1x16x1536.size inb_S2x16x1536_S1x16x1536_0_0_0) (fun _ => rfl)).squeeze S16x1536 squeezes_S1x16x1536_S16x1536).view.ty.Contents (Elt F)) (w : S16x1536.Idx → Elt F .f32) (x : S16x1536.Idx) :
    View.read (Elt F) (((bufS).slice (Rect.unit (s := S2x16x1536) ![0, 0, 0] S1x16x1536.size inb_S2x16x1536_S1x16x1536_0_0_0) (fun _ => rfl)).squeeze S16x1536 squeezes_S1x16x1536_S16x1536).view
        ((((bufS).slice (Rect.unit (s := S2x16x1536) ![0, 0, 0] S1x16x1536.size inb_S2x16x1536_S1x16x1536_0_0_0) (fun _ => rfl)).squeeze S16x1536 squeezes_S1x16x1536_S16x1536).view.writes (Elt F) fb [⟨Rect.whole S16x1536, w⟩]) x = w x :=
  read_writes_whole _ fb w x

/-- Slot 1 after a transfer of the whole slot landed reads the payload. -/
theorem read_slot1_written (fb : (((bufS).slice (Rect.unit (s := S2x16x1536) ![1, 0, 0] S1x16x1536.size inb_S2x16x1536_S1x16x1536_1_0_0) (fun _ => rfl)).squeeze S16x1536 squeezes_S1x16x1536_S16x1536).view.ty.Contents (Elt F)) (w : S16x1536.Idx → Elt F .f32) (x : S16x1536.Idx) :
    View.read (Elt F) (((bufS).slice (Rect.unit (s := S2x16x1536) ![1, 0, 0] S1x16x1536.size inb_S2x16x1536_S1x16x1536_1_0_0) (fun _ => rfl)).squeeze S16x1536 squeezes_S1x16x1536_S16x1536).view
        ((((bufS).slice (Rect.unit (s := S2x16x1536) ![1, 0, 0] S1x16x1536.size inb_S2x16x1536_S1x16x1536_1_0_0) (fun _ => rfl)).squeeze S16x1536 squeezes_S1x16x1536_S16x1536).view.writes (Elt F) fb [⟨Rect.whole S16x1536, w⟩]) x = w x :=
  read_writes_whole _ fb w x

end Reads

/-! ## The write-back: its side condition and the rows it marks -/

section WriteBack

/-- A payload is admitted for the output's row r, every element's target the gathered value, exactly when it is the
    target's row r. -/
theorem admitted_out_iff (off : Fin 3 → ℕ) (hoff : ∀ a, off a + S1x16x1536.size a ≤ S784x16x1536.size a)
    (h1 : off 1 = 0) (h2 : off 2 = 0) (w : S16x1536.Idx → Elt F .f32) :
    (((outW).slice (Rect.unit (s := S784x16x1536) off S1x16x1536.size hoff) (fun _ => rfl)).squeeze S16x1536 squeezes_S1x16x1536_S16x1536).view.Admitted (Elt F) (fun i => some (tgt m d i)) w Finset.univ
      ↔ ∀ x : S16x1536.Idx, w x = tgt m d (ValueIdx.ix3 (⟨off 0, by have h : off 0 + 1 ≤ 784 := hoff 0; omega⟩ : Fin 784) (x 0 : Fin 16) (x 1 : Fin 1536)) := by
  rw [View.admitted_some_iff]
  refine forall_congr' fun x => ?_
  rw [show (x ∈ (Finset.univ : Finset S16x1536.Idx)) = True from eq_true (Finset.mem_univ x), true_imp_iff,
    read_out (F := F) (tgt m d) off hoff x]
  have e : (ValueIdx.ix3 (⟨off 0, by have h : off 0 + 1 ≤ 784 := hoff 0; omega⟩ : Fin 784)
        (⟨off 1 + (x 0).val, by have h : off 1 + 16 ≤ 16 := hoff 1; have hx : (x 0).val < 16 := (x 0).isLt; omega⟩ : Fin 16)
        (⟨off 2 + (x 1).val, by have h : off 2 + 1536 ≤ 1536 := hoff 2; have hx : (x 1).val < 1536 := (x 1).isLt; omega⟩ : Fin 1536))
      = ValueIdx.ix3 (⟨off 0, by have h : off 0 + 1 ≤ 784 := hoff 0; omega⟩ : Fin 784) (x 0 : Fin 16) (x 1 : Fin 1536) :=
    funext fun a => match a with
      | ⟨0, _⟩ => rfl
      | ⟨1, _⟩ => Fin.ext (by show off 1 + (x 0).val = (x 0).val; omega)
      | ⟨2, _⟩ => Fin.ext (by show off 2 + (x 1).val = (x 1).val; omega)
  rw [e]
  exact Iff.rfl

/-- The same at the literal offsets (r, 0, 0). -/
theorem admitted_row_iff (r : ℕ) (h : ∀ a, (![r, 0, 0] : Fin 3 → ℕ) a + S1x16x1536.size a ≤ S784x16x1536.size a)
    (w : S16x1536.Idx → Elt F .f32) :
    (((outW).slice (Rect.unit (s := S784x16x1536) ![r, 0, 0] S1x16x1536.size h) (fun _ => rfl)).squeeze S16x1536 squeezes_S1x16x1536_S16x1536).view.Admitted (Elt F) (fun i => some (tgt m d i)) w Finset.univ
      ↔ ∀ x : S16x1536.Idx, w x = tgt m d (ValueIdx.ix3 (⟨r, by have h' : r + 1 ≤ 784 := h 0; omega⟩ : Fin 784) (x 0 : Fin 16) (x 1 : Fin 1536)) :=
  admitted_out_iff m d ![r, 0, 0] h rfl rfl w

omit [FloatOps F] in
/-- The elements of the output under its 1 × 16 × 1536 block at (r, 0, 0) are row r. -/
theorem set_out_row (r : ℕ) (h : ∀ a, (![r, 0, 0] : Fin 3 → ℕ) a + S1x16x1536.size a ≤ S784x16x1536.size a) :
    (((outW).slice (Rect.unit (s := S784x16x1536) ![r, 0, 0] S1x16x1536.size h) (fun _ => rfl)).squeeze S16x1536 squeezes_S1x16x1536_S16x1536).view.set = rowSet d r := by
  have e1 : (((outW).slice (Rect.unit (s := S784x16x1536) ![r, 0, 0] S1x16x1536.size h) (fun _ => rfl)).squeeze S16x1536 squeezes_S1x16x1536_S16x1536).view.set
      = (Rect.unit (s := S784x16x1536) ![r, 0, 0] S1x16x1536.size h).set :=
    (View.set_reshape _ _).trans (View.set_slice_whole main_v9_scv _)
  refine e1.trans ?_
  ext i
  unfold rowSet
  rw [Rect.mem_set_unit, Finset.mem_filter]
  simp only [Finset.mem_univ, true_and]
  constructor
  · intro hi
    have h0 : r ≤ (i 0).val ∧ (i 0).val < r + 1 := hi 0
    show (i 0).val = r
    omega
  · intro hi a
    have hr : (i 0).val = r := hi
    match a with
    | ⟨0, _⟩ => show r ≤ (i 0).val ∧ (i 0).val < r + 1; omega
    | ⟨1, _⟩ => show 0 ≤ (i 1).val ∧ (i 1).val < 0 + 16; have := (i 1).isLt; have h16 : (i 1).val < 16 := this; omega
    | ⟨2, _⟩ => show 0 ≤ (i 2).val ∧ (i 2).val < 0 + 1536; have := (i 2).isLt; have h15 : (i 2).val < 1536 := this; omega

/-- What a slot holds after the block named by the launch table's row r landed in it is admitted for output row r. -/
theorem admitted_row (ht : Cert.Spec.InRange (m (a2Loc d))) (r : Fin 784)
    (h : ∀ a, (![r.val, 0, 0] : Fin 3 → ℕ) a + S1x16x1536.size a ≤ S784x16x1536.size a)
    (h' : ∀ a, (![(m (a2Loc d) (ValueIdx.ix2 r (0 : Fin 3))).toNat, 16 * (m (a2Loc d) (ValueIdx.ix2 r (1 : Fin 3))).toNat,
      1536 * (m (a2Loc d) (ValueIdx.ix2 r (2 : Fin 3))).toNat] : Fin 3 → ℕ) a + S1x16x1536.size a ≤ S8x128x12288.size a)
    (vs : View sig .scVector .vmem S16x1536 .f32) (fb : vs.ty.Contents (Elt F)) :
    (((outW).slice (Rect.unit (s := S784x16x1536) ![r.val, 0, 0] S1x16x1536.size h) (fun _ => rfl)).squeeze S16x1536 squeezes_S1x16x1536_S16x1536).view.Admitted (Elt F) (fun i => some (tgt m d i))
      (vs.read (Elt F) (vs.writes (Elt F) fb [⟨Rect.whole S16x1536, ReadAs.same.apply (View.read (Elt F)
        (((inW).slice (Rect.unit (s := S8x128x12288) ![(m (a2Loc d) (ValueIdx.ix2 r (0 : Fin 3))).toNat, 16 * (m (a2Loc d) (ValueIdx.ix2 r (1 : Fin 3))).toNat, 1536 * (m (a2Loc d) (ValueIdx.ix2 r (2 : Fin 3))).toNat] S1x16x1536.size h') (fun _ => rfl)).squeeze S16x1536 squeezes_S1x16x1536_S16x1536).view (inV m d))⟩]))
      Finset.univ := by
  rw [admitted_row_iff m d r.val h]
  intro x
  refine (read_writes_whole vs fb _ x).trans ?_
  refine (read_in (F := F) (inV m d) _ h' x).trans ?_
  have hx0 : (x 0).val < 16 := (x 0).isLt
  have hx1 : (x 1).val < 1536 := (x 1).isLt
  have hb0 : (m (a2Loc d) (ValueIdx.ix2 r (0 : Fin 3))).toNat ≤ 7 := ht _
  have hb1 : (m (a2Loc d) (ValueIdx.ix2 r (1 : Fin 3))).toNat ≤ 7 := ht _
  have hb2 : (m (a2Loc d) (ValueIdx.ix2 r (2 : Fin 3))).toNat ≤ 7 := ht _
  exact inV_block_of_words m d ht r _ _ _ rfl rfl rfl (x 0) (x 1) (by omega) (by omega) (by omega)

end WriteBack

/-! ## The forms the body's proof cites -/

/-- The output row a row of the padded table names: the rows past the last repeat it. -/
abbrev rowOf (R : ℕ) : Fin 784 := ⟨min R 783, Nat.lt_succ_of_le (Nat.min_le_right _ _)⟩

theorem rowOf_val (R : ℕ) : (rowOf R).val = min R 783 := rfl

/-- The worker's number at a grid point. -/
abbrev wL (L : grid0.Coords) : ℕ := wOf (L 0).val (L 1).val

section Cited
variable (L : grid0.Coords)

/-! ### The table rows the six loads read -/

omit [FloatOps F] in
theorem k0_off1_row : k0_off1 L = ![16 * (32 * 0 + wL L)] := by
  have h0 := coord0_lt L; have h1 := coord1_lt L
  rw [k0_off1_eq]
  exact congrArg (fun z : ℕ => (![z] : Fin 1 → ℕ))
    (show 32 * (L 1).val + 16 * (L 0).val = 16 * (32 * 0 + (2 * (L 1).val + (L 0).val)) by omega)

omit [FloatOps F] in
theorem k0_off3_row (k : Fin k0_t1_loop.trips) : k0_off3 L k = ![16 * (32 * (2 * k.val + 1) + wL L)] := by
  rw [k0_off3_eq]
  exact congrArg (fun z : ℕ => (![z] : Fin 1 → ℕ))
    (show 1024 * k.val + 32 * (L 1).val + 16 * (L 0).val + 512 = 16 * (32 * (2 * k.val + 1) + (2 * (L 1).val + (L 0).val)) by omega)

omit [FloatOps F] in
theorem k0_off5_row (k : Fin k0_t1_loop.trips) : k0_off5 L k = ![16 * (32 * (2 * k.val) + wL L)] := by
  rw [k0_off5_eq]
  exact congrArg (fun z : ℕ => (![z] : Fin 1 → ℕ))
    (show 1024 * k.val + 32 * (L 1).val + 16 * (L 0).val = 16 * (32 * (2 * k.val) + (2 * (L 1).val + (L 0).val)) by omega)

omit [FloatOps F] in
theorem k0_off8_row (k : Fin k0_t1_loop.trips) : k0_off8 L k = ![16 * (32 * (2 * k.val + 2) + wL L)] := by
  rw [k0_off8_eq]
  exact congrArg (fun z : ℕ => (![z] : Fin 1 → ℕ))
    (show 1024 * k.val + 32 * (L 1).val + 16 * (L 0).val + 1024 = 16 * (32 * (2 * k.val + 2) + (2 * (L 1).val + (L 0).val)) by omega)

omit [FloatOps F] in
theorem k0_off10_row (k : Fin k0_t1_loop.trips) : k0_off10 L k = ![16 * (32 * (2 * k.val + 1) + wL L)] := by
  rw [k0_off10_eq]
  exact congrArg (fun z : ℕ => (![z] : Fin 1 → ℕ))
    (show 1024 * k.val + 32 * (L 1).val + 16 * (L 0).val + 512 = 16 * (32 * (2 * k.val + 1) + (2 * (L 1).val + (L 0).val)) by omega)

omit [FloatOps F] in
theorem k0_off13_row : k0_off13 L = ![16 * (32 * 24 + wL L)] := by
  rw [k0_off13_eq]
  exact congrArg (fun z : ℕ => (![z] : Fin 1 → ℕ))
    (show 32 * (L 1).val + 16 * (L 0).val + 12288 = 16 * (32 * 24 + (2 * (L 1).val + (L 0).val)) by omega)

/-! ### A slot after a block landed -/

/-- A slot (any view of 16 × 1536) after the block named by the three words of table row R landed in it reads the
    target's row min(R, 783). -/
theorem landed_block (ht : Cert.Spec.InRange (m (a2Loc d))) (vs : View sig .scVector .vmem S16x1536 .f32)
    (g : vs.ty.Contents (Elt F)) (R : ℕ) (hR : R < 800) (off : Fin 1 → ℕ)
    (hoff : ∀ a, off a + S16.size a ≤ S12800.size a) (hoffR : off = ![16 * R]) (offs : Fin 3 → ℕ)
    (hoffs : offs = ![(extractAt ![0] (extractStridedSlice S1 ![0] (shapeCast S16 (View.readAt (Elt F) (tabS).view (Rect.unit (s := S12800) off S16.size hoff).toLoadRect (tbV m d)) shapeCasts_S16_S16) slices_S16_o0_S1) inpos_S1_p0).toNat,
      16 * (extractAt ![0] (extractStridedSlice S1 ![1] (shapeCast S16 (View.readAt (Elt F) (tabS).view (Rect.unit (s := S12800) off S16.size hoff).toLoadRect (tbV m d)) shapeCasts_S16_S16) slices_S16_o1_S1) inpos_S1_p0).toNat,
      1536 * (extractAt ![0] (extractStridedSlice S1 ![2] (shapeCast S16 (View.readAt (Elt F) (tabS).view (Rect.unit (s := S12800) off S16.size hoff).toLoadRect (tbV m d)) shapeCasts_S16_S16) slices_S16_o2_S1) inpos_S1_p0).toNat])
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf R) (x 0 : Fin 16) (x 1 : Fin 1536)) := by
  subst hoffs
  have hR0 : off 0 = 16 * R := by rw [hoffR]; rfl
  have e0 := word_eq_at m d off hoff R hR hR0 0 (by decide) shapeCasts_S16_S16 slices_S16_o0_S1 inpos_S1_p0
  have e1 := word_eq_at m d off hoff R hR hR0 1 (by decide) shapeCasts_S16_S16 slices_S16_o1_S1 inpos_S1_p0
  have e2 := word_eq_at m d off hoff R hR hR0 2 (by decide) shapeCasts_S16_S16 slices_S16_o2_S1 inpos_S1_p0
  refine (read_writes_whole vs g _ x).trans ?_
  refine (read_in (F := F) (inV m d) _ h x).trans ?_
  exact inV_block_of_words m d ht (rowOf R) _ _ _ e0 e1 e2 (x 0) (x 1) _ _ _

/-! ### The write-back's side condition from what the slot holds -/

/-- A slot that reads the target's row r is admitted for the output's row r. -/
theorem admitted_of_landed (vs : View sig .scVector .vmem S16x1536 .f32) (g : vs.ty.Contents (Elt F)) (r : Fin 784)
    (hg : ∀ x : S16x1536.Idx, vs.read (Elt F) g x = tgt m d (ValueIdx.ix3 r (x 0 : Fin 16) (x 1 : Fin 1536)))
    (off : Fin 3 → ℕ) (hoff : off = ![r.val, 0, 0]) (h : ∀ a, off a + S1x16x1536.size a ≤ S784x16x1536.size a) :
    (((outW).slice (Rect.unit (s := S784x16x1536) off S1x16x1536.size h) (fun _ => rfl)).squeeze S16x1536 squeezes_S1x16x1536_S16x1536).view.Admitted (Elt F) (fun i => some (tgt m d i)) (vs.read (Elt F) g) Finset.univ := by
  subst hoff
  rw [admitted_row_iff m d r.val h]
  exact hg

/-! ### The rows a write-back marks -/

omit [FloatOps F] in
theorem set_out_row_of_eq (off : Fin 3 → ℕ) (h : ∀ a, off a + S1x16x1536.size a ≤ S784x16x1536.size a) (r : ℕ)
    (hoff : off = ![r, 0, 0]) : (((outW).slice (Rect.unit (s := S784x16x1536) off S1x16x1536.size h) (fun _ => rfl)).squeeze S16x1536 squeezes_S1x16x1536_S16x1536).view.set = rowSet d r := by
  subst hoff
  exact set_out_row d r h

omit [FloatOps F] in
theorem k0_off7_rowOf (k : Fin k0_t1_loop.trips) : k0_off7 L k = ![(rowOf (32 * (2 * k.val) + wL L)).val, 0, 0] := by
  have h0 := coord0_lt L; have h1 := coord1_lt L; have h2 := trip_lt k
  rw [k0_off7_eq]
  exact congrArg (fun z : ℕ => (![z, 0, 0] : Fin 3 → ℕ))
    (show 64 * k.val + 2 * (L 1).val + (L 0).val = min (32 * (2 * k.val) + (2 * (L 1).val + (L 0).val)) 783 by omega)

omit [FloatOps F] in
theorem k0_off12_rowOf (k : Fin k0_t1_loop.trips) : k0_off12 L k = ![(rowOf (32 * (2 * k.val + 1) + wL L)).val, 0, 0] := by
  have h0 := coord0_lt L; have h1 := coord1_lt L; have h2 := trip_lt k
  rw [k0_off12_eq]
  exact congrArg (fun z : ℕ => (![z, 0, 0] : Fin 3 → ℕ))
    (show 64 * k.val + 2 * (L 1).val + (L 0).val + 32 = min (32 * (2 * k.val + 1) + (2 * (L 1).val + (L 0).val)) 783 by omega)

omit [FloatOps F] in
theorem k0_off15_rowOf : k0_off15 L = ![(rowOf (32 * 24 + wL L)).val, 0, 0] := by
  rw [k0_off15_eq]
  exact congrArg (fun z : ℕ => (![z, 0, 0] : Fin 3 → ℕ))
    (show min (2 * (L 1).val + (L 0).val + 768) 783 = min (32 * 24 + (2 * (L 1).val + (L 0).val)) 783 by omega)

omit [FloatOps F] in
/-- One trip of the loop marks the two rows it writes back. -/
theorem rows_trip (k : Fin k0_t1_loop.trips) :
    rowsUpTo d (wL L) (2 * k.val) ∪ (((outW).slice (Rect.unit (s := S784x16x1536) (k0_off7 L k) S1x16x1536.size (k0_off7_inb L k)) (fun _ => rfl)).squeeze S16x1536 squeezes_S1x16x1536_S16x1536).view.set
        ∪ (((outW).slice (Rect.unit (s := S784x16x1536) (k0_off12 L k) S1x16x1536.size (k0_off12_inb L k)) (fun _ => rfl)).squeeze S16x1536 squeezes_S1x16x1536_S16x1536).view.set
      = rowsUpTo d (wL L) (2 * (k.val + 1)) := by
  rw [set_out_row_of_eq d (k0_off7 L k) (k0_off7_inb L k) _ (k0_off7_rowOf L k),
    set_out_row_of_eq d (k0_off12 L k) (k0_off12_inb L k) _ (k0_off12_rowOf L k),
    show 2 * (k.val + 1) = 2 * k.val + 1 + 1 from by omega, rowsUpTo_succ, rowsUpTo_succ]

omit [FloatOps F] in
/-- The last write-back marks the twenty-fifth row. -/
theorem rows_last :
    rowsUpTo d (wL L) 24 ∪ (((outW).slice (Rect.unit (s := S784x16x1536) (k0_off15 L) S1x16x1536.size (k0_off15_inb L)) (fun _ => rfl)).squeeze S16x1536 squeezes_S1x16x1536_S16x1536).view.set = rowsUpTo d (wL L) 25 := by
  rw [set_out_row_of_eq d (k0_off15 L) (k0_off15_inb L) _ (k0_off15_rowOf L)]
  exact (rowsUpTo_succ d (wL L) 24).symm

end Cited

end Cert.Proof.KB

end
-- ==== Proof.SitesKB.lean ====
/-
  A slot after the block of one of the body's gathers landed in it reads the target's row, stated at the places the
  body issues its gathers: the source offsets are the printed offset function of the three words loaded there.
-/
import proofs.«216119_g70222715290213_cont_sun_c4_40_39_alg».proof.Proof.ViewsKB

noncomputable section

namespace Cert.Proof.KB

open Cert.Kernel Cert.Kernel.Gen

open Idealize.ShloMosaic

variable {F : FTy → Type} [FloatOps F] (m : (ℓ : Loc nD τ sig) → Buf (Elt F) ℓ) (d : Dev nD) (L : grid0.Coords)
variable (ht : Cert.Spec.InRange (m (a2Loc d)))
include ht

/-- The gather issued from the words of the trip's odd row. -/
theorem landed_site2 (k : Fin k0_t1_loop.trips) (vs : View sig .scVector .vmem S16x1536 .f32) (g : vs.ty.Contents (Elt F))
    (offs : Fin 3 → ℕ)
    (hoffs : offs = k0_off4 (extractAt ![0] (extractStridedSlice S1 ![0] (shapeCast S16 (View.readAt (Elt F) (tabS).view (Rect.unit (s := S12800) (k0_off3 L k) S16.size (k0_off3_inb L k)).toLoadRect (tbV m d)) shapeCasts_S16_S16) slices_S16_o0_S1) inpos_S1_p0)
        (extractAt ![0] (extractStridedSlice S1 ![1] (shapeCast S16 (View.readAt (Elt F) (tabS).view (Rect.unit (s := S12800) (k0_off3 L k) S16.size (k0_off3_inb L k)).toLoadRect (tbV m d)) shapeCasts_S16_S16) slices_S16_o1_S1) inpos_S1_p0)
        (extractAt ![0] (extractStridedSlice S1 ![2] (shapeCast S16 (View.readAt (Elt F) (tabS).view (Rect.unit (s := S12800) (k0_off3 L k) S16.size (k0_off3_inb L k)).toLoadRect (tbV m d)) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * k.val + 1) + wL L)) (x 0 : Fin 16) (x 1 : Fin 1536)) :=
  landed_block m d ht vs g (32 * (2 * k.val + 1) + wL L) (row2_lt L k) (k0_off3 L k) (k0_off3_inb L k) (k0_off3_row L k) offs
    (hoffs.trans (k0_off4_eq _ _ _ (word_le_at m d ht _ _ _ (row2_lt L k) (off3_row L k) 1 (by decide) _ _ _)
      (word_le_at m d ht _ _ _ (row2_lt L k) (off3_row L k) 2 (by decide) _ _ _))) h x

/-- The gather issued from the words of the next trip's even row. -/
theorem landed_site4 (k : Fin k0_t1_loop.trips) (vs : View sig .scVector .vmem S16x1536 .f32) (g : vs.ty.Contents (Elt F))
    (offs : Fin 3 → ℕ)
    (hoffs : offs = k0_off9 (extractAt ![0] (extractStridedSlice S1 ![0] (shapeCast S16 (View.readAt (Elt F) (tabS).view (Rect.unit (s := S12800) (k0_off8 L k) S16.size (k0_off8_inb L k)).toLoadRect (tbV m d)) shapeCasts_S16_S16) slices_S16_o0_S1) inpos_S1_p0)
        (extractAt ![0] (extractStridedSlice S1 ![1] (shapeCast S16 (View.readAt (Elt F) (tabS).view (Rect.unit (s := S12800) (k0_off8 L k) S16.size (k0_off8_inb L k)).toLoadRect (tbV m d)) shapeCasts_S16_S16) slices_S16_o1_S1) inpos_S1_p0)
        (extractAt ![0] (extractStridedSlice S1 ![2] (shapeCast S16 (View.readAt (Elt F) (tabS).view (Rect.unit (s := S12800) (k0_off8 L k) S16.size (k0_off8_inb L k)).toLoadRect (tbV m d)) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * (k.val + 1)) + wL L)) (x 0 : Fin 16) (x 1 : Fin 1536)) := by
  have e : 32 * (2 * (k.val + 1)) + wL L = 32 * (2 * k.val + 2) + wL L := by omega
  rw [e]
  exact landed_block m d ht vs g (32 * (2 * k.val + 2) + wL L) (row4_lt L k) (k0_off8 L k) (k0_off8_inb L k) (k0_off8_row L k) offs
    (hoffs.trans (k0_off9_eq _ _ _ (word_le_at m d ht _ _ _ (row4_lt L k) (off8_row L k) 1 (by decide) _ _ _)
      (word_le_at m d ht _ _ _ (row4_lt L k) (off8_row L k) 2 (by decide) _ _ _))) h x

/-- The first gather, its words read from any contents equal to the padded table. -/
theorem landed_site1_of_eq (C : S12800.Idx → BitVec 32) (hC : C = tbV m d) (vs : View sig .scVector .vmem S16x1536 .f32)
    (g : vs.ty.Contents (Elt F)) (offs : Fin 3 → ℕ)
    (hoffs : offs = k0_off2 (extractAt ![0] (extractStridedSlice S1 ![0] (shapeCast S16 (View.readAt (Elt F) (tabS).view (Rect.unit (s := S12800) (k0_off1 L) S16.size (k0_off1_inb L)).toLoadRect C) shapeCasts_S16_S16) slices_S16_o0_S1) inpos_S1_p0)
        (extractAt ![0] (extractStridedSlice S1 ![1] (shapeCast S16 (View.readAt (Elt F) (tabS).view (Rect.unit (s := S12800) (k0_off1 L) S16.size (k0_off1_inb L)).toLoadRect C) shapeCasts_S16_S16) slices_S16_o1_S1) inpos_S1_p0)
        (extractAt ![0] (extractStridedSlice S1 ![2] (shapeCast S16 (View.readAt (Elt F) (tabS).view (Rect.unit (s := S12800) (k0_off1 L) S16.size (k0_off1_inb L)).toLoadRect C) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * 0) + wL L)) (x 0 : Fin 16) (x 1 : Fin 1536)) := by
  subst hC
  have e : 32 * (2 * 0) + wL L = 32 * 0 + wL L := rfl
  rw [e]
  exact landed_block m d ht vs g (32 * 0 + wL L) (row1_lt L) (k0_off1 L) (k0_off1_inb L) (k0_off1_row L) offs
    (hoffs.trans (k0_off2_eq _ _ _ (word_le_at m d ht _ _ _ (row1_lt L) (off1_row L) 1 (by decide) _ _ _)
      (word_le_at m d ht _ _ _ (row1_lt L) (off1_row L) 2 (by decide) _ _ _))) h x

/-- The first gather, its words read from the table copy as the transfer left it. -/
theorem landed_site1_landed (ft : Buf (Elt F) ((thr d L).loc cc0_scratch0)) (vs : View sig .scVector .vmem S16x1536 .f32)
    (g : vs.ty.Contents (Elt F)) (offs : Fin 3 → ℕ)
    (hoffs : offs = k0_off2 (extractAt ![0] (extractStridedSlice S1 ![0] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o0_S1) inpos_S1_p0)
        (extractAt ![0] (extractStridedSlice S1 ![1] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o1_S1) inpos_S1_p0)
        (extractAt ![0] (extractStridedSlice S1 ![2] (shapeCast S16 (View.readAt (Elt F) (tabS).view (Rect.unit (s := S12800) (k0_off1 L) S16.size (k0_off1_inb L)).toLoadRect (View.write (Elt F) (tabS).view ft (ReadAs.same.apply (View.read (Elt F) (tbW).view (tbV m d))) Finset.univ)) shapeCasts_S16_S16) slices_S16_o2_S1) inpos_S1_p0))
    (h : ∀ a, offs a + S1x16x1536.size a ≤ S8x128x12288.size a) (x : S16x1536.Idx) :
    vs.read (Elt F) (vs.writes (Elt F) g [⟨Rect.whole S16x1536, ReadAs.same.apply (View.read (Elt F)
        (((inW).slice (Rect.unit (s := S8x128x12288) offs S1x16x1536.size h) (fun _ => rfl)).squeeze S16x1536 squeezes_S1x16x1536_S16x1536).view (inV m d))⟩]) x
      = tgt m d (ValueIdx.ix3 (rowOf (32 * (2 * 0) + wL L)) (x 0 : Fin 16) (x 1 : Fin 1536)) :=
  landed_site1_of_eq m d L ht _ (tab_landed d L ft (tbV m d)) vs g offs hoffs h x

end Cert.Proof.KB

end
-- ==== Proof.BodyKB.lean ====
/-
  One worker's body. Worker w (subcore s of core c, w = 2·s + c) first copies the padded table into its own memory, then
  for j = 0, …, 24 moves table row R = 32·j + w: the three words of that row — an image n and a block position (by, bx), each
  one of 0 … 7 — name the 16 × 1536 block of the corner at (n, 16·by, 1536·bx); the block is gathered into one of two slots
  of the worker's staging memory (even steps slot 0, odd steps slot 1, each slot with its own semaphore, so that the next
  gather is in flight while the previous slot goes out) and from there copied to output row min(R, 783).

  What is shown: the range of the table's entries makes every gather's block lie inside the corner; a slot whose gather
  has landed reads, index by index, the gathered value of its output row — because row R of the padded table is row
  min(R, 783) of the table itself —, so every copy into the output writes each element's agreed target, which is all a
  holder of a share of an array in write mode has to show; and after step j the rows min(32·i + w, 783), i ≤ j, are marked.
  The loop runs twelve trips of two steps; before trip t the gather of step 2t is in flight into slot 0, slot 1 is free and
  the first 2t rows are marked. At the end the worker gives back its shares of the corner and of the table, its share of
  the output with its 25 rows marked, and its own memory and semaphores as it found them.
-/
import proofs.«216119_g70222715290213_cont_sun_c4_40_39_alg».proof.Proof.SitesKB
import proofs.«216119_g70222715290213_cont_sun_c4_40_39_alg».proof.Proof.LibWriteModeCopy
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) [FloatOps F]
variable (d : Dev nD) (L : grid0.Coords)

/-! ## The worker's own cells and buffers -/

abbrev cell (sm : DmaSems sig S_) : GSem nD τ sig := (thr d L, SemLoc.dma sm.sem)

omit [FloatOps F] in
theorem cell_mem (sm : DmaSems sig S_) (h : (SemLoc.dma sm.sem : SemLoc sig).isScoped .scVector = true) :
    cell d L sm ∈ ownCells (sig := sig) (thr d L) := (mem_ownCells (g := cell d L sm)).mpr ⟨rfl, h⟩

omit [FloatOps F] in
theorem cell_ne {a b : DmaSems sig S_} (h : (SemLoc.dma a.sem : SemLoc sig) ≠ SemLoc.dma b.sem) : cell d L a ≠ cell d L b :=
  fun e => h (congrArg Prod.snd e)

/-- The six transfer semaphores, each at zero, and the rest of the worker's cells. -/
def restCells : Finset (GSem nD τ sig) :=
  ((((((ownCells (sig := sig) (thr d L)).erase (cell d L cc0_scratch2)).erase (cell d L cc0_scratch3)).erase (cell d L cc0_scoped0)).erase (cell d L cc0_scoped1)).erase
    (cell d L cc0_scoped2)).erase (cell d L cc0_scoped3)

omit [FloatOps F] in
theorem ownSems0_V :
    (ownSems0 (thr d L) : sProp 𝕄)
      = iprop(semVal (cell d L cc0_scratch2) 0 ∗ semVal (cell d L cc0_scratch3) 0 ∗ semVal (cell d L cc0_scoped0) 0 ∗ semVal (cell d L cc0_scoped1) 0
          ∗ semVal (cell d L cc0_scoped2) 0 ∗ semVal (cell d L cc0_scoped3) 0 ∗ bigSep (restCells d L) fun g => semVal g 0) := by
  unfold SparseCore.Cfg.ownSems0 restCells
  have m2 := cell_mem d L cc0_scratch2 (by decide)
  have m3 := cell_mem d L cc0_scratch3 (by decide)
  have m4 := cell_mem d L cc0_scoped0 (by decide)
  have m5 := cell_mem d L cc0_scoped1 (by decide)
  have m6 := cell_mem d L cc0_scoped2 (by decide)
  have m7 := cell_mem d L cc0_scoped3 (by decide)
  rw [SparseCore.bigSep_erase' m2,
    SparseCore.bigSep_erase' (Finset.mem_erase.mpr ⟨cell_ne d L (by decide), m3⟩),
    SparseCore.bigSep_erase' (Finset.mem_erase.mpr ⟨cell_ne d L (by decide), Finset.mem_erase.mpr ⟨cell_ne d L (by decide), m4⟩⟩),
    SparseCore.bigSep_erase' (Finset.mem_erase.mpr ⟨cell_ne d L (by decide), Finset.mem_erase.mpr ⟨cell_ne d L (by decide),
      Finset.mem_erase.mpr ⟨cell_ne d L (by decide), m5⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m6⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m7⟩⟩⟩⟩⟩)]

abbrev tabLoc : Loc nD τ sig := (thr d L).loc cc0_scratch0
abbrev bufLoc : Loc nD τ sig := (thr d L).loc cc0_scratch1

def restRefs : Finset (DevRef τ sig) :=
  ((ownRefs (τ := τ) (sig := sig) (.scVector (cV L) (jV L))).erase ((Proc.scVector (cV L) (jV L)).devRef cc0_scratch0)).erase ((Proc.scVector (cV L) (jV L)).devRef cc0_scratch1)

omit [FloatOps F] in
/-- The worker's copy of the table and its two slots, at some contents, and the rest of its buffers. -/
theorem ownBufs_V :
    (ownBufs (thr d L) : sProp 𝕄)
      = iprop((∃ f, tabLoc d L ↦{fullShare} f) ∗ (∃ f, bufLoc d L ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The two slots -/

omit [FloatOps F] in
theorem hdiv2 : 2 ∣ S2x16x1536.size 0 := ⟨1, rfl⟩
abbrev slotR (p : Fin 2) : Rect S2x16x1536 := Rect.part (s := S2x16x1536) (a₀ := 0) hdiv2 p
abbrev slotSet (p : Fin 2) : Finset S2x16x1536.Idx := ((bufS).view.slice (slotR p)).set
abbrev r0 : Rect S2x16x1536 := Rect.unit (s := S2x16x1536) ![0, 0, 0] S1x16x1536.size inb_S2x16x1536_S1x16x1536_0_0_0
abbrev r1 : Rect S2x16x1536 := Rect.unit (s := S2x16x1536) ![1, 0, 0] S1x16x1536.size inb_S2x16x1536_S1x16x1536_1_0_0
/-- Slot p of the worker's staging memory, as the body slices it. -/
abbrev slot0 : Memref sig .scVector .vmem S16x1536 .f32 := ((bufS).slice r0 (fun _ => rfl)).squeeze S16x1536 squeezes_S1x16x1536_S16x1536
abbrev slot1 : Memref sig .scVector .vmem S16x1536 .f32 := ((bufS).slice r1 (fun _ => rfl)).squeeze S16x1536 squeezes_S1x16x1536_S16x1536

omit [FloatOps F] in
theorem r0_eq : r0 = slotR 0 := by
  unfold r0 slotR Rect.part Rect.block
  congr 1 <;> funext a <;> match a with
    | 0 => simp [Shape.partIx, Shape.partSize]
    | 1 => simp [Shape.partIx, Shape.partSize]
    | 2 => simp [Shape.partIx, Shape.partSize]
omit [FloatOps F] in
theorem r1_eq : r1 = slotR 1 := by
  unfold r1 slotR Rect.part Rect.block
  congr 1 <;> funext a <;> match a with
    | 0 => simp [Shape.partIx, Shape.partSize]
    | 1 => simp [Shape.partIx, Shape.partSize]
    | 2 => simp [Shape.partIx, Shape.partSize]

omit [FloatOps F] in
theorem set_slot0 : (slot0).view.set = slotSet 0 := by
  show (((bufS).view.slice r0).reshape S16x1536 squeezes_S1x16x1536_S16x1536.numel_eq).set = ((bufS).view.slice (slotR 0)).set
  rw [View.set_reshape]
  exact r0_eq ▸ rfl
omit [FloatOps F] in
theorem set_slot1 : (slot1).view.set = slotSet 1 := by
  show (((bufS).view.slice r1).reshape S16x1536 squeezes_S1x16x1536_S16x1536.numel_eq).set = ((bufS).view.slice (slotR 1)).set
  rw [View.set_reshape]
  exact r1_eq ▸ rfl
omit [FloatOps F] in
theorem slotSet_eq (p : Fin 2) : slotSet p = (slotR p).set := by
  show ((View.whole (cc0_scratch1 : Ref sig .scVector)).slice (slotR p)).set = _
  rw [View.set_slice]; exact Finset.map_refl
omit [FloatOps F] in
theorem slots_disjoint : ∀ i ∈ (Finset.univ : Finset (Fin 2)), ∀ j ∈ (Finset.univ : Finset (Fin 2)), i ≠ j → Disjoint (slotSet i) (slotSet j) :=
  fun i _ j _ h => by rw [slotSet_eq, slotSet_eq]; exact Rect.part_disjoint hdiv2 h
omit [FloatOps F] in
theorem slots_cover : (Finset.univ : Finset (Fin 2)).biUnion slotSet = Finset.univ :=
  (Finset.biUnion_congr rfl fun i _ => slotSet_eq i).trans (Rect.biUnion_part hdiv2)

omit [FloatOps F] in
/-- The staging memory is its two slots. -/
theorem buf_slots (f : Buf (Elt F) (bufLoc d L)) :
    (bufLoc d L ↦{fullShare} f : sProp 𝕄)
      = iprop(((slot0).view.loc (thr d L) ↦[(slot0).view.set]{fullShare} f) ∗ ((slot1).view.loc (thr d L) ↦[(slot1).view.set]{fullShare} f)) := by
  rw [set_slot0, set_slot1]
  rw [← slots_cover, pointsTo_biUnion Finset.univ (ℓ := bufLoc d L) slotSet slots_disjoint,
    show (Finset.univ : Finset (Fin 2)) = {0, 1} by decide, SparseCore.bigSep_insert' (by decide), bigSep_singleton]

omit [FloatOps F] in
/-- A separating product over {0, 1}. -/
theorem bigSep_range2 (Φ : ℕ → sProp 𝕄) : BI.bigSep (Finset.range 2) Φ = iprop(Φ 0 ∗ Φ 1) := by
  rw [show Finset.range 2 = {0, 1} by decide, SparseCore.bigSep_insert' (by decide), bigSep_singleton]

omit [FloatOps F] in
/-- The two slots, at whatever they hold, are the staging memory at some contents. -/
theorem buf_join (f : Buf (Elt F) (bufLoc d L)) (g : Buf (Elt F) (bufLoc d L)) :
    iprop(((slot0).view.loc (thr d L) ↦[(slot0).view.set]{fullShare} f) ∗ ((slot1).view.loc (thr d L) ↦[(slot1).view.set]{fullShare} g))
      ⊢ (iprop(∃ h, bufLoc d L ↦{fullShare} h) : sProp 𝕄) := by
  rw [set_slot0, set_slot1]
  have hd : Disjoint (slotSet 0) (slotSet 1) := slots_disjoint 0 (Finset.mem_univ _) 1 (Finset.mem_univ _) (by decide)
  have hu : slotSet 0 ∪ slotSet 1 = Finset.univ := by
    rw [← slots_cover, show (Finset.univ : Finset (Fin 2)) = {0, 1} by decide, Finset.biUnion_insert, Finset.singleton_biUnion]
  iintro H
  ihave H' := (pointsTo_join hd) $$ H
  iexists _
  iapply (Entails.of_eq (congrArg (fun S => (bufLoc d L ↦[S]{fullShare} (slotSet 1).piecewise g f : sProp 𝕄)) hu)) $$ H'

/-! ## The arrays as the body's memrefs address them -/

omit [FloatOps F] in
theorem pts_tb (q : PosShare TreeShare) (f : Buf (Elt F) (tbLoc d)) :
    ((tbW).view.loc (thr d L) ↦{q} f : sProp 𝕄) = tbLoc d ↦{q} f := by
  simp only [Memref.view_whole, View.set_whole]
omit [FloatOps F] in
theorem pts_in (q : PosShare TreeShare) (f : Buf (Elt F) (inLoc d)) :
    ((inW).view.loc (thr d L) ↦{q} f : sProp 𝕄) = inLoc d ↦{q} f := by
  simp only [Memref.view_whole, View.set_whole]
omit [FloatOps F] in
theorem pts_tab (f : Buf (Elt F) (tabLoc d L)) :
    ((tabS).view.loc (thr d L) ↦{fullShare} f : sProp 𝕄) = tabLoc d L ↦{fullShare} f := by
  simp only [Memref.view_whole, View.set_whole]

/-! ## The loop's invariant -/

abbrev qL (L : grid0.Coords) : PosShare TreeShare := shT (L 0).val (L 1).val

/-- A slot whose gather has landed reads the target's row r. -/
def Landed (p : Memref sig .scVector .vmem S16x1536 .f32) (r : Fin 784) : sProp 𝕄 :=
  iprop(∃ g : Buf (Elt F) (p.view.loc (thr d L)), ⌜∀ x : S16x1536.Idx, p.view.read (Elt F) g x = tgt m d (ValueIdx.ix3 r (x 0) (x 1))⌝
    ∗ p.view.loc (thr d L) ↦[p.view.set]{fullShare} g)

/-- What a gather into slot p of table row R delivers: the slot landed, and the piece S0 of the corner's read token it
    borrowed. -/
def Deliv (p : Memref sig .scVector .vmem S16x1536 .f32) (k : ℕ) (R : ℕ) (S0 : Finset (Idx (inLoc d))) : sProp 𝕄 :=
  iprop(Landed m d L p (rowOf R) ∗ ((inW).view.loc (thr d L) ↦[S0]{Transfers.shareTokN (qL L) k} inV m d))

/-- Before trip t: the gather of step 2t is in flight into slot 0 on the first semaphore; slot 1 is free; the second read
    token is whole; the worker's copy of the table holds the padded table; the first 2t rows are marked; the other
    semaphores are at zero. -/
def inv (O : CellTallies nD τ sig (HIx 1)) (W : Waits sig (HIx 1)) (ιwm : ℕ) (t : Nat) (_ : PUnit) : sProp 𝕄 :=
  iprop(Transfers.MayWaits (thr d L) (none : HIx 1) O
    ∗ wmInv (Ix := HIx 1) (wmE (F := F)) ιwm
    ∗ (∃ S0 : Finset (Idx (inLoc d)),
        ((inW).view.loc (thr d L) ↦[Finset.univ \ S0]{Transfers.shareTokN (qL L) 0} inV m d)
        ∗ Transfers.Flight countersEmb (thr d L) (SemLoc.dma cc0_scratch2.sem) (default : HIx 1) 786432 (Deliv m d L slot0 0 (32 * (2 * t) + wL L) S0))
    ∗ (∃ g1, (slot1).view.loc (thr d L) ↦[(slot1).view.set]{fullShare} g1)
    ∗ ((inW).view.loc (thr d L) ↦{Transfers.shareTokN (qL L) 1} inV m d)
    ∗ ((tabS).view.loc (thr d L) ↦{fullShare} tbV m d)
    ∗ willBeTo (wmE (F := F)) (outLoc d) Finset.univ (qL L) (m (outLoc d)) (fun i => some (tgt m d i)) (rowsUpTo d (wL L) (2 * t))
    ∗ semVal (cell d L cc0_scratch3) 0 ∗ semVal (cell d L cc0_scoped1) 0 ∗ semVal (cell d L cc0_scoped2) 0
    ∗ ∃ W', ⌜∀ p ∈ W', p ∈ W ∨ p.2 = none⌝ ∗ owes (thr d L) O W')

/-! ## An output row as the body slices it -/

/-- The output's row at the offsets off, as a 16 × 1536 block. -/
abbrev dstM (off : Fin 3 → ℕ) (h : ∀ a, off a + S1x16x1536.size a ≤ S784x16x1536.size a) : Memref sig .scVector .hbm S16x1536 .f32 :=
  ((outW).slice (Rect.unit (s := S784x16x1536) off S1x16x1536.size h) (fun _ => rfl)).squeeze S16x1536 squeezes_S1x16x1536_S16x1536

/-- A write-mode share held at a row's view is held at the output array: a row's view addresses that array. -/
theorem willBe_at_out (off : Fin 3 → ℕ) (h : ∀ a, off a + S1x16x1536.size a ≤ S784x16x1536.size a) (q : PosShare TreeShare)
    (Wm : Finset (Idx (outLoc d))) :
    (willBeTo (wmE (F := F)) ((dstM off h).view.loc (thr d L)) Finset.univ q (m (outLoc d)) (fun i => some (tgt m d i)) Wm : sProp 𝕄)
      = willBeTo (wmE (F := F)) (outLoc d) Finset.univ q (m (outLoc d)) (fun i => some (tgt m d i)) Wm := rfl

omit [FloatOps F] in
/-- A slot written whole with a payload that is the target's row, beside the borrowed piece of the read token, is what the
    gather of that row delivers. -/
theorem deliv_intro (p : Memref sig .scVector .vmem S16x1536 .f32) (k R : ℕ) (S0 : Finset (Idx (inLoc d)))
    (g : Buf (Elt F) (p.view.loc (thr d L))) (P : (Rect.whole S16x1536).shape.Idx → Elt F .f32)
    (hP : ∀ x : S16x1536.Idx, p.view.read (Elt F) (p.view.writes (Elt F) g [⟨Rect.whole S16x1536, P⟩]) x = tgt m d (ValueIdx.ix3 (rowOf R) (x 0) (x 1))) :
    iprop((p.view.loc (thr d L) ↦[p.view.set]{fullShare} p.view.writes (Elt F) g [⟨Rect.whole S16x1536, P⟩])
        ∗ ((inW).view.loc (thr d L) ↦[S0]{Transfers.shareTokN (qL L) k} inV m d))
      ⊢ (Deliv m d L p k R S0 : sProp 𝕄) := by
  unfold Deliv Landed
  iintro ⟨Ha, Hb⟩
  isplitl [Ha]
  · iexists _
    isplitr; · ipureintro; exact hP
    iexact Ha
  · iexact Hb

/-! ## The body -/

set_option maxRecDepth 200000 in
set_option maxHeartbeats 8000000 in
theorem tile_body (hF : (K (F := F)).Facts) (hr : Cert.Spec.InRange (m (a2Loc d))) (O : CellTallies nD τ sig (HIx 1)) (W : Waits sig (HIx 1)) (hO : ∀ g, O g none = 0) :
    iprop(levAts (K (F := F)).L (K (F := F)).lev ∗ (∃ ι, wmInv (Ix := HIx 1) (wmE (F := F)) ι) ∗ part m d (shT (L 0).val (L 1).val) ∅
        ∗ scopedBufs (thr d L) ∗ scopedSems0 (thr d L) ∗ owes (thr d L) O W)
      ⊢ wp frame (wpE (defs₀ (F := F)) 𝒱₀ (thr d L) none) Set.univ
          (cc0_k L inW (Memref.isWhole_whole _) tbW (Memref.isWhole_whole _) outW (Memref.isWhole_whole _) tabS (Memref.isWhole_whole _) bufS (Memref.isWhole_whole _)
            cc0_scratch2 cc0_scratch3 cc0_scoped0 cc0_scoped1 cc0_scoped2 cc0_scoped3)
          fun _ => iprop(part m d (shT (L 0).val (L 1).val) (rowsUpTo d (wOf (L 0).val (L 1).val) 25) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold part
  iintro ⟨#Hlv, ⟨%ιwm, #Hwm⟩, ⟨Hin, Htb, Hout⟩, ⟨⟨%ft, Htab⟩, ⟨%fb, Hbuf⟩, Hbufs⟩, ⟨Hs7, Hs8, Hq0, Hq1, Hq2, Hq3, Hsems⟩, HO⟩
  ihave Hmw := ((K (F := F)).mayWaits_none (thr := thr d L) hO) $$ Hlv
  -- the corner's share as two read tokens, one per gather semaphore, and a remainder
  ihave Hin' := (Transfers.pointsTo_toks_range (shT (L 0).val (L 1).val) 2).1 $$ Hin
  icases Hin' with ⟨Hin0, Hint⟩
  ihave Hint' := (Entails.of_eq (bigSep_range2 (F := F) _)) $$ Hint
  icases Hint' with ⟨Hin7, Hin8⟩
  ihave Hbuf' := (Entails.of_eq (buf_slots (F := F) d L fb)) $$ Hbuf
  icases Hbuf' with ⟨Hsl0, Hsl1⟩
  ihave Htb' := (Entails.of_eq (pts_tb (F := F) d L _ _).symm) $$ Htb
  ihave Htab' := (Entails.of_eq (pts_tab (F := F) d L _).symm) $$ Htab
  ihave Hin7' := (Entails.of_eq (pts_in (F := F) d L _ _).symm) $$ Hin7
  ihave Hin8' := (Entails.of_eq (pts_in (F := F) d L _ _).symm) $$ Hin8
  -- the table comes in; its first row's words are in range; the first gather starts
  sl_exec (disch := (sl_unfold_run_names; sl_exact chk1_site_landed m d L hr ft))
  -- the worker's copy holds the padded table
  ihave Htab2 := (Entails.of_eq (show (((tabS).view.loc (thr d L) ↦{fullShare} View.write (Elt F) (tabS).view ft (tile_body.sl.dma0 m d) Finset.univ : sProp 𝕄)
      = ((tabS).view.loc (thr d L) ↦{fullShare} tbV m d)) from
      congrArg (fun f => ((tabS).view.loc (thr d L) ↦{fullShare} f : sProp 𝕄)) (tab_landed (F := F) d L ft (tbV m d)))) $$ Htab'
  sl_for (inv m d L O W ιwm) $$ [Hmw Hwm Hin7' Hs7 Hsl1 Hin8' Htab2 Hout Hs8 Hq1 Hq2 HO]
  case region =>
    intro k _
    unfold inv
    iintro ⟨#Hmw, #Hwm, ⟨%S0, Hrest7, Hfl⟩, ⟨%g1, Hsl1⟩, Hin8, Htab, Hout, Hs8, Hq1, Hq2, %W', %hW', HO⟩
    sl_exec (disch := first | (sl_unfold_run_names; sl_exact chk2_site m d L hr k) | (sl_unfold_run_names; sl_exact chk3_site m d L hr k))
    -- the gather of step 2t has landed in slot 0
    ihave Hmw7 := (Transfers.MayWaits.elim (SemLoc.dma cc0_scratch2.sem)) $$ Hmw
    iapply (Transfers.wp_waitLocalO countersEmb 𝒱₀ (thr d L) none (default : HIx 1) (N := 786432) rfl) $$ [Hfl HO Hmw7]
    · isplitl [Hfl]; · iexact Hfl
      isplitl [HO]; · iexact HO
      iexact Hmw7
    iintro ⟨HD, Hs7, HO⟩
    unfold Deliv Landed
    icases HD with ⟨⟨%g0, %hg0, Hsl0⟩, Hsrc7⟩
    ihave Hin7 := (pointsTo_split_subset (Finset.subset_univ S0)).2 $$ [Hsrc7 Hrest7]
    · isplitl [Hsrc7]; · iexact Hsrc7
      iexact Hrest7
    ihave Hin7' := (Entails.of_eq (pts_in (F := F) d L _ _).symm) $$ Hin7
    sl_exec (disch := first | (sl_unfold_run_names; sl_exact chk2_site m d L hr k) | (sl_unfold_run_names; sl_exact chk3_site m d L hr k))
    -- slot 0 goes out to its row, the output held in write mode
    iapply (Cert.WriteModeCopy.wp_dmaLocal_willBeTo countersEmb 𝒱₀ (thr d L) none (default : HIx 1) _ rfl
      (View.amount_pos _ _ (show 0 < S16x1536.numel by decide)) (Finset.subset_univ _) ?hadm0
      (emb := wmE (F := F)) (ιwm := ιwm)) $$ [Hsl0 Hout Hq1]
    case hadm0 => exact admitted_of_landed m d (slot0).view g0 (rowOf (32 * (2 * k.val) + wL L)) hg0 (k0_off7 L k) (k0_off7_rowOf L k) _
    · isplitl [Hsl0]; · iexact Hsl0
      isplitl [Hout]
      · isplitr; · iexact Hwm
        iexact Hout
      iexact Hq1
    iintro Hfl1
    sl_exec (disch := first | (sl_unfold_run_names; sl_exact chk4_site m d L hr k) | (sl_unfold_run_names; sl_exact chk5_site m d L hr k))
    -- slot 1 goes out to its row
    ihave Hout1 := (Entails.of_eq (willBe_at_out (F := F) m d L _ _ _ _)) $$ Hfl1_dst
    iapply (Cert.WriteModeCopy.wp_dmaLocal_willBeTo countersEmb 𝒱₀ (thr d L) none (default : HIx 1) _ rfl
      (View.amount_pos _ _ (show 0 < S16x1536.numel by decide)) (Finset.subset_univ _) ?hadm1
      (emb := wmE (F := F)) (ιwm := ιwm)) $$ [Hsl1 Hout1 Hq2]
    rotate_left
    · isplitl [Hsl1]; · iexact Hsl1
      isplitl [Hout1]
      · isplitr; · iexact Hwm
        iexact Hout1
      iexact Hq2
    rotate_left
    · refine admitted_of_landed m d (slot1).view _ (rowOf (32 * (2 * k.val + 1) + wL L)) (fun x => ?_) (k0_off12 L k) (k0_off12_rowOf L k) _
      sl_unfold_run_names
      exact landed_site2 m d L hr k _ _ _ rfl _ x
    iintro Hfl2
    sl_exec (disch := first | (sl_unfold_run_names; sl_exact chk4_site m d L hr k) | (sl_unfold_run_names; sl_exact chk5_site m d L hr k))
    sl_step
    -- the invariant, one trip on
    isplitr; · iexact Hmw
    isplitr; · iexact Hwm
    isplitl [Hin7' Hs7]
    · iexists _
      isplitl [Hin7']; · iexact Hin7'
      iapply (Transfers.Flight_mono (EC := countersEmb) (c := thr d L) (deliv_intro (F := F) m d L slot0 0 _ _ _ _ ?hP0)) $$ Hs7
      case hP0 =>
        intro x
        sl_unfold_run_names
        exact landed_site4 m d L hr k _ _ _ rfl _ x
    isplitl [Hfl2_src]; · iexists _; iexact Hfl2_src
    isplitl [Hin8]; · iexact Hin8
    isplitl [Htab]; · iexact Htab
    isplitl [Hfl2_dst]
    · ihave Hout2 := (Entails.of_eq (willBe_at_out (F := F) m d L _ _ _ _)) $$ Hfl2_dst
      iapply (Entails.of_eq (congrArg (fun Wm => (willBeTo (wmE (F := F)) (outLoc d) Finset.univ (qL L) (m (outLoc d)) (fun i => some (tgt m d i)) Wm : sProp 𝕄)) (rows_trip d L k))) $$ Hout2
    isplitl [Hs8]; · iexact Hs8
    isplitl [Hfl1]; · iexact Hfl1
    isplitl [Hfl2]; · iexact Hfl2
    iexists _; isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp
  · unfold inv
    isplitr; · iexact Hmw
    isplitr; · iexact Hwm
    isplitl [Hin7' Hs7]
    · iexists _
      isplitl [Hin7']; · iexact Hin7'
      iapply (Transfers.Flight_mono (EC := countersEmb) (c := thr d L) (deliv_intro (F := F) m d L slot0 0 _ _ _ _ ?hPi)) $$ Hs7
      case hPi =>
        intro x
        sl_unfold_run_names
        exact landed_site1_landed m d L hr ft _ _ _ rfl _ x
    isplitl [Hsl1]; · iexists _; iexact Hsl1
    isplitl [Hin8']; · iexact Hin8'
    isplitl [Htab2]; · iexact Htab2
    isplitl [Hout]
    · iapply (Entails.of_eq (congrArg (fun Wm => (willBeTo (wmE (F := F)) (outLoc d) Finset.univ (qL L) (m (outLoc d)) (fun i => some (tgt m d i)) Wm : sProp 𝕄))
        (show (∅ : Finset (Idx (outLoc d))) = rowsUpTo d (wL L) (2 * 0) from (rowsUpTo_zero d (wL L)).symm))) $$ Hout
    isplitl [Hs8]; · iexact Hs8
    isplitl [Hq1]; · iexact Hq1
    isplitl [Hq2]; · iexact Hq2
    iexists _; isplitr
    rotate_left
    · iexact HO
    · ipureintro; intro p hp
      rcases Finset.mem_insert.mp hp with rfl | hp
      · exact .inr rfl
      exact .inl hp
  -- after the loop: the gather of step 24 lands and goes out
  iintro %acc HI
  have htr : Scf.trips k0_t1_loop.lb k0_t1_loop.ub k0_t1_loop.st = 12 := by decide
  unfold inv
  icases HI with ⟨-, -, ⟨%S0, Hrest7, Hfl⟩, ⟨%g1, Hsl1⟩, Hin8, Htab, Hout, Hs8, Hq1, Hq2, %W', %hW', HO⟩
  sl_exec (disch := (sl_unfold_run_names; sl_exact chk6_site m d L hr))
  ihave Hmw7 := (Transfers.MayWaits.elim (SemLoc.dma cc0_scratch2.sem)) $$ Hmw
  iapply (Transfers.wp_waitLocalO countersEmb 𝒱₀ (thr d L) none (default : HIx 1) (N := 786432) rfl) $$ [Hfl HO Hmw7]
  · isplitl [Hfl]; · iexact Hfl
    isplitl [HO]; · iexact HO
    iexact Hmw7
  iintro ⟨HD, Hs7, HO⟩
  unfold Deliv Landed
  icases HD with ⟨⟨%g0, %hg0, Hsl0⟩, Hsrc7⟩
  ihave Hin7 := (pointsTo_split_subset (Finset.subset_univ S0)).2 $$ [Hsrc7 Hrest7]
  · isplitl [Hsrc7]; · iexact Hsrc7
    iexact Hrest7
  sl_exec
  have hg0' : ∀ x : S16x1536.Idx, View.read (Elt F) (slot0).view g0 x = tgt m d (ValueIdx.ix3 (rowOf (32 * 24 + wL L)) (x 0) (x 1)) := by
    intro x; have h := hg0 x; rw [htr] at h; exact h
  iapply (Cert.WriteModeCopy.wp_dmaLocal_willBeTo countersEmb 𝒱₀ (thr d L) none (default : HIx 1) _ rfl
    (View.amount_pos _ _ (show 0 < S16x1536.numel by decide)) (Finset.subset_univ _) ?hadm3
    (emb := wmE (F := F)) (ιwm := ιwm)) $$ [Hsl0 Hout Hq3]
  case hadm3 => exact admitted_of_landed m d (slot0).view g0 (rowOf (32 * 24 + wL L)) hg0' (k0_off15 L) (k0_off15_rowOf L) _
  · isplitl [Hsl0]; · iexact Hsl0
    isplitl [Hout]
    · isplitr; · iexact Hwm
      iexact Hout
    iexact Hq3
  iintro Hfl3
  sl_exec
  sl_step
  -- everything back: the three pieces of the corner's share, the table's share, the marks; the worker's own memory and cells
  isplitl [Hin0 Hin7 Hin8 Htb' Hfl3_dst]
  · isplitl [Hin0 Hin7 Hin8]
    · ihave Hin8' := (Entails.of_eq (pts_in (F := F) d L _ _)) $$ Hin8
      iapply (Transfers.pointsTo_toks_range (shT (L 0).val (L 1).val) 2).2
      isplitl [Hin0]; · iexact Hin0
      iapply (Entails.of_eq (bigSep_range2 (F := F) _).symm)
      isplitl [Hin7]; · iexact Hin7
      iexact Hin8'
    isplitl [Htb']
    · iapply (Entails.of_eq (pts_tb (F := F) d L _ _)); iexact Htb'
    · ihave Hout3 := (Entails.of_eq (willBe_at_out (F := F) m d L _ _ _ _)) $$ Hfl3_dst
      iapply (Entails.of_eq (congrArg (fun Wm => (willBeTo (wmE (F := F)) (outLoc d) Finset.univ (qL L) (m (outLoc d)) (fun i => some (tgt m d i)) Wm : sProp 𝕄)) ?hM3)) $$ Hout3
      case hM3 => rw [htr]; exact rows_last d L
  isplitl [Htab Hfl3_src Hsl1 Hbufs]
  · isplitl [Htab]
    · iexists _; iapply (Entails.of_eq (pts_tab (F := F) d L _)); iexact Htab
    isplitl [Hfl3_src Hsl1]
    · iapply (buf_join (F := F) d L _ _)
      isplitl [Hfl3_src]; · iexact Hfl3_src
      iexact Hsl1
    · iexact Hbufs
  isplitl [Hs7 Hs8 Hq0 Hq1 Hq2 Hfl3 Hsems]
  · isplitl [Hs7]; · iexact Hs7
    isplitl [Hs8]; · iexact Hs8
    isplitl [Hq0]; · iexact Hq0
    isplitl [Hq1]; · iexact Hq1
    isplitl [Hq2]; · iexact Hq2
    isplitl [Hfl3]; · iexact Hfl3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    exact hW' p hp

/-- The body's triple at every worker, as the launch's obligation takes it. -/
theorem bodySpec (hr : ∀ d : Dev nD, Cert.Spec.InRange (m (a2Loc d))) : BodySpec (F := F) m :=
  fun d L O W hO => tile_body m d L facts (hr d) O W hO

end Cert.Proof.KB

end
-- ==== Proof.lean ====
/-
  The certificate of a gather of 16 × 16 × 96 patches: the table names, per output patch, an image n and a block position
  (by, bx); patch r is rows 16·by … 16·by + 15 and columns 16·bx … 16·bx + 15 of image n, all 96 channels
  (Proof/Spec.lean). With every table entry in 0 … 7 — the precondition — the patch lies in the input's corner of
  128 × 128 pixels.

  The reference gathers the patches at computed start indices; in range no start is clamped and no negative index is
  wrapped, so its result is the specification (Proof/RefValue.lean). The kernel pads the table to 800 rows — rows 784 … 799
  repeat row 783 — and to 16 columns, flattens each pixel row of the corner to 128 · 96 numbers, and has 32 workers each move
  25 rows' blocks through two slots of its own memory to output row min(R, 783); the workers 15 … 31 all write row 783 at
  their last step, with the same numbers. The output array is held in write mode: every element's agreed target is the
  specification's value, each worker holds a share of the whole array, writes only targets and marks what it wrote; the marks
  of all workers cover the array, so the array ends at the targets (Proof/CommonKI.lean, BodyKI.lean, LaunchKI.lean; the same
  for the word-level program in the modules named …KB). A last reshape turns rows of 1536 into 16 pixels of 96 channels.

  The three frames are the runs with the results dropped; the idealization rewrote nothing; at the ideal instance both
  programs end at the one specification of arguments that agree.
-/
import proofs.«216119_g70222715290213_cont_sun_c4_40_39_alg».proof.Defs
import proofs.«216119_g70222715290213_cont_sun_c4_40_39_alg».proof.Proof.Assemble
import proofs.«216119_g70222715290213_cont_sun_c4_40_39_alg».proof.Proof.BodyKI
import proofs.«216119_g70222715290213_cont_sun_c4_40_39_alg».proof.Proof.BodyKB

noncomputable section

namespace Cert.Proof

theorem claim : Cert.Claim :=
  Cert.Proof.Assemble.claim_of (fun m hr => Cert.Proof.KI.bodySpec m hr) (fun m hr => Cert.Proof.KB.bodySpec m hr)

end Cert.Proof

end
